-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v6_0)) (v1 : (c : Dev Cert.KernelIdeal.nD) → Buf (Elt Ideal) ((c.tc : Thread Cert.KernelIdeal.nD Cert.KernelIdeal.τ).loc Cert.KernelIdeal.main_v6_1)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v6_0) = v0 c
          ∧ r.2.mem ((c.tc : Thread Cert.KernelIdeal.nD Cert.KernelIdeal.τ).loc Cert.KernelIdeal.main_v6_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_v14) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S100000x128 : Shape := ⟨2, ![100000, 128]⟩
abbrev S128x64 : Shape := ⟨2, ![128, 64]⟩
abbrev S64 : Shape := ⟨1, ![64]⟩
abbrev S64x128 : Shape := ⟨2, ![64, 128]⟩
abbrev S128 : Shape := ⟨1, ![128]⟩
abbrev S100000 : Shape := ⟨1, ![100000]⟩
abbrev S2048 : Shape := ⟨1, ![2048]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S100000 : S_.BroadcastsInDim S100000 (![] : Fin 0 → Fin S100000.rank)
  reducesTo_S100000_S_d0 : S100000.ReducesTo [0] S_
  bcast_S_S2048 : S_.BroadcastsInDim S2048 (![] : Fin 0 → Fin S2048.rank)
  reducesTo_S2048_S_d0 : S2048.ReducesTo [0] S_

variable [Facts]

def fn_part2 {F : FTy → Type} [FloatOps F] (main_arg6 : IVec S2048 32) (main_v30 : IVec S_ 1) (main_v32 : IVec S2048 1) (main_c_12 : IVec S_ 32) : IVec S_ 1 :=
  let main_v33 : IVec S2048 32 := broadcastInDim S2048 ![] bcast_S_S2048 main_c_12
  let main_v34 : IVec S2048 1 := cmpi .sle main_arg6 main_v33
  let main_v35 : IVec S2048 1 := andi main_v32 main_v34
  let main_c_13 : IVec S_ 1 := constantI S_ 1 1#1
  let main_v36 : IVec S_ 1 := (fun x v => Host.reduce IntOp.andi x v reducesTo_S2048_S_d0 h_S_) main_v35 main_c_13
  let main_v37 : IVec S_ 1 := andi main_v30 main_v36
  main_v37

def fn_part1 {F : FTy → Type} [FloatOps F] (main_arg4 : FVec F S128 .f32) (main_arg5 : IVec S100000 32) (main_arg6 : IVec S2048 32) (main_v13 : IVec S_ 1) (main_v16 : IVec S64x128 1) : IVec S_ 1 :=
  let main_c_5 : IVec S_ 1 := constantI S_ 1 1#1
  let main_v17 : IVec S_ 1 := (fun x v => Host.reduce IntOp.andi x v reducesTo_S64x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_c_8 : IVec S_ 32 := constantI S_ 32 0#32
  let main_v24 : IVec S100000 32 := broadcastInDim S100000 ![] bcast_S_S100000 main_c_8
  let main_v25 : IVec S100000 1 := cmpi .sge main_arg5 main_v24
  let main_c_9 : IVec S_ 32 := constantI S_ 32 2047#32
  let main_v26 : IVec S100000 32 := broadcastInDim S100000 ![] bcast_S_S100000 main_c_9
  let main_v27 : IVec S100000 1 := cmpi .sle main_arg5 main_v26
  let main_v28 : IVec S100000 1 := andi main_v25 main_v27
  let main_c_10 : IVec S_ 1 := constantI S_ 1 1#1
  let main_v29 : IVec S_ 1 := (fun x v => Host.reduce IntOp.andi x v reducesTo_S100000_S_d0 h_S_) main_v28 main_c_10
  let main_v30 : IVec S_ 1 := andi main_v23 main_v29
  let main_c_11 : IVec S_ 32 := constantI S_ 32 0#32
  let main_v31 : IVec S2048 32 := broadcastInDim S2048 ![] bcast_S_S2048 main_c_11
  let main_v32 : IVec S2048 1 := cmpi .sge main_arg6 main_v31
  let main_c_12 : IVec S_ 32 := constantI S_ 32 63#32
  fn_part2 (F := F) main_arg6 main_v30 main_v32 main_c_12

def fn {F : FTy → Type} [FloatOps F] (main_arg0 : FVec F S100000x128 .f32) (main_arg1 : FVec F S128x64 .f32) (main_arg2 : FVec F S64 .f32) (main_arg3 : FVec F S64x128 .f32) (main_arg4 : FVec F S128 .f32) (main_arg5 : IVec S100000 32) (main_arg6 : IVec S2048 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg1
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x128 .f32 := Host.absf main_arg3
  let main_cst_4 : FVec F S_ .f32 := constant S_ .f32 0x7F800000#32
  let main_v15 : FVec F S64x128 .f32 := broadcastInDim S64x128 ![] bcast_S_S64x128 main_cst_4
  let main_v16 : IVec S64x128 1 := cmpf .olt main_v14 main_v15
  fn_part1 (F := F) main_arg4 main_arg5 main_arg6 main_v13 main_v16
-- ==== Kernel.lean ====
abbrev S100000x128 : Shape := ⟨2, ![100000, 128]⟩
abbrev S128x64 : Shape := ⟨2, ![128, 64]⟩
abbrev S64 : Shape := ⟨1, ![64]⟩
abbrev S64x128 : Shape := ⟨2, ![64, 128]⟩
abbrev S128 : Shape := ⟨1, ![128]⟩
abbrev S100000 : Shape := ⟨1, ![100000]⟩
abbrev S2048 : Shape := ⟨1, ![2048]⟩
abbrev S3136 : Shape := ⟨1, ![3136]⟩
abbrev S_ : Shape := ⟨0, ![]⟩
abbrev S16 : Shape := ⟨1, ![16]⟩
abbrev S5x1x20000 : Shape := ⟨3, ![5, 1, 20000]⟩
abbrev S1x64 : Shape := ⟨2, ![1, 64]⟩
abbrev S1x128 : Shape := ⟨2, ![1, 128]⟩
abbrev S1x1x20000 : Shape := ⟨3, ![1, 1, 20000]⟩
abbrev S20000x128 : Shape := ⟨2, ![20000, 128]⟩
abbrev S20000x64 : Shape := ⟨2, ![20000, 64]⟩
abbrev S1x20000 : Shape := ⟨2, ![1, 20000]⟩
abbrev S64x20000 : Shape := ⟨2, ![64, 20000]⟩

abbrev nBuf : Table → Nat
  | .hbm => 15
  | .local .tc .vmem => 11
  | .local .scVector .vmem => 3
  | _ => 0

abbrev bufTy : (tb : Table) → Fin (nBuf tb) → BufTy
  | .hbm, ⟨0, _⟩ => ⟨S100000x128, .f32⟩
  | .hbm, ⟨1, _⟩ => ⟨S128x64, .f32⟩
  | .hbm, ⟨2, _⟩ => ⟨S64, .f32⟩
  | .hbm, ⟨3, _⟩ => ⟨S64x128, .f32⟩
  | .hbm, ⟨4, _⟩ => ⟨S128, .f32⟩
  | .hbm, ⟨5, _⟩ => ⟨S100000, .i32⟩
  | .hbm, ⟨6, _⟩ => ⟨S2048, .i32⟩
  | .hbm, ⟨7, _⟩ => ⟨S100000, .i32⟩
  | .hbm, ⟨8, _⟩ => ⟨S5x1x20000, .i32⟩
  | .hbm, ⟨9, _⟩ => ⟨S128x64, .bf16⟩
  | .hbm, ⟨10, _⟩ => ⟨S1x64, .f32⟩
  | .hbm, ⟨11, _⟩ => ⟨S64x128, .bf16⟩
  | .hbm, ⟨12, _⟩ => ⟨S1x128, .f32⟩
  | .hbm, ⟨13, _⟩ => ⟨S100000x128, .f32⟩
  | .hbm, ⟨14, _⟩ => ⟨S64x128, .f32⟩
  | .local .tc .vmem, ⟨0, _⟩ => ⟨S1x1x20000, .i32⟩
  | .local .tc .vmem, ⟨1, _⟩ => ⟨S1x1x20000, .i32⟩
  | .local .tc .vmem, ⟨2, _⟩ => ⟨S20000x128, .f32⟩
  | .local .tc .vmem, ⟨3, _⟩ => ⟨S20000x128, .f32⟩
  | .local .tc .vmem, ⟨4, _⟩ => ⟨S128x64, .bf16⟩
  | .local .tc .vmem, ⟨5, _⟩ => ⟨S1x64, .f32⟩
  | .local .tc .vmem, ⟨6, _⟩ => ⟨S64x128, .bf16⟩
  | .local .tc .vmem, ⟨7, _⟩ => ⟨S1x128, .f32⟩
  | .local .tc .vmem, ⟨8, _⟩ => ⟨S20000x128, .f32⟩
  | .local .tc .vmem, ⟨9, _⟩ => ⟨S20000x128, .f32⟩
  | .local .tc .vmem, ⟨10, _⟩ => ⟨S64x128, .f32⟩
  | .local .scVector .vmem, ⟨0, _⟩ => ⟨S2048, .i32⟩
  | .local .scVector .vmem, ⟨1, _⟩ => ⟨S3136, .i32⟩
  | .local .scVector .vmem, ⟨2, _⟩ => ⟨S3136, .i32⟩
  | _, _ => ⟨S100000x128, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 14 → Bool
  | ⟨0, _⟩ => false
  | ⟨1, _⟩ => false
  | ⟨2, _⟩ => false
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTables nBuf rfl bufTy 4 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6_0 : Ref sig .tc := ⟨.hbm, 13, rfl⟩
abbrev main_v6_1 : Ref sig .tc := ⟨.hbm, 14, rfl⟩
abbrev main_arg6_scv : Ref sig .scVector := ⟨.hbm, 6, rfl⟩
abbrev main_arg5_scv : Ref sig .scVector := ⟨.hbm, 5, rfl⟩
abbrev main_v0_scv : Ref sig .scVector := ⟨.hbm, 7, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc1_stg2_0 : Ref sig .tc := ⟨.vmem, 4, rfl⟩
abbrev cc1_stg3_0 : Ref sig .tc := ⟨.vmem, 5, rfl⟩
abbrev cc1_stg4_0 : Ref sig .tc := ⟨.vmem, 6, rfl⟩
abbrev cc1_stg5_0 : Ref sig .tc := ⟨.vmem, 7, rfl⟩
abbrev cc1_stg6_0 : Ref sig .tc := ⟨.vmem, 8, rfl⟩
abbrev cc1_stg6_1 : Ref sig .tc := ⟨.vmem, 9, rfl⟩
abbrev cc1_stg7_0 : Ref sig .tc := ⟨.vmem, 10, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc1_sem0_0 : DmaSem sig := 3
abbrev cc1_sem0_1 : DmaSem sig := 4
abbrev cc1_sem1_0 : DmaSem sig := 5
abbrev cc1_sem1_1 : DmaSem sig := 6
abbrev cc1_sem2_0 : DmaSem sig := 7
abbrev cc1_sem3_0 : DmaSem sig := 8
abbrev cc1_sem4_0 : DmaSem sig := 9
abbrev cc1_sem5_0 : DmaSem sig := 10
abbrev cc1_sem6_0 : DmaSem sig := 11
abbrev cc1_sem6_1 : DmaSem sig := 12
abbrev cc1_sem7_0 : DmaSem sig := 13
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c31_i32 : BitVec 32 := 31#32
  let v2 : BitVec 1 := Scalar.cmpi .eq v1 c31_i32
  let c96864_i32 : BitVec 32 := 96864#32
  let c3136_i32 : BitVec 32 := 3136#32
  let v3 : BitVec 32 := Scalar.muli v1 c3136_i32
  let v4 : BitVec 32 := Scalar.select v2 c96864_i32 v3
  ![v4.toNat]
@[reducible] def k0_t1_loop : Scf.Loop 32 :=
  let c0_i32_0 : BitVec 32 := 0#32
  let c196_i32 : BitVec 32 := 196#32
  let v9 : BitVec 32 := Scalar.addi c0_i32_0 c196_i32
  let c1_i32 : BitVec 32 := 1#32
  ⟨c0_i32_0, v9, c1_i32⟩
def k0_off2 (k0_t1 : Fin k0_t1_loop.trips) : Fin 1 → Nat :=
  let c0_i32_0 : BitVec 32 := 0#32
  let c1_i32 : BitVec 32 := 1#32
  let arg10 : BitVec 32 := Scf.iv c0_i32_0 c1_i32 k0_t1
  let c16_i32 : BitVec 32 := 16#32
  let v10 : BitVec 32 := Scalar.muli arg10 c16_i32
  let v11 : Index := Scalar.indexCast v10
  ![v11.toNat]

def k0_chk1 (v12 : IVec S16 32) : Prop :=
  (∀ a x, ((![v12] : Fin 1 → IVec S16 32) a x).toNat < S2048.size a)
instance k0_chk1.dec : ∀ (v12 : IVec S16 32), Decidable (k0_chk1 v12) := fun v12 => decidable_of_iff' _ (Iff.of_eq (k0_chk1.eq_1 v12))
theorem k0_idx1_inb : ∀ (v12 : IVec S16 32) (k0_hw1 : k0_chk1 v12), ∀ a x, ((![v12] : Fin 1 → IVec S16 32) a x).toNat < S2048.size a := fun v12 k0_hw1 => k0_hw1
def k0_off3 (k0_t1 : Fin k0_t1_loop.trips) : Fin 1 → Nat :=
  let c0_i32_0 : BitVec 32 := 0#32
  let c1_i32 : BitVec 32 := 1#32
  let arg10 : BitVec 32 := Scf.iv c0_i32_0 c1_i32 k0_t1
  let c16_i32_2 : BitVec 32 := 16#32
  let v14 : BitVec 32 := Scalar.muli arg10 c16_i32_2
  let v15 : Index := Scalar.indexCast v14
  ![v15.toNat]
abbrev grid1 : Pipeline.Grid := ⟨1, ![5], ![false]⟩

def k1_cond1 (i : grid1.Coords) : BitVec 1 :=
  let arg0 : BitVec 32 := BitVec.ofNat 32 (i 0).val
  let c0_i32 : BitVec 32 := 0#32
  let v30 : BitVec 1 := Scalar.cmpi .eq arg0 c0_i32
  let v31 : BitVec 32 := Scalar.extui v30
  let c0_i32_17 : BitVec 32 := 0#32
  let v32 : BitVec 1 := Scalar.cmpi .ne v31 c0_i32_17
  v32

def k1_cond2 (i : grid1.Coords) : BitVec 1 :=
  let arg0 : BitVec 32 := BitVec.ofNat 32 (i 0).val
  let c0_i32_18 : BitVec 32 := 0#32
  let v33 : BitVec 1 := Scalar.cmpi .sgt arg0 c0_i32_18
  let v34 : BitVec 32 := Scalar.extui v33
  let c0_i32_19 : BitVec 32 := 0#32
  let v35 : BitVec 1 := Scalar.cmpi .ne v34 c0_i32_19
  v35

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S1x1x20000 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S20000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x64 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x128 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S20000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 1 → Memref sig .tc .vmem S64x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  h_S16 : 0 < S16.numel
  h_S2048 : 0 < S2048.numel
  shapeCasts_S100000_S5x1x20000 : S100000.ShapeCasts S5x1x20000
  bitsLt_bf16_f32 : FTy.bits .bf16 < FTy.bits .f32
  shapeCasts_S64_S1x64 : S64.ShapeCasts S1x64
  shapeCasts_S128_S1x128 : S128.ShapeCasts S1x128
  inb_S20000x128_S20000x128_0_0 : ∀ a, (![0, 0] : Fin 2 → Nat) a + S20000x128.size a ≤ S20000x128.size a
  h_S20000x128 : 0 < S20000x128.numel
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S20000x64 : S1x64.Broadcasts S20000x64
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S20000x128 : S1x128.Broadcasts S20000x128
  inb_S1x1x20000_S1x1x20000_0_0_0 : ∀ a, (![0, 0, 0] : Fin 3 → Nat) a + S1x1x20000.size a ≤ S1x1x20000.size a
  h_S1x1x20000 : 0 < S1x1x20000.numel
  shapeCasts_S1x1x20000_S1x20000 : S1x1x20000.ShapeCasts S1x20000
  iota_S64x20000_d0_w32 : S64x20000.Iotas .tc 32 [0]
  broadcasts_S1x20000_S64x20000 : S1x20000.Broadcasts S64x20000
  natLt_1_32 : 1 < 32
  dot_S20000x128_S128x64_S20000x64_1_0_0_1_n_n_wf : DotDims.WF S20000x128 S128x64 S20000x64 [1] [0] [0] [1] [] []
  dot_S20000x64_S64x128_S20000x128_1_0_0_1_n_n_wf : DotDims.WF S20000x64 S64x128 S20000x128 [1] [0] [0] [1] [] []
  dot_S64x20000_S20000x128_S64x128_1_0_0_1_n_n_wf : DotDims.WF S64x20000 S20000x128 S64x128 [1] [0] [0] [1] [] []
  hcc0_scratch3 : 0 + S_.numel ≤ 14
  hcc0_scratch4 : 1 + S_.numel ≤ 14
  hcc0_scoped0 : 2 + S_.numel ≤ 14
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ a, (k0_off1 i) a + S3136.size a ≤ S100000.size a
  k0_t1_ok : k0_t1_loop.OK
  k0_off2_inb : ∀ k0_t1 : Fin k0_t1_loop.trips, ∀ a, (k0_off2 k0_t1) a + S16.size a ≤ S3136.size a
  k0_off3_inb : ∀ k0_t1 : Fin k0_t1_loop.trips, ∀ a, (k0_off3 k0_t1) a + S16.size a ≤ S3136.size a
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1x20000.size a ≤ S5x1x20000.size a
  hwx1_0 : ∀ i : grid1.Coords, EltTy.bits .i32 = 32 ∨ (Rect.block (s := S5x1x20000) S1x1x20000.size (cc1_transform_0 i) (hinb1_0 i)).WholeWords (EltTy.packing .i32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S20000x128.size a ≤ S100000x128.size a
  hwx1_1 : ∀ i : grid1.Coords, EltTy.bits .f32 = 32 ∨ (Rect.block (s := S100000x128) S20000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x64.size a ≤ S128x64.size a
  hwx1_2 : ∀ i : grid1.Coords, EltTy.bits .bf16 = 32 ∨ (Rect.block (s := S128x64) S128x64.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x128.size a ≤ S64x128.size a
  hwx1_4 : ∀ i : grid1.Coords, EltTy.bits .bf16 = 32 ∨ (Rect.block (s := S64x128) S64x128.size (cc1_transform_4 i) (hinb1_4 i)).WholeWords (EltTy.packing .bf16)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S20000x128.size a ≤ S100000x128.size a
  hwx1_6 : ∀ i : grid1.Coords, EltTy.bits .f32 = 32 ∨ (Rect.block (s := S100000x128) S20000x128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S64x128.size a ≤ S64x128.size a
  hwx1_7 : ∀ i : grid1.Coords, EltTy.bits .f32 = 32 ∨ (Rect.block (s := S64x128) S64x128.size (cc1_transform_7 i) (hinb1_7 i)).WholeWords (EltTy.packing .f32)

variable [Facts₀]

abbrev cc0_scratch3 : DmaSems sig S_ := SemArray.consecutive 0 S_ hcc0_scratch3
abbrev cc0_scratch4 : DmaSems sig S_ := SemArray.consecutive 1 S_ hcc0_scratch4
abbrev cc0_scoped0 : DmaSems sig S_ := SemArray.consecutive 2 S_ hcc0_scoped0
def dot_S20000x128_S128x64_S20000x64_1_0_0_1_n_n : DotDims S20000x128 S128x64 S20000x64 where
  lhsContracting := [1]
  rhsContracting := [0]
  lhsNonContracting := [0]
  rhsNonContracting := [1]
  lhsBatch := []
  rhsBatch := []
  wf := dot_S20000x128_S128x64_S20000x64_1_0_0_1_n_n_wf
def dot_S20000x64_S64x128_S20000x128_1_0_0_1_n_n : DotDims S20000x64 S64x128 S20000x128 where
  lhsContracting := [1]
  rhsContracting := [0]
  lhsNonContracting := [0]
  rhsNonContracting := [1]
  lhsBatch := []
  rhsBatch := []
  wf := dot_S20000x64_S64x128_S20000x128_1_0_0_1_n_n_wf
def dot_S64x20000_S20000x128_S64x128_1_0_0_1_n_n : DotDims S64x20000 S20000x128 S64x128 where
  lhsContracting := [1]
  rhsContracting := [0]
  lhsNonContracting := [0]
  rhsNonContracting := [1]
  lhsBatch := []
  rhsBatch := []
  wf := dot_S64x20000_S20000x128_S64x128_1_0_0_1_n_n_wf

abbrev win1_0 : Pipeline.Window sig grid1 :=
  Pipeline.Window.ofSpec (Memref.whole main_v1) S1x1x20000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S20000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v2) S128x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v3) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v4) S64x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v5) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v6_0) S20000x128.size cc1_transform_6 reads1_6 true false 2 stage1_6 sem1_6
    hrank1 hreads1_6 hinb1_6 nbuf1_6 (Memref.isWhole_whole _) hwx1_6 hstage1_6

abbrev win1_7 : Pipeline.Window sig grid1 :=
  Pipeline.Window.ofSpec (Memref.whole main_v6_1) S64x128.size cc1_transform_7 reads1_7 true true 1 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev idle1 : Fin 8 → grid1.Coords → Bool := fun | 0 => fun _ => false | 1 => fun _ => false | 2 => fun _ => false | 3 => fun _ => false | 4 => fun _ => false | 5 => fun _ => false | 6 => fun _ => false | 7 => fun i => !(k1_cond1 i == 1#1) && !(k1_cond2 i == 1#1) | ⟨_ + 8, h⟩ => absurd h (Nat.not_lt.2 (Nat.le_add_left _ _))

class Facts : Prop extends Facts₀ where

variable [Facts]
-- ==== ReferenceIdeal.lean ====
abbrev S100000x128 : Shape := ⟨2, ![100000, 128]⟩
abbrev S128x64 : Shape := ⟨2, ![128, 64]⟩
abbrev S64 : Shape := ⟨1, ![64]⟩
abbrev S64x128 : Shape := ⟨2, ![64, 128]⟩
abbrev S128 : Shape := ⟨1, ![128]⟩
abbrev S100000 : Shape := ⟨1, ![100000]⟩
abbrev S2048 : Shape := ⟨1, ![2048]⟩
abbrev S100000x64 : Shape := ⟨2, ![100000, 64]⟩
abbrev S1x64 : Shape := ⟨2, ![1, 64]⟩
abbrev S_ : Shape := ⟨0, ![]⟩
abbrev S1x128 : Shape := ⟨2, ![1, 128]⟩
abbrev S2048x128 : Shape := ⟨2, ![2048, 128]⟩
abbrev S100000x1 : Shape := ⟨2, ![100000, 1]⟩
abbrev S2048x1 : Shape := ⟨2, ![2048, 1]⟩

abbrev nBuf : Space → Nat
  | .hbm => 26
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S128x64, .f32⟩
  | .hbm, ⟨2, _⟩ => ⟨S64, .f32⟩
  | .hbm, ⟨3, _⟩ => ⟨S64x128, .f32⟩
  | .hbm, ⟨4, _⟩ => ⟨S128, .f32⟩
  | .hbm, ⟨5, _⟩ => ⟨S100000, .i32⟩
  | .hbm, ⟨6, _⟩ => ⟨S2048, .i32⟩
  | .hbm, ⟨7, _⟩ => ⟨S100000x64, .f32⟩
  | .hbm, ⟨8, _⟩ => ⟨S1x64, .f32⟩
  | .hbm, ⟨9, _⟩ => ⟨S100000x64, .f32⟩
  | .hbm, ⟨10, _⟩ => ⟨S100000x64, .f32⟩
  | .hbm, ⟨11, _⟩ => ⟨S_, .f32⟩
  | .hbm, ⟨12, _⟩ => ⟨S100000x64, .f32⟩
  | .hbm, ⟨13, _⟩ => ⟨S100000x64, .f32⟩
  | .hbm, ⟨14, _⟩ => ⟨S100000x128, .f32⟩
  | .hbm, ⟨15, _⟩ => ⟨S1x128, .f32⟩
  | .hbm, ⟨16, _⟩ => ⟨S100000x128, .f32⟩
  | .hbm, ⟨17, _⟩ => ⟨S100000x128, .f32⟩
  | .hbm, ⟨18, _⟩ => ⟨S_, .f32⟩
  | .hbm, ⟨19, _⟩ => ⟨S2048x128, .f32⟩
  | .hbm, ⟨20, _⟩ => ⟨S100000x1, .i32⟩
  | .hbm, ⟨21, _⟩ => ⟨S2048x128, .f32⟩
  | .hbm, ⟨22, _⟩ => ⟨S_, .f32⟩
  | .hbm, ⟨23, _⟩ => ⟨S64x128, .f32⟩
  | .hbm, ⟨24, _⟩ => ⟨S2048x1, .i32⟩
  | .hbm, ⟨25, _⟩ => ⟨S64x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_call0_cst : Ref sig .tc := ⟨.hbm, 11, rfl⟩
abbrev main_call0_v0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_0 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩

abbrev nD : Nat := 1
abbrev τ : Topo := Topo.v7x

variable {F : FTy → Type} [FloatOps F]

class Facts₀ : Prop where
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x64 : S_.BroadcastsInDim S100000x64 (![] : Fin 0 → Fin S100000x64.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S2048x128 : S_.BroadcastsInDim S2048x128 (![] : Fin 0 → Fin S2048x128.rank)
  bcast_S100000_S100000x1_0 : S100000.BroadcastsInDim S100000x1 (![0] : Fin 1 → Fin S100000x1.rank)
  bcast_S_S64x128 : S_.BroadcastsInDim S64x128 (![] : Fin 0 → Fin S64x128.rank)
  bcast_S2048_S2048x1_0 : S2048.BroadcastsInDim S2048x1 (![0] : Fin 1 → Fin S2048x1.rank)
  dot_S100000x128_S128x64_S100000x64_1_0_0_1_n_n_wf : DotDims.WF S100000x128 S128x64 S100000x64 [1] [0] [0] [1] [] []
  dot_S100000x64_S64x128_S100000x128_1_0_0_1_n_n_wf : DotDims.WF S100000x64 S64x128 S100000x128 [1] [0] [0] [1] [] []
  scatter_S2048x128_S100000x1_S100000x128_1_0_0_1_wf : ScatterDims.WF S2048x128 S100000x1 S100000x128 [1] [0] [0] 1
  scatter_S64x128_S2048x1_S2048x128_1_0_0_1_wf : ScatterDims.WF S64x128 S2048x1 S2048x128 [1] [0] [0] 1

variable [Facts₀]

def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def dot_S100000x64_S64x128_S100000x128_1_0_0_1_n_n : DotDims S100000x64 S64x128 S100000x128 where
  lhsContracting := [1]
  rhsContracting := [0]
  lhsNonContracting := [0]
  rhsNonContracting := [1]
  lhsBatch := []
  rhsBatch := []
  wf := dot_S100000x64_S64x128_S100000x128_1_0_0_1_n_n_wf
def scatter_S2048x128_S100000x1_S100000x128_1_0_0_1 : ScatterDims S2048x128 S100000x1 S100000x128 where
  updateWindowDims := [1]
  insertedWindowDims := [0]
  scatterDimsToOperandDims := [0]
  indexVectorDim := 1
  wf := scatter_S2048x128_S100000x1_S100000x128_1_0_0_1_wf
def scatter_S64x128_S2048x1_S2048x128_1_0_0_1 : ScatterDims S64x128 S2048x1 S2048x128 where
  updateWindowDims := [1]
  insertedWindowDims := [0]
  scatterDimsToOperandDims := [0]
  indexVectorDim := 1
  wf := scatter_S64x128_S2048x1_S2048x128_1_0_0_1_wf

class Facts : Prop extends Facts₀ where

variable [Facts]
-- ==== Proof.RefFrame.lean ====
/-
  The reference program's run, with the values dropped: it terminates, faults nowhere and leaves
  its seven argument arrays as it found them.
-/
import proofs.«208690_g19181323943962_cont_8to1_1746_28_alg».proof.Defs
import proofs.«208690_g19181323943962_cont_8to1_1746_28_alg».proof.Proof.Gen.ReferenceIdeal
import proofs.«208690_g19181323943962_cont_8to1_1746_28_alg».proof.Proof.Gen.Pre_input_domain
import proofs.«208690_g19181323943962_cont_8to1_1746_28_alg».proof.Proof.Gen.ReferenceIdeal.Run
import proofs.«208690_g19181323943962_cont_8to1_1746_28_alg».proof.Proof.Gen.ReferenceIdeal.Read

noncomputable section

open Idealize.ShloMosaic Idealize.SL.Sem

namespace Cert.Proof.RefFrame

/-- The reference has two results; its frame is its run with both result equations dropped. -/
theorem frame : Cert.frame_ReferenceIdeal (hReferenceIdeal := Cert.ReferenceIdeal.Gen.facts)
    (hPre_input_domain := Cert.Pre_input_domain.Gen.facts) := fun m ρ _ =>
  (θ_run Cert.ReferenceIdeal.defs _ _).mono (fun _ h c => (h c).2.2)
    (Cert.ReferenceIdeal.Value.run (F := Ideal) m ρ)

end Cert.Proof.RefFrame

end
-- ==== Proof.Claims.lean ====
/-
  The certificate assembled from one run of the kernel program.

  Suppose the kernel program, from any memory m of which the precondition holds, runs to an end where, on
  every device, its first result array is st and its second the pooled sums, both as the reference's
  stages compute them from m's argument arrays, and its seven argument arrays are as they were. Then:
  the two programs at the ideal instance, from memories that agree on the arguments, end with equal
  results (the reference's own run ends at the same two stages, read at the agreeing arguments); the
  kernel program's frame is that run with the two values dropped; and with the bit-exact program's frame
  these are all the claims.
-/
import proofs.«208690_g19181323943962_cont_8to1_1746_28_alg».proof.Defs
import proofs.«208690_g19181323943962_cont_8to1_1746_28_alg».proof.Proof.Gen.Kernel
import proofs.«208690_g19181323943962_cont_8to1_1746_28_alg».proof.Proof.Gen.KernelIdeal
import proofs.«208690_g19181323943962_cont_8to1_1746_28_alg».proof.Proof.Gen.ReferenceIdeal
import proofs.«208690_g19181323943962_cont_8to1_1746_28_alg».proof.Proof.Gen.Pre_input_domain
import proofs.«208690_g19181323943962_cont_8to1_1746_28_alg».proof.Proof.Gen.ReferenceIdeal.Run
import proofs.«208690_g19181323943962_cont_8to1_1746_28_alg».proof.Proof.Gen.ReferenceIdeal.Read
import proofs.«208690_g19181323943962_cont_8to1_1746_28_alg».proof.Proof.RefFrame

noncomputable section

open Idealize.ShloMosaic Idealize.SL.Sem

namespace Cert.Proof.Claims

/-- A memory of the kernel program at the ideal instance. -/
abbrev KMem : Type := (ℓ : Loc Cert.KernelIdeal.nD Cert.KernelIdeal.τ Cert.KernelIdeal.sig) → Buf (Elt Ideal) ℓ

/-- st on device c: the reference's stage of that name at m's first five argument arrays. -/
def stOf (m : KMem) (c : Dev Cert.KernelIdeal.nD) : Buf (Elt Ideal) ((c.tc : Thread Cert.KernelIdeal.nD Cert.KernelIdeal.τ).loc Cert.KernelIdeal.main_v6_0) :=
  Cert.ReferenceIdeal.Read.val_main_v8 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))
    (m ((c.tc : Thread Cert.KernelIdeal.nD Cert.KernelIdeal.τ).loc Cert.KernelIdeal.main_arg3)) (m ((c.tc : Thread Cert.KernelIdeal.nD Cert.KernelIdeal.τ).loc Cert.KernelIdeal.main_arg4))

/-- The pooled sums on device c: the reference's last stage at m's seven argument arrays. -/
def outOf (m : KMem) (c : Dev Cert.KernelIdeal.nD) : Buf (Elt Ideal) ((c.tc : Thread Cert.KernelIdeal.nD Cert.KernelIdeal.τ).loc Cert.KernelIdeal.main_v6_1) :=
  Cert.ReferenceIdeal.Read.val_main_v14 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))
    (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))

/-- The kernel program's run: from any memory of which the precondition holds it ends with its two result
    arrays at st and the pooled sums and its arguments unchanged. -/
def KernelRun : Prop :=
  ∀ (m : KMem) (ρ : Dev Cert.KernelIdeal.nD → PrngReg),
    Cert.Pre_KernelIdeal (hPre_input_domain := Cert.Pre_input_domain.Gen.facts) m →
    θ_run (Cert.KernelIdeal.defs (F := Ideal)) (Cert.KernelIdeal.threads (F := Ideal)) ⟨m, fun _ => 0, ρ⟩ (fun r => ∀ c : Dev Cert.KernelIdeal.nD,
        r.2.mem ((c.tc : Thread Cert.KernelIdeal.nD Cert.KernelIdeal.τ).loc Cert.KernelIdeal.main_v6_0) = stOf m c
        ∧ r.2.mem ((c.tc : Thread Cert.KernelIdeal.nD Cert.KernelIdeal.τ).loc Cert.KernelIdeal.main_v6_1) = outOf m c
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
        ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
        ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
        ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

/-- The kernel program's frame: its run with the two values dropped. -/
theorem frame_ideal_of_run (hrun : KernelRun) :
    Cert.frame_KernelIdeal (hKernelIdeal := Cert.KernelIdeal.Gen.facts) (hPre_input_domain := Cert.Pre_input_domain.Gen.facts) :=
  fun m ρ hpre => (θ_run Cert.KernelIdeal.defs _ _).mono (fun _ h c => (h c).2.2) (hrun m ρ hpre)

/-- Equal results at the ideal instance: the kernel program ends at st and the pooled sums of its arguments, the
    reference at the same stages of its own arguments, and the arguments agree. -/
theorem algebraic_of_run (hrun : KernelRun) :
    Cert.algebraic_KernelIdeal_ReferenceIdeal (hKernelIdeal := Cert.KernelIdeal.Gen.facts)
      (hReferenceIdeal := Cert.ReferenceIdeal.Gen.facts) (hPre_input_domain := Cert.Pre_input_domain.Gen.facts) := by
  intro m ρ m' ρ' hpre hagree
  refine ⟨stOf m, outOf m, hrun m ρ hpre, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [(hagree c).1, (hagree c).2.1, (hagree c).2.2.1, (hagree c).2.2.2.1, (hagree c).2.2.2.2.1]
    exact Cert.ReferenceIdeal.Read.val_main_v8_eq (F := Ideal) _ _ _ _ _
  · rw [(hagree c).1, (hagree c).2.1, (hagree c).2.2.1, (hagree c).2.2.2.1, (hagree c).2.2.2.2.1,
      (hagree c).2.2.2.2.2.1, (hagree c).2.2.2.2.2.2]
    exact Cert.ReferenceIdeal.Read.val_main_v14_eq (F := Ideal) _ _ _ _ _ _ _

/-- All the claims, from the bit-exact program's frame and the kernel program's run. -/
theorem claim_of
    (hK : Cert.frame_Kernel (hKernel := Cert.Kernel.Gen.facts) (hPre_input_domain := Cert.Pre_input_domain.Gen.facts))
    (hrun : KernelRun) : Cert.Claim :=
  ⟨Cert.Kernel.Gen.facts, Cert.KernelIdeal.Gen.facts, Cert.ReferenceIdeal.Gen.facts, Cert.Pre_input_domain.Gen.facts,
    hK, frame_ideal_of_run hrun, Cert.Proof.RefFrame.frame, trivial, algebraic_of_run hrun⟩

end Cert.Proof.Claims

end
-- ==== Proof.LibWriteModeFlight.lean ====
/-
  A local transfer into a destination held in write mode, on a cell the core holds at zero.

  A buffer's elements in write mode are owned through an assertion that fixes, per element, the value
  it will come to hold; any number of holders, each at a share, may write such an element as long as
  each writes the agreed value. So two transfers whose destinations overlap, issued by two threads that
  cannot split the common elements between them, each hold a share of their destination in write mode,
  and each writes the agreed values.

  This file joins that with the schedule-free protocol of one transfer in flight on a cell nobody else
  touches: the issuer, holding a share of the source, a share of exactly the destination's elements in
  write mode whose targets admit what the source reads, and the cell's counter at zero, issues the
  transfer and continues holding its flight, which at the wait delivers the destination's share with
  every element marked written and the source's share back. It is the plain local transfer's rule with
  the write-mode write update in place of the plain one; nothing else changes, and the wait is the plain
  protocol's own (it takes any flight).
-/
import Idealize.ShloMosaic.Lib.Transfers
import Idealize.ShloMosaic.Lib.WriteMode

noncomputable section

namespace Cert.LibWriteModeFlight

open Idealize.ShloMosaic
open Idealize.SL
open Idealize.SL.BI (sProp Storable)
open scoped Idealize.SL.BI
open Idealize.SL.BI.BIBase Idealize.SL.BI.Laws Idealize.SL.Sem Idealize.SL.ProofMode
open Idealize.SL.RA

variable {nD : Nat} {τ : Topo} {sig : RefSig} {Ix : Type} [DecidableEq Ix] {Val : EltTy → Type} {Name : Type} [DecidableEq Name]
variable {U : Type} [URA U] {Lvl : Type} [Preorder Lvl] {Λ : Labels} {emb : UEmb (WmRA nD τ sig Val) U}

local notation "𝕄" => MT nD τ sig Ix Val Name U Lvl

variable (EC : UEmb Counters (MT nD τ sig Ix Val Name U Lvl))
variable {defs : Defs nD τ sig Val Λ} (𝒱 : Variants) {ιwm : Name}

/-- The issue rule: source share, destination share in write mode (old values fd, targets g, W known
    written) whose targets admit the payload, and the cell at zero; the continuation holds the flight
    that delivers the destination's share marked on all of its elements and the source's share. -/
theorem wp_dmaLocal_willBeTo [Infinite Name] [EC.LandsIn (upEmb : UEmb _ 𝕄)] (c : Thread nD τ) (bd : Option 𝒱.V)
    {α : Type} {Q : α → sProp 𝕄} {sp sp' : Space} {s : Shape} {e : EltTy}
    {src : Memref sig c.2.kind sp s e} {dst : Memref sig c.2.kind sp' s e} {sm : SemLoc sig}
    {hsrc : src.view.WordExact} {hdst : dst.view.WordExact} {hsem : DmaTarget.Typed (nD := nD) sp sm (.here dst)}
    {k : PUnit → Prog (TpuEff nD τ sig Val Λ c.2) α} {q : PosShare TreeShare} {fs : Buf Val (src.view.loc c)}
    {qd : PosShare TreeShare} {fd : Buf Val (dst.view.loc c)} {g : Tgt Val (dst.view.loc c)} {W : Finset (Idx (dst.view.loc c))}
    (ι : Ix) (N : ℕ) (hN : dst.view.amount sm = N) (hN0 : 0 < N)
    (hadm : dst.view.Admitted Val g (src.view.read Val fs) Finset.univ) :
    iprop((src.view.loc c ↦[src.view.set]{q} fs)
        ∗ (wmInv emb ιwm ∗ willBeTo emb (dst.view.loc c) dst.view.set qd fd g W) ∗ semVal (c, sm) 0)
      ⊢ iprop((Transfers.Flight EC c sm ι N
                iprop((willBeTo emb (dst.view.loc c) dst.view.set qd fd g (W ∪ dst.view.set))
                  ∗ (src.view.loc c ↦[src.view.set]{q} fs))
              -∗ wp frame (wpE defs 𝒱 c bd) Set.univ (k ⟨⟩) Q)
          -∗ wp frame (wpE defs 𝒱 c bd) Set.univ (.op (.enqueueDma src (.here dst) sm hsrc hdst hsem) k) Q) := by
  iintro ⟨Hs, Hd, Hv⟩ Hk
  imod (Transfers.flight_alloc EC hN0 iprop((willBeTo emb (dst.view.loc c) dst.view.set qd fd g (W ∪ dst.view.set))
      ∗ (src.view.loc c ↦[src.view.set]{q} fs)) (g := (c, sm))) $$ Hv with ⟨%γ, %δ, %κ, #Hinv, Hγ, Hδ⟩
  iapply (wp_enqueueDma_willBeTo (emb := emb) (ιwm := ιwm) 𝒱 c bd Set.univ ι N hN hadm) $$ [Hs Hd] [Hγ]
  · isplitl [Hs]; · iexact Hs
    iexact Hd
  · iapply (Transfers.flight_creditUpdate EC (δ := δ))
    isplitr; · iexact Hinv
    iexact Hγ
  iintro Hcred
  iapply Hk
  iapply (Transfers.flight_intro EC c (κ := κ))
  isplitr; · iexact Hinv
  isplitl [Hδ] <;> iassumption

end Cert.LibWriteModeFlight

end
-- ==== Proof.ScSetup.lean ====
/-
  The launch set-up of the kernel program, shared by the modules that prove its run.

  The program: one SparseCore call (a vector-subcore kernel on 2 SparseCores x 16 subcores) that
  composes the two index arrays, cid n = batch (gnn n), then host reshapes and converts, then one
  TensorCore region. The resource algebra has four parts: the launch handshakes' rounds, the
  TensorCore region's staging cells' rounds, the write-mode cells and the transfers' counters.

  The composed array is written by 32 tasks whose 3136-entry ranges cover [0, 100000) with the last
  two ranges overlapping; each entry n is written, by every task whose range holds it, with the same
  word batch (gnn n). So the array is held in write mode with that word as every entry's target, and
  each task holds a share of the whole array in write mode.
-/
import proofs.«208690_g19181323943962_cont_8to1_1746_28_alg».proof.KernelIdeal
import proofs.«208690_g19181323943962_cont_8to1_1746_28_alg».proof.Proof.Gen.KernelIdeal
import proofs.«208690_g19181323943962_cont_8to1_1746_28_alg».proof.Proof.Gen.KernelIdeal.Skeleton
import proofs.«208690_g19181323943962_cont_8to1_1746_28_alg».proof.Proof.Gen.KernelIdeal.Launch
import proofs.«208690_g19181323943962_cont_8to1_1746_28_alg».proof.Proof.Gen.KernelIdeal.Points
import proofs.«208690_g19181323943962_cont_8to1_1746_28_alg».proof.Proof.LibWriteModeFlight
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Pipeline.Regions
import Idealize.ShloMosaic.Lib.WriteMode
import Idealize.ShloMosaic.Lib.Tactic
import Idealize.ShloMosaic.Lib.ValueIdx

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

abbrev UH : Type := URounds (GSem nD τ sig) ℕ
abbrev UP : Type := URounds (GSem nD τ sig) Unit
abbrev UW : Type := WmRA nD τ sig (Elt F)
abbrev UU : Type := UH × (UP × (UW (F := F) × Counters))

local notation "𝕄" => MT nD τ sig (HIx 1) (Elt F) ℕ (UU (F := F)) ℕ

/-- The handshakes' rounds: the first part. -/
abbrev EH : Emb UH (MT nD τ sig (HIx 1) (Elt F) ℕ (UU (F := F)) ℕ) := embL
/-- The region's staging cells' rounds: the second. -/
def EP : Emb UP (MT nD τ sig (HIx 1) (Elt F) ℕ (UU (F := F)) ℕ) :=
  (Emb.inl : Emb UP (UP × (UW (F := F) × Counters))).trans
    ((Emb.inr : Emb (UP × (UW (F := F) × Counters)) (UU (F := F))).trans
      (uEmb (nD := nD) (τ := τ) (sig := sig) (Ix := HIx 1) (Val := Elt F) (Name := ℕ) (U := UU (F := F)) (Lvl := ℕ)).toEmb)
instance EP_landsIn : (EP (F := F)).LandsIn (upEmb : UEmb _ 𝕄) := by unfold EP; infer_instance
/-- The write-mode cells: the third. -/
abbrev wmE : UEmb (UW (F := F)) (UU (F := F)) :=
  (UEmb.inl : UEmb (UW (F := F)) (UW (F := F) × Counters)).trans
    ((UEmb.inr : UEmb (UW (F := F) × Counters) (UP × (UW (F := F) × Counters))).trans
      (UEmb.inr : UEmb (UP × (UW (F := F) × Counters)) (UU (F := F))))
/-- The transfers' counters: the fourth, found by instance. -/
abbrev EC : UEmb Counters (MT nD τ sig (HIx 1) (Elt F) ℕ (UU (F := F)) ℕ) := countersEmb

/-! ## The launch memory and the arrays -/

variable (m : (ℓ : Loc nD τ sig) → Buf (Elt F) ℓ) (ρ : Dev nD → PrngReg)

/-- batch (2048 words), gnn (100000 words), the composed array cid (100000 words), on device d. -/
abbrev bLoc (d : Dev nD) : Loc nD τ sig := (SparseCore.T d).loc main_arg6
abbrev gLoc (d : Dev nD) : Loc nD τ sig := (SparseCore.T d).loc main_arg5
abbrev oLoc (d : Dev nD) : Loc nD τ sig := (SparseCore.T d).loc main_v0

/-- Task (c, i)'s number among the 32: 16 c + i. -/
def taskNo (c : Fin 2) (i : Fin 16) : ℕ := 16 * c.val + i.val

/-- The word entry n of the composed array will hold: batch at gnn n (the index reduced into range; the
    precondition makes it the index itself). -/
def cidWord (d : Dev nD) (n : Idx (oLoc d)) : Elt F .i32 :=
  (m (bLoc d) : S2048.Idx → BitVec 32)
    (ValueIdx.ix1 (⟨((m (gLoc d) : S100000.Idx → BitVec 32) n).toNat % 2048, Nat.mod_lt _ (by norm_num : 0 < 2048)⟩ : Fin 2048))

/-- Every entry's target in write mode. -/
def cidTgt (d : Dev nD) : Tgt (Elt F) (oLoc d) := fun n => some (cidWord m d n)

end Cert.Proof.KI

end
-- ==== Proof.TcRuns.lean ====
/-
  The TensorCore region of the kernel program (the pipelined call on the grid of five row blocks):
  what its body's runs share.

  The body at a grid point loads its six input blocks whole, stores the block of st (the two-layer
  map of the rows) whole into window 6, and folds the block's one-hot product into window 7: at the
  first point the product is stored, at every later point it is added to what the window held.

  Here: a load of a whole buffer held at contents that read X reads X, and one store through the
  whole rectangle leaves its payload; an input window's block at a point, read off the array as the
  region finds it; the two branch conditions in closed form over the grid; the staging memrefs by
  name; and that each input's staging buffer holds its block at every point.
-/
import proofs.«208690_g19181323943962_cont_8to1_1746_28_alg».proof.Proof.Gen.KernelIdeal.Launch
import proofs.«208690_g19181323943962_cont_8to1_1746_28_alg».proof.Proof.Gen.KernelIdeal.Skeleton
import proofs.«208690_g19181323943962_cont_8to1_1746_28_alg».proof.Proof.Gen.KernelIdeal.Points
import Idealize.ShloMosaic.Lib.Pipeline.FrameBody
import Idealize.ShloMosaic.Lib.WholeRead
import Idealize.ShloMosaic.Lib.Ring
import Idealize.ShloMosaic.Lib.Tactic

set_option maxRecDepth 16384

noncomputable section

namespace Cert.Proof.TcBody

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]
variable {Ix : Type} [DecidableEq Ix] {Name : Type} [DecidableEq Name] {U : Type} [URA U]

local notation "𝕄" => MT nD τ sig Ix (Elt F) Name U ℕ

/-! ## Whole-buffer loads and stores

A load through the rectangle that is the whole shape at zero offsets, of a whole memref held at the
contents that read `X`, reads `X`; one store through that rectangle leaves its payload. -/

section Whole

variable {sig' : RefSig} {Val : EltTy → Type} {κ : Kind} {sp : Space} {s : Shape} {e : EltTy}

theorem readAt_whole_unread {m : Memref sig' κ sp s e} (h : m.IsWhole) (X : s.Idx → Val e)
    {off : Fin s.rank → ℕ} (hz : off = fun _ => 0) (inb : ∀ a, off a + s.size a ≤ s.size a) :
    View.readAt Val m.view (Rect.unit off s.size inb).toLoadRect (h.unread X) = X :=
  (View.readAt_eq_ld m.view (h.unread X) (Rect.unit off s.size inb)).trans
    ((congrArg (fun Y => View.ld Y (Rect.unit off s.size inb)) (h.read_unread X)).trans (View.ld_unit_zero hz inb X))

theorem read_writes_whole (v : View sig' κ sp s e) (f : v.ty.Contents Val)
    {off : Fin s.rank → ℕ} (hz : off = fun _ => 0) (inb : ∀ a, off a + s.size a ≤ s.size a) (w : s.Idx → Val e) :
    v.read Val (v.writes Val f [(⟨Rect.unit off s.size inb, w⟩ : View.Piece Val s e)]) = w := by
  subst hz; funext y
  have e := View.read_writes_cons_emb v f (Rect.whole s) w [] y
  rw [Rect.emb_whole_apply] at e
  exact e

theorem zero2 : (![0, 0] : Fin 2 → ℕ) = fun _ => 0 := funext fun a => match a with | ⟨0, _⟩ => rfl | ⟨1, _⟩ => rfl
theorem zero3 : (![0, 0, 0] : Fin 3 → ℕ) = fun _ => 0 := funext fun a => match a with | ⟨0, _⟩ => rfl | ⟨1, _⟩ => rfl | ⟨2, _⟩ => rfl

end Whole

/-! ## The windows' blocks -/

/-- The windowed arrays' contents on core `c` when the region is entered. -/
abbrev ATy (c : Dev nD) : Type := (w : Fin cfg1.W) → Buf (Elt F) ((cfg1.win w).arr.view.loc (c.tc : Thread nD τ))

/-- Window `w`'s block at point `t`, read off its array's entry contents `A w` through the window's view. -/
def blk (c : Dev nD) (A : ATy (F := F) c) (w : Fin cfg1.W) (t : Fin cfg1.N) :
    ((cfg1.win w).xblock (cfg1.grid.coords t)).Idx → Elt F (cfg1.win w).elt :=
  ((cfg1.win w).blk t).view.read (Elt F) (A w)

/-- Input window 0's current staging buffer holds its block at every point, fetched there or not, for any
    proof data whose array is `A 0` and whose body leaves the block in place: the window is uncut and
    never idle, and where it is not fetched its block index has not moved. -/
theorem before_in0_of {c : Dev nD} (A : ATy (F := F) c) (dat : Dat τ (Elt F) Ix Name U ℕ cfg1 c) (hA : dat.A 0 = A 0)
    (hafter : ∀ t, dat.after 0 t = blk c A 0 t) (t : Fin cfg1.N) (d) : dat.before 0 t d = blk c A 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)

/-- Input window 1's current staging buffer holds its block at every point, fetched there or not, for any
    proof data whose array is `A 1` and whose body leaves the block in place: the window is uncut and
    never idle, and where it is not fetched its block index has not moved. -/
theorem before_in1_of {c : Dev nD} (A : ATy (F := F) c) (dat : Dat τ (Elt F) Ix Name U ℕ cfg1 c) (hA : dat.A 1 = A 1)
    (hafter : ∀ t, dat.after 1 t = blk c A 1 t) (t : Fin cfg1.N) (d) : dat.before 1 t d = blk c A 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)

/-- Input window 2's current staging buffer holds its block at every point, fetched there or not, for any
    proof data whose array is `A 2` and whose body leaves the block in place: the window is uncut and
    never idle, and where it is not fetched its block index has not moved. -/
theorem before_in2_of {c : Dev nD} (A : ATy (F := F) c) (dat : Dat τ (Elt F) Ix Name U ℕ cfg1 c) (hA : dat.A 2 = A 2)
    (hafter : ∀ t, dat.after 2 t = blk c A 2 t) (t : Fin cfg1.N) (d) : dat.before 2 t d = blk c A 2 t :=
  (dat.before_in_eq_fetched 2 rfl (fun _ => rfl) (fun _ _ _ => rfl) (fun t => by rw [hafter]; unfold Dat.blockOf blk; rw [hA]; try rfl) t d).trans
    (by unfold Dat.fetched Dat.blockOf blk; rw [hA]; try rfl)

/-- Input window 3's current staging buffer holds its block at every point, fetched there or not, for any
    proof data whose array is `A 3` and whose body leaves the block in place: the window is uncut and
    never idle, and where it is not fetched its block index has not moved. -/
theorem before_in3_of {c : Dev nD} (A : ATy (F := F) c) (dat : Dat τ (Elt F) Ix Name U ℕ cfg1 c) (hA : dat.A 3 = A 3)
    (hafter : ∀ t, dat.after 3 t = blk c A 3 t) (t : Fin cfg1.N) (d) : dat.before 3 t d = blk c A 3 t :=
  (dat.before_in_eq_fetched 3 rfl (fun _ => rfl) (fun _ _ _ => rfl) (fun t => by rw [hafter]; unfold Dat.blockOf blk; rw [hA]; try rfl) t d).trans
    (by unfold Dat.fetched Dat.blockOf blk; rw [hA]; try rfl)

/-- Input window 4's current staging buffer holds its block at every point, fetched there or not, for any
    proof data whose array is `A 4` and whose body leaves the block in place: the window is uncut and
    never idle, and where it is not fetched its block index has not moved. -/
theorem before_in4_of {c : Dev nD} (A : ATy (F := F) c) (dat : Dat τ (Elt F) Ix Name U ℕ cfg1 c) (hA : dat.A 4 = A 4)
    (hafter : ∀ t, dat.after 4 t = blk c A 4 t) (t : Fin cfg1.N) (d) : dat.before 4 t d = blk c A 4 t :=
  (dat.before_in_eq_fetched 4 rfl (fun _ => rfl) (fun _ _ _ => rfl) (fun t => by rw [hafter]; unfold Dat.blockOf blk; rw [hA]; try rfl) t d).trans
    (by unfold Dat.fetched Dat.blockOf blk; rw [hA]; try rfl)

/-- Input window 5's current staging buffer holds its block at every point, fetched there or not, for any
    proof data whose array is `A 5` and whose body leaves the block in place: the window is uncut and
    never idle, and where it is not fetched its block index has not moved. -/
theorem before_in5_of {c : Dev nD} (A : ATy (F := F) c) (dat : Dat τ (Elt F) Ix Name U ℕ cfg1 c) (hA : dat.A 5 = A 5)
    (hafter : ∀ t, dat.after 5 t = blk c A 5 t) (t : Fin cfg1.N) (d) : dat.before 5 t d = blk c A 5 t :=
  (dat.before_in_eq_fetched 5 rfl (fun _ => rfl) (fun _ _ _ => rfl) (fun t => by rw [hafter]; unfold Dat.blockOf blk; rw [hA]; try rfl) t d).trans
    (by unfold Dat.fetched Dat.blockOf blk; rw [hA]; try rfl)

/-! ## The body's two conditions, over the grid -/

/-- The first condition (the accumulator is reset) holds at the first point only. -/
theorem hcond1 : ∀ t : Fin cfg1.N, k1_cond1 (grid1.coords t) = 1#1 ↔ t.val = 0 :=
  (by decide +kernel : ∀ t : Fin grid1.N, k1_cond1 (grid1.coords t) = 1#1 ↔ t.val = 0)

/-- The second (the accumulator is added to) at every later point. -/
theorem hcond2 : ∀ t : Fin cfg1.N, k1_cond2 (grid1.coords t) = 1#1 ↔ t.val ≠ 0 :=
  (by decide +kernel : ∀ t : Fin grid1.N, k1_cond2 (grid1.coords t) = 1#1 ↔ t.val ≠ 0)

/-- So window 7 is idle at no point: one of the two stores into it happens. -/
theorem idle7 (t : Fin cfg1.N) : cfg1.idle 7 (cfg1.grid.coords t) = false := by
  show (!(k1_cond1 (grid1.coords t) == 1#1) && !(k1_cond2 (grid1.coords t) == 1#1)) = false
  by_cases h : t.val = 0
  · rw [(hcond1 t).mpr h]; rfl
  · rw [(hcond2 t).mpr h]; simp

/-! ## The staging memrefs at a point -/

/-- Each window's current staging memref at point `t`, spelled as the pipeline passes it to the body, and its wholeness. -/
abbrev ms0 (t : Fin cfg1.N) : Memref sig .tc .vmem S1x1x20000 .i32 := win1_0.stage (cfg1.slots t 0)
abbrev hs0 (t : Fin cfg1.N) : (ms0 t).IsWhole := hstage1_0 ((cfg1.slots t 0).cast nbuf1_0)
abbrev ms1 (t : Fin cfg1.N) : Memref sig .tc .vmem S20000x128 .f32 := win1_1.stage (cfg1.slots t 1)
abbrev hs1 (t : Fin cfg1.N) : (ms1 t).IsWhole := hstage1_1 ((cfg1.slots t 1).cast nbuf1_1)
abbrev ms2 (t : Fin cfg1.N) : Memref sig .tc .vmem S128x64 .bf16 := win1_2.stage (cfg1.slots t 2)
abbrev hs2 (t : Fin cfg1.N) : (ms2 t).IsWhole := hstage1_2 ((cfg1.slots t 2).cast nbuf1_2)
abbrev ms3 (t : Fin cfg1.N) : Memref sig .tc .vmem S1x64 .f32 := win1_3.stage (cfg1.slots t 3)
abbrev hs3 (t : Fin cfg1.N) : (ms3 t).IsWhole := hstage1_3 ((cfg1.slots t 3).cast nbuf1_3)
abbrev ms4 (t : Fin cfg1.N) : Memref sig .tc .vmem S64x128 .bf16 := win1_4.stage (cfg1.slots t 4)
abbrev hs4 (t : Fin cfg1.N) : (ms4 t).IsWhole := hstage1_4 ((cfg1.slots t 4).cast nbuf1_4)
abbrev ms5 (t : Fin cfg1.N) : Memref sig .tc .vmem S1x128 .f32 := win1_5.stage (cfg1.slots t 5)
abbrev hs5 (t : Fin cfg1.N) : (ms5 t).IsWhole := hstage1_5 ((cfg1.slots t 5).cast nbuf1_5)
abbrev ms6 (t : Fin cfg1.N) : Memref sig .tc .vmem S20000x128 .f32 := win1_6.stage (cfg1.slots t 6)
abbrev hs6 (t : Fin cfg1.N) : (ms6 t).IsWhole := hstage1_6 ((cfg1.slots t 6).cast nbuf1_6)
abbrev ms7 (t : Fin cfg1.N) : Memref sig .tc .vmem S64x128 .f32 := win1_7.stage (cfg1.slots t 7)
abbrev hs7 (t : Fin cfg1.N) : (ms7 t).IsWhole := hstage1_7 ((cfg1.slots t 7).cast nbuf1_7)

end Cert.Proof.TcBody

end
-- ==== Proof.TcRunA.lean ====
/-
  The body's run at the first grid point: the condition of the reset holds, that of the addition
  fails. On whole staging memrefs — the six inputs at their contents x1 … x6, the two outputs at
  anything — the body runs to the inputs as they were, window 6 at the block of st computed from
  x2 … x6, and window 7 at the block's one-hot product.
-/
import proofs.«208690_g19181323943962_cont_8to1_1746_28_alg».proof.Proof.TcRuns

set_option maxRecDepth 16384

noncomputable section

namespace Cert.Proof.TcBody

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]
variable {Ix : Type} [DecidableEq Ix] {Name : Type} [DecidableEq Name] {U : Type} [URA U]

local notation "𝕄" => MT nD τ sig Ix (Elt F) Name U ℕ

set_option maxHeartbeats 1000000 in
/-- Case A (the first point). -/
theorem kernelRunA (c : Dev nD) (i : grid1.Coords) (arg1 : Memref sig .tc .vmem S1x1x20000 .i32) (harg1 : arg1.IsWhole) (arg2 : Memref sig .tc .vmem S20000x128 .f32) (harg2 : arg2.IsWhole) (arg3 : Memref sig .tc .vmem S128x64 .bf16) (harg3 : arg3.IsWhole) (arg4 : Memref sig .tc .vmem S1x64 .f32) (harg4 : arg4.IsWhole) (arg5 : Memref sig .tc .vmem S64x128 .bf16) (harg5 : arg5.IsWhole) (arg6 : Memref sig .tc .vmem S1x128 .f32) (harg6 : arg6.IsWhole) (arg7 : Memref sig .tc .vmem S20000x128 .f32) (harg7 : arg7.IsWhole) (arg8 : Memref sig .tc .vmem S64x128 .f32) (harg8 : arg8.IsWhole)
    (hc1 : k1_cond1 i = 1#1) (hc2 : ¬ k1_cond2 i = 1#1) (x1 : Vec F S1x1x20000 .i32) (x2 : Vec F S20000x128 .f32) (x3 : Vec F S128x64 .bf16) (x4 : Vec F S1x64 .f32) (x5 : Vec F S64x128 .bf16) (x6 : Vec F S1x128 .f32)
    (E : Set Name) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6
        ∗ (∃ d, owns (c : Thread nD τ) arg7 fullShare d) ∗ (∃ d, owns (c : Thread nD τ) arg8 fullShare d)
        ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6
            ∗ owns (c : Thread nD τ) arg7 fullShare (k1_pay2 x2 x3 x4 x5 x6)
            ∗ owns (c : Thread nD τ) arg8 fullShare (k1_pay3 x2 x3 x4 x5 x6 x1)) -∗ K ⟨⟩))
      ⊢ wp frame (wpE (defs₀ (F := F)) Variants.none c none) E (cc1__mlp_segsum_tc i arg1 harg1 arg2 harg2 arg3 harg3 arg4 harg4 arg5 harg5 arg6 harg6 arg7 harg7 arg8 harg8) K := by
  simp only [cc1__mlp_segsum_tc_eq_skeleton]; unfold cc1__mlp_segsum_tc_skel
  simp only [k1_part1_eq_skeleton]; unfold k1_part1_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, Hk⟩
  obtain rfl := harg1.eq_unread hf1; obtain rfl := harg2.eq_unread hf2; obtain rfl := harg3.eq_unread hf3
  obtain rfl := harg4.eq_unread hf4; obtain rfl := harg5.eq_unread hf5; obtain rfl := harg6.eq_unread hf6
  sl_exec (disch := first | exact hc1 | exact hc2)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr
    swap; · iexact H7
    ipureintro
    rw [read_writes_whole _ _ zero2, readAt_whole_unread harg2 x2 zero2, readAt_whole_unread harg3 x3 zero2, readAt_whole_unread harg4 x4 zero2, readAt_whole_unread harg5 x5 zero2, readAt_whole_unread harg6 x6 zero2]
  iexists _; isplitr
  swap; · iexact H8
  ipureintro
  rw [read_writes_whole _ _ zero2, readAt_whole_unread harg2 x2 zero2, readAt_whole_unread harg3 x3 zero2, readAt_whole_unread harg4 x4 zero2, readAt_whole_unread harg5 x5 zero2, readAt_whole_unread harg6 x6 zero2, readAt_whole_unread harg1 x1 zero3]

end Cert.Proof.TcBody

end
-- ==== Proof.TcRunB.lean ====
/-
  The body's run at a later grid point: the condition of the reset fails, that of the addition
  holds. On whole staging memrefs — the six inputs at their contents x1 … x6, window 6 at anything,
  window 7 at the running contents xo — the body runs to the inputs as they were, window 6 at the
  block of st computed from x2 … x6, and window 7 at xo with the block's one-hot product added.
-/
import proofs.«208690_g19181323943962_cont_8to1_1746_28_alg».proof.Proof.TcRunA

set_option maxRecDepth 16384

noncomputable section

namespace Cert.Proof.TcBody

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]
variable {Ix : Type} [DecidableEq Ix] {Name : Type} [DecidableEq Name] {U : Type} [URA U]

local notation "𝕄" => MT nD τ sig Ix (Elt F) Name U ℕ

set_option maxHeartbeats 1000000 in
/-- Case B (every point after the first). -/
theorem kernelRunB (c : Dev nD) (i : grid1.Coords) (arg1 : Memref sig .tc .vmem S1x1x20000 .i32) (harg1 : arg1.IsWhole) (arg2 : Memref sig .tc .vmem S20000x128 .f32) (harg2 : arg2.IsWhole) (arg3 : Memref sig .tc .vmem S128x64 .bf16) (harg3 : arg3.IsWhole) (arg4 : Memref sig .tc .vmem S1x64 .f32) (harg4 : arg4.IsWhole) (arg5 : Memref sig .tc .vmem S64x128 .bf16) (harg5 : arg5.IsWhole) (arg6 : Memref sig .tc .vmem S1x128 .f32) (harg6 : arg6.IsWhole) (arg7 : Memref sig .tc .vmem S20000x128 .f32) (harg7 : arg7.IsWhole) (arg8 : Memref sig .tc .vmem S64x128 .f32) (harg8 : arg8.IsWhole)
    (hc1 : ¬ k1_cond1 i = 1#1) (hc2 : k1_cond2 i = 1#1) (x1 : Vec F S1x1x20000 .i32) (x2 : Vec F S20000x128 .f32) (x3 : Vec F S128x64 .bf16) (x4 : Vec F S1x64 .f32) (x5 : Vec F S64x128 .bf16) (x6 : Vec F S1x128 .f32) (xo : Vec F S64x128 .f32)
    (E : Set Name) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6
        ∗ (∃ d, owns (c : Thread nD τ) arg7 fullShare d) ∗ owns (c : Thread nD τ) arg8 fullShare xo
        ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6
            ∗ owns (c : Thread nD τ) arg7 fullShare (k1_pay2 x2 x3 x4 x5 x6)
            ∗ owns (c : Thread nD τ) arg8 fullShare (k1_pay1 (k1_pay3 x2 x3 x4 x5 x6 x1) xo)) -∗ K ⟨⟩))
      ⊢ wp frame (wpE (defs₀ (F := F)) Variants.none c none) E (cc1__mlp_segsum_tc i arg1 harg1 arg2 harg2 arg3 harg3 arg4 harg4 arg5 harg5 arg6 harg6 arg7 harg7 arg8 harg8) K := by
  simp only [cc1__mlp_segsum_tc_eq_skeleton]; unfold cc1__mlp_segsum_tc_skel
  simp only [k1_part1_eq_skeleton]; unfold k1_part1_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, Hk⟩
  obtain rfl := harg1.eq_unread hf1; obtain rfl := harg2.eq_unread hf2; obtain rfl := harg3.eq_unread hf3
  obtain rfl := harg4.eq_unread hf4; obtain rfl := harg5.eq_unread hf5; obtain rfl := harg6.eq_unread hf6
  obtain rfl := harg8.eq_unread hf8
  sl_exec (disch := first | exact hc1 | exact hc2)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr
    swap; · iexact H7
    ipureintro
    rw [read_writes_whole _ _ zero2, readAt_whole_unread harg2 x2 zero2, readAt_whole_unread harg3 x3 zero2, readAt_whole_unread harg4 x4 zero2, readAt_whole_unread harg5 x5 zero2, readAt_whole_unread harg6 x6 zero2]
  iexists _; isplitr
  swap; · iexact H8
  ipureintro
  rw [read_writes_whole _ _ zero2, readAt_whole_unread harg2 x2 zero2, readAt_whole_unread harg3 x3 zero2, readAt_whole_unread harg4 x4 zero2, readAt_whole_unread harg5 x5 zero2, readAt_whole_unread harg6 x6 zero2, readAt_whole_unread harg1 x1 zero3, readAt_whole_unread harg8 xo zero2]

end Cert.Proof.TcBody

end
-- ==== Proof.TcBody.lean ====
/-
  The TensorCore region of the kernel program: its proof data and its body obligation.

  At grid point t (the t-th block of 20000 rows) the six input windows hold their blocks of the
  arrays as the region finds them; the body leaves in window 6 the block of st — the two-layer map
  of the block's rows — and in window 7 the running pooled sum: at the first point the block's
  one-hot product, at each later point the product added to what the point before left. Window 7's
  block index never moves, so it is written back at the last point only and the buffer carries the
  running sum from point to point.

  The data are generic in the float instance and in the ghost parameters of the library's state; the
  invariant between points is any assertion (the body touches nothing but its eight windows) and
  what the core owes is a constant.
-/
import proofs.«208690_g19181323943962_cont_8to1_1746_28_alg».proof.Proof.TcRunB

set_option maxRecDepth 16384

noncomputable section

namespace Cert.Proof.TcBody

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]
variable {Ix : Type} [DecidableEq Ix] {Name : Type} [DecidableEq Name] {U : Type} [URA U]

local notation "𝕄" => MT nD τ sig Ix (Elt F) Name U ℕ

variable (A : (c : Dev nD) → ATy (F := F) c) (O : CellTallies nD τ sig Ix) (Φ₀ : Dev nD → sProp (MT nD τ sig Ix (Elt F) Name U ℕ))

/-! ## What the outputs hold after each point -/

/-- The block of st at point `t`: the two-layer map of the block's rows. -/
def stAt (c : Dev nD) (A : ATy (F := F) c) (t : Fin cfg1.N) : Vec F S20000x128 .f32 :=
  k1_pay2 (blk c A 1 t) (blk c A 2 t) (blk c A 3 t) (blk c A 4 t) (blk c A 5 t)

/-- The block's one-hot product at point `t`: row g sums the rows of the block of st whose id is g. -/
def prodAt (c : Dev nD) (A : ATy (F := F) c) (t : Fin cfg1.N) : Vec F S64x128 .f32 :=
  k1_pay3 (blk c A 1 t) (blk c A 2 t) (blk c A 3 t) (blk c A 4 t) (blk c A 5 t) (blk c A 0 t)

/-- The running pooled sum after the body at position `n`: the first block's product, then each later
    block's product added to what the position before left. -/
def outsAt (c : Dev nD) (A : ATy (F := F) c) : (n : ℕ) → n < cfg1.N → Vec F S64x128 .f32
  | 0, hn => prodAt c A ⟨0, hn⟩
  | n + 1, hn => k1_pay1 (prodAt c A ⟨n + 1, hn⟩) (outsAt c A n (Nat.lt_of_succ_lt hn))

theorem outsAt_zero_eq (c : Dev nD) (A : ATy (F := F) c) (hn : 0 < cfg1.N) :
    outsAt c A 0 hn = k1_pay3 (blk c A 1 ⟨0, hn⟩) (blk c A 2 ⟨0, hn⟩) (blk c A 3 ⟨0, hn⟩) (blk c A 4 ⟨0, hn⟩) (blk c A 5 ⟨0, hn⟩) (blk c A 0 ⟨0, hn⟩) := rfl

theorem outsAt_succ_eq (c : Dev nD) (A : ATy (F := F) c) (n : ℕ) (hn : n + 1 < cfg1.N) :
    outsAt c A (n + 1) hn = k1_pay1 (k1_pay3 (blk c A 1 ⟨n + 1, hn⟩) (blk c A 2 ⟨n + 1, hn⟩) (blk c A 3 ⟨n + 1, hn⟩) (blk c A 4 ⟨n + 1, hn⟩) (blk c A 5 ⟨n + 1, hn⟩) (blk c A 0 ⟨n + 1, hn⟩))
      (outsAt c A n (Nat.lt_of_succ_lt hn)) := rfl

/-- `outsAt` at the first point: the block's product. -/
theorem outsAt_first (c : Dev nD) (A : ATy (F := F) c) (t : Fin cfg1.N) (h0 : t.val = 0) :
    outsAt c A t.val t.isLt = prodAt c A t := by
  obtain ⟨n, hn⟩ := t
  cases n with
  | zero => rfl
  | succ n => exact absurd h0 (Nat.succ_ne_zero n)

/-- `outsAt` at a later point: the block's product added to what the point before left. -/
theorem outsAt_later (c : Dev nD) (A : ATy (F := F) c) (t : Fin cfg1.N) (h0 : t.val ≠ 0) :
    outsAt c A t.val t.isLt = k1_pay1 (prodAt c A t) (outsAt c A (t.val - 1) (Nat.lt_of_le_of_lt (Nat.sub_le _ _) t.isLt)) := by
  obtain ⟨n, hn⟩ := t
  cases n with
  | zero => exact absurd rfl h0
  | succ n => rfl

/-! ## The pipeline's proof data -/

/-- The proof data of the region on core `c`: the arrays as the region finds them (`A c`); after the body
    at point `t` each input's buffer at its block, window 6 at the block of st, window 7 at the running
    pooled sum; the invariant `Φ₀ c` at every point; the core owing `O` throughout; full shares. -/
def dats (_ : Fin 1) (c : Dev nD) : Dat τ (Elt F) Ix Name U ℕ cfg1 c where
  A := A c
  after w t := match w with
    | ⟨0, _⟩ => blk c (A c) 0 t
    | ⟨1, _⟩ => blk c (A c) 1 t
    | ⟨2, _⟩ => blk c (A c) 2 t
    | ⟨3, _⟩ => blk c (A c) 3 t
    | ⟨4, _⟩ => blk c (A c) 4 t
    | ⟨5, _⟩ => blk c (A c) 5 t
    | ⟨6, _⟩ => stAt c (A c) t
    | ⟨7, _⟩ => outsAt c (A c) t.val t.isLt
  Φ _ := Φ₀ c
  q _ := fullShare
  owed _ := O

/-- The proof data's arrays are the entry contents. -/
theorem A_eq (c : Dev nD) (w : Fin cfg1.W) : (dats A O Φ₀ 0 c).A w = A c w := by
  dsimp only [dats]

/-- The invariant, the shares and what the core owes, as given. -/
theorem Φ_eq (c : Dev nD) (t : Fin (cfg1.N + 1)) : (dats A O Φ₀ 0 c).Φ t = Φ₀ c := rfl
theorem q_eq (c : Dev nD) (w : Fin cfg1.W) : (dats A O Φ₀ 0 c).q w = fullShare := rfl
theorem owed_eq (c : Dev nD) (t : Fin (cfg1.N + 1)) : (dats A O Φ₀ 0 c).owed t = O := rfl

/-- What the body leaves, window by window. -/
theorem after0 (c : Dev nD) (t : Fin cfg1.N) : (dats A O Φ₀ 0 c).after 0 t = blk c (A c) 0 t := by dsimp only [dats]
theorem after1 (c : Dev nD) (t : Fin cfg1.N) : (dats A O Φ₀ 0 c).after 1 t = blk c (A c) 1 t := by dsimp only [dats]
theorem after2 (c : Dev nD) (t : Fin cfg1.N) : (dats A O Φ₀ 0 c).after 2 t = blk c (A c) 2 t := by dsimp only [dats]
theorem after3 (c : Dev nD) (t : Fin cfg1.N) : (dats A O Φ₀ 0 c).after 3 t = blk c (A c) 3 t := by dsimp only [dats]
theorem after4 (c : Dev nD) (t : Fin cfg1.N) : (dats A O Φ₀ 0 c).after 4 t = blk c (A c) 4 t := by dsimp only [dats]
theorem after5 (c : Dev nD) (t : Fin cfg1.N) : (dats A O Φ₀ 0 c).after 5 t = blk c (A c) 5 t := by dsimp only [dats]
theorem after6' (c : Dev nD) (t : Fin cfg1.N) : (dats A O Φ₀ 0 c).after 6 t = stAt c (A c) t := by dsimp only [dats]
theorem after7' (c : Dev nD) (t : Fin cfg1.N) : (dats A O Φ₀ 0 c).after 7 t = outsAt c (A c) t.val t.isLt := by dsimp only [dats]

/-- Window 6 after the body at point `t`, through the payload. -/
theorem after6 (c : Dev nD) (t : Fin cfg1.N) :
    (dats A O Φ₀ 0 c).after 6 t = k1_pay2 (blk c (A c) 1 t) (blk c (A c) 2 t) (blk c (A c) 3 t) (blk c (A c) 4 t) (blk c (A c) 5 t) := by
  dsimp only [dats, stAt]

/-- Window 7 after the body at point `t`: the running pooled sum. -/
theorem after7 (c : Dev nD) (t : Fin cfg1.N) : (dats A O Φ₀ 0 c).after 7 t = outsAt c (A c) t.val t.isLt := after7' A O Φ₀ c t

/-- Each input's current staging buffer holds its block at every point, fetched there or not. -/
theorem before0 (c : Dev nD) (t : Fin cfg1.N) (d) : (dats A O Φ₀ 0 c).before 0 t d = blk c (A c) 0 t :=
  before_in0_of (A c) (dats A O Φ₀ 0 c) (A_eq A O Φ₀ c 0) (after0 A O Φ₀ c) t d
theorem before1 (c : Dev nD) (t : Fin cfg1.N) (d) : (dats A O Φ₀ 0 c).before 1 t d = blk c (A c) 1 t :=
  before_in1_of (A c) (dats A O Φ₀ 0 c) (A_eq A O Φ₀ c 1) (after1 A O Φ₀ c) t d
theorem before2 (c : Dev nD) (t : Fin cfg1.N) (d) : (dats A O Φ₀ 0 c).before 2 t d = blk c (A c) 2 t :=
  before_in2_of (A c) (dats A O Φ₀ 0 c) (A_eq A O Φ₀ c 2) (after2 A O Φ₀ c) t d
theorem before3 (c : Dev nD) (t : Fin cfg1.N) (d) : (dats A O Φ₀ 0 c).before 3 t d = blk c (A c) 3 t :=
  before_in3_of (A c) (dats A O Φ₀ 0 c) (A_eq A O Φ₀ c 3) (after3 A O Φ₀ c) t d
theorem before4 (c : Dev nD) (t : Fin cfg1.N) (d) : (dats A O Φ₀ 0 c).before 4 t d = blk c (A c) 4 t :=
  before_in4_of (A c) (dats A O Φ₀ 0 c) (A_eq A O Φ₀ c 4) (after4 A O Φ₀ c) t d
theorem before5 (c : Dev nD) (t : Fin cfg1.N) (d) : (dats A O Φ₀ 0 c).before 5 t d = blk c (A c) 5 t :=
  before_in5_of (A c) (dats A O Φ₀ 0 c) (A_eq A O Φ₀ c 5) (after5 A O Φ₀ c) t d

/-- At a point after the first, window 7's staging buffer holds what the body left at the point before:
    the buffer was not written back between (only the last point writes it back), the window is live and uncut. -/
theorem before7_later (c : Dev nD) (t : Fin cfg1.N) (h0 : t.val ≠ 0) (d) :
    (dats A O Φ₀ 0 c).before 7 t d = outsAt c (A c) (t.val - 1) (Nat.lt_of_le_of_lt (Nat.sub_le _ _) t.isLt) := by
  have hN : t.val < 5 := lt_of_lt_of_eq t.isLt (show cfg1.N = 5 from N_1)
  rw [Dat.before_of_pos _ 7 t h0 ((cfg1.win 7).fetch_out rfl t),
    if_neg (fun h => by have := (flush1_7 _).mp h; dsimp only at this; omega)]
  unfold Dat.left
  rw [idle7]
  show Dat.kept _ 7 _ d = _
  unfold Dat.kept
  rw [Dat.before_out_kept.fill_of_clip_none' 7 _ (fun _ => rfl) d ((dats A O Φ₀ 0 c).after 7 _), Window.fill_cut]
  dsimp only [dats]

/-! ## The body obligation, at a generic point -/

variable (ι : Ix)

/-- What the body is called with at point `t`, the windows one by one, -/
def bodyPre (c : Dev nD) (t : Fin cfg1.N) : sProp 𝕄 :=
  iprop((dats A O Φ₀ 0 c).Φ t.castSucc ∗ (dats A O Φ₀ 0 c).owesAt ι t.castSucc
    ∗ (∃ d, owns (c : Thread nD τ) (ms0 t) fullShare ((dats A O Φ₀ 0 c).before 0 t d))
    ∗ (∃ d, owns (c : Thread nD τ) (ms1 t) fullShare ((dats A O Φ₀ 0 c).before 1 t d))
    ∗ (∃ d, owns (c : Thread nD τ) (ms2 t) fullShare ((dats A O Φ₀ 0 c).before 2 t d))
    ∗ (∃ d, owns (c : Thread nD τ) (ms3 t) fullShare ((dats A O Φ₀ 0 c).before 3 t d))
    ∗ (∃ d, owns (c : Thread nD τ) (ms4 t) fullShare ((dats A O Φ₀ 0 c).before 4 t d))
    ∗ (∃ d, owns (c : Thread nD τ) (ms5 t) fullShare ((dats A O Φ₀ 0 c).before 5 t d))
    ∗ (∃ d, owns (c : Thread nD τ) (ms6 t) fullShare ((dats A O Φ₀ 0 c).before 6 t d))
    ∗ (∃ d, owns (c : Thread nD τ) (ms7 t) fullShare ((dats A O Φ₀ 0 c).before 7 t d)))

/-- and what it returns. -/
def bodyPost (c : Dev nD) (t : Fin cfg1.N) : sProp 𝕄 :=
  iprop((dats A O Φ₀ 0 c).Φ t.succ ∗ (dats A O Φ₀ 0 c).owesAt ι t.succ
    ∗ owns (c : Thread nD τ) (ms0 t) fullShare ((dats A O Φ₀ 0 c).after 0 t)
    ∗ owns (c : Thread nD τ) (ms1 t) fullShare ((dats A O Φ₀ 0 c).after 1 t)
    ∗ owns (c : Thread nD τ) (ms2 t) fullShare ((dats A O Φ₀ 0 c).after 2 t)
    ∗ owns (c : Thread nD τ) (ms3 t) fullShare ((dats A O Φ₀ 0 c).after 3 t)
    ∗ owns (c : Thread nD τ) (ms4 t) fullShare ((dats A O Φ₀ 0 c).after 4 t)
    ∗ owns (c : Thread nD τ) (ms5 t) fullShare ((dats A O Φ₀ 0 c).after 5 t)
    ∗ owns (c : Thread nD τ) (ms6 t) fullShare ((dats A O Φ₀ 0 c).after 6 t)
    ∗ owns (c : Thread nD τ) (ms7 t) fullShare ((dats A O Φ₀ 0 c).after 7 t))

set_option maxHeartbeats 1600000 in
/-- The body at any point: the inputs' memrefs hold their blocks; the closed forms say which case the point
    is in; after the first point window 7 holds what the point before left; so the case's run applies; the
    invariant and what the core owes pass through untouched. -/
theorem sound_body (c : Dev nD) (t : Fin cfg1.N) :
    bodyPre A O Φ₀ ι c t ⊢ wp frame (wpE (defs₀ (F := F)) Variants.none c none) Set.univ (bodyAt1 t) (fun _ => bodyPost A O Φ₀ ι c t) := by
  unfold bodyPre bodyPost bodyAt1
  simp only [before0, before1, before2, before3, before4, before5]
  rw [show (dats A O Φ₀ 0 c).Φ t.succ = (dats A O Φ₀ 0 c).Φ t.castSucc from rfl,
    show (dats A O Φ₀ 0 c).owesAt ι t.succ = (dats A O Φ₀ 0 c).owesAt ι t.castSucc from rfl,
    after0, after1, after2, after3, after4, after5, after6', after7']
  by_cases h0 : t.val = 0
  · rw [outsAt_first c (A c) t h0]
    unfold stAt prodAt
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (kernelRunA c (grid1.coords t) _ _ _ _ _ _ _ _ _ _ _ _ _ _ _ _ ((hcond1 t).mpr h0) (fun h => (hcond2 t).mp h h0)
      (blk c (A c) 0 t) (blk c (A c) 1 t) (blk c (A c) 2 t) (blk c (A c) 3 t) (blk c (A c) 4 t) (blk c (A c) 5 t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    iintro ⟨H0, H1, H2, H3, H4, H5, H6, H7⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · rw [outsAt_later c (A c) t h0]
    simp only [before7_later A O Φ₀ c t h0]
    unfold stAt prodAt
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (kernelRunB c (grid1.coords t) _ _ _ _ _ _ _ _ _ _ _ _ _ _ _ _ (fun h => h0 ((hcond1 t).mp h)) ((hcond2 t).mpr h0)
      (blk c (A c) 0 t) (blk c (A c) 1 t) (blk c (A c) 2 t) (blk c (A c) 3 t) (blk c (A c) 4 t) (blk c (A c) 5 t) _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexact H7
    iintro ⟨H0, H1, H2, H3, H4, H5, H6, H7⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7

/-- Window 7 left at what the body leaves is what the loop's obligation asks of it: the window is idle at no point
    and its blocks tile its array. -/
theorem leaves7 (c : Dev nD) (t : Fin cfg1.N) :
    owns (c : Thread nD τ) (ms7 t) fullShare ((dats A O Φ₀ 0 c).after 7 t) ⊢ ((dats A O Φ₀ 0 c).leaves 7 t : sProp 𝕄) := by
  unfold Dat.leaves
  rw [idle7]

/-- The library's body obligation, at every point, as the loop uses it. -/
theorem body_obligation (c : Dev nD) : BodyObligationLoose (dats A O Φ₀ 0 c) (defs₀ (F := F)) Variants.none ι Set.univ := fun t => by
  rw [bigSep_W1, bigSep_W1]
  refine (sound_body A O Φ₀ ι c t).trans (wp_mono _ _ _ fun _ => ?_)
  unfold bodyPost
  exact sep_mono .rfl (sep_mono .rfl (sep_mono .rfl (sep_mono .rfl (sep_mono .rfl (sep_mono .rfl (sep_mono .rfl
    (sep_mono .rfl (sep_mono .rfl (leaves7 A O Φ₀ c t)))))))))

end Cert.Proof.TcBody

end
-- ==== Proof.TcValue.lean ====
/-
  The TensorCore region of the kernel program: what its arrays hold when it ends, and the input
  windows' blocks as functions of the arrays.

  Block t of the data, of the ids and of st is rows 20000 t … 20000 t + 19999; the weights' and
  biases' windows are their whole arrays at every point. st is written back block by block at every
  point, the blocks are disjoint, so row 20000 t + r of the final st is row r of what point t left;
  the pooled sum is written back once, at the last point, whole.
-/
import proofs.«208690_g19181323943962_cont_8to1_1746_28_alg».proof.Proof.TcBody
import Idealize.ShloMosaic.Lib.Pipeline.Value
import Idealize.ShloMosaic.Lib.ValueIdx

set_option maxRecDepth 16384

noncomputable section

namespace Cert.Proof.TcBody

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.Sem
open Idealize.ShloMosaic.Pipeline (Dat Cfg Window)

variable {F : FTy → Type} [FloatOps F]
variable {Ix : Type} [DecidableEq Ix] {Name : Type} [DecidableEq Name] {U : Type} [URA U]

variable (A : (c : Dev nD) → ATy (F := F) c) (O : CellTallies nD τ sig Ix) (Φ₀ : Dev nD → sProp (MT nD τ sig Ix (Elt F) Name U ℕ))

/-! ## The index maps over the grid -/

theorem idx0 : ∀ t : Fin cfg1.N, win1_0.index t (0 : Fin 3) = t.val ∧ win1_0.index t (1 : Fin 3) = 0 ∧ win1_0.index t (2 : Fin 3) = 0 :=
  (by decide +kernel : ∀ t : Fin grid1.N, win1_0.index t (0 : Fin 3) = t.val ∧ win1_0.index t (1 : Fin 3) = 0 ∧ win1_0.index t (2 : Fin 3) = 0)
theorem idx1 : ∀ t : Fin cfg1.N, win1_1.index t (0 : Fin 2) = t.val ∧ win1_1.index t (1 : Fin 2) = 0 :=
  (by decide +kernel : ∀ t : Fin grid1.N, win1_1.index t (0 : Fin 2) = t.val ∧ win1_1.index t (1 : Fin 2) = 0)
theorem idx2 : ∀ t : Fin cfg1.N, win1_2.index t (0 : Fin 2) = 0 ∧ win1_2.index t (1 : Fin 2) = 0 :=
  (by decide +kernel : ∀ t : Fin grid1.N, win1_2.index t (0 : Fin 2) = 0 ∧ win1_2.index t (1 : Fin 2) = 0)
theorem idx3 : ∀ t : Fin cfg1.N, win1_3.index t (0 : Fin 2) = 0 ∧ win1_3.index t (1 : Fin 2) = 0 :=
  (by decide +kernel : ∀ t : Fin grid1.N, win1_3.index t (0 : Fin 2) = 0 ∧ win1_3.index t (1 : Fin 2) = 0)
theorem idx4 : ∀ t : Fin cfg1.N, win1_4.index t (0 : Fin 2) = 0 ∧ win1_4.index t (1 : Fin 2) = 0 :=
  (by decide +kernel : ∀ t : Fin grid1.N, win1_4.index t (0 : Fin 2) = 0 ∧ win1_4.index t (1 : Fin 2) = 0)
theorem idx5 : ∀ t : Fin cfg1.N, win1_5.index t (0 : Fin 2) = 0 ∧ win1_5.index t (1 : Fin 2) = 0 :=
  (by decide +kernel : ∀ t : Fin grid1.N, win1_5.index t (0 : Fin 2) = 0 ∧ win1_5.index t (1 : Fin 2) = 0)
theorem idx6 : ∀ t : Fin cfg1.N, win1_6.index t (0 : Fin 2) = t.val ∧ win1_6.index t (1 : Fin 2) = 0 :=
  (by decide +kernel : ∀ t : Fin grid1.N, win1_6.index t (0 : Fin 2) = t.val ∧ win1_6.index t (1 : Fin 2) = 0)
theorem idx7 : ∀ t : Fin cfg1.N, win1_7.index t (0 : Fin 2) = 0 ∧ win1_7.index t (1 : Fin 2) = 0 :=
  (by decide +kernel : ∀ t : Fin grid1.N, win1_7.index t (0 : Fin 2) = 0 ∧ win1_7.index t (1 : Fin 2) = 0)
/-- Distinct points write distinct blocks of st. -/
theorem idx_inj6 : ∀ t t' : Fin cfg1.N, win1_6.index t = win1_6.index t' → t = t' :=
  (by decide +kernel : ∀ t t' : Fin grid1.N, win1_6.index t = win1_6.index t' → t = t')

theorem hN (t : Fin cfg1.N) : t.val < 5 := lt_of_lt_of_eq t.isLt (show cfg1.N = 5 from N_1)

/-! ## Where a block's element sits in its array -/

/-- Row r, column j of block t of st is row 20000 t + r of the array. -/
theorem emb6 (t : Fin cfg1.N) (r : Fin 20000) (j : Fin 128) :
    ((cfg1.win 6).blk t).view.emb (ix2 r j) = ix2 (⟨20000 * t.val + r.val, by have := hN t; have := r.isLt; omega⟩ : Fin 100000) j := by
  funext a; apply Fin.ext
  match a with
  | ⟨0, _⟩ => show win1_6.index t (0 : Fin 2) * 20000 + 1 * r.val = 20000 * t.val + r.val; rw [(idx6 t).1]; omega
  | ⟨1, _⟩ => show win1_6.index t (1 : Fin 2) * 128 + 1 * j.val = j.val; rw [(idx6 t).2]; omega

/-- The same of the data's block. -/
theorem emb1 (t : Fin cfg1.N) (r : Fin 20000) (j : Fin 128) :
    ((cfg1.win 1).blk t).view.emb (ix2 r j) = ix2 (⟨20000 * t.val + r.val, by have := hN t; have := r.isLt; omega⟩ : Fin 100000) j := by
  funext a; apply Fin.ext
  match a with
  | ⟨0, _⟩ => show win1_1.index t (0 : Fin 2) * 20000 + 1 * r.val = 20000 * t.val + r.val; rw [(idx1 t).1]; omega
  | ⟨1, _⟩ => show win1_1.index t (1 : Fin 2) * 128 + 1 * j.val = j.val; rw [(idx1 t).2]; omega

/-- Entry k of block t of the ids is entry (t, 0, k) of the reshaped id array. -/
theorem emb0 (t : Fin cfg1.N) (k : Fin 20000) :
    ((cfg1.win 0).blk t).view.emb (ix3 (0 : Fin 1) (0 : Fin 1) k) = ix3 (⟨t.val, hN t⟩ : Fin 5) (0 : Fin 1) k := by
  funext a; apply Fin.ext
  match a with
  | ⟨0, _⟩ => show win1_0.index t (0 : Fin 3) * 1 + 1 * 0 = t.val; rw [(idx0 t).1]; omega
  | ⟨1, _⟩ => show win1_0.index t (1 : Fin 3) * 1 + 1 * 0 = 0; rw [(idx0 t).2.1]
  | ⟨2, _⟩ => show win1_0.index t (2 : Fin 3) * 20000 + 1 * k.val = k.val; rw [(idx0 t).2.2]; omega

/-! ## The inputs' blocks as functions of the arrays -/

theorem blk1_apply (c : Dev nD) (X : ATy (F := F) c) (t : Fin cfg1.N) (r : Fin 20000) (j : Fin 128) :
    blk c X 1 t (ix2 r j) = X 1 (ix2 (⟨20000 * t.val + r.val, by have := hN t; have := r.isLt; omega⟩ : Fin 100000) j) := by
  show X 1 (((cfg1.win 1).blk t).view.emb (ix2 r j)) = _
  rw [emb1]

theorem blk0_apply (c : Dev nD) (X : ATy (F := F) c) (t : Fin cfg1.N) (k : Fin 20000) :
    blk c X 0 t (ix3 (0 : Fin 1) (0 : Fin 1) k) = X 0 (ix3 (⟨t.val, hN t⟩ : Fin 5) (0 : Fin 1) k) := by
  show X 0 (((cfg1.win 0).blk t).view.emb (ix3 (0 : Fin 1) (0 : Fin 1) k)) = _
  rw [emb0]

/-- The weights' and biases' windows are their whole arrays at every point. -/
theorem blk2_eq (c : Dev nD) (X : ATy (F := F) c) (t : Fin cfg1.N) : blk c X 2 t = X 2 := by
  funext y
  show X 2 (((cfg1.win 2).blk t).view.emb y) = X 2 y
  congr 1; funext a; apply Fin.ext
  match a with
  | ⟨0, _⟩ => show win1_2.index t (0 : Fin 2) * 128 + 1 * (y 0).val = (y 0).val; rw [(idx2 t).1]; omega
  | ⟨1, _⟩ => show win1_2.index t (1 : Fin 2) * 64 + 1 * (y 1).val = (y 1).val; rw [(idx2 t).2]; omega
theorem blk3_eq (c : Dev nD) (X : ATy (F := F) c) (t : Fin cfg1.N) : blk c X 3 t = X 3 := by
  funext y
  show X 3 (((cfg1.win 3).blk t).view.emb y) = X 3 y
  congr 1; funext a; apply Fin.ext
  match a with
  | ⟨0, _⟩ => show win1_3.index t (0 : Fin 2) * 1 + 1 * (y 0).val = (y 0).val; rw [(idx3 t).1]; omega
  | ⟨1, _⟩ => show win1_3.index t (1 : Fin 2) * 64 + 1 * (y 1).val = (y 1).val; rw [(idx3 t).2]; omega
theorem blk4_eq (c : Dev nD) (X : ATy (F := F) c) (t : Fin cfg1.N) : blk c X 4 t = X 4 := by
  funext y
  show X 4 (((cfg1.win 4).blk t).view.emb y) = X 4 y
  congr 1; funext a; apply Fin.ext
  match a with
  | ⟨0, _⟩ => show win1_4.index t (0 : Fin 2) * 64 + 1 * (y 0).val = (y 0).val; rw [(idx4 t).1]; omega
  | ⟨1, _⟩ => show win1_4.index t (1 : Fin 2) * 128 + 1 * (y 1).val = (y 1).val; rw [(idx4 t).2]; omega
theorem blk5_eq (c : Dev nD) (X : ATy (F := F) c) (t : Fin cfg1.N) : blk c X 5 t = X 5 := by
  funext y
  show X 5 (((cfg1.win 5).blk t).view.emb y) = X 5 y
  congr 1; funext a; apply Fin.ext
  match a with
  | ⟨0, _⟩ => show win1_5.index t (0 : Fin 2) * 1 + 1 * (y 0).val = (y 0).val; rw [(idx5 t).1]; omega
  | ⟨1, _⟩ => show win1_5.index t (1 : Fin 2) * 128 + 1 * (y 1).val = (y 1).val; rw [(idx5 t).2]; omega

/-! ## The input arrays are never written -/

theorem final_in (c : Dev nD) (w : Fin cfg1.W) (hw : (cfg1.win w).isOut = false) (n : ℕ) : (dats A O Φ₀ 0 c).arrAt w n = A c w :=
  ((dats A O Φ₀ 0 c).arrAt_in w hw n).trans (A_eq A O Φ₀ c w)

/-! ## st: block by block -/

/-- What point t writes back to st: the block of st. -/
theorem flushed6 (c : Dev nD) (t : Fin cfg1.N) :
    (dats A O Φ₀ 0 c).flushed 6 t = (cfg1.win 6).cut (grid1.coords t)
      (k1_pay2 (blk c (A c) 1 t) (blk c (A c) 2 t) (blk c (A c) 3 t) (blk c (A c) 4 t) (blk c (A c) 5 t)) := by
  show (cfg1.win 6).cut (grid1.coords t) ((dats A O Φ₀ 0 c).after 6 t) = _
  rw [after6]

/-- Two points' blocks of st share no index. -/
theorem disjoint6 : ∀ t t' : Fin cfg1.N, (cfg1.win 6).flush t = true → (cfg1.win 6).flush t' = true → t ≠ t' →
    Disjoint ((cfg1.win 6).blk t).view.set ((cfg1.win 6).blk t').view.set :=
  fun t t' _ _ hne => (cfg1.win 6).disjoint_blk fun h => hne (idx_inj6 t t' h)

/-- An element of block t of the final st is that element of what point t left. -/
theorem final6_emb (c : Dev nD) (t : Fin cfg1.N) (y : S20000x128.Idx) :
    (dats A O Φ₀ 0 c).arrAt 6 cfg1.N (((cfg1.win 6).blk t).view.emb y)
      = k1_pay2 (blk c (A c) 1 t) (blk c (A c) 2 t) (blk c (A c) 3 t) (blk c (A c) 4 t) (blk c (A c) 5 t) y := by
  rw [(dats A O Φ₀ 0 c).arrAt_emb_eq_flushed 6 disjoint6 t (flush1_6 t) y, flushed6]
  rfl

/-- Row 20000 t + r of the final st is row r of the block of st at point t. -/
theorem final6 (c : Dev nD) (t : Fin cfg1.N) (r : Fin 20000) (j : Fin 128) :
    (dats A O Φ₀ 0 c).arrAt 6 cfg1.N (ix2 (⟨20000 * t.val + r.val, by have := hN t; have := r.isLt; omega⟩ : Fin 100000) j)
      = k1_pay2 (blk c (A c) 1 t) (blk c (A c) 2 t) (blk c (A c) 3 t) (blk c (A c) 4 t) (blk c (A c) 5 t) (ix2 r j) := by
  rw [← emb6 t r j]
  exact final6_emb A O Φ₀ c t (ix2 r j)

/-! ## The pooled sum: written back once, whole -/

/-- The last point. -/
abbrev tLast : Fin cfg1.N := ⟨4, by rw [show cfg1.N = 5 from N_1]; decide⟩

theorem disjoint7 : ∀ t t' : Fin cfg1.N, (cfg1.win 7).flush t = true → (cfg1.win 7).flush t' = true → t ≠ t' →
    Disjoint ((cfg1.win 7).blk t).view.set ((cfg1.win 7).blk t').view.set :=
  fun t t' h h' hne => absurd (Fin.ext (by
    have h1 := (flush1_7 t).mp h; have h2 := (flush1_7 t').mp h'; have := hN t; have := hN t'
    omega)) hne

/-- The final pooled sum is the running sum after the last point. -/
theorem final7 (c : Dev nD) : (dats A O Φ₀ 0 c).arrAt 7 cfg1.N = outsAt c (A c) 4 tLast.isLt := by
  funext i
  have he : ((cfg1.win 7).blk tLast).view.emb i = i := by
    funext a; apply Fin.ext
    match a with
    | ⟨0, _⟩ => show win1_7.index tLast (0 : Fin 2) * 64 + 1 * (i 0).val = (i 0).val; rw [(idx7 tLast).1]; omega
    | ⟨1, _⟩ => show win1_7.index tLast (1 : Fin 2) * 128 + 1 * (i 1).val = (i 1).val; rw [(idx7 tLast).2]; omega
  have h := (dats A O Φ₀ 0 c).arrAt_emb_eq_flushed 7 disjoint7 tLast ((flush1_7 tLast).mpr rfl) i
  rw [he] at h
  rw [h]
  show (cfg1.win 7).cut (grid1.coords tLast) ((dats A O Φ₀ 0 c).after 7 tLast) i = _
  rw [after7]
  rfl

end Cert.Proof.TcBody

end
-- ==== Proof.TcRegion.lean ====
/-
  The TensorCore region entered from the program's main thread.

  After the one SparseCore call the TensorCore owes nothing, so the region's proof data owe nothing
  and the staging cells' waits need no evidence. The region is entered holding its eight arrays whole
  at the contents A and leaves them at what the pipeline's write-backs made of them; the kernel has no
  semaphore of its own and no scoped buffer besides the staging buffers, so the invariant between
  points is the (empty) scoped rest. The region's step is proved in the pipelines' table and lifted to
  the table extended with the SparseCore dispatch labels.
-/
import proofs.«208690_g19181323943962_cont_8to1_1746_28_alg».proof.Proof.ScSetup
import proofs.«208690_g19181323943962_cont_8to1_1746_28_alg».proof.Proof.TcValue

set_option maxRecDepth 16384

noncomputable section

namespace Cert.Proof.TcRegion

open Cert.KernelIdeal Cert.KernelIdeal.Gen Cert.Proof.KI Cert.Proof.TcBody
open Idealize.ShloMosaic Idealize.ShloMosaic.TcCoe
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig (HIx 1) (Elt F) ℕ (UU (F := F)) ℕ

/-- The one admissible table: no window is prefetched. -/
abbrev adm : (p : Fin 1) → (pcfgs (F := F) p).Adm := fun p => (cfgs p).toPCfg_adm

/-- The invariant between points: nothing (the core has no scoped buffer besides the staging buffers). -/
abbrev ΦR (c : Dev nD) : sProp (MT nD τ sig (HIx 1) (Elt F) ℕ (UU (F := F)) ℕ) := iprop(emp)

variable (A : (c : Dev nD) → ATy (F := F) c)

/-- The region's proof data: the arrays at `A`, nothing owed, the invariant `ΦR`. -/
abbrev rd : (p : Fin 1) → (c : Dev nD) → Dat τ (Elt F) (HIx 1) ℕ (UU (F := F)) ℕ (Pipeline.pin (pcfgs (F := F)) adm p) c :=
  dats (Ix := HIx 1) (Name := ℕ) (U := UU (F := F)) A 0 ΦR

/-! ## The TensorCore's debts at the region -/

/-- After the one SparseCore call the TensorCore owes nothing. -/
theorem Otc_one (d : Dev nD) : (K (F := F)).Otc d 1 = 0 := (K (F := F)).Otc_end d (le_refl 1)

/-- With one call every recorded pair sits below the bound asked after it. -/
theorem wbelow_all (d : Dev nD) (W : Waits sig (HIx 1)) : (K (F := F)).WBelow (SparseCore.T d : Thread nD τ) W (8 * 1) := fun p _ => by
  rcases hp : p.2 with _ | q
  · rw [SparseCore.Cfg.lev_none]; exact Nat.zero_le _
  · have := (K (F := F)).lev_some_le (T d, p.1) q
    have hq : q.val = 0 := by have := q.isLt; omega
    omega

/-! ## The arrays, one by one -/

/-- The eight windowed arrays on core `c`, each whole at the full share, at contents `X`. -/
def arrs8 (c : Dev nD) (X : ATy (F := F) c) : sProp 𝕄 :=
  iprop((((SparseCore.T c : Thread nD τ).loc main_v1) ↦{fullShare} X 0) ∗ (((SparseCore.T c : Thread nD τ).loc main_arg0) ↦{fullShare} X 1) ∗ (((SparseCore.T c : Thread nD τ).loc main_v2) ↦{fullShare} X 2)
    ∗ (((SparseCore.T c : Thread nD τ).loc main_v3) ↦{fullShare} X 3) ∗ (((SparseCore.T c : Thread nD τ).loc main_v4) ↦{fullShare} X 4) ∗ (((SparseCore.T c : Thread nD τ).loc main_v5) ↦{fullShare} X 5)
    ∗ (((SparseCore.T c : Thread nD τ).loc main_v6_0) ↦{fullShare} X 6) ∗ (((SparseCore.T c : Thread nD τ).loc main_v6_1) ↦{fullShare} X 7))

theorem arrays_eq8 (c : Dev nD) (X : ATy (F := F) c) : (rd A 0 c).arrays X = arrs8 c X := by
  rw [Pipeline.arrays_eq cfgs (rd A) 0 c launch1.arr_whole (fun w => (rd A 0 c).share_full (fun _ => rfl) w) X, bigSep_W1]
  rfl

/-! ## The region's record -/

section Aux

variable {Pa Po S Lv Pf Pr : sProp (MT nD τ sig (HIx 1) (Elt F) ℕ (UU (F := F)) ℕ)}

theorem hentry_aux (hS : Pf = (iprop(emp) : sProp 𝕄)) :
    iprop(iprop(Pa ∗ Po) ∗ S ∗ Lv) ⊢ |={(Set.univ : Set ℕ)}=> iprop(Pa ∗ Pf ∗ Po ∗ iprop(emp) ∗ iprop(emp)) := by
  subst hS
  iintro ⟨⟨Ha, Ho⟩, -, -⟩
  imodintro
  isplitl [Ha]; · iexact Ha
  isplitr; · iempintro
  isplitl [Ho]; · iexact Ho
  isplitr <;> iempintro

theorem hin_aux : Pa ⊢ (iprop(emp) : sProp (MT nD τ sig (HIx 1) (Elt F) ℕ (UU (F := F)) ℕ)) := by iintro -; iempintro

theorem hout_aux (hS : S = (iprop(emp) : sProp 𝕄)) (hP : Pr = (iprop(emp) : sProp 𝕄)) :
    (iprop(emp) : sProp (MT nD τ sig (HIx 1) (Elt F) ℕ (UU (F := F)) ℕ)) ⊢ iprop(iprop(emp) ∗ S ∗ Pr) := by
  subst hS; subst hP
  iintro -
  isplitr; · iempintro
  isplitr <;> iempintro

theorem hexit_aux : iprop(Pa ∗ Po ∗ iprop(emp) ∗ iprop(emp)) ⊢ |={(Set.univ : Set ℕ)}=> iprop(Pa ∗ Po) := by
  iintro ⟨Ha, Ho, -, -⟩
  imodintro
  isplitl [Ha]; · iexact Ha
  iexact Ho

end Aux

/-- No table is prefetched: nothing is held of one. -/
theorem prefHeld_none (c : Dev nD) (q : Fin (pcfgs (F := F) 0).pre.K → PosShare TreeShare) :
    (Pipeline.prefHeld (pcfgs (F := F) 0).pre c q (adm (F := F) 0).1 : sProp 𝕄) = iprop(emp) := by
  unfold Pipeline.prefHeld; rw [Finset.univ_eq_empty, BI.bigSep_empty]; rfl

/-- The core has no scoped buffer besides the staging buffers. -/
theorem scopedRest_pin (c : Dev nD) :
    (Pipeline.scopedRest (Pipeline.pin (pcfgs (F := F)) adm 0).spec c : sProp 𝕄) = iprop(emp) := scopedRest1_eq c

/-- The region: its layout as the launch decides it, no semaphore of its own, the body obligation, no wait
    evidence needed; entered from the arrays at `A` and the core's debts (none), left at the arrays as the
    write-backs made them. -/
def R : Pipeline.RegionSeg (pcfgs (F := F)) adm (rd A) none (defs₀ (F := F)) 𝒱₀ (K (F := F)).L (K (F := F)).lev 0 where
  win := launch1.win.to₀
  block_pos := launch1.block_pos
  stage_whole := launch1.stage_whole
  K := PEmpty
  osem := fun k => k.elim
  ho := Pipeline.OwnSemFacts.none _
  hbody c := body_obligation A 0 ΦR none c
  hwaits c := (show (levAts (K (F := F)).L (K (F := F)).lev : sProp 𝕄) ⊢ BI.emp from by iintro -; iempintro).trans
    (Pipeline.cellsWaits_of_owed_zero (Pipeline.pin (pcfgs (F := F)) adm) (rd A) none 0 c fun _ => rfl)
  pre c := iprop((rd A 0 c).arrays ((rd A 0 c).arrAt · 0) ∗ (rd A 0 c).owesAt none 0)
  post c := iprop((rd A 0 c).arrays ((rd A 0 c).arrAt · (Pipeline.pin (pcfgs (F := F)) adm 0).N)
    ∗ (rd A 0 c).owesAt none (Fin.last (Pipeline.pin (pcfgs (F := F)) adm 0).N))
  X _ := iprop(emp)
  Y _ := iprop(emp)
  Z _ := iprop(emp)
  hentry c := hentry_aux (prefHeld_none c _)
  hin c := hin_aux
  hout c := hout_aux (Pipeline.ownSems0_none nD τ sig (Elt F) (HIx 1) ℕ (UU (F := F)) ℕ c) (scopedRest_pin c)
  hexit c := hexit_aux

theorem R_pre (c : Dev nD) : (R A).pre c = iprop((rd A 0 c).arrays (A c) ∗ (rd A 0 c).owesAt none 0) := rfl
theorem R_post (c : Dev nD) :
    (R A).post c = iprop((rd A 0 c).arrays (fun w => (rd A 0 c).arrAt w cfg1.N) ∗ (rd A 0 c).owesAt none (Fin.last cfg1.N)) := rfl

/-- The region is entered from the eight arrays at `A` and the core owing nothing. -/
theorem pre_of (c : Dev nD) : iprop(arrs8 c (A c) ∗ (∃ W, owes (SparseCore.T c : Thread nD τ) (0 : CellTallies nD τ sig (HIx 1)) W)) ⊢ ((R A).pre c : sProp 𝕄) := by
  rw [R_pre, arrays_eq8]
  iintro ⟨Ha, ⟨%W, Ho⟩⟩
  isplitl [Ha]; · iexact Ha
  iexists W; isplitr
  · ipureintro; exact Set.subset_union_of_subset_left (Set.subset_univ _) _
  iexact Ho

/-- It leaves the eight arrays at their final contents and the core owing nothing. -/
theorem post_to (c : Dev nD) :
    ((R A).post c : sProp 𝕄) ⊢ iprop(arrs8 c (fun w => (rd A 0 c).arrAt w cfg1.N) ∗ (∃ W, owes (SparseCore.T c : Thread nD τ) (0 : CellTallies nD τ sig (HIx 1)) W)) := by
  rw [R_post, arrays_eq8]
  iintro ⟨Ha, ⟨%W, -, Ho⟩⟩
  isplitl [Ha]; · iexact Ha
  iexists W; iexact Ho

/-! ## The region's step in the extended table -/

set_option backward.isDefEq.respectTransparency.types false in
/-- The region of any record, met in the main thread under the table extended with the dispatch labels: the call is the
    lifted call followed by the continuation, and the lifted call runs as the region rule says. -/
theorem region_step_of
    (pdats : (p : Fin 1) → (c : Dev nD) → Dat τ (Elt F) (HIx 1) ℕ (UU (F := F)) ℕ (Pipeline.pin (pcfgs (F := F)) adm p) c)
    (ι : HIx 1)
    (R : Pipeline.RegionSeg (pcfgs (F := F)) adm pdats ι (defs₀ (F := F)) 𝒱₀ (K (F := F)).L (K (F := F)).lev 0) (d : Dev nD)
    {α : Type} (k : PUnit → Prog (TpuEff nD τ sig (Elt F) (SparseCore.Sig (ΛP (F := F)) 1) .tc) α) (Q : α → sProp 𝕄) :
    iprop((iprop(boundary (SparseCore.T d : Thread nD τ) ∗ R.post d) -∗ wp frame (wpE ((K (F := F)).defs (D (F := F))) 𝒱 (SparseCore.T d : Thread nD τ) none) Set.univ (k ⟨⟩) Q)
        ∗ boundary (SparseCore.T d : Thread nD τ) ∗ R.pre d ∗ levAts (K (F := F)).L (K (F := F)).lev
        ∗ Pipeline.cellsGhost (Pipeline.pin (pcfgs (F := F)) adm) (EP (F := F)) 0 d ∗ Pipeline.toksInit (Pipeline.pin (pcfgs (F := F)) adm) (EP (F := F)) 0 d)
      ⊢ wp frame (wpE ((K (F := F)).defs (D (F := F))) 𝒱 (SparseCore.T d : Thread nD τ) none) Set.univ
          (.op (.customCall (SparseCore.inner (Pipeline.entry 0)) ()) k) Q := by
  rw [show (Prog.op (.customCall (SparseCore.inner (Pipeline.entry (0 : Fin 1))) ()) k
        : Prog (TpuEff nD τ sig (Elt F) (SparseCore.Sig (ΛP (F := F)) 1) .tc) α)
      = (SparseCore.liftProg (Prog.op (.customCall (Pipeline.entry (0 : Fin 1)) ()) fun x => Prog.ret x) >>= k) from rfl, wp_bind]
  refine BI.Entails.trans ?_ ((K (F := F)).wp_liftProg (D (F := F)) 𝒱 (SparseCore.T d : Thread nD τ) Set.univ none _ _)
  refine BI.Entails.trans ?_ (Pipeline.RegionSeg.wp (pcfgs (F := F)) adm pdats ι cellOf_inj (EP (F := F)) (defs₀ (F := F)) 𝒱₀ _ _ R d none (fun _ h => by cases h) (fun x => Prog.ret x) _)
  show (_ : sProp 𝕄) ⊢ _
  iintro ⟨Hk, Hb, Hpre, Hlev, Hg, Ht⟩
  isplitl [Hk]
  · iintro H; rw [wp_ret]; imodintro; iapply Hk; iexact H
  isplitl [Hb]; · iexact Hb
  isplitl [Hpre]; · iexact Hpre
  isplitl [Hlev]; · iexact Hlev
  isplitl [Hg]; · iexact Hg
  iexact Ht

/-- The region of this program, from the eight arrays at `A` and the core owing nothing, to the arrays at their final
    contents and the core owing nothing. -/
theorem region_step (d : Dev nD)
    {α : Type} (k : PUnit → Prog (TpuEff nD τ sig (Elt F) (SparseCore.Sig (ΛP (F := F)) 1) .tc) α) (Q : α → sProp 𝕄) :
    iprop((iprop(boundary (SparseCore.T d : Thread nD τ) ∗ arrs8 d (fun w => (rd A 0 d).arrAt w cfg1.N) ∗ (∃ W, owes (SparseCore.T d : Thread nD τ) (0 : CellTallies nD τ sig (HIx 1)) W))
            -∗ wp frame (wpE ((K (F := F)).defs (D (F := F))) 𝒱 (SparseCore.T d : Thread nD τ) none) Set.univ (k ⟨⟩) Q)
        ∗ boundary (SparseCore.T d : Thread nD τ) ∗ arrs8 d (A d) ∗ (∃ W, owes (SparseCore.T d : Thread nD τ) (0 : CellTallies nD τ sig (HIx 1)) W) ∗ levAts (K (F := F)).L (K (F := F)).lev
        ∗ Pipeline.cellsGhost (Pipeline.pin (pcfgs (F := F)) adm) (EP (F := F)) 0 d ∗ Pipeline.toksInit (Pipeline.pin (pcfgs (F := F)) adm) (EP (F := F)) 0 d)
      ⊢ wp frame (wpE ((K (F := F)).defs (D (F := F))) 𝒱 (SparseCore.T d : Thread nD τ) none) Set.univ
          (.op (.customCall (SparseCore.inner (Pipeline.entry 0)) ()) k) Q := by
  refine BI.Entails.trans ?_ (region_step_of (rd A) none (R A) d k Q)
  show (_ : sProp 𝕄) ⊢ _
  iintro ⟨Hk, Hb, Ha, Ho, Hlev, Hg, Ht⟩
  isplitl [Hk]
  · iintro ⟨Hb, Hp⟩; iapply Hk
    isplitl [Hb]; · iexact Hb
    iapply (post_to A d); iexact Hp
  isplitl [Hb]; · iexact Hb
  isplitl [Ha Ho]
  · iapply (pre_of A d); isplitl [Ha]; · iexact Ha
    iexact Ho
  isplitl [Hlev]; · iexact Hlev
  isplitl [Hg]; · iexact Hg
  iexact Ht

/-! ## The arrays' contents, named one by one -/

/-- Contents of the eight windowed arrays on core `c`, from one per array. -/
def mkA (c : Dev nD)
    (a0 : Buf (Elt F) ((SparseCore.T c : Thread nD τ).loc main_v1)) (a1 : Buf (Elt F) ((SparseCore.T c : Thread nD τ).loc main_arg0))
    (a2 : Buf (Elt F) ((SparseCore.T c : Thread nD τ).loc main_v2)) (a3 : Buf (Elt F) ((SparseCore.T c : Thread nD τ).loc main_v3))
    (a4 : Buf (Elt F) ((SparseCore.T c : Thread nD τ).loc main_v4)) (a5 : Buf (Elt F) ((SparseCore.T c : Thread nD τ).loc main_v5))
    (a6 : Buf (Elt F) ((SparseCore.T c : Thread nD τ).loc main_v6_0)) (a7 : Buf (Elt F) ((SparseCore.T c : Thread nD τ).loc main_v6_1)) :
    ATy (F := F) c := fun w => match w with
  | ⟨0, _⟩ => a0 | ⟨1, _⟩ => a1 | ⟨2, _⟩ => a2 | ⟨3, _⟩ => a3 | ⟨4, _⟩ => a4 | ⟨5, _⟩ => a5 | ⟨6, _⟩ => a6 | ⟨7, _⟩ => a7

/-- The eight arrays at such contents, each named. -/
theorem arrs8_mk (c : Dev nD) (a0 a1 a2 a3 a4 a5 a6 a7) :
    arrs8 (F := F) c (mkA c a0 a1 a2 a3 a4 a5 a6 a7)
      = iprop((((SparseCore.T c : Thread nD τ).loc main_v1) ↦{fullShare} a0) ∗ (((SparseCore.T c : Thread nD τ).loc main_arg0) ↦{fullShare} a1)
        ∗ (((SparseCore.T c : Thread nD τ).loc main_v2) ↦{fullShare} a2) ∗ (((SparseCore.T c : Thread nD τ).loc main_v3) ↦{fullShare} a3)
        ∗ (((SparseCore.T c : Thread nD τ).loc main_v4) ↦{fullShare} a4) ∗ (((SparseCore.T c : Thread nD τ).loc main_v5) ↦{fullShare} a5)
        ∗ (((SparseCore.T c : Thread nD τ).loc main_v6_0) ↦{fullShare} a6) ∗ (((SparseCore.T c : Thread nD τ).loc main_v6_1) ↦{fullShare} a7)) := rfl

/-- What the two results hold when the region ends. -/
abbrev KST (c : Dev nD) : Buf (Elt F) ((SparseCore.T c : Thread nD τ).loc main_v6_0) := (rd A 0 c).arrAt 6 cfg1.N
abbrev KOUT (c : Dev nD) : Buf (Elt F) ((SparseCore.T c : Thread nD τ).loc main_v6_1) := (rd A 0 c).arrAt 7 cfg1.N

/-- The arrays when the region ends: the six inputs as they were, the two results as the write-backs made them. -/
theorem final_eq (c : Dev nD) :
    (fun w => (rd A 0 c).arrAt w cfg1.N) = mkA c (A c 0) (A c 1) (A c 2) (A c 3) (A c 4) (A c 5) (KST A c) (KOUT A c) := by
  funext w
  match w with
  | ⟨0, _⟩ => exact final_in A 0 ΦR c 0 rfl _
  | ⟨1, _⟩ => exact final_in A 0 ΦR c 1 rfl _
  | ⟨2, _⟩ => exact final_in A 0 ΦR c 2 rfl _
  | ⟨3, _⟩ => exact final_in A 0 ΦR c 3 rfl _
  | ⟨4, _⟩ => exact final_in A 0 ΦR c 4 rfl _
  | ⟨5, _⟩ => exact final_in A 0 ΦR c 5 rfl _
  | ⟨6, _⟩ => rfl
  | ⟨7, _⟩ => rfl

/-- The region leaves the six inputs at their entry contents, the two results at `KST` and `KOUT`, and the core owing nothing. -/
theorem post_final (c : Dev nD) :
    ((R A).post c : sProp 𝕄) ⊢ iprop(arrs8 c (mkA c (A c 0) (A c 1) (A c 2) (A c 3) (A c 4) (A c 5) (KST A c) (KOUT A c))
      ∗ (∃ W, owes (SparseCore.T c : Thread nD τ) (0 : CellTallies nD τ sig (HIx 1)) W)) := by
  rw [← final_eq]
  exact post_to A c

/-! ## The staging cells' launch ghost state -/

/-- The launch element of the staging cells' rounds. -/
abbrev eP : UP := initOf (Pipeline.cells (Pipeline.pin (pcfgs (F := F)) adm) cellOf_inj) (Pipeline.launchToks (Pipeline.pin (pcfgs (F := F)) adm) cellOf_inj)

/-- What the region's step takes of the staging cells on core `d`: their launch ghost state and the duty tokens. -/
abbrev GP (d : Dev nD) : sProp (MT nD τ sig (HIx 1) (Elt F) ℕ (UU (F := F)) ℕ) :=
  iprop(Pipeline.cellsGhost (Pipeline.pin (pcfgs (F := F)) adm) (EP (F := F)) 0 d ∗ Pipeline.toksInit (Pipeline.pin (pcfgs (F := F)) adm) (EP (F := F)) 0 d)

theorem bigSep_fin1 (f : Fin 1 → sProp 𝕄) : bigSep Finset.univ f = f 0 := by
  rw [show (Finset.univ : Finset (Fin 1)) = {0} from rfl, BI.bigSep_singleton]

/-- From the launch element, every core's ghost state and tokens. -/
theorem hfund : (BI.own ((EP (F := F)) (eP (F := F))) : sProp 𝕄) ⊢ |={(Set.univ : Set ℕ)}=> bigSep Finset.univ fun d : Dev nD => GP (F := F) d := by
  iintro Hu
  imod (Pipeline.fund_ghost (Pipeline.pin (pcfgs (F := F)) adm) (EP (F := F)) cellOf_inj) $$ Hu with ⟨Hg, Ht⟩
  imodintro
  simp only [bigSep_fin1]
  unfold GP
  isplitl [Hg]; · iexact Hg
  iexact Ht

end Cert.Proof.TcRegion

end
-- ==== Proof.LibWriteModeShares.lean ====
/-
  Write-mode assertions split along the share into tokens and rejoin with their marks united.

  A write-mode assertion over elements I at share q records, for its holder, which elements it knows
  written (its marks). Two holders at complementary shares agree on old values and targets, and their
  marks join: the assertion at q with marks W₁ ∪ W₂ is the two assertions at the halves with marks W₁
  and W₂. Iterating along q's left halves gives n tokens (the i-th is the right half of q halved i
  times) and a remainder; handed out with the same marks and collected with whatever each holder has
  marked, they rejoin at q with the union of all the marks.
-/
import Idealize.SL.BI.Region
import Idealize.ShloMosaic.Lib.Transfers

universe u v w

namespace Cert.LibWriteModeShares

open Idealize.SL
open Idealize.SL.BI (sProp)
open scoped Idealize.SL.BI
open Idealize.SL.BI.BIBase Idealize.SL.BI.Laws Idealize.SL.ProofMode
open Idealize.SL.RA Idealize.SL.RA.Region
open Idealize.SL.BI.Region (willBe held_share)
open PCS URA Auth PosShare
open Idealize.ShloMosaic.Transfers (shareDrop shareTokN)

variable {K : Type u} [DecidableEq K] {Ix : K → Type}
variable [∀ k, DecidableEq (Ix k)] {V : K → Type v}
variable {M : Type w} [URA M] {ι : Emb (Auth (Carrier Ix fun k => WB (V k))) M}
variable {k : K} {I : Finset (Ix k)} {q q₁ q₂ : PosShare TreeShare}
variable {f : Ix k → V k} {t : Ix k → Option (V k)} {W₁ W₂ : Finset (Ix k)}

/-- Along the share: old values and targets agree, marks join. -/
theorem willBe_share (h : q ∈ q₁ ·? q₂) :
    willBe ι k I q f t (W₁ ∪ W₂) ⊣⊢ willBe ι k I q₁ f t W₁ ∗ willBe ι k I q₂ f t W₂ :=
  held_share h fun i _ => by
    have e : decide (i ∈ W₁ ∪ W₂) = (decide (i ∈ W₁) || decide (i ∈ W₂)) := by
      simp only [Finset.mem_union, Bool.decide_or]
    rw [e]
    exact WB.mem_mk_op_mk (f i) (t i) (decide (i ∈ W₁)) (decide (i ∈ W₂))

/-- The remainder after n tokens with marks Wd, and the n tokens with marks Ws i, are the assertion at
    q with all the marks. -/
theorem willBe_toks_range (q : PosShare TreeShare) (Ws : ℕ → Finset (Ix k)) (n : ℕ) : ∀ Wd : Finset (Ix k),
    willBe ι k I q f t (Wd ∪ (Finset.range n).biUnion Ws)
      ⊣⊢ iprop(willBe ι k I (shareDrop q n) f t Wd
          ∗ BI.bigSep (Finset.range n) (fun i => willBe ι k I (shareTokN q i) f t (Ws i))) := by
  induction n with
  | zero =>
    intro Wd
    rw [Finset.range_zero, BI.bigSep_empty, Finset.biUnion_empty, Finset.union_empty]
    exact ⟨sep_emp.2, sep_emp.1⟩
  | succ n ih =>
    intro Wd
    have hs : willBe ι k I (shareDrop q n) f t (Wd ∪ Ws n)
        ⊣⊢ iprop(willBe ι k I (shareDrop q (n + 1)) f t Wd ∗ willBe ι k I (shareTokN q n) f t (Ws n)) :=
      willBe_share (PosShare.mem_left_op_right _)
    have hb : BI.bigSep (Finset.range (n + 1)) (fun i => willBe ι k I (shareTokN q i) f t (Ws i))
        = iprop(willBe ι k I (shareTokN q n) f t (Ws n)
            ∗ BI.bigSep (Finset.range n) (fun i => willBe ι k I (shareTokN q i) f t (Ws i))) := by
      rw [Finset.range_add_one, BI.bigSep_insert Finset.notMem_range_self]; rfl
    have hW : Wd ∪ (Finset.range (n + 1)).biUnion Ws = (Wd ∪ Ws n) ∪ (Finset.range n).biUnion Ws := by
      rw [Finset.range_add_one, Finset.biUnion_insert, Finset.union_assoc]
    rw [hb, hW]
    constructor
    · refine (ih (Wd ∪ Ws n)).1.trans ((sep_mono_left hs.1).trans ?_)
      iintro ⟨⟨Hd, Ht⟩, Hts⟩
      isplitl [Hd]; · iexact Hd
      isplitl [Ht] <;> iassumption
    · refine Entails.trans ?_ ((sep_mono_left hs.2).trans (ih (Wd ∪ Ws n)).2)
      iintro ⟨Hd, Ht, Hts⟩
      isplitl [Hd Ht]; · isplitl [Hd] <;> iassumption
      iexact Hts

end Cert.LibWriteModeShares
-- ==== Proof.ScRes.lean ====
/-
  What each of the 32 tasks of the SparseCore call holds, and the call's payload record.

  Task (c, s) has number 16 c + s. It holds the token of that number of the full share of batch and of
  gnn (read only), and the same token of the composed array held in write mode towards the words
  batch (gnn n). Its slice of the composed array is the 3136 entries from the offset the body computes:
  3136 (2 s + c), except for the last task (2 s + c = 31), whose slice is re-based to end at 100000.
-/
import proofs.«208690_g19181323943962_cont_8to1_1746_28_alg».proof.Proof.ScSetup
import proofs.«208690_g19181323943962_cont_8to1_1746_28_alg».proof.Proof.LibWriteModeShares

noncomputable section

namespace Cert.Proof.KI

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 1) (Elt F) ℕ (UU (F := F)) ℕ

local notation "gW" => (Memref.whole Cert.KernelIdeal.main_arg5_scv : Memref Cert.KernelIdeal.sig Kind.scVector Space.hbm Cert.KernelIdeal.S100000 EltTy.i32)
local notation "oW" => (Memref.whole Cert.KernelIdeal.main_v0_scv : Memref Cert.KernelIdeal.sig Kind.scVector Space.hbm Cert.KernelIdeal.S100000 EltTy.i32)

variable (m : (ℓ : Loc nD τ sig) → Buf (Elt F) ℓ)

abbrev cV (L : grid0.Coords) : Fin τ.nSC := (L 0).castLE hcore0
abbrev jV (L : grid0.Coords) : Fin τ.nSub := (L 1).castLE hsub0
abbrev VT (d : Dev nD) (L : grid0.Coords) : Thread nD τ := V d (cV L) (jV L)

/-- The grid coordinates of task (c, s), as the body table spells them. -/
def coordsV (c : Fin (grid0.bound 0)) (s : Fin (grid0.bound 1)) : grid0.Coords :=
  fun | 0 => c | 1 => s | ⟨_ + 2, h⟩ => absurd h (Nat.not_lt.2 (Nat.le_add_left _ _))

/-- The task's number among the 32, and its share token. -/
abbrev jn (L : grid0.Coords) : ℕ := 16 * (L 0).val + (L 1).val
abbrev tq (L : grid0.Coords) : PosShare TreeShare := Transfers.shareTokN fullShare (jn L)

/-- The task's slices of the composed array and of gnn, as the body slices them. -/
abbrev oSl (L : grid0.Coords) : Memref sig .scVector .hbm S3136 .i32 :=
  (oW).slice (Rect.unit (s := S100000) (k0_off1 L) S3136.size (k0_off1_inb L)) (fun _ => rfl)
abbrev gSl (L : grid0.Coords) : Memref sig .scVector .hbm S3136 .i32 :=
  (gW).slice (Rect.unit (s := S100000) (k0_off1 L) S3136.size (k0_off1_inb L)) (fun _ => rfl)
abbrev sliceSet (d : Dev nD) (L : grid0.Coords) : Finset (Idx (oLoc d)) := (oSl L).view.set

/-- What a task holds: its share of batch and of gnn, and its share of the composed array in write mode
    with marks W. -/
def tileRes (d : Dev nD) (L : grid0.Coords) (W : Finset (Idx (oLoc d))) : sProp 𝕄 :=
  iprop((bLoc d ↦{tq L} m (bLoc d)) ∗ (gLoc d ↦{tq L} m (gLoc d))
    ∗ willBeTo (wmE (F := F)) (oLoc d) Finset.univ (tq L) (m (oLoc d)) (cidTgt m d) W)

/-- What the proof asks of the launch memory: every word of gnn names a graph. -/
def PreOK : Prop := ∀ (d : Dev nD) (n : Idx (gLoc d)), ((m (gLoc d) : S100000.Idx → BitVec 32) n).toNat < 2048

end Cert.Proof.KI

end
-- ==== Proof.ScSplit.lean ====
/-
  The SparseCore call's payloads, and how the full shares split into the 32 tasks' and join back.

  Before the call the TensorCore holds batch and gnn at the full share and the composed array in write
  mode at the full share, nothing marked. The full share is a remainder and 32 tokens; token 16 c + s
  goes to task (c, s), and the 16 tasks of SparseCore c together are what that SparseCore's start takes.
  Each task returns its token with its slice of the composed array marked written. The 32 slices cover
  all 100000 entries: entry n lies in the slice of task min (n / 3136) 31. So the tokens joined back with
  the remainder are the full share with every entry marked.
-/
import proofs.«208690_g19181323943962_cont_8to1_1746_28_alg».proof.Proof.ScRes

noncomputable section

namespace Cert.Proof.KI

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 1) (Elt F) ℕ (UU (F := F)) ℕ

local notation "gW" => (Memref.whole Cert.KernelIdeal.main_arg5_scv : Memref Cert.KernelIdeal.sig Kind.scVector Space.hbm Cert.KernelIdeal.S100000 EltTy.i32)
local notation "oW" => (Memref.whole Cert.KernelIdeal.main_v0_scv : Memref Cert.KernelIdeal.sig Kind.scVector Space.hbm Cert.KernelIdeal.S100000 EltTy.i32)

variable (m : (ℓ : Loc nD τ sig) → Buf (Elt F) ℓ)

/-! ## The payloads -/

/-- The call's SparseCores and subcores are the kernel's grid. -/
theorem nCore_bound : (K (F := F)).nCore 0 = grid0.bound 0 := rfl
theorem nSub_bound : (K (F := F)).nSub 0 = grid0.bound 1 := rfl

/-- What a task holds mentions ownership only. -/
instance tileRes_storable (d : Dev nD) (L : grid0.Coords) (W : Finset (Idx (oLoc d))) :
    BI.Storable (upEmb : UEmb _ 𝕄) (tileRes m d L W) := by
  unfold tileRes; infer_instance

/-- The one call: SparseCore c's start takes its 16 tasks' holdings, nothing marked; task (c, i) is handed its
    own; each hands it back with its slice marked, and the SparseCore's done returns the 16 of them. Every
    thread is given the write-mode invariant. -/
def P : (K (F := F)).Pay (nD := nD) (Val := Elt F) (Name := ℕ) (U := UU (F := F)) where
  st := fun q d c => match q with
    | 0 => bigSep Finset.univ fun i : Fin (grid0.bound 1) => tileRes m d (coordsV (Fin.cast nCore_bound c) i) ∅
  dn := fun q d c => match q with
    | 0 => bigSep Finset.univ fun i : Fin (grid0.bound 1) =>
        tileRes m d (coordsV (Fin.cast nCore_bound c) i) (sliceSet d (coordsV (Fin.cast nCore_bound c) i))
  go := fun q d c i => match q with
    | 0 => tileRes m d (coordsV (Fin.cast nCore_bound c) (Fin.cast nSub_bound i)) ∅
  td := fun q d c i => match q with
    | 0 => tileRes m d (coordsV (Fin.cast nCore_bound c) (Fin.cast nSub_bound i))
        (sliceSet d (coordsV (Fin.cast nCore_bound c) (Fin.cast nSub_bound i)))
  x := fun _ _ => iprop(∃ ιwm : ℕ, wmInv (Ix := HIx 1) (wmE (F := F)) ιwm)

instance P_storable : (P (F := F) m).IsStorable where
  st q d c := match q with
    | 0 => (inferInstance : BI.Storable (upEmb : UEmb _ 𝕄)
        (bigSep Finset.univ fun i : Fin (grid0.bound 1) => tileRes m d (coordsV (Fin.cast nCore_bound c) i) ∅))
  dn q d c := match q with
    | 0 => (inferInstance : BI.Storable (upEmb : UEmb _ 𝕄)
        (bigSep Finset.univ fun i : Fin (grid0.bound 1) =>
          tileRes m d (coordsV (Fin.cast nCore_bound c) i) (sliceSet d (coordsV (Fin.cast nCore_bound c) i))))
  go q d c i := match q with
    | 0 => (inferInstance : BI.Storable (upEmb : UEmb _ 𝕄)
        (tileRes m d (coordsV (Fin.cast nCore_bound c) (Fin.cast nSub_bound i)) ∅))
  td q d c i := match q with
    | 0 => (inferInstance : BI.Storable (upEmb : UEmb _ 𝕄)
        (tileRes m d (coordsV (Fin.cast nCore_bound c) (Fin.cast nSub_bound i))
          (sliceSet d (coordsV (Fin.cast nCore_bound c) (Fin.cast nSub_bound i)))))

/-! ## A SparseCore's holdings are its 16 tasks' -/

/-- The tasks indexed by the call's own subcore count are the grid's tasks. -/
theorem bigSep_tasks (Φ : Fin (grid0.bound 1) → sProp 𝕄) :
    (bigSep Finset.univ fun i : Fin ((K (F := F)).nSub 0) => Φ (Fin.cast nSub_bound i)) = bigSep Finset.univ Φ :=
  bigSep_congr fun _ _ => congrArg Φ (Fin.ext rfl)

/-- The same for the SparseCores. -/
theorem bigSep_cores (Φ : Fin (grid0.bound 0) → sProp 𝕄) :
    (bigSep Finset.univ fun c : Fin ((K (F := F)).nCore 0) => Φ (Fin.cast nCore_bound c)) = bigSep Finset.univ Φ :=
  bigSep_congr fun _ _ => congrArg Φ (Fin.ext rfl)

theorem vecSplit : (K (F := F)).VecSplit' (P m) 0 := by
  intro d c
  show (bigSep Finset.univ fun i : Fin (grid0.bound 1) => tileRes m d (coordsV (Fin.cast nCore_bound c) i) ∅) ⊢ |={Set.univ}=> iprop(
      (bigSep Finset.univ fun i : Fin ((K (F := F)).nSub 0) =>
        tileRes m d (coordsV (Fin.cast nCore_bound c) (Fin.cast nSub_bound i)) ∅)
      ∗ ((bigSep Finset.univ fun i : Fin ((K (F := F)).nSub 0) =>
          tileRes m d (coordsV (Fin.cast nCore_bound c) (Fin.cast nSub_bound i))
            (sliceSet d (coordsV (Fin.cast nCore_bound c) (Fin.cast nSub_bound i))))
          -∗ bigSep Finset.univ fun i : Fin (grid0.bound 1) =>
            tileRes m d (coordsV (Fin.cast nCore_bound c) i) (sliceSet d (coordsV (Fin.cast nCore_bound c) i))))
  rw [bigSep_tasks (F := F) (fun i => tileRes m d (coordsV (Fin.cast nCore_bound c) i) ∅),
    bigSep_tasks (F := F) (fun i => tileRes m d (coordsV (Fin.cast nCore_bound c) i) (sliceSet d (coordsV (Fin.cast nCore_bound c) i)))]
  iintro H; imodintro
  isplitl [H]; · iexact H
  iintro H; iexact H

/-! ## The 32 slices cover the composed array -/

/-- Entry n lies in task L's slice when it is at or after the slice's offset and fewer than 3136 entries past it. -/
theorem mem_sliceSet (d : Dev nD) (L : grid0.Coords) (n : Idx (oLoc d)) :
    n ∈ sliceSet d L ↔ k0_off1 L 0 ≤ (n 0).val ∧ (n 0).val < k0_off1 L 0 + 3136 := by
  show n ∈ ((View.whole main_v0_scv).slice (Rect.unit (s := S100000) (k0_off1 L) S3136.size (k0_off1_inb L))).set ↔ _
  rw [View.set_slice_whole, Rect.mem_set_unit]
  exact Fin.forall_fin_one

/-- The offset of task (c, s): 3136 (2 s + c), except the last task's, which ends at 100000. -/
theorem off_coordsV (c : Fin (grid0.bound 0)) (s : Fin (grid0.bound 1)) :
    k0_off1 (coordsV c s) 0 = if 2 * s.val + c.val = 31 then 96864 else 6272 * s.val + 3136 * c.val := by
  rw [k0_off1_eq]; rfl

/-- Every entry lies in some task's slice: entry n in that of task min (n / 3136) 31. -/
theorem slices_cover (d : Dev nD) :
    (Finset.univ : Finset (Fin (grid0.bound 0) × Fin (grid0.bound 1))).biUnion (fun p => sliceSet d (coordsV p.1 p.2))
      = Finset.univ := by
  ext n
  simp only [Finset.mem_biUnion, Finset.mem_univ, true_and, iff_true]
  have hn : (n 0).val < 100000 := (n 0).isLt
  refine ⟨(⟨min ((n 0).val / 3136) 31 % 2, by show _ < 2; omega⟩, ⟨min ((n 0).val / 3136) 31 / 2, by show _ < 16; omega⟩), ?_⟩
  rw [mem_sliceSet, off_coordsV]
  show (if 2 * (min ((n 0).val / 3136) 31 / 2) + min ((n 0).val / 3136) 31 % 2 = 31 then 96864
        else 6272 * (min ((n 0).val / 3136) 31 / 2) + 3136 * (min ((n 0).val / 3136) 31 % 2)) ≤ (n 0).val
      ∧ (n 0).val < (if 2 * (min ((n 0).val / 3136) 31 / 2) + min ((n 0).val / 3136) 31 % 2 = 31 then 96864
        else 6272 * (min ((n 0).val / 3136) 31 / 2) + 3136 * (min ((n 0).val / 3136) 31 % 2)) + 3136
  split <;> omega

/-! ## The full shares split into the remainder and the 32 tasks' tokens, and join back -/

/-- What the TensorCore keeps during the call: the remainder of the three full shares after 32 tokens, the composed
    array's with marks W. -/
def Rem (d : Dev nD) (W : Finset (Idx (oLoc d))) : sProp 𝕄 :=
  iprop((bLoc d ↦{Transfers.shareDrop fullShare 32} m (bLoc d)) ∗ (gLoc d ↦{Transfers.shareDrop fullShare 32} m (gLoc d))
    ∗ willBeTo (wmE (F := F)) (oLoc d) Finset.univ (Transfers.shareDrop fullShare 32) (m (oLoc d)) (cidTgt m d) W)

/-- Token j of the three, the composed array's with marks W: what the task numbered j holds. -/
def Tok (d : Dev nD) (j : ℕ) (W : Finset (Idx (oLoc d))) : sProp 𝕄 :=
  iprop((bLoc d ↦{Transfers.shareTokN fullShare j} m (bLoc d)) ∗ (gLoc d ↦{Transfers.shareTokN fullShare j} m (gLoc d))
    ∗ willBeTo (wmE (F := F)) (oLoc d) Finset.univ (Transfers.shareTokN fullShare j) (m (oLoc d)) (cidTgt m d) W)

theorem tileRes_eq_tok (d : Dev nD) (L : grid0.Coords) (W : Finset (Idx (oLoc d))) : tileRes m d L W = Tok m d (jn L) W := rfl

/-- The three full shares, the composed array's with the remainder's and every token's marks, are the remainder
    and the 32 tokens with their own marks. -/
theorem full_toks (d : Dev nD) (Ws : ℕ → Finset (Idx (oLoc d))) (Wd : Finset (Idx (oLoc d))) :
    iprop((bLoc d ↦{fullShare} m (bLoc d)) ∗ (gLoc d ↦{fullShare} m (gLoc d))
        ∗ willBeTo (wmE (F := F)) (oLoc d) Finset.univ fullShare (m (oLoc d)) (cidTgt m d) (Wd ∪ (Finset.range 32).biUnion Ws))
      ⊣⊢ iprop(Rem m d Wd ∗ bigSep (Finset.range 32) fun j => Tok m d j (Ws j)) := by
  have hb : (bLoc d ↦{fullShare} m (bLoc d) : sProp 𝕄)
      ⊣⊢ iprop((bLoc d ↦{Transfers.shareDrop fullShare 32} m (bLoc d))
          ∗ bigSep (Finset.range 32) (fun j => bLoc d ↦{Transfers.shareTokN fullShare j} m (bLoc d))) :=
    Transfers.pointsTo_toks_range fullShare 32
  have hg : (gLoc d ↦{fullShare} m (gLoc d) : sProp 𝕄)
      ⊣⊢ iprop((gLoc d ↦{Transfers.shareDrop fullShare 32} m (gLoc d))
          ∗ bigSep (Finset.range 32) (fun j => gLoc d ↦{Transfers.shareTokN fullShare j} m (gLoc d))) :=
    Transfers.pointsTo_toks_range fullShare 32
  have ho : (willBeTo (wmE (F := F)) (oLoc d) Finset.univ fullShare (m (oLoc d)) (cidTgt m d) (Wd ∪ (Finset.range 32).biUnion Ws) : sProp 𝕄)
      ⊣⊢ iprop(willBeTo (wmE (F := F)) (oLoc d) Finset.univ (Transfers.shareDrop fullShare 32) (m (oLoc d)) (cidTgt m d) Wd
          ∗ bigSep (Finset.range 32) (fun j =>
              willBeTo (wmE (F := F)) (oLoc d) Finset.univ (Transfers.shareTokN fullShare j) (m (oLoc d)) (cidTgt m d) (Ws j))) :=
    Cert.LibWriteModeShares.willBe_toks_range fullShare Ws 32 Wd
  unfold Rem Tok
  rw [bigSep_sep', bigSep_sep']
  constructor
  · iintro ⟨Hb, Hg, Ho⟩
    ihave Hb := hb.1 $$ Hb
    ihave Hg := hg.1 $$ Hg
    ihave Ho := ho.1 $$ Ho
    icases Hb with ⟨Hbd, Hbt⟩
    icases Hg with ⟨Hgd, Hgt⟩
    icases Ho with ⟨Hod, Hot⟩
    isplitl [Hbd Hgd Hod]
    · isplitl [Hbd]; · iexact Hbd
      isplitl [Hgd]; · iexact Hgd
      iexact Hod
    · isplitl [Hbt]; · iexact Hbt
      isplitl [Hgt]; · iexact Hgt
      iexact Hot
  · iintro ⟨⟨Hbd, Hgd, Hod⟩, Hbt, Hgt, Hot⟩
    isplitl [Hbd Hbt]
    · iapply hb.2; isplitl [Hbd]; · iexact Hbd
      iexact Hbt
    isplitl [Hgd Hgt]
    · iapply hg.2; isplitl [Hgd]; · iexact Hgd
      iexact Hgt
    · iapply ho.2; isplitl [Hod]; · iexact Hod
      iexact Hot

/-- The 32 tokens in order are the 2 x 16 tasks', task (c, i)'s being the token numbered 16 c + i. -/
theorem bigSep_range_tasks (Φ : ℕ → sProp 𝕄) :
    bigSep (Finset.range 32) Φ
      = bigSep Finset.univ fun c : Fin (grid0.bound 0) => bigSep Finset.univ fun i : Fin (grid0.bound 1) => Φ (16 * c.val + i.val) := by
  have h1 : bigSep (Finset.range 32) Φ = bigSep Finset.univ (fun j : Fin 32 => Φ j.val) := by
    rw [← Nat.Iio_eq_range, ← Fin.map_valEmbedding_univ, BI.bigSep_map]; rfl
  rw [h1, bigSep_univ_equiv (finProdFinEquiv : Fin 2 × Fin 16 ≃ Fin 32), bigSep_univ_prod]
  refine bigSep_congr fun c _ => bigSep_congr fun i _ => congrArg Φ ?_
  show i.val + 16 * c.val = 16 * c.val + i.val
  omega

/-- The task whose token is numbered j (any j, reduced into the grid). -/
def taskOf (j : ℕ) : grid0.Coords :=
  coordsV ⟨j / 16 % 2, Nat.mod_lt _ (by decide)⟩ ⟨j % 16, Nat.mod_lt _ (by decide)⟩

theorem taskOf_jn (c : Fin (grid0.bound 0)) (i : Fin (grid0.bound 1)) : taskOf (16 * c.val + i.val) = coordsV c i := by
  have hc : c.val < 2 := c.isLt
  have hi : i.val < 16 := i.isLt
  have e1 : (⟨(16 * c.val + i.val) / 16 % 2, Nat.mod_lt _ (by decide)⟩ : Fin (grid0.bound 0)) = c :=
    Fin.ext (by show (16 * c.val + i.val) / 16 % 2 = c.val; omega)
  have e2 : (⟨(16 * c.val + i.val) % 16, Nat.mod_lt _ (by decide)⟩ : Fin (grid0.bound 1)) = i :=
    Fin.ext (by show (16 * c.val + i.val) % 16 = i.val; omega)
  unfold taskOf
  rw [e1, e2]

/-- The tokens with marks Ws, dealt to the SparseCores. -/
theorem toks_cores (d : Dev nD) (Ws : grid0.Coords → Finset (Idx (oLoc d))) :
    (bigSep (Finset.range 32) fun j => Tok m d j (Ws (taskOf j)))
      = bigSep Finset.univ fun c : Fin ((K (F := F)).nCore 0) =>
          bigSep Finset.univ fun i : Fin (grid0.bound 1) => tileRes m d (coordsV (Fin.cast nCore_bound c) i) (Ws (coordsV (Fin.cast nCore_bound c) i)) := by
  rw [bigSep_range_tasks, bigSep_cores (F := F) (fun c => bigSep Finset.univ fun i : Fin (grid0.bound 1) => tileRes m d (coordsV c i) (Ws (coordsV c i)))]
  refine bigSep_congr fun c _ => bigSep_congr fun i _ => ?_
  rw [taskOf_jn]; rfl

/-- Before the call: the three full shares, nothing marked, are the remainder and what the two SparseCores' starts take. -/
theorem call_split (d : Dev nD) :
    iprop((bLoc d ↦{fullShare} m (bLoc d)) ∗ (gLoc d ↦{fullShare} m (gLoc d))
        ∗ willBeTo (wmE (F := F)) (oLoc d) Finset.univ fullShare (m (oLoc d)) (cidTgt m d) ∅)
      ⊢ iprop(Rem m d ∅ ∗ bigSep Finset.univ fun c : Fin ((K (F := F)).nCore 0) => (P m).st 0 d c) := by
  have hW : (∅ : Finset (Idx (oLoc d))) = ∅ ∪ (Finset.range 32).biUnion (fun j => (fun _ : grid0.Coords => (∅ : Finset (Idx (oLoc d)))) (taskOf j)) := by
    ext n; simp
  have h := (full_toks m d (fun j => (fun _ : grid0.Coords => (∅ : Finset (Idx (oLoc d)))) (taskOf j)) ∅).1
  rw [← hW, toks_cores m d (fun _ => ∅)] at h
  exact h

/-- After the call: the remainder and what the two SparseCores' dones return are the three full shares, every entry
    of the composed array marked. -/
theorem call_join (d : Dev nD) :
    iprop(Rem m d ∅ ∗ bigSep Finset.univ fun c : Fin ((K (F := F)).nCore 0) => (P m).dn 0 d c)
      ⊢ iprop((bLoc d ↦{fullShare} m (bLoc d)) ∗ (gLoc d ↦{fullShare} m (gLoc d))
        ∗ willBeTo (wmE (F := F)) (oLoc d) Finset.univ fullShare (m (oLoc d)) (cidTgt m d) Finset.univ) := by
  have hW : (Finset.univ : Finset (Idx (oLoc d))) = ∅ ∪ (Finset.range 32).biUnion (fun j => sliceSet d (taskOf j)) := by
    rw [Finset.empty_union]
    refine (Finset.eq_univ_iff_forall.2 fun n => ?_).symm
    have hn : n ∈ (Finset.univ : Finset (Fin (grid0.bound 0) × Fin (grid0.bound 1))).biUnion (fun p => sliceSet d (coordsV p.1 p.2)) := by
      rw [slices_cover]; exact Finset.mem_univ n
    obtain ⟨p, -, hp⟩ := Finset.mem_biUnion.1 hn
    have hc : p.1.val < 2 := p.1.isLt
    have hi : p.2.val < 16 := p.2.isLt
    refine Finset.mem_biUnion.2 ⟨16 * p.1.val + p.2.val, Finset.mem_range.2 (by omega), ?_⟩
    rw [taskOf_jn]; exact hp
  have h := (full_toks m d (fun j => sliceSet d (taskOf j)) ∅).2
  rw [← hW, toks_cores m d (fun L => sliceSet d L)] at h
  exact h

end Cert.Proof.KI

end
-- ==== Proof.ScMain.lean ====
/-
  Two stretches of the program on the TensorCore: the SparseCore call, and the host operations after it.

  The call. The TensorCore holds batch, gnn and the composed array whole. It puts the composed array in
  write mode towards the words batch (gnn n), splits the three full shares into a remainder and the 32
  tasks' tokens, starts the two SparseCores with their tasks' holdings and waits for both; what comes
  back has every entry of the composed array marked written, so the array leaves write mode holding
  exactly those words.

  The host operations. Five operations, each reading one whole array and writing another: the composed
  ids reshaped into five one-row blocks, the two weight matrices converted to the shorter float format,
  the two biases reshaped into one-row matrices. Run in order from contents W they leave every array
  they do not write as it was.
-/
import proofs.«208690_g19181323943962_cont_8to1_1746_28_alg».proof.Proof.ScSplit

noncomputable section

namespace Cert.Proof.KI

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held wp_seq seq after)

variable {F : FTy → Type}

local notation "𝕄" => MT nD τ sig (HIx 1) (Elt F) ℕ (UU (F := F)) ℕ

variable (m : (ℓ : Loc nD τ sig) → Buf (Elt F) ℓ)

/-! ## The call -/

/-- The join, with the targets spelt as the words themselves. -/
theorem call_join_words (d : Dev nD) :
    iprop(Rem m d ∅ ∗ bigSep Finset.univ fun c : Fin ((K (F := F)).nCore 0) => (P m).dn 0 d c)
      ⊢ iprop((bLoc d ↦{fullShare} m (bLoc d)) ∗ (gLoc d ↦{fullShare} m (gLoc d))
        ∗ willBeTo (wmE (F := F)) (oLoc d) Finset.univ fullShare (m (oLoc d)) (fun n => some (cidWord m d n)) Finset.univ) :=
  call_join m d

variable [FloatOps F]

/-- The SparseCore call on the TensorCore, continuation abstract: from the three arrays whole it continues with
    them whole again, the composed array holding the words batch (gnn n). -/
theorem call_stretch (κ : GSem nD τ sig → ℕ) (d : Dev nD) {α : Type}
    (k : PUnit → Prog (TpuEff nD τ sig (Elt F) (SparseCore.Sig (ΛP (F := F)) 1) .tc) α) (Q : α → sProp 𝕄) (ιwm : ℕ) :
    iprop((K (F := F)).ctx EH (P m) κ ∗ (K (F := F)).tcSt EH d 0 ∗ wmInv (Ix := HIx 1) (wmE (F := F)) ιwm
        ∗ (bLoc d ↦{fullShare} m (bLoc d)) ∗ (gLoc d ↦{fullShare} m (gLoc d)) ∗ (oLoc d ↦{fullShare} m (oLoc d))
        ∗ (((K (F := F)).tcSt EH d 1 ∗ (bLoc d ↦{fullShare} m (bLoc d)) ∗ (gLoc d ↦{fullShare} m (gLoc d))
              ∗ (oLoc d ↦{fullShare} (fun n => cidWord m d n)))
            -∗ wp frame (wpE ((K (F := F)).defs (D (F := F))) 𝒱 (SparseCore.T d) none) Set.univ (k ⟨⟩) Q))
      ⊢ wp frame (wpE ((K (F := F)).defs (D (F := F))) 𝒱 (SparseCore.T d) none) Set.univ ((K (F := F)).run d 0 >>= k) Q := by
  rw [wp_bind]
  iintro ⟨#Hctx, Hst, #Hwm, Hb, Hg, Ho, Hk⟩
  -- the composed array enters write mode towards its words
  imod (pointsTo_castIn (emb := wmE (F := F)) (cidTgt m d)) $$ [Ho] with Ho
  · isplitr; · iexact Hwm
    iexact Ho
  ihave Hs := (call_split m d) $$ [Hb Hg Ho]
  · isplitl [Hb]; · iexact Hb
    isplitl [Hg]; · iexact Hg
    iexact Ho
  icases Hs with ⟨Hrem, Hsts⟩
  iapply ((K (F := F)).wp_run (D (F := F)) 𝒱 (EH := EH) (P := P m) κ d 0) $$ [Hst Hsts Hrem Hk]
  isplitr; · iexact Hctx
  isplitl [Hst]; · iexact Hst
  isplitl [Hsts]; · iexact Hsts
  iintro ⟨Hst, Hdn⟩
  ihave Hj := (call_join_words m d) $$ [Hrem Hdn]
  · isplitl [Hrem]; · iexact Hrem
    iexact Hdn
  icases Hj with ⟨Hb, Hg, Ho⟩
  -- every entry is marked: the array leaves write mode at its words
  imod (willBeTo_castOut_some (emb := wmE (F := F))) $$ [Ho] with Ho
  · isplitr; · iexact Hwm
    iexact Ho
  rw [Finset.piecewise_univ]
  iapply Hk
  isplitl [Hst]; · iexact Hst
  isplitl [Hb]; · iexact Hb
  isplitl [Hg]; · iexact Hg
  iexact Ho

/-! ## The host operations -/

/-- The TensorCore's arrays, as device buffers. -/
abbrev a0' : DevRef τ sig := Proc.devRef .tc (main_arg0 : Ref sig .tc)
abbrev a1' : DevRef τ sig := Proc.devRef .tc (main_arg1 : Ref sig .tc)
abbrev a2' : DevRef τ sig := Proc.devRef .tc (main_arg2 : Ref sig .tc)
abbrev a3' : DevRef τ sig := Proc.devRef .tc (main_arg3 : Ref sig .tc)
abbrev a4' : DevRef τ sig := Proc.devRef .tc (main_arg4 : Ref sig .tc)
abbrev a5' : DevRef τ sig := Proc.devRef .tc (main_arg5 : Ref sig .tc)
abbrev a6' : DevRef τ sig := Proc.devRef .tc (main_arg6 : Ref sig .tc)
abbrev v0' : DevRef τ sig := Proc.devRef .tc (main_v0 : Ref sig .tc)
abbrev v1' : DevRef τ sig := Proc.devRef .tc (main_v1 : Ref sig .tc)
abbrev v2' : DevRef τ sig := Proc.devRef .tc (main_v2 : Ref sig .tc)
abbrev v3' : DevRef τ sig := Proc.devRef .tc (main_v3 : Ref sig .tc)
abbrev v4' : DevRef τ sig := Proc.devRef .tc (main_v4 : Ref sig .tc)
abbrev v5' : DevRef τ sig := Proc.devRef .tc (main_v5 : Ref sig .tc)
abbrev r0' : DevRef τ sig := Proc.devRef .tc (main_v6_0 : Ref sig .tc)
abbrev r1' : DevRef τ sig := Proc.devRef .tc (main_v6_1 : Ref sig .tc)

/-- The five operations, as the program spells them. -/
abbrev opIds : HloOp τ sig (Elt F) := StableHlo.reshape main_v0 main_v1 rfl shapeCasts_S100000_S5x1x20000
abbrev opW1 : HloOp τ sig (Elt F) :=
  StableHlo.unary main_arg1 main_v2 ((truncf .bf16 · bitsLt_bf16_f32) : (⟨S128x64, .f32⟩ : BufTy).Contents (Elt F) → (⟨S128x64, .bf16⟩ : BufTy).Contents (Elt F))
abbrev opB1 : HloOp τ sig (Elt F) := StableHlo.reshape main_arg2 main_v3 rfl shapeCasts_S64_S1x64
abbrev opW2 : HloOp τ sig (Elt F) :=
  StableHlo.unary main_arg3 main_v4 ((truncf .bf16 · bitsLt_bf16_f32) : (⟨S64x128, .f32⟩ : BufTy).Contents (Elt F) → (⟨S64x128, .bf16⟩ : BufTy).Contents (Elt F))
abbrev opB2 : HloOp τ sig (Elt F) := StableHlo.reshape main_arg4 main_v5 rfl shapeCasts_S128_S1x128
abbrev hostOps : List (HloOp τ sig (Elt F)) := [opIds, opW1, opB1, opW2, opB2]

/-- The ten arrays the five operations touch. -/
abbrev hostBufs : Finset (DevRef τ sig) := {v0', v1', a1', v2', a2', v3', a3', v4', a4', v5'}

theorem hostOps_bufs : ∀ op ∈ hostOps (F := F), op.bufs ⊆ hostBufs := by
  intro op hop
  simp only [List.mem_cons, List.not_mem_nil, or_false] at hop
  rcases hop with rfl | rfl | rfl | rfl | rfl
  · show ({v0', v1'} : Finset (DevRef τ sig)) ⊆ hostBufs; decide
  · show ({a1', v2'} : Finset (DevRef τ sig)) ⊆ hostBufs; decide
  · show ({a2', v3'} : Finset (DevRef τ sig)) ⊆ hostBufs; decide
  · show ({a3', v4'} : Finset (DevRef τ sig)) ⊆ hostBufs; decide
  · show ({a4', v5'} : Finset (DevRef τ sig)) ⊆ hostBufs; decide

theorem hostOps_fresh : ∀ op ∈ hostOps (F := F), op.fresh = ∅ := by
  intro op hop
  simp only [List.mem_cons, List.not_mem_nil, or_false] at hop
  rcases hop with rfl | rfl | rfl | rfl | rfl <;> rfl

/-- What the five operations leave, array by array: the five results, -/
theorem host_v1 (W : Valuation τ sig (Elt F)) :
    after (hostOps (F := F)) W v1' = shapeCast S5x1x20000 (W v0') shapeCasts_S100000_S5x1x20000 := by
  after_results; rfl
theorem host_v2 (W : Valuation τ sig (Elt F)) :
    after (hostOps (F := F)) W v2' = (truncf .bf16 (W a1' : FVec F S128x64 .f32) bitsLt_bf16_f32 : FVec F S128x64 .bf16) := by
  after_results
theorem host_v3 (W : Valuation τ sig (Elt F)) :
    after (hostOps (F := F)) W v3' = shapeCast S1x64 (W a2') shapeCasts_S64_S1x64 := by
  after_results; rfl
theorem host_v4 (W : Valuation τ sig (Elt F)) :
    after (hostOps (F := F)) W v4' = (truncf .bf16 (W a3' : FVec F S64x128 .f32) bitsLt_bf16_f32 : FVec F S64x128 .bf16) := by
  after_results
theorem host_v5 (W : Valuation τ sig (Elt F)) :
    after (hostOps (F := F)) W v5' = shapeCast S1x128 (W a4') shapeCasts_S128_S1x128 := by
  after_results; rfl

/-- and every other array as it was. -/
theorem host_other (W : Valuation τ sig (Elt F)) (b : DevRef τ sig) (hb : b ∉ ({v1', v2', v3', v4', v5'} : Finset (DevRef τ sig))) :
    after (hostOps (F := F)) W b = W b := by
  refine StableHlo.after_of_forall_not_mem _ _ fun op hop => ?_
  simp only [Finset.mem_insert, Finset.mem_singleton, not_or] at hb
  obtain ⟨h1, h2, h3, h4, h5⟩ := hb
  simp only [List.mem_cons, List.not_mem_nil, or_false] at hop
  rcases hop with rfl | rfl | rfl | rfl | rfl
  · exact fun h => h1 (Finset.mem_singleton.1 h)
  · exact fun h => h2 (Finset.mem_singleton.1 h)
  · exact fun h => h3 (Finset.mem_singleton.1 h)
  · exact fun h => h4 (Finset.mem_singleton.1 h)
  · exact fun h => h5 (Finset.mem_singleton.1 h)

set_option backward.isDefEq.respectTransparency.types false in
/-- The five host operations on the TensorCore, continuation abstract: holding the boundary and a set S of whole
    arrays that contains the ten, at contents W, they run to their end with S at what they leave. -/
theorem host_stretch (d : Dev nD) (S : Finset (DevRef τ sig)) (hS : hostBufs ⊆ S) (W : Valuation τ sig (Elt F)) {α : Type}
    (k : PUnit → Prog (TpuEff nD τ sig (Elt F) (SparseCore.Sig (ΛP (F := F)) 1) .tc) α) (Q : α → sProp 𝕄) :
    iprop(boundary (SparseCore.T d) ∗ (held (SparseCore.T d) S W : sProp 𝕄)
        ∗ ((boundary (SparseCore.T d) ∗ (held (SparseCore.T d) S (after (hostOps (F := F)) W) : sProp 𝕄))
            -∗ wp frame (wpE ((K (F := F)).defs (D (F := F))) 𝒱 (SparseCore.T d) none) Set.univ (k ⟨⟩) Q))
      ⊢ wp frame (wpE ((K (F := F)).defs (D (F := F))) 𝒱 (SparseCore.T d) none) Set.univ (seq (hostOps (F := F)) >>= k) Q := by
  iintro ⟨Hb, Hh, Hk⟩
  iapply (wp_seq 𝒱 none Set.univ d S k (hostOps (F := F)) (fun op hop => (hostOps_bufs op hop).trans hS) hostOps_fresh W) $$ [Hb Hh]
  · isplitl [Hb]; · iexact Hb
    iexact Hh
  iexact Hk

/-- The program is the call, the five host operations, then the region and the return. -/
theorem main_eq (d : Dev nD) :
    (main (F := F) d : Prog (TpuEff nD τ sig (Elt F) (SparseCore.Sig (ΛP (F := F)) 1) .tc) PUnit)
      = (K (F := F)).run d 0 >>= fun _ => seq (hostOps (F := F)) >>= fun _ =>
          (Prog.lift (.customCall (SparseCore.inner (Pipeline.entry 0)) ()) >>= fun _ => pure ⟨⟩) := rfl

/-! ## The TensorCore's unscoped arrays, one by one -/

/-- The fifteen arrays. -/
abbrev tcBufs : Finset (DevRef τ sig) := {a0', a1', a2', a3', a4', a5', a6', v0', v1', v2', v3', v4', v5', r0', r1'}

omit [FloatOps F] in
theorem hostBufs_sub : (hostBufs : Finset (DevRef τ sig)) ⊆ tcBufs := by decide

omit [FloatOps F] in
/-- The launch's unscoped arrays at contents V are the fifteen, each whole at V. -/
theorem unscopedBufs_eq (d : Dev nD) (V : (b : Ref sig .tc) → Buf (Elt F) ((d.tc : Thread nD τ).loc b)) :
    (unscopedBufs d V : sProp 𝕄)
      = iprop(((SparseCore.T d).loc main_arg0 ↦{fullShare} V main_arg0) ∗ ((SparseCore.T d).loc main_arg1 ↦{fullShare} V main_arg1)
          ∗ ((SparseCore.T d).loc main_arg2 ↦{fullShare} V main_arg2) ∗ ((SparseCore.T d).loc main_arg3 ↦{fullShare} V main_arg3)
          ∗ ((SparseCore.T d).loc main_arg4 ↦{fullShare} V main_arg4) ∗ ((SparseCore.T d).loc main_arg5 ↦{fullShare} V main_arg5)
          ∗ ((SparseCore.T d).loc main_arg6 ↦{fullShare} V main_arg6) ∗ ((SparseCore.T d).loc main_v0 ↦{fullShare} V main_v0)
          ∗ ((SparseCore.T d).loc main_v1 ↦{fullShare} V main_v1) ∗ ((SparseCore.T d).loc main_v2 ↦{fullShare} V main_v2)
          ∗ ((SparseCore.T d).loc main_v3 ↦{fullShare} V main_v3) ∗ ((SparseCore.T d).loc main_v4 ↦{fullShare} V main_v4)
          ∗ ((SparseCore.T d).loc main_v5 ↦{fullShare} V main_v5) ∗ ((SparseCore.T d).loc main_v6_0 ↦{fullShare} V main_v6_0)
          ∗ ((SparseCore.T d).loc main_v6_1 ↦{fullShare} V main_v6_1)) := by
  unfold unscopedBufs
  rw [bigSep_eq_bigSepL_of_eq [main_arg0, main_arg1, main_arg2, main_arg3, main_arg4, main_arg5, main_arg6, main_v0, main_v1, main_v2,
    main_v3, main_v4, main_v5, main_v6_0, main_v6_1] (by decide) (by decide)]
  rfl

omit [FloatOps F] in
/-- The fifteen held at a valuation W, one by one. -/
theorem held_tcBufs (d : Dev nD) (W : Valuation τ sig (Elt F)) :
    (held (SparseCore.T d) tcBufs W : sProp 𝕄)
      = iprop(((SparseCore.T d).loc main_arg0 ↦{fullShare} W a0') ∗ ((SparseCore.T d).loc main_arg1 ↦{fullShare} W a1')
          ∗ ((SparseCore.T d).loc main_arg2 ↦{fullShare} W a2') ∗ ((SparseCore.T d).loc main_arg3 ↦{fullShare} W a3')
          ∗ ((SparseCore.T d).loc main_arg4 ↦{fullShare} W a4') ∗ ((SparseCore.T d).loc main_arg5 ↦{fullShare} W a5')
          ∗ ((SparseCore.T d).loc main_arg6 ↦{fullShare} W a6') ∗ ((SparseCore.T d).loc main_v0 ↦{fullShare} W v0')
          ∗ ((SparseCore.T d).loc main_v1 ↦{fullShare} W v1') ∗ ((SparseCore.T d).loc main_v2 ↦{fullShare} W v2')
          ∗ ((SparseCore.T d).loc main_v3 ↦{fullShare} W v3') ∗ ((SparseCore.T d).loc main_v4 ↦{fullShare} W v4')
          ∗ ((SparseCore.T d).loc main_v5 ↦{fullShare} W v5') ∗ ((SparseCore.T d).loc main_v6_0 ↦{fullShare} W r0')
          ∗ ((SparseCore.T d).loc main_v6_1 ↦{fullShare} W r1')) := by
  unfold held
  rw [bigSep_eq_bigSepL_of_eq [a0', a1', a2', a3', a4', a5', a6', v0', v1', v2', v3', v4', v5', r0', r1'] (by decide) (by decide)]
  rfl

omit [FloatOps F] in
/-- The launch's unscoped arrays at a valuation are the fifteen held at it. -/
theorem unscoped_held (d : Dev nD) (W : Valuation τ sig (Elt F)) :
    (unscopedBufs d (fun b => W (Proc.devRef .tc b)) : sProp 𝕄) = held (SparseCore.T d) tcBufs W := by
  rw [unscopedBufs_eq, held_tcBufs]

end Cert.Proof.KI

end
-- ==== Proof.ScLaunch.lean ====
/-
  The launch of the kernel program: its ghost element, what the launch deals from it, and how the final
  resources read the claim.

  The ghost element has four parts: the launch handshakes' rounds, the TensorCore region's cells'
  rounds, the write-mode cells with nothing in write mode, and the transfers' counters at their unit.
  The third part allocates the write-mode invariant once; being persistent it is handed to every device
  and to every thread. The second part funds the region's ghost state per device.

  At the end each TensorCore holds its seven arguments at their launch contents and its two results at
  the contents the run gives them; against the final memory these nine read as nine equations.
-/
import proofs.«208690_g19181323943962_cont_8to1_1746_28_alg».proof.Proof.ScMain

noncomputable section

namespace Cert.Proof.KI

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ (UU (F := F)) ℕ

variable (m : (ℓ : Loc nD τ sig) → Buf (Elt F) ℓ)

/-! ## The launch element -/

/-- The handshakes' rounds, the region's cells' rounds eP, the write-mode cells with nothing in write mode, the
    counters at their unit. -/
def u₀ (eP : UP) : UU (F := F) :=
  (initOf (K (F := F)).hsCells (K (F := F)).hsToks, (eP, (wm₀ nD τ sig (Elt F), 1)))

local notation "ER" => (embR (nD := nD) (τ := τ) (sig := sig) (Ix := HIx 1) (Val := Elt F) (Name := ℕ) (Lvl := ℕ) (A := UH)
  (B := UP × (UW (F := F) × Counters)))

/-- The write-mode part, owned as the last component of the element, is owned along the write-mode embedding. -/
theorem ownW_eq :
    (BI.own (((Emb.inr : Emb (UW (F := F) × Counters) (UP × (UW (F := F) × Counters))).trans ER) (wm₀ nD τ sig (Elt F), (1 : Counters))) : sProp 𝕄)
      = ownU ((wmE (F := F)) (wm₀ nD τ sig (Elt F))) := rfl

/-- The element owned is its three active parts owned, each through its own embedding. -/
theorem ownU_u₀ (eP : UP) :
    (ownU (u₀ (F := F) eP) : sProp 𝕄)
      ⊢ iprop(BI.own (EH (initOf (K (F := F)).hsCells (K (F := F)).hsToks)) ∗ BI.own (EP (F := F) eP)
          ∗ ownU ((wmE (F := F)) (wm₀ nD τ sig (Elt F)))) := by
  unfold u₀
  iintro Hu
  ihave H := (ownU_pair _ _) $$ Hu
  icases H with ⟨HH, HR⟩
  ihave H2 := (own_pair_emb ER eP (wm₀ nD τ sig (Elt F), (1 : Counters))) $$ HR
  icases H2 with ⟨HP, HW⟩
  isplitl [HH]; · iexact HH
  isplitl [HP]; · iexact HP
  iapply (Entails.of_eq (ownW_eq (F := F))); iexact HW

/-! ## What the launch deals -/

/-- What device d's TensorCore is given beside its launch resources: the write-mode invariant, and the region's ghost
    state GP d. -/
def G (GP : Dev nD → sProp 𝕄) (d : Dev nD) : sProp 𝕄 :=
  iprop((∃ ιwm : ℕ, wmInv (Ix := HIx 1) (wmE (F := F)) ιwm) ∗ GP d)

/-- The invariant at a name, handed to every member of a finite family. -/
theorem wmInv_all {I : Type} (s : Finset I) (ιwm : ℕ) :
    (wmInv (Ix := HIx 1) (wmE (F := F)) ιwm : sProp 𝕄) ⊢ bigSep s fun _ : I => iprop(∃ ιwm : ℕ, wmInv (Ix := HIx 1) (wmE (F := F)) ιwm) := by
  classical
  induction s using Finset.induction_on with
  | empty =>
    rw [bigSep_empty]
    iintro -; iempintro
  | insert i s hi ih =>
    rw [SparseCore.bigSep_insert' hi]
    iintro #H
    isplitl []
    · iexists ιwm; iexact H
    · iapply ih; iexact H

/-- The invariant at a name, handed to every thread as its share of the call's ghost state. -/
theorem Px_all (ιwm : ℕ) :
    (wmInv (Ix := HIx 1) (wmE (F := F)) ιwm : sProp 𝕄)
      ⊢ bigSep Finset.univ fun thr : Thread nD τ => bigSep Finset.univ fun q : Fin 1 => (P m).x q thr := by
  have e : (bigSep Finset.univ fun thr : Thread nD τ => bigSep Finset.univ fun q : Fin 1 => (P m).x q thr)
      = bigSep Finset.univ fun _ : Thread nD τ => (iprop(∃ ιwm : ℕ, wmInv (Ix := HIx 1) (wmE (F := F)) ιwm) : sProp 𝕄) :=
    bigSep_congr fun thr _ => bigSep_univ_of_subsingleton (0 : Fin 1)
  rw [e]
  exact wmInv_all (F := F) (I := Thread nD τ) Finset.univ ιwm

/-- The launch element, with the credit and the free semaphores the launch also hands over, gives the handshakes'
    rounds, every device's G and every thread's share of the call's ghost state, when the region's cells' part funds
    the GP. -/
theorem hu₀ [Infinite ℕ] (ρ : Dev nD → PrngReg) (eP : UP) (GP : Dev nD → sProp 𝕄)
    (hfund : (BI.own (EP (F := F) eP) : sProp 𝕄) ⊢ |={Set.univ}=> bigSep Finset.univ GP) :
    iprop(ownU (u₀ (F := F) eP) ∗ (P m).oxCred ∗ (K (F := F)).freeSems0)
      ⊢ |={Set.univ}=> iprop(BI.own (EH (initOf (K (F := F)).hsCells (K (F := F)).hsToks)) ∗ bigSep Finset.univ (G (F := F) GP)
        ∗ bigSep Finset.univ fun thr : Thread nD τ => bigSep Finset.univ fun q : Fin 1 => (P m).x q thr) := by
  have halloc : (ownU ((wmE (F := F)) (wm₀ nD τ sig (Elt F))) : sProp 𝕄)
      ⊢ iprop(|={Set.univ}=> ∃ ιwm : ℕ, wmInv (Ix := HIx 1) (wmE (F := F)) ιwm) :=
    (wmInv_alloc (emb := wmE (F := F)) (⟨m, fun _ => 0, ρ⟩ : MemSt nD τ sig (Elt F))).trans
      (BI.fupd_mono (exists_mono fun _ => and_elim_r))
  iintro ⟨Hu, -, -⟩
  ihave H := (ownU_u₀ (F := F) eP) $$ Hu
  icases H with ⟨HH, HP, HW⟩
  imod halloc $$ HW with ⟨%ιwm, #Hwm⟩
  imod hfund $$ HP with HG
  imodintro
  isplitl [HH]; · iexact HH
  isplitl [HG]
  · unfold G
    rw [bigSep_sep']
    isplitr
    · iapply (wmInv_all (F := F) (I := Dev nD) Finset.univ ιwm); iexact Hwm
    · iexact HG
  · iapply (Px_all (F := F) m ιwm); iexact Hwm

/-! ## The final resources read the claim -/

section Final

variable (KST : (d : Dev nD) → Buf (Elt F) ((SparseCore.T d).loc main_v6_0))
  (KOUT : (d : Dev nD) → Buf (Elt F) ((SparseCore.T d).loc main_v6_1))

/-- What device d's TensorCore holds at the end: the seven arguments at their launch contents, the two results at KST d
    and KOUT d. -/
def FIN (d : Dev nD) : sProp 𝕄 :=
  iprop(((SparseCore.T d).loc main_arg0 ↦{fullShare} m ((SparseCore.T d).loc main_arg0))
    ∗ ((SparseCore.T d).loc main_arg1 ↦{fullShare} m ((SparseCore.T d).loc main_arg1))
    ∗ ((SparseCore.T d).loc main_arg2 ↦{fullShare} m ((SparseCore.T d).loc main_arg2))
    ∗ ((SparseCore.T d).loc main_arg3 ↦{fullShare} m ((SparseCore.T d).loc main_arg3))
    ∗ ((SparseCore.T d).loc main_arg4 ↦{fullShare} m ((SparseCore.T d).loc main_arg4))
    ∗ ((SparseCore.T d).loc main_arg5 ↦{fullShare} m ((SparseCore.T d).loc main_arg5))
    ∗ ((SparseCore.T d).loc main_arg6 ↦{fullShare} m ((SparseCore.T d).loc main_arg6))
    ∗ ((SparseCore.T d).loc main_v6_0 ↦{fullShare} KST d)
    ∗ ((SparseCore.T d).loc main_v6_1 ↦{fullShare} KOUT d))

/-- The nine equations of device d, in the claim's order: the two results, then the seven arguments. -/
def fq (d : Dev nD) (s' : Phys nD τ sig (Elt F)) : Prop :=
  s'.mem.mem ((SparseCore.T d).loc main_v6_0) = KST d
  ∧ s'.mem.mem ((SparseCore.T d).loc main_v6_1) = KOUT d
  ∧ s'.mem.mem ((SparseCore.T d).loc main_arg0) = m ((SparseCore.T d).loc main_arg0)
  ∧ s'.mem.mem ((SparseCore.T d).loc main_arg1) = m ((SparseCore.T d).loc main_arg1)
  ∧ s'.mem.mem ((SparseCore.T d).loc main_arg2) = m ((SparseCore.T d).loc main_arg2)
  ∧ s'.mem.mem ((SparseCore.T d).loc main_arg3) = m ((SparseCore.T d).loc main_arg3)
  ∧ s'.mem.mem ((SparseCore.T d).loc main_arg4) = m ((SparseCore.T d).loc main_arg4)
  ∧ s'.mem.mem ((SparseCore.T d).loc main_arg5) = m ((SparseCore.T d).loc main_arg5)
  ∧ s'.mem.mem ((SparseCore.T d).loc main_arg6) = m ((SparseCore.T d).loc main_arg6)

/-- A whole array held against the memory: the memory has its contents, and the memory's assertion is kept. -/
theorem agree_keep (s' : Phys nD τ sig (Elt F)) (ℓ : Loc nD τ sig) (f : Buf (Elt F) ℓ) :
    iprop(SI s' ∗ ℓ ↦{fullShare} f) ⊢ (iprop(⌜s'.mem.mem ℓ = f⌝ ∗ SI s') : sProp 𝕄) := by
  iintro ⟨HSI, Hp⟩
  ihave H := (persistent_entails_right (SI_pointsTo_agree (st := s') (ℓ := ℓ) (I := Finset.univ) (q := fullShare) (f := f))) $$ [HSI Hp]
  · isplitl [HSI] <;> iassumption
  icases H with ⟨%h, HSI, -⟩
  isplitr
  · ipureintro; exact funext fun i => h i (Finset.mem_univ i)
  · iexact HSI

theorem hfin (d : Dev nD) (s' : Phys nD τ sig (Elt F)) : iprop(FIN m KST KOUT d ∗ SI s') ⊢ (⌜fq m KST KOUT d s'⌝ : sProp 𝕄) := by
  unfold FIN
  iintro ⟨⟨H0, H1, H2, H3, H4, H5, H6, HS, HO⟩, HSI⟩
  ihave H := (agree_keep (F := F) s' _ _) $$ [HSI H0]
  · isplitl [HSI] <;> iassumption
  icases H with ⟨%h0, HSI⟩
  ihave H := (agree_keep (F := F) s' _ _) $$ [HSI H1]
  · isplitl [HSI] <;> iassumption
  icases H with ⟨%h1, HSI⟩
  ihave H := (agree_keep (F := F) s' _ _) $$ [HSI H2]
  · isplitl [HSI] <;> iassumption
  icases H with ⟨%h2, HSI⟩
  ihave H := (agree_keep (F := F) s' _ _) $$ [HSI H3]
  · isplitl [HSI] <;> iassumption
  icases H with ⟨%h3, HSI⟩
  ihave H := (agree_keep (F := F) s' _ _) $$ [HSI H4]
  · isplitl [HSI] <;> iassumption
  icases H with ⟨%h4, HSI⟩
  ihave H := (agree_keep (F := F) s' _ _) $$ [HSI H5]
  · isplitl [HSI] <;> iassumption
  icases H with ⟨%h5, HSI⟩
  ihave H := (agree_keep (F := F) s' _ _) $$ [HSI H6]
  · isplitl [HSI] <;> iassumption
  icases H with ⟨%h6, HSI⟩
  ihave H := (agree_keep (F := F) s' _ _) $$ [HSI HS]
  · isplitl [HSI] <;> iassumption
  icases H with ⟨%hs, HSI⟩
  ihave H := (agree_keep (F := F) s' _ _) $$ [HSI HO]
  · isplitl [HSI] <;> iassumption
  icases H with ⟨%ho, -⟩
  ipureintro
  exact ⟨hs, ho, h0, h1, h2, h3, h4, h5, h6⟩

/-- The claim's post: on every device the two results at KST and KOUT and the seven arguments unchanged. -/
def QC (r : PUnit × MemSt nD τ sig (Elt F)) : Prop :=
  ∀ c : Dev nD,
    r.2.mem ((c.tc : Thread nD τ).loc main_v6_0) = KST c
    ∧ r.2.mem ((c.tc : Thread nD τ).loc main_v6_1) = KOUT c
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)

theorem hQ (s' : Phys nD τ sig (Elt F)) (h : ∀ d, fq m KST KOUT d s') : QC m KST KOUT (⟨⟩, s'.mem) :=
  fun c => h c

end Final

end Cert.Proof.KI

end
-- ==== Proof.ScTile.lean ====
/-
  One task of the SparseCore kernel, at a symbolic place.

  Task (c, s) of device d fetches the whole batch table and its 3136-entry slice of gnn into its own
  scratch (two copies on two semaphores, each waited before its destination is read), looks the
  slice's words up in the table sixteen at a time (196 trips: load sixteen index words, gather the
  table at them, store the sixteen results), and copies the 3136 results to its slice of the composed
  array. It holds a share of batch and of gnn (read only) and a share of the composed array in write
  mode whose targets are the words batch (gnn n); what it copies out is exactly those words, so the
  copy is admitted, and after the wait its share has its slice marked written.
-/
import proofs.«208690_g19181323943962_cont_8to1_1746_28_alg».proof.Proof.ScRes
import Idealize.ShloMosaic.Lib.Writes

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ (UU (F := F)) ℕ

-- the kernel's memrefs, spelt as the body table passes them
local notation "bW" => (Memref.whole Cert.KernelIdeal.main_arg6_scv : Memref Cert.KernelIdeal.sig Kind.scVector Space.hbm Cert.KernelIdeal.S2048 EltTy.i32)
local notation "gW" => (Memref.whole Cert.KernelIdeal.main_arg5_scv : Memref Cert.KernelIdeal.sig Kind.scVector Space.hbm Cert.KernelIdeal.S100000 EltTy.i32)
local notation "oW" => (Memref.whole Cert.KernelIdeal.main_v0_scv : Memref Cert.KernelIdeal.sig Kind.scVector Space.hbm Cert.KernelIdeal.S100000 EltTy.i32)
local notation "tV" => (Memref.whole Cert.KernelIdeal.cc0_scratch0 : Memref Cert.KernelIdeal.sig Kind.scVector Space.vmem Cert.KernelIdeal.S2048 EltTy.i32)
local notation "iV" => (Memref.whole Cert.KernelIdeal.cc0_scratch1 : Memref Cert.KernelIdeal.sig Kind.scVector Space.vmem Cert.KernelIdeal.S3136 EltTy.i32)
local notation "cV'" => (Memref.whole Cert.KernelIdeal.cc0_scratch2 : Memref Cert.KernelIdeal.sig Kind.scVector Space.vmem Cert.KernelIdeal.S3136 EltTy.i32)

variable (m : (ℓ : Loc nD τ sig) → Buf (Elt F) ℓ) (ρ : Dev nD → PrngReg)

section Tile

variable (d : Dev nD) (L : grid0.Coords)

/-- The task's three cells: the table fetch's, the slice fetch's, the write-out's. -/
abbrev cellT (d : Dev nD) (L : grid0.Coords) : GSem nD τ sig := (VT d L, .dma cc0_scratch3.sem)
abbrev cellI (d : Dev nD) (L : grid0.Coords) : GSem nD τ sig := (VT d L, .dma cc0_scratch4.sem)
abbrev cellO (d : Dev nD) (L : grid0.Coords) : GSem nD τ sig := (VT d L, .dma cc0_scoped0.sem)

theorem ownSems0_V :
    (ownSems0 (VT d L) : sProp 𝕄)
      = iprop(semVal (cellT d L) 0 ∗ semVal (cellI d L) 0 ∗ semVal (cellO d L) 0
          ∗ bigSep ((((ownCells (VT d L)).erase (cellT d L)).erase (cellI d L)).erase (cellO d L)) fun g => semVal g 0) := by
  unfold SparseCore.Cfg.ownSems0
  rw [SparseCore.bigSep_erase' ((mem_ownCells (g := cellT d L)).mpr ⟨rfl, by
      show (SemLoc.dma cc0_scratch3.sem : SemLoc sig).isScoped .scVector = true; decide⟩),
    SparseCore.bigSep_erase' (Finset.mem_erase.mpr ⟨by simp [cellT, cellI]; decide, (mem_ownCells (g := cellI d L)).mpr ⟨rfl, by
      show (SemLoc.dma cc0_scratch4.sem : SemLoc sig).isScoped .scVector = true; decide⟩⟩),
    SparseCore.bigSep_erase' (Finset.mem_erase.mpr ⟨by simp [cellI, cellO]; decide, Finset.mem_erase.mpr ⟨by simp [cellT, cellO]; decide,
      (mem_ownCells (g := cellO d L)).mpr ⟨rfl, by show (SemLoc.dma cc0_scoped0.sem : SemLoc sig).isScoped .scVector = true; decide⟩⟩⟩)]

/-- The three scratch buffers are among the subcore's own: they are them, at some contents, and the rest. -/
theorem ownBufs_V :
    (ownBufs (VT d L) : sProp 𝕄)
      = iprop((∃ f, (VT d L).loc cc0_scratch0 ↦{fullShare} f) ∗ (∃ f, (VT d L).loc cc0_scratch1 ↦{fullShare} f)
          ∗ (∃ f, (VT d L).loc cc0_scratch2 ↦{fullShare} f)
          ∗ bigSep ((((ownRefs (τ := τ) (.scVector (cV L) (jV L))).erase ((Proc.scVector (cV L) (jV L)).devRef cc0_scratch0)).erase
              ((Proc.scVector (cV L) (jV L)).devRef cc0_scratch1)).erase ((Proc.scVector (cV L) (jV L)).devRef cc0_scratch2))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩),
    SparseCore.bigSep_erase' (Finset.mem_erase.mpr ⟨fun e => absurd (Proc.devRef_injective _ e) (show (cc0_scratch2 : Ref sig .scVector) ≠ cc0_scratch1 by decide),
      Finset.mem_erase.mpr ⟨fun e => absurd (Proc.devRef_injective _ e) (show (cc0_scratch2 : Ref sig .scVector) ≠ cc0_scratch0 by decide),
    SparseCore.Cfg.mem_ownRefs_of_owner (p := Proc.scVector (cV L) (jV L)) (b := (Proc.scVector (cV L) (jV L)).devRef cc0_scratch2) rfl⟩⟩)]

theorem pts_b (q : PosShare TreeShare) (f : Buf (Elt F) (bLoc d)) :
    ((bW).view.loc (VT d L) ↦{q} f : sProp 𝕄) = bLoc d ↦{q} f := by
  simp only [Memref.view_whole, View.set_whole]
theorem pts_g (q : PosShare TreeShare) (f : Buf (Elt F) (gLoc d)) :
    ((gW).view.loc (VT d L) ↦{q} f : sProp 𝕄) = gLoc d ↦{q} f := by
  simp only [Memref.view_whole, View.set_whole]
theorem pts_t (f : Buf (Elt F) ((VT d L).loc cc0_scratch0)) :
    ((tV).view.loc (VT d L) ↦{fullShare} f : sProp 𝕄) = (VT d L).loc cc0_scratch0 ↦{fullShare} f := rfl
theorem pts_i (f : Buf (Elt F) ((VT d L).loc cc0_scratch1)) :
    ((iV).view.loc (VT d L) ↦{fullShare} f : sProp 𝕄) = (VT d L).loc cc0_scratch1 ↦{fullShare} f := rfl
theorem pts_c_set (f : Buf (Elt F) ((VT d L).loc cc0_scratch2)) :
    ((cV').view.loc (VT d L) ↦[(cV').view.set]{fullShare} f : sProp 𝕄) = (VT d L).loc cc0_scratch2 ↦{fullShare} f := by
  simp only [Memref.view_whole, View.set_whole]
theorem pts_c (f : Buf (Elt F) ((VT d L).loc cc0_scratch2)) :
    ((cV').view.loc (VT d L) ↦{fullShare} f : sProp 𝕄) = (VT d L).loc cc0_scratch2 ↦{fullShare} f := rfl

/-- The loop's invariant at trip k: the table and the fetched index words in their scratches, and the result
    scratch holding, in its first 16 k words, the table at the index words. -/
def inv (TB : Buf (Elt F) ((VT d L).loc cc0_scratch0)) (IX : Buf (Elt F) ((VT d L).loc cc0_scratch1))
    (hIX : ∀ j : S3136.Idx, ((IX : S3136.Idx → BitVec 32) j).toNat < 2048) (k : Nat) (_ : PUnit) : sProp 𝕄 :=
  iprop(((tV).view.loc (VT d L) ↦{fullShare} TB) ∗ ((iV).view.loc (VT d L) ↦{fullShare} IX)
    ∗ ∃ f : Buf (Elt F) ((VT d L).loc cc0_scratch2),
        ⌜∀ j : S3136.Idx, (j 0).val < 16 * k →
          (f : S3136.Idx → BitVec 32) j = (TB : S2048.Idx → BitVec 32) (ValueIdx.ix1 (⟨((IX : S3136.Idx → BitVec 32) j).toNat, hIX j⟩ : Fin 2048))⌝
        ∗ ((cV').view.loc (VT d L) ↦{fullShare} f))

/-- One trip's arithmetic: storing, at words 16 k .. 16 k + 15 of the result scratch, the table gathered at
    the index words loaded from the same positions extends "the first 16 k words are the table at the index
    words" to the first 16 (k + 1). -/
theorem trip_pure (d : Dev nD) (L : grid0.Coords)
    (TB : Buf (Elt F) ((VT d L).loc cc0_scratch0)) (IX : Buf (Elt F) ((VT d L).loc cc0_scratch1))
    (hIX : ∀ j : S3136.Idx, ((IX : S3136.Idx → BitVec 32) j).toNat < 2048)
    (k : Fin k0_t1_loop.trips) (f : Buf (Elt F) ((VT d L).loc cc0_scratch2))
    (hf : ∀ j : S3136.Idx, (j 0).val < 16 * k.val →
      (f : S3136.Idx → BitVec 32) j = (TB : S2048.Idx → BitVec 32) (ValueIdx.ix1 (⟨((IX : S3136.Idx → BitVec 32) j).toNat, hIX j⟩ : Fin 2048)))
    (h : ∀ a x, ((![(iV).view.readAt (Elt F) (Rect.unit (s := S3136) (k0_off2 k) S16.size (k0_off2_inb k)).toLoadRect IX] : Fin 1 → IVec S16 32) a x).toNat < S2048.size a)
    (j : S3136.Idx) (hj : (j 0).val < 16 * (k.val + 1)) :
    ((cV').view.writes (Elt F) f
      [⟨Rect.unit (s := S3136) (k0_off3 k) S16.size (k0_off3_inb k),
        loadIdx (View.read (Elt F) ((tV).access (Rect.whole cc0_scratch0.ty.shape)) TB)
          ![(iV).view.readAt (Elt F) (Rect.unit (s := S3136) (k0_off2 k) S16.size (k0_off2_inb k)).toLoadRect IX] h⟩] : S3136.Idx → BitVec 32) j
      = (TB : S2048.Idx → BitVec 32) (ValueIdx.ix1 (⟨((IX : S3136.Idx → BitVec 32) j).toNat, hIX j⟩ : Fin 2048)) := by
  by_cases hm : j ∈ (Rect.unit (s := S3136) (k0_off3 k) S16.size (k0_off3_inb k)).set
  · rw [← Rect.map_emb_univ, Finset.mem_map] at hm
    obtain ⟨x, -, rfl⟩ := hm
    have e := View.read_writes_cons_emb (cV').view (Val := Elt F) f (Rect.unit (s := S3136) (k0_off3 k) S16.size (k0_off3_inb k))
      (loadIdx (View.read (Elt F) ((tV).access (Rect.whole cc0_scratch0.ty.shape)) TB)
          ![(iV).view.readAt (Elt F) (Rect.unit (s := S3136) (k0_off2 k) S16.size (k0_off2_inb k)).toLoadRect IX] h) [] x
    have hidx : (Rect.unit (s := S3136) (k0_off2 k) S16.size (k0_off2_inb k)).toLoadRect.idx x
        = (Rect.unit (s := S3136) (k0_off3 k) S16.size (k0_off3_inb k)).emb x :=
      funext fun a => Fin.ext (by simp only [LoadRect.idx_apply, Rect.emb_apply, Rect.off_unit, k0_off2_eq, k0_off3_eq])
    refine e.trans ?_
    show View.read (Elt F) ((tV).access (Rect.whole cc0_scratch0.ty.shape)) TB
      (idxAt ![(iV).view.readAt (Elt F) (Rect.unit (s := S3136) (k0_off2 k) S16.size (k0_off2_inb k)).toLoadRect IX] h x) = _
    refine ((View.read_apply _ _).trans (cast_eq _ _)).trans ?_
    refine congrArg TB (funext fun a => Fin.ext ?_)
    have ha : a.val = 0 := Nat.lt_one_iff.mp a.isLt
    rw [← hidx]
    obtain ⟨av, hav⟩ := a
    subst ha
    show ((Rect.whole cc0_scratch0.ty.shape).emb
      (idxAt ![(iV).view.readAt (Elt F) (Rect.unit (s := S3136) (k0_off2 k) S16.size (k0_off2_inb k)).toLoadRect IX] h x) ⟨0, hav⟩).val = _
    rw [Rect.emb_apply]
    show 0 + 1 * (BitVec.toNat ((IX : S3136.Idx → BitVec 32) ((Rect.unit (s := S3136) (k0_off2 k) S16.size (k0_off2_inb k)).toLoadRect.idx x)))
      = BitVec.toNat ((IX : S3136.Idx → BitVec 32) ((Rect.unit (s := S3136) (k0_off2 k) S16.size (k0_off2_inb k)).toLoadRect.idx x))
    omega
  · have hlt : (j 0).val < 16 * k.val := by
      have hm' := fun hh => hm (Rect.mem_set_unit.mpr hh)
      rw [k0_off3_eq] at hm'
      by_contra hge
      refine hm' fun a => ?_
      obtain rfl : a = 0 := Subsingleton.elim _ _
      constructor
      · show 16 * k.val ≤ (j 0).val; omega
      · show (j 0).val < 16 * k.val + 16; omega
    have e2 := View.read_writes_apply_of_forall_not_mem (cV').view (Val := Elt F) f j
      [⟨Rect.unit (s := S3136) (k0_off3 k) S16.size (k0_off3_inb k),
        loadIdx (View.read (Elt F) ((tV).access (Rect.whole cc0_scratch0.ty.shape)) TB)
          ![(iV).view.readAt (Elt F) (Rect.unit (s := S3136) (k0_off2 k) S16.size (k0_off2_inb k)).toLoadRect IX] h⟩]
      (fun p hp => by rw [List.mem_singleton] at hp; subst hp; exact hm)
    exact e2.trans (hf j hlt)

/-- What the table fetch lands: batch. -/
theorem tfetch_val (ft : Buf (Elt F) ((VT d L).loc cc0_scratch0)) (pay : S2048.Idx → Elt F .i32)
    (hp : pay = ReadAs.same.apply (View.read (Elt F) (bW).view (m (bLoc d)))) (i : S2048.Idx) :
    (View.write (Elt F) (tV).view ft pay Finset.univ : S2048.Idx → BitVec 32) i = (m (bLoc d) : S2048.Idx → BitVec 32) i := by
  have e : View.write (Elt F) (tV).view ft pay Finset.univ = pay := View.write_whole_univ _ _ _
  rw [e, hp]; rfl

/-- What the slice fetch lands: the task's slice of gnn. -/
theorem gfetch_val (fi : Buf (Elt F) ((VT d L).loc cc0_scratch1)) (pay : S3136.Idx → Elt F .i32)
    (hp : pay = ReadAs.same.apply (View.read (Elt F) (gSl L).view (m (gLoc d)))) (j : S3136.Idx) :
    (View.write (Elt F) (iV).view fi pay Finset.univ : S3136.Idx → BitVec 32) j
      = (m (gLoc d) : S100000.Idx → BitVec 32) ((gSl L).view.emb j) := by
  have e : View.write (Elt F) (iV).view fi pay Finset.univ = pay := View.write_whole_univ _ _ _
  rw [e, hp]
  exact (View.read_apply _ _).trans (cast_eq _ _)

/-- A write-mode share of the whole composed array is the share of a set of entries and of the rest. -/
theorem wb_split (q : PosShare TreeShare) (W : Finset (Idx (oLoc d))) (I : Finset (Idx (oLoc d))) :
    (willBeTo (Ix := HIx 1) (Name := ℕ) (Lvl := ℕ) (wmE (F := F)) (oLoc d) Finset.univ q (m (oLoc d)) (cidTgt m d) W : sProp 𝕄)
      ⊣⊢ iprop(willBeTo (wmE (F := F)) (oLoc d) I q (m (oLoc d)) (cidTgt m d) W
          ∗ willBeTo (wmE (F := F)) (oLoc d) (Finset.univ \ I) q (m (oLoc d)) (cidTgt m d) W) :=
  BI.Region.held_split_subset (Finset.subset_univ I)

/-- A holder's marks matter only on the entries it holds. -/
theorem wb_marks (q : PosShare TreeShare) (I W W' : Finset (Idx (oLoc d))) (h : ∀ i ∈ I, i ∈ W ↔ i ∈ W') :
    (willBeTo (Ix := HIx 1) (Name := ℕ) (Lvl := ℕ) (wmE (F := F)) (oLoc d) I q (m (oLoc d)) (cidTgt m d) W : sProp 𝕄)
      = willBeTo (wmE (F := F)) (oLoc d) I q (m (oLoc d)) (cidTgt m d) W' :=
  BI.Region.willBe_congr (fun _ _ => rfl) (fun _ _ => rfl) h

variable [FloatOps F]

set_option maxHeartbeats 4000000 in
theorem tile_body (hF : (K (F := F)).Facts) (hpre : PreOK m) (O : CellTallies nD τ sig (HIx 1)) (W : Waits sig (HIx 1)) (hO : ∀ g, O g none = 0) :
    iprop(levAts (K (F := F)).L (K (F := F)).lev ∗ (∃ ιwm : ℕ, wmInv (Ix := HIx 1) (wmE (F := F)) ιwm) ∗ tileRes m d L ∅
        ∗ scopedBufs (VT d L) ∗ scopedSems0 (VT d L) ∗ owes (VT d L) O W)
      ⊢ wp frame (wpE (defs₀ (F := F)) 𝒱₀ (VT d L) none) Set.univ
          (cc0_compose L bW (Memref.isWhole_whole _) gW (Memref.isWhole_whole _) oW (Memref.isWhole_whole _)
            tV (Memref.isWhole_whole _) iV (Memref.isWhole_whole _) cV' (Memref.isWhole_whole _) cc0_scratch3 cc0_scratch4 cc0_scoped0)
          fun _ => iprop(tileRes m d L (sliceSet d L) ∗ scopedBufs (VT d L) ∗ scopedSems0 (VT d L)
            ∗ ∃ W', ⌜∀ p ∈ W', p ∈ W ∨ p.2 = none⌝ ∗ owes (VT d L) O W') := by
  simp only [cc0_compose_eq_skeleton]; unfold cc0_compose_skel
  rw [(K (F := F)).scopedBufs_V hF d (cV L) (jV L), SparseCore.Cfg.scopedSems0_V (Val := Elt F) d (cV L) (jV L), ownSems0_V, ownBufs_V]
  unfold tileRes
  iintro ⟨#Hlv, ⟨%ιwm, #Hwm⟩, ⟨Hb, Hg, Ho⟩, ⟨⟨%ft, Ht⟩, ⟨%fi, Hi⟩, ⟨%fc, Hc⟩, Hbufs⟩, ⟨HsT, HsI, HsO, Hsems⟩, HO⟩
  ihave Hmw := ((K (F := F)).mayWaits_none (thr := VT d L) hO) $$ Hlv
  ihave Hb' := (Entails.of_eq (pts_b (F := F) d L _ _).symm) $$ Hb
  ihave Hg' := (Entails.of_eq (pts_g (F := F) d L _ _).symm) $$ Hg
  ihave Ht' := (Entails.of_eq (pts_t (F := F) d L _).symm) $$ Ht
  ihave Hi' := (Entails.of_eq (pts_i (F := F) d L _).symm) $$ Hi
  ihave Hc' := (Entails.of_eq (pts_c (F := F) d L _).symm) $$ Hc
  sl_exec
  have hIX : ∀ j : S3136.Idx, ((View.write (Elt F) (iV).view fi (tile_body.sl.dma0_1 m d L) Finset.univ : S3136.Idx → BitVec 32) j).toNat < 2048 := by
    intro j
    rw [gfetch_val m d L fi (tile_body.sl.dma0_1 m d L) rfl j]
    exact hpre d _
  sl_for (inv d L (View.write (Elt F) (tV).view ft (tile_body.sl.dma0 m d) Finset.univ) _ hIX) $$ [Ht' Hi' Hc']
  case region =>
    intro k _
    unfold inv
    iintro ⟨Ht, Hi, %f, %hf, Hc⟩
    sl_exec
    have hchk : k0_chk1 (View.readAt (Elt F) (iV).view (Rect.unit (s := S3136) (k0_off2 k) S16.size (k0_off2_inb k)).toLoadRect
        (View.write (Elt F) (iV).view fi (tile_body.sl.dma0_1 m d L) Finset.univ)) := by
      intro a x
      obtain rfl : a = 0 := Subsingleton.elim _ _
      show (View.readAt (Elt F) (iV).view (Rect.unit (s := S3136) (k0_off2 k) S16.size (k0_off2_inb k)).toLoadRect
        (View.write (Elt F) (iV).view fi (tile_body.sl.dma0_1 m d L) Finset.univ) x).toNat < 2048
      simp only [View.readAt_apply, Memref.view_whole, View.read_whole]
      exact hIX _
    rw [wp_assume_of _ _ _ _ hchk]
    iapply (SparseCore.wp_vectorLoadIdx 𝒱₀ (VT d L) none Set.univ (base := (tV)) (S := Finset.univ) (q := fullShare) (Finset.subset_univ _)) $$ Ht; iintro Ht
    sl_exec
    sl_step
    isplitl [Ht]; · iexact Ht
    isplitl [Hi]; · iexact Hi
    iexists _; isplitr
    swap; · iexact Hc
    ipureintro
    intro j hj
    exact trip_pure (F := F) d L _ _ hIX k f hf _ j hj
  · unfold inv
    isplitl [Ht']; · iexact Ht'
    isplitl [Hi']; · iexact Hi'
    iexists fc; isplitr
    · ipureintro; intro j hj; exact absurd hj (by omega)
    · iexact Hc'
  iintro %_ HI
  unfold inv
  icases HI with ⟨Ht, Hi, %f, %hf, Hc⟩
  have htr : Scf.trips k0_t1_loop.lb k0_t1_loop.ub k0_t1_loop.st = 196 := by decide
  rw [htr] at hf
  unfold tile_body.sl.prog.cont_1
  simp only [Prog.lift, Prog.bind_op, Prog.bind_ret, Prog.pure_eq_ret]
  -- what the result scratch holds is, word for word, the composed array's targets on the task's slice
  have hadm : (oSl L).view.Admitted (Elt F) (cidTgt m d) ((cV').view.read (Elt F) f) Finset.univ := by
    show (oSl L).view.Admitted (Elt F) (fun n => some (cidWord m d n)) _ _
    refine View.admitted_some_iff.mpr fun x _ => ?_
    refine Eq.trans (show (cV').view.read (Elt F) f x = f x from rfl) ?_
    rw [hf x (show (x 0).val < 16 * 196 from (x 0).isLt)]
    refine Eq.trans ?_ ((View.read_apply _ _).trans (cast_eq _ _)).symm
    unfold cidWord
    rw [tfetch_val m d L ft (tile_body.sl.dma0 m d) rfl]
    refine congrArg _ (congrArg ValueIdx.ix1 (Fin.ext ?_))
    show ((View.write (Elt F) (iV).view fi (tile_body.sl.dma0_1 m d L) Finset.univ : S3136.Idx → BitVec 32) x).toNat
      = ((m (gLoc d) : S100000.Idx → BitVec 32) ((oSl L).view.emb x)).toNat % 2048
    rw [gfetch_val m d L fi (tile_body.sl.dma0_1 m d L) rfl x, Nat.mod_eq_of_lt (hpre d _)]
    rfl
  have hN0 : 0 < (oSl L).view.amount (SemLoc.dma cc0_scoped0.sem) := View.amount_pos _ _ (show 0 < S3136.numel by decide)
  -- the task's share of the composed array, split at its slice
  ihave Ho2 := (wb_split (F := F) m d (tq L) ∅ (sliceSet d L)).1 $$ Ho
  icases Ho2 with ⟨HoS, HoR⟩
  iapply (Cert.LibWriteModeFlight.wp_dmaLocal_willBeTo (emb := wmE (F := F)) (ιwm := ιwm) (EC (F := F)) 𝒱₀ (VT d L) none
      (src := cV') (dst := oSl L) (sm := SemLoc.dma cc0_scoped0.sem) (q := fullShare) (fs := f) (qd := tq L) (fd := m (oLoc d))
      (g := cidTgt m d) (W := ∅) none _ rfl hN0 hadm) $$ [Hc HoS HsO]
  · isplitl [Hc]
    · iapply (Entails.of_eq (pts_c_set (F := F) d L f).symm)
      iapply (Entails.of_eq (pts_c (F := F) d L f))
      iexact Hc
    isplitl [HoS]
    · isplitr; · iexact Hwm
      iexact HoS
    iexact HsO
  iintro Hfl
  iapply (Transfers.wp_waitLocalO (EC (F := F)) 𝒱₀ (VT d L) none none rfl) $$ [Hfl HO]
  · isplitl [Hfl]; · iexact Hfl
    isplitl [HO]; · iexact HO
    iapply (Transfers.MayWaits.elim (SemLoc.dma cc0_scoped0.sem)); iexact Hmw
  iintro ⟨⟨HoS, Hc⟩, HsO, HO⟩
  rw [wp_ret]; imodintro
  -- the task's share of the composed array: its slice now marked, the rest as it was; one assertion again
  ihave HoS' := (Entails.of_eq (wb_marks (F := F) m d (tq L) (sliceSet d L) (∅ ∪ sliceSet d L) (sliceSet d L)
      (fun i _ => by rw [Finset.empty_union]))) $$ HoS
  ihave HoR' := (Entails.of_eq (wb_marks (F := F) m d (tq L) (Finset.univ \ sliceSet d L) ∅ (sliceSet d L)
      (fun i hi => ⟨fun h => absurd h (Finset.notMem_empty _), fun h => absurd h (Finset.mem_sdiff.mp hi).2⟩))) $$ HoR
  isplitl [Hb' Hg' HoS' HoR']
  · isplitl [Hb']; · iapply (Entails.of_eq (pts_b (F := F) d L _ _)); iexact Hb'
    isplitl [Hg']; · iapply (Entails.of_eq (pts_g (F := F) d L _ _)); iexact Hg'
    iapply (wb_split (F := F) m d (tq L) (sliceSet d L) (sliceSet d L)).2
    isplitl [HoS'] <;> iassumption
  isplitl [Ht Hi Hc Hbufs]
  · isplitl [Ht]; · iexists _; iapply (Entails.of_eq (pts_t (F := F) d L _)); iexact Ht
    isplitl [Hi]; · iexists _; iapply (Entails.of_eq (pts_i (F := F) d L _)); iexact Hi
    isplitl [Hc]; · iexists _; iapply (Entails.of_eq (pts_c_set (F := F) d L _)); iexact Hc
    iexact Hbufs
  isplitl [HsT HsI HsO Hsems]
  · isplitl [HsT]; · iexact HsT
    isplitl [HsI]; · iexact HsI
    isplitl [HsO]; · iexact HsO
    iexact Hsems
  iexists _; isplitr
  swap; · iexact HO
  ipureintro; intro p hp
  rcases Finset.mem_insert.mp hp with rfl | hp
  · exact .inr rfl
  rcases Finset.mem_insert.mp hp with rfl | hp
  · exact .inr rfl
  rcases Finset.mem_insert.mp hp with rfl | hp
  · exact .inr rfl
  · exact .inl hp

end Tile

end Cert.Proof.KI

end
-- ==== Proof.ScTileObl.lean ====
/-
  The obligation of a task of the SparseCore call, from the proof of the kernel's body at a grid point.

  The launch dispatches task (c, i) of device d as the kernel's body at the grid point of those coordinates, run
  through the region's table. What the task is handed — the write-mode invariant, its tokens of batch, gnn
  and the composed array — is what the body's proof takes; what the body's proof leaves — the same tokens,
  the task's slice marked written — is what the task hands back.
-/
import proofs.«208690_g19181323943962_cont_8to1_1746_28_alg».proof.Proof.ScTile
import proofs.«208690_g19181323943962_cont_8to1_1746_28_alg».proof.Proof.ScSplit

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ (UU (F := F)) ℕ

local notation "bW" => (Memref.whole Cert.KernelIdeal.main_arg6_scv : Memref Cert.KernelIdeal.sig Kind.scVector Space.hbm Cert.KernelIdeal.S2048 EltTy.i32)
local notation "gW" => (Memref.whole Cert.KernelIdeal.main_arg5_scv : Memref Cert.KernelIdeal.sig Kind.scVector Space.hbm Cert.KernelIdeal.S100000 EltTy.i32)
local notation "oW" => (Memref.whole Cert.KernelIdeal.main_v0_scv : Memref Cert.KernelIdeal.sig Kind.scVector Space.hbm Cert.KernelIdeal.S100000 EltTy.i32)
local notation "tV" => (Memref.whole Cert.KernelIdeal.cc0_scratch0 : Memref Cert.KernelIdeal.sig Kind.scVector Space.vmem Cert.KernelIdeal.S2048 EltTy.i32)
local notation "iV" => (Memref.whole Cert.KernelIdeal.cc0_scratch1 : Memref Cert.KernelIdeal.sig Kind.scVector Space.vmem Cert.KernelIdeal.S3136 EltTy.i32)
local notation "cV'" => (Memref.whole Cert.KernelIdeal.cc0_scratch2 : Memref Cert.KernelIdeal.sig Kind.scVector Space.vmem Cert.KernelIdeal.S3136 EltTy.i32)

variable (m : (ℓ : Loc nD τ sig) → Buf (Elt F) ℓ)

/-- A task's post with the waits it may have added read as the launch reads them. -/
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

variable [FloatOps F]

/-- The region's table at a vector subcore and the call's label is the kernel's body at the subcore's grid point. -/
theorem defs₀_vector (c : Fin τ.nSC) (s : Fin τ.nSub) :
    defs₀ (F := F) (.scVector c s) 0 ()
      = SparseCore.onTile hcore0 hsub0 (fun c s => cc0_compose (coordsV c s)
          bW (Memref.isWhole_whole _) gW (Memref.isWhole_whole _) oW (Memref.isWhole_whole _)
          tV (Memref.isWhole_whole _) iV (Memref.isWhole_whole _) cV' (Memref.isWhole_whole _) cc0_scratch3 cc0_scratch4 cc0_scoped0) ⟨⟩ c s := rfl

theorem tileObl (hF : (K (F := F)).Facts) (hpre : PreOK m) : (K (F := F)).TileObl (D (F := F)) 𝒱 (P m) v₀ 0 := by
  intro d c i O W hO _ _
  -- the task takes on no debt of its own: the payload record's extra debt is zero
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body m d (coordsV ⟨_, hc.1⟩ ⟨_, hc.2⟩) hF hpre O W hO).trans (wp_mono frame _ _ fun _ => obl_post)

end Cert.Proof.KI

end
-- ==== Proof.ScRun.lean ====
/-
  The kernel program's run, from the proofs of its parts.

  On each TensorCore: the SparseCore call leaves the composed array at the words batch (gnn n); the five
  host operations reshape it into blocks, convert the two weight matrices and reshape the two biases,
  touching nothing else; the TensorCore region, entered with its eight window arrays whole at those
  contents, returns the six it only reads as they were and the two results at the contents the region's
  proof gives them. The seven arguments are then as at launch: the region returns the first, and the
  others never left the TensorCore's hands. The region's proof is taken here as hypotheses.

  The launch theorem then gives the run: the task obligation and the split for the one call, the launch
  element, this account of the main program, and the reading of the final resources.
-/
import proofs.«208690_g19181323943962_cont_8to1_1746_28_alg».proof.Proof.ScLaunch
import proofs.«208690_g19181323943962_cont_8to1_1746_28_alg».proof.Proof.ScTileObl

noncomputable section

namespace Cert.Proof.KI

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held seq after)

variable {F : FTy → Type}

local notation "𝕄" => MT nD τ sig (HIx 1) (Elt F) ℕ (UU (F := F)) ℕ

variable (m : (ℓ : Loc nD τ sig) → Buf (Elt F) ℓ) (ρ : Dev nD → PrngReg)

variable [FloatOps F]

/-! ## The arrays before and after the host operations -/

/-- The device's arrays after the call: the composed array at its words, every other at its launch contents. -/
def Wcall (d : Dev nD) : Valuation τ sig (Elt F) :=
  Function.update (fun b => m (d, b)) v0' (fun n => cidWord m d n)

theorem Wcall_v0 (d : Dev nD) : Wcall m d v0' = fun n => cidWord m d n := Function.update_self _ _ _
theorem Wcall_ne (d : Dev nD) (b : DevRef τ sig) (h : b ≠ v0') : Wcall m d b = m (d, b) := Function.update_of_ne h _ _

/-- The region's six read-only windows' contents at its entry. -/
abbrev eIds (d : Dev nD) : Buf (Elt F) ((SparseCore.T d : Thread nD τ).loc main_v1) :=
  shapeCast S5x1x20000 (fun n => cidWord m d n) shapeCasts_S100000_S5x1x20000
abbrev eW1 (d : Dev nD) : Buf (Elt F) ((SparseCore.T d : Thread nD τ).loc main_v2) :=
  (truncf .bf16 (m ((SparseCore.T d : Thread nD τ).loc main_arg1) : FVec F S128x64 .f32) bitsLt_bf16_f32 : FVec F S128x64 .bf16)
abbrev eB1 (d : Dev nD) : Buf (Elt F) ((SparseCore.T d : Thread nD τ).loc main_v3) :=
  shapeCast S1x64 (m ((SparseCore.T d : Thread nD τ).loc main_arg2)) shapeCasts_S64_S1x64
abbrev eW2 (d : Dev nD) : Buf (Elt F) ((SparseCore.T d : Thread nD τ).loc main_v4) :=
  (truncf .bf16 (m ((SparseCore.T d : Thread nD τ).loc main_arg3) : FVec F S64x128 .f32) bitsLt_bf16_f32 : FVec F S64x128 .bf16)
abbrev eB2 (d : Dev nD) : Buf (Elt F) ((SparseCore.T d : Thread nD τ).loc main_v5) :=
  shapeCast S1x128 (m ((SparseCore.T d : Thread nD τ).loc main_arg4)) shapeCasts_S128_S1x128

/-- The six arrays the region only reads, whole at their entry contents: the blocks of ids, x, the two converted
    weight matrices and the two bias rows, in the order of the region's windows. -/
def regionIn (d : Dev nD) : sProp 𝕄 :=
  iprop(((SparseCore.T d).loc main_v1 ↦{fullShare} eIds m d)
    ∗ ((SparseCore.T d).loc main_arg0 ↦{fullShare} m ((SparseCore.T d).loc main_arg0))
    ∗ ((SparseCore.T d).loc main_v2 ↦{fullShare} eW1 m d)
    ∗ ((SparseCore.T d).loc main_v3 ↦{fullShare} eB1 m d)
    ∗ ((SparseCore.T d).loc main_v4 ↦{fullShare} eW2 m d)
    ∗ ((SparseCore.T d).loc main_v5 ↦{fullShare} eB2 m d))

/-- The fifteen arrays held after the call, one by one. -/
theorem held_call (d : Dev nD) :
    (held (SparseCore.T d) tcBufs (Wcall m d) : sProp 𝕄)
      = iprop(((SparseCore.T d).loc main_arg0 ↦{fullShare} m ((SparseCore.T d).loc main_arg0))
          ∗ ((SparseCore.T d).loc main_arg1 ↦{fullShare} m ((SparseCore.T d).loc main_arg1))
          ∗ ((SparseCore.T d).loc main_arg2 ↦{fullShare} m ((SparseCore.T d).loc main_arg2))
          ∗ ((SparseCore.T d).loc main_arg3 ↦{fullShare} m ((SparseCore.T d).loc main_arg3))
          ∗ ((SparseCore.T d).loc main_arg4 ↦{fullShare} m ((SparseCore.T d).loc main_arg4))
          ∗ ((SparseCore.T d).loc main_arg5 ↦{fullShare} m ((SparseCore.T d).loc main_arg5))
          ∗ ((SparseCore.T d).loc main_arg6 ↦{fullShare} m ((SparseCore.T d).loc main_arg6))
          ∗ ((SparseCore.T d).loc main_v0 ↦{fullShare} (fun n => cidWord m d n))
          ∗ ((SparseCore.T d).loc main_v1 ↦{fullShare} m ((SparseCore.T d).loc main_v1))
          ∗ ((SparseCore.T d).loc main_v2 ↦{fullShare} m ((SparseCore.T d).loc main_v2))
          ∗ ((SparseCore.T d).loc main_v3 ↦{fullShare} m ((SparseCore.T d).loc main_v3))
          ∗ ((SparseCore.T d).loc main_v4 ↦{fullShare} m ((SparseCore.T d).loc main_v4))
          ∗ ((SparseCore.T d).loc main_v5 ↦{fullShare} m ((SparseCore.T d).loc main_v5))
          ∗ ((SparseCore.T d).loc main_v6_0 ↦{fullShare} m ((SparseCore.T d).loc main_v6_0))
          ∗ ((SparseCore.T d).loc main_v6_1 ↦{fullShare} m ((SparseCore.T d).loc main_v6_1))) := by
  rw [held_tcBufs, Wcall_v0, Wcall_ne m d a0' (by decide), Wcall_ne m d a1' (by decide), Wcall_ne m d a2' (by decide),
    Wcall_ne m d a3' (by decide), Wcall_ne m d a4' (by decide), Wcall_ne m d a5' (by decide), Wcall_ne m d a6' (by decide),
    Wcall_ne m d v1' (by decide), Wcall_ne m d v2' (by decide), Wcall_ne m d v3' (by decide), Wcall_ne m d v4' (by decide),
    Wcall_ne m d v5' (by decide), Wcall_ne m d r0' (by decide), Wcall_ne m d r1' (by decide)]

/-- The fifteen after the host operations: the five written at the region's entry contents, the rest as they were. -/
theorem held_host (d : Dev nD) :
    (held (SparseCore.T d) tcBufs (after (hostOps (F := F)) (Wcall m d)) : sProp 𝕄)
      = iprop(((SparseCore.T d).loc main_arg0 ↦{fullShare} m ((SparseCore.T d).loc main_arg0))
          ∗ ((SparseCore.T d).loc main_arg1 ↦{fullShare} m ((SparseCore.T d).loc main_arg1))
          ∗ ((SparseCore.T d).loc main_arg2 ↦{fullShare} m ((SparseCore.T d).loc main_arg2))
          ∗ ((SparseCore.T d).loc main_arg3 ↦{fullShare} m ((SparseCore.T d).loc main_arg3))
          ∗ ((SparseCore.T d).loc main_arg4 ↦{fullShare} m ((SparseCore.T d).loc main_arg4))
          ∗ ((SparseCore.T d).loc main_arg5 ↦{fullShare} m ((SparseCore.T d).loc main_arg5))
          ∗ ((SparseCore.T d).loc main_arg6 ↦{fullShare} m ((SparseCore.T d).loc main_arg6))
          ∗ ((SparseCore.T d).loc main_v0 ↦{fullShare} (fun n => cidWord m d n))
          ∗ ((SparseCore.T d).loc main_v1 ↦{fullShare} eIds m d)
          ∗ ((SparseCore.T d).loc main_v2 ↦{fullShare} eW1 m d)
          ∗ ((SparseCore.T d).loc main_v3 ↦{fullShare} eB1 m d)
          ∗ ((SparseCore.T d).loc main_v4 ↦{fullShare} eW2 m d)
          ∗ ((SparseCore.T d).loc main_v5 ↦{fullShare} eB2 m d)
          ∗ ((SparseCore.T d).loc main_v6_0 ↦{fullShare} m ((SparseCore.T d).loc main_v6_0))
          ∗ ((SparseCore.T d).loc main_v6_1 ↦{fullShare} m ((SparseCore.T d).loc main_v6_1))) := by
  rw [held_tcBufs, host_v1, host_v2, host_v3, host_v4, host_v5,
    host_other _ a0' (by decide), host_other _ a1' (by decide), host_other _ a2' (by decide), host_other _ a3' (by decide),
    host_other _ a4' (by decide), host_other _ a5' (by decide), host_other _ a6' (by decide), host_other _ v0' (by decide),
    host_other _ r0' (by decide), host_other _ r1' (by decide),
    Wcall_v0, Wcall_ne m d a0' (by decide), Wcall_ne m d a1' (by decide), Wcall_ne m d a2' (by decide),
    Wcall_ne m d a3' (by decide), Wcall_ne m d a4' (by decide), Wcall_ne m d a5' (by decide), Wcall_ne m d a6' (by decide),
    Wcall_ne m d r0' (by decide), Wcall_ne m d r1' (by decide)]

/-- The program with the region's call spelt as the one operation it is. -/
theorem main_eq' (d : Dev nD) :
    (main (F := F) d : Prog (TpuEff nD τ sig (Elt F) (SparseCore.Sig (ΛP (F := F)) 1) .tc) PUnit)
      = (K (F := F)).run d 0 >>= fun _ => seq (hostOps (F := F)) >>= fun _ =>
          .op (.customCall (SparseCore.inner (Pipeline.entry 0)) ()) fun _ => pure ⟨⟩ := rfl

/-! ## The main program on the TensorCore -/

section Main

variable (KST : (d : Dev nD) → Buf (Elt F) ((SparseCore.T d : Thread nD τ).loc main_v6_0))
  (KOUT : (d : Dev nD) → Buf (Elt F) ((SparseCore.T d : Thread nD τ).loc main_v6_1))

/-- The main program on device d's TensorCore, the region's proof taken as hypotheses: the region runs from the
    boundary, Rpre, the levels and its ghost state GP to the boundary and Rpost; Rpre is had from the eight window
    arrays whole at their entry contents and an empty debt; Rpost gives back the six read-only windows as they were,
    the two results at KST and KOUT, and an empty debt; after the call the TensorCore owes nothing, and whatever it
    waited on sits below the level its final state asks. -/
theorem hmain (GP : Dev nD → sProp 𝕄) (Rpre : Dev nD → sProp 𝕄) (Rpost : Dev nD → sProp 𝕄)
    (hregion : ∀ (d : Dev nD) {α : Type} (k : PUnit → Prog (TpuEff nD τ sig (Elt F) (SparseCore.Sig (ΛP (F := F)) 1) .tc) α) (Q : α → sProp 𝕄),
      iprop((iprop(boundary (SparseCore.T d) ∗ Rpost d) -∗ wp frame (wpE ((K (F := F)).defs (D (F := F))) 𝒱 (SparseCore.T d) none) Set.univ (k ⟨⟩) Q)
          ∗ boundary (SparseCore.T d) ∗ Rpre d ∗ levAts (K (F := F)).L (K (F := F)).lev ∗ GP d)
        ⊢ wp frame (wpE ((K (F := F)).defs (D (F := F))) 𝒱 (SparseCore.T d) none) Set.univ
            (.op (.customCall (SparseCore.inner (Pipeline.entry 0)) ()) k) Q)
    (hRpre : ∀ (d : Dev nD) (W : Waits sig (HIx 1)),
      iprop(regionIn m d ∗ ((SparseCore.T d).loc main_v6_0 ↦{fullShare} m ((SparseCore.T d).loc main_v6_0))
          ∗ ((SparseCore.T d).loc main_v6_1 ↦{fullShare} m ((SparseCore.T d).loc main_v6_1)) ∗ owes (SparseCore.T d) 0 W) ⊢ Rpre d)
    (hRpost : ∀ d : Dev nD, Rpost d ⊢ iprop(regionIn m d ∗ ((SparseCore.T d).loc main_v6_0 ↦{fullShare} KST d)
          ∗ ((SparseCore.T d).loc main_v6_1 ↦{fullShare} KOUT d) ∗ ∃ W : Waits sig (HIx 1), owes (SparseCore.T d) 0 W))
    (hOtc : ∀ d : Dev nD, (K (F := F)).Otc (nD := nD) d 1 = 0)
    (hWB : ∀ (d : Dev nD) (W : Waits sig (HIx 1)), (K (F := F)).WBelow (SparseCore.T d) W (8 * 1))
    (κ : GSem nD τ sig → ℕ) (d : Dev nD) :
    iprop((K (F := F)).ctx EH (P m) κ ∗ (K (F := F)).tcSt EH d 0 ∗ (K (F := F)).tcRes m ρ d ∗ G (F := F) GP d)
      ⊢ wp frame (wpE ((K (F := F)).defs (D (F := F))) 𝒱 (SparseCore.T d) none) Set.univ (main d)
          fun _ => iprop((K (F := F)).tcSt EH d 1 ∗ FIN m KST KOUT d) := by
  rw [main_eq']
  unfold SparseCore.Cfg.tcRes G
  rw [unscopedBufs_eq]
  iintro ⟨#Hctx, Hst, ⟨Hbd, ⟨Ha0, Ha1, Ha2, Ha3, Ha4, Ha5, Ha6, Hv0, Hv1, Hv2, Hv3, Hv4, Hv5, Hr0, Hr1⟩, -, -⟩, ⟨%ιwm, #Hwm⟩, HGP⟩
  -- the call: batch, gnn and the composed array go in whole and come back whole, the composed array at its words
  iapply (call_stretch m κ d _ _ ιwm) $$ [Hst Hbd Ha0 Ha1 Ha2 Ha3 Ha4 Ha5 Ha6 Hv0 Hv1 Hv2 Hv3 Hv4 Hv5 Hr0 Hr1 HGP]
  isplitr; · iexact Hctx
  isplitl [Hst]; · iexact Hst
  isplitr; · iexact Hwm
  isplitl [Ha6]; · iexact Ha6
  isplitl [Ha5]; · iexact Ha5
  isplitl [Hv0]; · iexact Hv0
  iintro ⟨Hst, Ha6, Ha5, Hv0⟩
  -- the five host operations, over the fifteen arrays
  iapply (host_stretch d tcBufs hostBufs_sub (Wcall m d) _ _) $$ [Hst Hbd Ha0 Ha1 Ha2 Ha3 Ha4 Ha5 Ha6 Hv0 Hv1 Hv2 Hv3 Hv4 Hv5 Hr0 Hr1 HGP]
  isplitl [Hbd]; · iexact Hbd
  isplitl [Ha0 Ha1 Ha2 Ha3 Ha4 Ha5 Ha6 Hv0 Hv1 Hv2 Hv3 Hv4 Hv5 Hr0 Hr1]
  · rw [held_call]
    isplitl [Ha0]; · iexact Ha0
    isplitl [Ha1]; · iexact Ha1
    isplitl [Ha2]; · iexact Ha2
    isplitl [Ha3]; · iexact Ha3
    isplitl [Ha4]; · iexact Ha4
    isplitl [Ha5]; · iexact Ha5
    isplitl [Ha6]; · iexact Ha6
    isplitl [Hv0]; · iexact Hv0
    isplitl [Hv1]; · iexact Hv1
    isplitl [Hv2]; · iexact Hv2
    isplitl [Hv3]; · iexact Hv3
    isplitl [Hv4]; · iexact Hv4
    isplitl [Hv5]; · iexact Hv5
    isplitl [Hr0]; · iexact Hr0
    iexact Hr1
  iintro ⟨Hbd, Hheld⟩
  ihave Hh := (Entails.of_eq (held_host m d)) $$ Hheld
  icases Hh with ⟨Ha0, Ha1, Ha2, Ha3, Ha4, Ha5, Ha6, -, Hv1, Hv2, Hv3, Hv4, Hv5, Hr0, Hr1⟩
  -- the TensorCore's state after the call: it owes nothing
  unfold SparseCore.Cfg.tcSt
  rw [hOtc d]
  icases Hst with ⟨⟨%W, -, HO⟩, Hrest⟩
  ihave Hlev := (SparseCore.Cfg.ctx_levAts κ) $$ Hctx
  -- the region
  iapply (hregion d (fun _ => pure ⟨⟩) _) $$ [Hbd Ha0 Ha1 Ha2 Ha3 Ha4 Ha5 Ha6 Hv1 Hv2 Hv3 Hv4 Hv5 Hr0 Hr1 HO Hrest HGP Hlev]
  isplitl [Ha1 Ha2 Ha3 Ha4 Ha5 Ha6 Hrest]
  · iintro ⟨Hbd, Hpost⟩
    ihave Hp := (hRpost d) $$ Hpost
    unfold regionIn
    icases Hp with ⟨⟨-, Ha0, -, -, -, -⟩, Hs, Ho, %W', HO⟩
    rw [wp_pure]
    imodintro
    isplitl [HO Hrest]
    · isplitl [HO]
      · iexists W'
        isplitr
        · ipureintro; exact hWB d W'
        · iexact HO
      · iexact Hrest
    · unfold FIN
      isplitl [Ha0]; · iexact Ha0
      isplitl [Ha1]; · iexact Ha1
      isplitl [Ha2]; · iexact Ha2
      isplitl [Ha3]; · iexact Ha3
      isplitl [Ha4]; · iexact Ha4
      isplitl [Ha5]; · iexact Ha5
      isplitl [Ha6]; · iexact Ha6
      isplitl [Hs]; · iexact Hs
      iexact Ho
  isplitl [Hbd]; · iexact Hbd
  isplitl [Ha0 Hv1 Hv2 Hv3 Hv4 Hv5 Hr0 Hr1 HO]
  · iapply (hRpre d W)
    isplitl [Ha0 Hv1 Hv2 Hv3 Hv4 Hv5]
    · unfold regionIn
      isplitl [Hv1]; · iexact Hv1
      isplitl [Ha0]; · iexact Ha0
      isplitl [Hv2]; · iexact Hv2
      isplitl [Hv3]; · iexact Hv3
      isplitl [Hv4]; · iexact Hv4
      iexact Hv5
    isplitl [Hr0]; · iexact Hr0
    isplitl [Hr1]; · iexact Hr1
    iexact HO
  isplitl [Hlev]; · iexact Hlev
  iexact HGP

/-- The kernel program's run, from the region's proof: from any memory whose gnn words name graphs it runs to an end
    where, on every device, the two results are at KST and KOUT and the seven arguments are as they were. -/
theorem run_main [∀ e, Nonempty (Elt F e)] (GP : Dev nD → sProp 𝕄) (Rpre : Dev nD → sProp 𝕄) (Rpost : Dev nD → sProp 𝕄)
    (hpre : PreOK m) (eP : UP)
    (hfund : (BI.own (EP (F := F) eP) : sProp 𝕄) ⊢ |={Set.univ}=> bigSep Finset.univ GP)
    (hregion : ∀ (d : Dev nD) {α : Type} (k : PUnit → Prog (TpuEff nD τ sig (Elt F) (SparseCore.Sig (ΛP (F := F)) 1) .tc) α) (Q : α → sProp 𝕄),
      iprop((iprop(boundary (SparseCore.T d) ∗ Rpost d) -∗ wp frame (wpE ((K (F := F)).defs (D (F := F))) 𝒱 (SparseCore.T d) none) Set.univ (k ⟨⟩) Q)
          ∗ boundary (SparseCore.T d) ∗ Rpre d ∗ levAts (K (F := F)).L (K (F := F)).lev ∗ GP d)
        ⊢ wp frame (wpE ((K (F := F)).defs (D (F := F))) 𝒱 (SparseCore.T d) none) Set.univ
            (.op (.customCall (SparseCore.inner (Pipeline.entry 0)) ()) k) Q)
    (hRpre : ∀ (d : Dev nD) (W : Waits sig (HIx 1)),
      iprop(regionIn m d ∗ ((SparseCore.T d).loc main_v6_0 ↦{fullShare} m ((SparseCore.T d).loc main_v6_0))
          ∗ ((SparseCore.T d).loc main_v6_1 ↦{fullShare} m ((SparseCore.T d).loc main_v6_1)) ∗ owes (SparseCore.T d) 0 W) ⊢ Rpre d)
    (hRpost : ∀ d : Dev nD, Rpost d ⊢ iprop(regionIn m d ∗ ((SparseCore.T d).loc main_v6_0 ↦{fullShare} KST d)
          ∗ ((SparseCore.T d).loc main_v6_1 ↦{fullShare} KOUT d) ∗ ∃ W : Waits sig (HIx 1), owes (SparseCore.T d) 0 W))
    (hOtc : ∀ d : Dev nD, (K (F := F)).Otc (nD := nD) d 1 = 0)
    (hWB : ∀ (d : Dev nD) (W : Waits sig (HIx 1)), (K (F := F)).WBelow (SparseCore.T d) W (8 * 1)) :
    θ_run (Cert.KernelIdeal.defs (F := F)) (Cert.KernelIdeal.threads (F := F)) ⟨m, fun _ => 0, ρ⟩ (QC m KST KOUT) :=
  SparseCore.Cfg.θ_run_sc (K := K (F := F)) (D := D (F := F)) (𝒱 := 𝒱) (EH := EH) (P := P m) facts v₀
    (fun q hq => match q with | 0 => nomatch hq)
    (fun q _ => match q with | 0 => tileObl m facts hpre)
    (fun q _ => match q with | 0 => SparseCore.Cfg.VecSplit.of_plain (vecSplit m))
    m ρ main (G (F := F) GP) (FIN m KST KOUT) (u₀ (F := F) eP) (hu₀ m ρ eP GP hfund)
    (hmain m ρ KST KOUT GP Rpre Rpost hregion hRpre hRpost hOtc hWB) (fq m KST KOUT) (hfin m KST KOUT) (QC m KST KOUT)
    (fun s' h => hQ m KST KOUT s' h)

end Main

end Cert.Proof.KI

end
-- ==== Proof.TcGlue.lean ====
/-
  The TensorCore region at the kernel program's own entry contents: the ids' blocks are the composed
  id array reshaped, the data as launched, the weights converted to bf16 and the biases reshaped, the
  two results as launched. What the main thread's proof asks of the region, in its shapes.
-/
import proofs.«208690_g19181323943962_cont_8to1_1746_28_alg».proof.Proof.TcRegion
import proofs.«208690_g19181323943962_cont_8to1_1746_28_alg».proof.Proof.ScRun

set_option maxRecDepth 16384

noncomputable section

namespace Cert.Proof.TcGlue

open Cert.KernelIdeal Cert.KernelIdeal.Gen Cert.Proof.KI Cert.Proof.TcBody Cert.Proof.TcRegion
open Idealize.ShloMosaic Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

variable {F : FTy → Type} [FloatOps F]

local notation "𝕄" => MT nD τ sig (HIx 1) (Elt F) ℕ (UU (F := F)) ℕ

variable (m : (ℓ : Loc nD τ sig) → Buf (Elt F) ℓ) (ρ : Dev nD → PrngReg)

/-- The eight windowed arrays' contents when the region is entered. -/
def Ain (d : Dev nD) : ATy (F := F) d :=
  mkA d (eIds m d) (m ((SparseCore.T d : Thread nD τ).loc main_arg0)) (eW1 m d) (eB1 m d) (eW2 m d) (eB2 m d)
    (m ((SparseCore.T d : Thread nD τ).loc main_v6_0)) (m ((SparseCore.T d : Thread nD τ).loc main_v6_1))

theorem Ain_0 (d : Dev nD) : Ain m d 0 = eIds m d := rfl
theorem Ain_1 (d : Dev nD) : Ain m d 1 = m ((SparseCore.T d : Thread nD τ).loc main_arg0) := rfl
theorem Ain_2 (d : Dev nD) : Ain m d 2 = eW1 m d := rfl
theorem Ain_3 (d : Dev nD) : Ain m d 3 = eB1 m d := rfl
theorem Ain_4 (d : Dev nD) : Ain m d 4 = eW2 m d := rfl
theorem Ain_5 (d : Dev nD) : Ain m d 5 = eB2 m d := rfl
theorem Ain_6 (d : Dev nD) : Ain m d 6 = m ((SparseCore.T d : Thread nD τ).loc main_v6_0) := rfl
theorem Ain_7 (d : Dev nD) : Ain m d 7 = m ((SparseCore.T d : Thread nD τ).loc main_v6_1) := rfl

/-- The region's entry and exit states, its ghost state, and what its two results hold at the end. -/
abbrev Rpre (d : Dev nD) : sProp (MT nD τ sig (HIx 1) (Elt F) ℕ (UU (F := F)) ℕ) := (R (Ain m)).pre d
abbrev Rpost (d : Dev nD) : sProp (MT nD τ sig (HIx 1) (Elt F) ℕ (UU (F := F)) ℕ) := (R (Ain m)).post d
abbrev KSTm (d : Dev nD) : Buf (Elt F) ((SparseCore.T d : Thread nD τ).loc main_v6_0) := KST (Ain m) d
abbrev KOUTm (d : Dev nD) : Buf (Elt F) ((SparseCore.T d : Thread nD τ).loc main_v6_1) := KOUT (Ain m) d

theorem hregion (d : Dev nD) {α : Type} (k : PUnit → Prog (TpuEff nD τ sig (Elt F) (SparseCore.Sig (ΛP (F := F)) 1) .tc) α) (Q : α → sProp 𝕄) :
    iprop((iprop(boundary (SparseCore.T d) ∗ Rpost m d) -∗ wp frame (wpE ((K (F := F)).defs (D (F := F))) 𝒱 (SparseCore.T d) none) Set.univ (k ⟨⟩) Q)
        ∗ boundary (SparseCore.T d) ∗ Rpre m d ∗ levAts (K (F := F)).L (K (F := F)).lev ∗ GP (F := F) d)
      ⊢ wp frame (wpE ((K (F := F)).defs (D (F := F))) 𝒱 (SparseCore.T d) none) Set.univ
          (.op (.customCall (SparseCore.inner (Pipeline.entry 0)) ()) k) Q :=
  region_step_of (rd (Ain m)) none (R (Ain m)) d k Q

theorem hRpre (d : Dev nD) (W : Waits sig (HIx 1)) :
    iprop(regionIn m d ∗ ((SparseCore.T d).loc main_v6_0 ↦{fullShare} m ((SparseCore.T d).loc main_v6_0))
        ∗ ((SparseCore.T d).loc main_v6_1 ↦{fullShare} m ((SparseCore.T d).loc main_v6_1)) ∗ owes (SparseCore.T d) 0 W) ⊢ Rpre m d := by
  refine BI.Entails.trans ?_ (pre_of (Ain m) d)
  unfold Ain; rw [arrs8_mk]
  unfold regionIn
  show (_ : sProp 𝕄) ⊢ _
  iintro ⟨⟨H0, H1, H2, H3, H4, H5⟩, H6, H7, Ho⟩
  isplitr [Ho]
  · isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  iexists W; iexact Ho

theorem hRpost (d : Dev nD) :
    Rpost m d ⊢ iprop(regionIn m d ∗ ((SparseCore.T d).loc main_v6_0 ↦{fullShare} KSTm m d)
        ∗ ((SparseCore.T d).loc main_v6_1 ↦{fullShare} KOUTm m d) ∗ ∃ W : Waits sig (HIx 1), owes (SparseCore.T d) 0 W) := by
  refine BI.Entails.trans (post_final (Ain m) d) ?_
  rw [arrs8_mk, Ain_0, Ain_1, Ain_2, Ain_3, Ain_4, Ain_5]
  unfold regionIn
  show (_ : sProp 𝕄) ⊢ _
  iintro ⟨⟨H0, H1, H2, H3, H4, H5, H6, H7⟩, Ho⟩
  isplitl [H0 H1 H2 H3 H4 H5]
  · isplitl [H0]; · iexact H0
    isplitl [H1]; · iexact H1
    isplitl [H2]; · iexact H2
    isplitl [H3]; · iexact H3
    isplitl [H4]; · iexact H4
    iexact H5
  isplitl [H6]; · iexact H6
  isplitl [H7]; · iexact H7
  iexact Ho

theorem hOtc (d : Dev nD) : (K (F := F)).Otc (nD := nD) d 1 = 0 := Otc_one d
theorem hWB (d : Dev nD) (W : Waits sig (HIx 1)) : (K (F := F)).WBelow (SparseCore.T d) W (8 * 1) := wbelow_all d W

theorem hfund' : (BI.own (EP (F := F) (eP (F := F))) : sProp 𝕄) ⊢ |={Set.univ}=> bigSep Finset.univ (GP (F := F)) := hfund

/-- The kernel program's run, the region's proof supplied. -/
theorem run [∀ e, Nonempty (Elt F e)] (hpre : PreOK m) :
    θ_run (Cert.KernelIdeal.defs (F := F)) (Cert.KernelIdeal.threads (F := F)) ⟨m, fun _ => 0, ρ⟩ (QC m (KSTm m) (KOUTm m)) :=
  run_main m ρ (KSTm m) (KOUTm m) (GP (F := F)) (Rpre m) (Rpost m) hpre (eP (F := F)) hfund' (hregion m) (hRpre m) (hRpost m) hOtc hWB

end Cert.Proof.TcGlue

end
-- ==== Proof.LibDegreeCount.lean ====
/-
  Counting with a scatter-add: the same count as a flat array and as a column.

  A scatter-add of E updates at E start indices (held as an [E, 1] array of integers, one start index per
  update, read signed and not clamped) adds, to each entry of the operand, the updates whose start index is that
  entry; an update whose start index is outside the operand is dropped. This file reads two such scatters at an
  index: the flat one (operand [N], scalar updates [E]) at entry n is the operand's entry plus the sum of the
  updates e whose start index is n; the row one (operand [N, C], update rows [E, C]) at entry (n, c) is the
  operand's entry plus the sum over the same updates e of column c of row e.

  Hence the degree count computed two ways is one array: scattering E ones into N zeros, taking the maximum with
  1 and viewing the result as a column [N, 1] is the same as scattering E rows [1] of ones into a column of N
  zeros and taking the maximum with a column of ones: at (n, 0) both are the maximum of 1 with 0 plus one unit
  per update whose start index is n. That count is a real number, at least 1.
-/
import Idealize.ShloMosaic.Lib.Pipeline.Value
import Idealize.ShloMosaic.Lib.ValueIdx
import Idealize.ShloMosaic.Lib.IdealHost

noncomputable section

open scoped BigOperators

namespace Cert.LibDegreeCount

open Idealize.ShloMosaic Idealize.ShloMosaic.ValueIdx

/-! ## The two scatters' dimension numbers, and where an update lands -/

section Dims
variable {N E C w : Nat}

/-- The dimension numbers of a scatter of E scalar updates into a flat operand [N] at E start indices held as
    an [E, 1] array: no window axis, the operand's one axis inserted, the index vector on axis 1. -/
abbrev flatDims (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-- The dimension numbers of a scatter of E update rows [E, C] into an operand [N, C] at E start indices held as an
    [E, 1] array: the window is the row (update axis 1 onto operand axis 1), operand axis 0 inserted, the index
    vector on axis 1. -/
abbrev rowDims (N E C : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- A flat scatter's update e starts at the e-th start index, read signed. -/
theorem flatDims_start (wf : ScatterDims.WF ⟨1, ![N]⟩ ⟨2, ![E, 1]⟩ ⟨1, ![E]⟩ [] [0] [0] 1)
    (j : (⟨1, ![E]⟩ : Shape).Idx) (idx : IVec ⟨2, ![E, 1]⟩ w) :
    (flatDims N E wf).start j idx 0 = (idx (ix2 (j 0) (0 : Fin 1))).toInt := by
  unfold ScatterDims.start
  rw [dif_pos (show (0 : Fin 1) ∈ (flatDims N E wf).scatterDimsToOperandDims from List.mem_singleton.mpr rfl)]
  have hsi : (flatDims N E wf).siIdx j ⟨List.idxOf (0 : Fin 1) (flatDims N E wf).scatterDimsToOperandDims,
      List.idxOf_lt_length_iff.2 (List.mem_singleton.mpr rfl)⟩ = ix2 (j 0) (0 : Fin 1) := by
    funext b; refine Fin.ext ?_
    match b with
    | ⟨0, _⟩ => rfl
    | ⟨1, _⟩ => rfl
  rw [hsi]
  rfl

/-- A flat scatter has no window: the window coordinate is 0. -/
theorem flatDims_window (wf : ScatterDims.WF ⟨1, ![N]⟩ ⟨2, ![E, 1]⟩ ⟨1, ![E]⟩ [] [0] [0] 1)
    (j : (⟨1, ![E]⟩ : Shape).Idx) : (flatDims N E wf).window j 0 = 0 := by
  unfold ScatterDims.window
  have h : (0 : Fin 1) ∉ (flatDims N E wf).sKept := by
    show (0 : Fin 1) ∉ (List.finRange 1).filter (fun a => a ∉ [(0 : Fin 1)]); decide
  rw [dif_neg h]

/-- A row scatter's update (e, c) starts, on the operand's row axis, at the e-th start index, read signed. -/
theorem rowDims_start0 (wf : ScatterDims.WF ⟨2, ![N, C]⟩ ⟨2, ![E, 1]⟩ ⟨2, ![E, C]⟩ [1] [0] [0] 1)
    (j : (⟨2, ![E, C]⟩ : Shape).Idx) (idx : IVec ⟨2, ![E, 1]⟩ w) :
    (rowDims N E C wf).start j idx 0 = (idx (ix2 (j 0) (0 : Fin 1))).toInt := by
  unfold ScatterDims.start
  rw [dif_pos (show (0 : Fin 2) ∈ (rowDims N E C wf).scatterDimsToOperandDims from List.mem_singleton.mpr rfl)]
  have hsi : (rowDims N E C wf).siIdx j ⟨List.idxOf (0 : Fin 2) (rowDims N E C wf).scatterDimsToOperandDims,
      List.idxOf_lt_length_iff.2 (List.mem_singleton.mpr rfl)⟩ = ix2 (j 0) (0 : Fin 1) := by
    funext b; refine Fin.ext ?_
    match b with
    | ⟨0, _⟩ => rfl
    | ⟨1, _⟩ => rfl
  rw [hsi]
  rfl

/-- A row scatter's window starts at column 0. -/
theorem rowDims_start1 (wf : ScatterDims.WF ⟨2, ![N, C]⟩ ⟨2, ![E, 1]⟩ ⟨2, ![E, C]⟩ [1] [0] [0] 1)
    (j : (⟨2, ![E, C]⟩ : Shape).Idx) (idx : IVec ⟨2, ![E, 1]⟩ w) :
    (rowDims N E C wf).start j idx 1 = 0 := by
  unfold ScatterDims.start
  rw [dif_neg (show (1 : Fin 2) ∉ [(0 : Fin 2)] by decide)]

/-- A row scatter's window coordinate on the operand's row axis is 0. -/
theorem rowDims_window0 (wf : ScatterDims.WF ⟨2, ![N, C]⟩ ⟨2, ![E, 1]⟩ ⟨2, ![E, C]⟩ [1] [0] [0] 1)
    (j : (⟨2, ![E, C]⟩ : Shape).Idx) : (rowDims N E C wf).window j 0 = 0 := by
  unfold ScatterDims.window
  have h : (0 : Fin 2) ∉ (rowDims N E C wf).sKept := by
    show (0 : Fin 2) ∉ (List.finRange 2).filter (fun a => a ∉ [(0 : Fin 2)]); decide
  rw [dif_neg h]

/-- A row scatter's window coordinate on the operand's column axis is the update's column. -/
theorem rowDims_window1 (wf : ScatterDims.WF ⟨2, ![N, C]⟩ ⟨2, ![E, 1]⟩ ⟨2, ![E, C]⟩ [1] [0] [0] 1)
    (j : (⟨2, ![E, C]⟩ : Shape).Idx) : (rowDims N E C wf).window j 1 = (j 1).val := by
  unfold ScatterDims.window
  have h : (1 : Fin 2) ∈ (rowDims N E C wf).sKept := by
    show (1 : Fin 2) ∈ (List.finRange 2).filter (fun a => a ∉ [(0 : Fin 2)]); decide
  rw [dif_pos h]
  rfl

/-- An update lands at an operand index exactly when, on every axis, its window start plus its window coordinate is
    that index's coordinate. -/
theorem resultIdx?_eq_some_iff {s si u : Shape} (d : ScatterDims s si u) (j : u.Idx) (idx : IVec si w) (i : s.Idx) :
    d.resultIdx? j idx = some i ↔ ∀ a, d.start j idx a + (d.window j a : ℤ) = ((i a).val : ℤ) := by
  unfold ScatterDims.resultIdx?
  constructor
  · intro h
    split at h
    · next hh =>
      intro a
      have h1 := congrArg Fin.val (congrFun (Option.some.inj h) a)
      simp only at h1
      have := hh a
      omega
    · exact absurd h (by simp)
  · intro h
    have hh : ∀ a, 0 ≤ d.start j idx a + d.window j a ∧ d.start j idx a + d.window j a < s.size a := fun a => by
      have := h a; have := (i a).isLt; omega
    rw [dif_pos hh]
    congr 1
    funext a
    apply Fin.ext
    show (d.start j idx a + d.window j a).toNat = (i a).val
    have := h a
    omega

/-- A flat scatter's update e lands at entry n exactly when its start index, read signed, is n. -/
theorem flatDims_resultIdx?_iff (wf : ScatterDims.WF ⟨1, ![N]⟩ ⟨2, ![E, 1]⟩ ⟨1, ![E]⟩ [] [0] [0] 1)
    (j : (⟨1, ![E]⟩ : Shape).Idx) (idx : IVec ⟨2, ![E, 1]⟩ w) (n : Fin N) :
    (flatDims N E wf).resultIdx? j idx = some (ix1 n) ↔ (idx (ix2 (j 0) (0 : Fin 1))).toInt = (n.val : ℤ) := by
  rw [resultIdx?_eq_some_iff, Fin.forall_fin_one, flatDims_start, flatDims_window]
  simp

/-- A row scatter's update (e, c') lands at entry (n, c) exactly when its start index, read signed, is n and
    c' = c. -/
theorem rowDims_resultIdx?_iff (wf : ScatterDims.WF ⟨2, ![N, C]⟩ ⟨2, ![E, 1]⟩ ⟨2, ![E, C]⟩ [1] [0] [0] 1)
    (j : (⟨2, ![E, C]⟩ : Shape).Idx) (idx : IVec ⟨2, ![E, 1]⟩ w) (n : Fin N) (c : Fin C) :
    (rowDims N E C wf).resultIdx? j idx = some (ix2 n c)
      ↔ (idx (ix2 (j 0) (0 : Fin 1))).toInt = (n.val : ℤ) ∧ j 1 = c := by
  rw [resultIdx?_eq_some_iff, Fin.forall_fin_two, rowDims_start0, rowDims_window0, rowDims_start1, rowDims_window1]
  show ((idx (ix2 (j 0) (0 : Fin 1))).toInt + ((0 : ℕ) : ℤ) = (n.val : ℤ)) ∧ ((0 : ℤ) + (((j 1).val : ℕ) : ℤ) = (c.val : ℤ)) ↔ _
  constructor
  · rintro ⟨h0, h1⟩
    exact ⟨by omega, Fin.ext (by omega)⟩
  · rintro ⟨h0, h1⟩
    subst h1
    exact ⟨by omega, by omega⟩

/-! ## The scatter-add read at an index -/

section Apply
variable {φ : FTy}

/-- A rank-1 index's coordinate is below the extent, written as the extent itself. -/
theorem idx1_lt {n : Nat} (j : (⟨1, ![n]⟩ : Shape).Idx) : (j 0).val < n := (j 0).isLt

/-- A rank-1 index is `ix1` of its coordinate rebuilt from its value. -/
theorem ix1_mk {n : Nat} (j : (⟨1, ![n]⟩ : Shape).Idx) : ix1 (⟨(j 0).val, idx1_lt j⟩ : Fin n) = j := by
  funext a; match a with | ⟨0, _⟩ => rfl

/-- A rank-2 index whose second coordinate is c is `ix2` of its first coordinate, rebuilt from its value, and c. -/
theorem ix2_mk {n0 n1 : Nat} (j : (⟨2, ![n0, n1]⟩ : Shape).Idx) (c : Fin n1) (h : j 1 = c) :
    ix2 (⟨(j 0).val, idx2_lt0 j⟩ : Fin n0) c = j := by
  funext a; match a with | ⟨0, _⟩ => rfl | ⟨1, _⟩ => exact h.symm

/-- The rank-1 scatter-add at entry n: the operand's entry plus the updates whose start index is n. -/
theorem scatterAdd_flatDims_apply (wf : ScatterDims.WF ⟨1, ![N]⟩ ⟨2, ![E, 1]⟩ ⟨1, ![E]⟩ [] [0] [0] 1)
    (x : FVec Ideal ⟨1, ![N]⟩ φ) (idx : IVec ⟨2, ![E, 1]⟩ w) (upd : FVec Ideal ⟨1, ![E]⟩ φ) (n : Fin N) :
    Host.scatterAdd (flatDims N E wf) x idx upd (ix1 n)
      = x (ix1 n) + ∑ e ∈ Finset.univ.filter (fun e : Fin E => (idx (ix2 e (0 : Fin 1))).toInt = (n.val : ℤ)),
          upd (ix1 e) := by
  show x (ix1 n) + ∑ j ∈ Finset.univ.filter (fun j => (flatDims N E wf).resultIdx? j idx = some (ix1 n)), upd j = _
  congr 1
  refine Finset.sum_nbij' (fun j => (⟨(j 0).val, idx1_lt j⟩ : Fin E)) (fun e => ix1 e) ?_ ?_ ?_ ?_ ?_
  · intro j hj
    have h := (flatDims_resultIdx?_iff wf j idx n).mp (Finset.mem_filter.mp hj).2
    exact Finset.mem_filter.mpr ⟨Finset.mem_univ _, h⟩
  · intro e he
    exact Finset.mem_filter.mpr ⟨Finset.mem_univ _,
      (flatDims_resultIdx?_iff wf (ix1 e) idx n).mpr (Finset.mem_filter.mp he).2⟩
  · intro j _
    exact ix1_mk j
  · intro e _
    rfl
  · intro j _
    exact congrArg upd (ix1_mk j).symm

/-- The rank-2 scatter-add of rows at entry (n, c): the operand's entry plus column c of the update rows whose
    start index is n. -/
theorem scatterAdd_rowDims_apply (wf : ScatterDims.WF ⟨2, ![N, C]⟩ ⟨2, ![E, 1]⟩ ⟨2, ![E, C]⟩ [1] [0] [0] 1)
    (x : FVec Ideal ⟨2, ![N, C]⟩ φ) (idx : IVec ⟨2, ![E, 1]⟩ w) (upd : FVec Ideal ⟨2, ![E, C]⟩ φ) (n : Fin N)
    (c : Fin C) :
    Host.scatterAdd (rowDims N E C wf) x idx upd (ix2 n c)
      = x (ix2 n c) + ∑ e ∈ Finset.univ.filter (fun e : Fin E => (idx (ix2 e (0 : Fin 1))).toInt = (n.val : ℤ)),
          upd (ix2 e c) := by
  show x (ix2 n c) + ∑ j ∈ Finset.univ.filter (fun j => (rowDims N E C wf).resultIdx? j idx = some (ix2 n c)), upd j = _
  congr 1
  refine Finset.sum_nbij' (fun j => (⟨(j 0).val, idx2_lt0 j⟩ : Fin E)) (fun e => ix2 e c) ?_ ?_ ?_ ?_ ?_
  · intro j hj
    have h := ((rowDims_resultIdx?_iff wf j idx n c).mp (Finset.mem_filter.mp hj).2).1
    exact Finset.mem_filter.mpr ⟨Finset.mem_univ _, h⟩
  · intro e he
    exact Finset.mem_filter.mpr ⟨Finset.mem_univ _,
      (rowDims_resultIdx?_iff wf (ix2 e c) idx n c).mpr ⟨(Finset.mem_filter.mp he).2, rfl⟩⟩
  · intro j hj
    exact ix2_mk j c ((rowDims_resultIdx?_iff wf j idx n c).mp (Finset.mem_filter.mp hj).2).2
  · intro e _
    rfl
  · intro j hj
    exact congrArg upd (ix2_mk j c ((rowDims_resultIdx?_iff wf j idx n c).mp (Finset.mem_filter.mp hj).2).2).symm

end Apply

/-! ## The count as a flat array and as a column -/

section Count
variable {φ : FTy}

/-- A flat array [N] viewed as a column [N, 1] reads, at (n, 0), the flat array's entry n. -/
theorem broadcast_column_apply {α : Type} (hb : (⟨1, ![N]⟩ : Shape).BroadcastsInDim ⟨2, ![N, 1]⟩ ![0])
    (y : (⟨1, ![N]⟩ : Shape).Idx → α) (n : Fin N) :
    broadcastInDim ⟨2, ![N, 1]⟩ ![0] hb y (ix2 n (0 : Fin 1)) = y (ix1 n) := by
  refine broadcastInDim_apply _ hb y _ (ix1 n) fun a => ?_
  obtain rfl : a = 0 := Subsingleton.elim _ _
  show n.val = if N = 1 then 0 else n.val
  have := n.isLt
  split <;> omega

/-- THE TWO COUNTS AGREE: a flat scatter-add followed by a maximum, viewed as a column, is the row scatter-add of
    one-entry rows followed by a maximum, whenever the operands, the updates and the second arguments of the
    maximum agree entry by entry. No finiteness is needed. -/
theorem column_of_flat_scatterAdd_max
    (wf1 : ScatterDims.WF ⟨1, ![N]⟩ ⟨2, ![E, 1]⟩ ⟨1, ![E]⟩ [] [0] [0] 1)
    (wf2 : ScatterDims.WF ⟨2, ![N, 1]⟩ ⟨2, ![E, 1]⟩ ⟨2, ![E, 1]⟩ [1] [0] [0] 1)
    (hb : (⟨1, ![N]⟩ : Shape).BroadcastsInDim ⟨2, ![N, 1]⟩ ![0])
    (x1 m1 : FVec Ideal ⟨1, ![N]⟩ φ) (u1 : FVec Ideal ⟨1, ![E]⟩ φ)
    (x2 m2 : FVec Ideal ⟨2, ![N, 1]⟩ φ) (u2 : FVec Ideal ⟨2, ![E, 1]⟩ φ)
    (hx : ∀ n : Fin N, x1 (ix1 n) = x2 (ix2 n (0 : Fin 1)))
    (hu : ∀ e : Fin E, u1 (ix1 e) = u2 (ix2 e (0 : Fin 1)))
    (hm : ∀ n : Fin N, m1 (ix1 n) = m2 (ix2 n (0 : Fin 1)))
    (idx : IVec ⟨2, ![E, 1]⟩ w) :
    broadcastInDim ⟨2, ![N, 1]⟩ ![0] hb (maximumf (Host.scatterAdd (flatDims N E wf1) x1 idx u1) m1)
      = maximumf (Host.scatterAdd (rowDims N E 1 wf2) x2 idx u2) m2 := by
  funext i
  obtain ⟨n, c, rfl⟩ : ∃ (n : Fin N) (c : Fin 1), i = ix2 n c := ⟨i 0, i 1, eq_ix2 i⟩
  obtain rfl : c = 0 := Subsingleton.elim _ _
  rw [broadcast_column_apply, maximumf_apply, maximumf_apply, scatterAdd_flatDims_apply, scatterAdd_rowDims_apply,
    hx, hm]
  simp only [hu]

/-- The degree count two ways: E ones scattered into N zeros, the maximum with 1, viewed as a column, is E rows of
    one 1 scattered into a column of N zeros, the maximum with a column of ones. -/
theorem degree_column_eq
    (wf1 : ScatterDims.WF ⟨1, ![N]⟩ ⟨2, ![E, 1]⟩ ⟨1, ![E]⟩ [] [0] [0] 1)
    (wf2 : ScatterDims.WF ⟨2, ![N, 1]⟩ ⟨2, ![E, 1]⟩ ⟨2, ![E, 1]⟩ [1] [0] [0] 1)
    (hb : (⟨1, ![N]⟩ : Shape).BroadcastsInDim ⟨2, ![N, 1]⟩ ![0])
    (h0 h1 : (⟨0, ![]⟩ : Shape).BroadcastsInDim ⟨1, ![N]⟩ ![])
    (hu : (⟨0, ![]⟩ : Shape).BroadcastsInDim ⟨1, ![E]⟩ ![])
    (h0' h1' : (⟨0, ![]⟩ : Shape).BroadcastsInDim ⟨2, ![N, 1]⟩ ![])
    (hu' : (⟨0, ![]⟩ : Shape).BroadcastsInDim ⟨2, ![E, 1]⟩ ![])
    (zero one : BitVec φ.bits) (idx : IVec ⟨2, ![E, 1]⟩ w) :
    broadcastInDim ⟨2, ![N, 1]⟩ ![0] hb
        (maximumf
          (Host.scatterAdd (flatDims N E wf1)
            (broadcastInDim ⟨1, ![N]⟩ ![] h0 (constant (F := Ideal) ⟨0, ![]⟩ φ zero)) idx
            (broadcastInDim ⟨1, ![E]⟩ ![] hu (constant (F := Ideal) ⟨0, ![]⟩ φ one)))
          (broadcastInDim ⟨1, ![N]⟩ ![] h1 (constant (F := Ideal) ⟨0, ![]⟩ φ one)))
      = maximumf
          (Host.scatterAdd (rowDims N E 1 wf2)
            (broadcastInDim ⟨2, ![N, 1]⟩ ![] h0' (constant (F := Ideal) ⟨0, ![]⟩ φ zero)) idx
            (broadcastInDim ⟨2, ![E, 1]⟩ ![] hu' (constant (F := Ideal) ⟨0, ![]⟩ φ one)))
          (broadcastInDim ⟨2, ![N, 1]⟩ ![] h1' (constant (F := Ideal) ⟨0, ![]⟩ φ one)) :=
  column_of_flat_scatterAdd_max wf1 wf2 hb _ _ _ _ _ _
    (fun _ => by rw [broadcastInDim_scalar_apply, broadcastInDim_scalar_apply])
    (fun _ => by rw [broadcastInDim_scalar_apply, broadcastInDim_scalar_apply])
    (fun _ => by rw [broadcastInDim_scalar_apply, broadcastInDim_scalar_apply]) idx

end Count

end Dims

end Cert.LibDegreeCount
-- ==== Proof.LibSegmentSum.lean ====
/-
  Summing by segments twice is summing once under the composed key.

  Entries e carry a key γ e in a finite set of groups; groups g are selected by a predicate p. Adding up,
  over the selected groups, each group's total (the sum of the entries whose key is that group) gives
  the sum of the entries whose key is a selected group: every entry with a selected key is counted in
  exactly one group, the one its key names. The law holds in any commutative additive monoid, so on the
  extended reals it needs no finiteness of the entries.

  Also here: a sum over the entries that pass a test is the sum, over all entries, of the entry times
  the test's indicator, when 0 · x = 0 and 1 · x = x (a semiring with zero; the extended reals are one
  for this purpose: 0 · ±∞ = 0 there).
-/
import Mathlib.Algebra.BigOperators.Group.Finset.Basic
import Mathlib.Algebra.BigOperators.Ring.Finset
import Mathlib.Data.Fintype.BigOperators

open scoped BigOperators

namespace Cert.LibSegmentSum

variable {ε γ M : Type*} [Fintype ε] [Fintype γ] [DecidableEq γ] [AddCommMonoid M]

/-- The sum over selected groups of each group's total is the sum over the entries whose key is a
    selected group. -/
theorem sum_segments (key : ε → γ) (p : γ → Prop) [DecidablePred p] (a : ε → M) :
    ∑ g ∈ Finset.univ.filter p, ∑ e ∈ Finset.univ.filter (fun e => key e = g), a e
      = ∑ e ∈ Finset.univ.filter (fun e => p (key e)), a e := by
  classical
  have hmaps : ∀ e ∈ Finset.univ.filter (fun e => p (key e)), key e ∈ Finset.univ.filter p :=
    fun e he => Finset.mem_filter.mpr ⟨Finset.mem_univ _, (Finset.mem_filter.mp he).2⟩
  rw [← Finset.sum_fiberwise_of_maps_to hmaps a]
  refine Finset.sum_congr rfl fun g hg => ?_
  refine Finset.sum_congr ?_ fun _ _ => rfl
  ext e
  simp only [Finset.mem_filter, Finset.mem_univ, true_and]
  constructor
  · intro h; exact ⟨h ▸ (Finset.mem_filter.mp hg).2, h⟩
  · intro h; exact h.2

/-- The same with the groups' totals each started from a zero and the outer sum started from a zero:
    the shape a scatter-add into an array of zeros has. -/
theorem zero_add_sum_segments (key : ε → γ) (p : γ → Prop) [DecidablePred p] (a : ε → M) :
    0 + ∑ g ∈ Finset.univ.filter p, (0 + ∑ e ∈ Finset.univ.filter (fun e => key e = g), a e)
      = ∑ e ∈ Finset.univ.filter (fun e => p (key e)), a e := by
  rw [zero_add]
  simp only [zero_add]
  exact sum_segments key p a

end Cert.LibSegmentSum
-- ==== Proof.RefValue.lean ====
/-
  What the reference computes, index by index.

  Its first result is the node-wise two-layer network st = max(x·W1 + b1, 0)·W2 + b2 (the generated
  stage of that operation). Its second result adds st's rows up twice by segments: node n belongs to
  graph gnn n, graph g to batch slot batch g. Read at (b, c), the two scatter-adds into zeros are
  the sum of st(n, c) over the nodes n whose graph's slot is b: one masked sum under the composed key
  n ↦ batch (gnn n). This holds when every gnn n names a graph (0 ≤ gnn n < 2048), so that "the update's
  start index, read signed, is g" says "gnn n is g".
-/
import proofs.«208690_g19181323943962_cont_8to1_1746_28_alg».proof.Proof.Gen.ReferenceIdeal.Read
import proofs.«208690_g19181323943962_cont_8to1_1746_28_alg».proof.Proof.LibDegreeCount
import proofs.«208690_g19181323943962_cont_8to1_1746_28_alg».proof.Proof.LibSegmentSum

noncomputable section

open scoped BigOperators
open Idealize.ShloMosaic Idealize.ShloMosaic.ValueIdx

namespace Cert.Proof.RefValue

open Cert.ReferenceIdeal Cert.ReferenceIdeal.Gen Cert.ReferenceIdeal.Read

/-- The graph a node's index word names (reduced into range; for an in-range word, the word itself). -/
def graphOf (gnn : S100000.Idx → BitVec 32) (n : Fin 100000) : Fin 2048 :=
  ⟨(gnn (ix1 n)).toNat % 2048, Nat.mod_lt _ (by decide)⟩

/-- Every node's index word names a graph. -/
def InRange (gnn : S100000.Idx → BitVec 32) : Prop := ∀ n : Fin 100000, (gnn (ix1 n)).toNat < 2048

theorem toInt_eq_graphOf {gnn : S100000.Idx → BitVec 32} (h : InRange gnn) (n : Fin 100000) (g : Fin 2048) :
    (gnn (ix1 n)).toInt = (g.val : ℤ) ↔ graphOf gnn n = g := by
  have hn := h n
  have e : (gnn (ix1 n)).toInt = ((gnn (ix1 n)).toNat : ℤ) := by
    rw [BitVec.toInt_eq_toNat_cond, if_pos (by omega)]
  rw [e]
  constructor
  · intro hg
    apply Fin.ext
    show (gnn (ix1 n)).toNat % 2048 = g.val
    rw [Nat.mod_eq_of_lt hn]; exact_mod_cast hg
  · intro hg
    have : (gnn (ix1 n)).toNat % 2048 = g.val := congrArg Fin.val hg
    rw [Nat.mod_eq_of_lt hn] at this
    exact_mod_cast this

/-- The pooled sum: over the nodes whose graph's batch slot is b, column c of st. -/
def pooled (st : S100000x128.Idx → EReal) (gnn : S100000.Idx → BitVec 32) (batch : S2048.Idx → BitVec 32)
    (b : Fin 64) (c : Fin 128) : EReal :=
  ∑ n ∈ Finset.univ.filter (fun n : Fin 100000 => (batch (ix1 (graphOf gnn n))).toInt = (b.val : ℤ)), st (ix2 n c)

/-- The scatter of the 100000 node rows into 2048 graph rows, read at (g, c). -/
theorem nodes_scatter (x : FVec Ideal S2048x128 .f32) (idx : IVec S100000x1 32) (upd : FVec Ideal S100000x128 .f32)
    (g : Fin 2048) (c : Fin 128) :
    Host.scatterAdd scatter_S2048x128_S100000x1_S100000x128_1_0_0_1 x idx upd (ix2 g c)
      = x (ix2 g c) + ∑ e ∈ Finset.univ.filter (fun e : Fin 100000 => (idx (ix2 e (0 : Fin 1))).toInt = (g.val : ℤ)),
          upd (ix2 e c) :=
  Cert.LibDegreeCount.scatterAdd_rowDims_apply (N := 2048) (E := 100000) (C := 128)
    Facts₀.scatter_S2048x128_S100000x1_S100000x128_1_0_0_1_wf x idx upd g c

/-- The scatter of the 2048 graph rows into 64 slot rows, read at (b, c). -/
theorem graphs_scatter (x : FVec Ideal S64x128 .f32) (idx : IVec S2048x1 32) (upd : FVec Ideal S2048x128 .f32)
    (b : Fin 64) (c : Fin 128) :
    Host.scatterAdd scatter_S64x128_S2048x1_S2048x128_1_0_0_1 x idx upd (ix2 b c)
      = x (ix2 b c) + ∑ e ∈ Finset.univ.filter (fun e : Fin 2048 => (idx (ix2 e (0 : Fin 1))).toInt = (b.val : ℤ)),
          upd (ix2 e c) :=
  Cert.LibDegreeCount.scatterAdd_rowDims_apply (N := 64) (E := 2048) (C := 128)
    Facts₀.scatter_S64x128_S2048x1_S2048x128_1_0_0_1_wf x idx upd b c

/-- The per-graph totals at (g, c): the sum of st(n, c) over the nodes n of graph g, from zero. -/
theorem graph_totals (x0 : S100000x128.Idx → EReal) (x1 : S128x64.Idx → EReal) (x2 : S64.Idx → EReal)
    (x3 : S64x128.Idx → EReal) (x4 : S128.Idx → EReal) (x5 : S100000.Idx → BitVec 32) (h : InRange x5)
    (g : Fin 2048) (c : Fin 128) :
    val_main_v11 (F := Ideal) x0 x1 x2 x3 x4 x5 (ix2 g c)
      = 0 + ∑ n ∈ Finset.univ.filter (fun n : Fin 100000 => graphOf x5 n = g),
          val_main_v8 (F := Ideal) x0 x1 x2 x3 x4 (ix2 n c) := by
  unfold val_main_v11
  rw [nodes_scatter]
  refine congrArg₂ (· + ·) ?_ ?_
  · rw [val_main_v9_apply, val_main_cst_apply, Ideal.ofBits_def]; exact Ideal.ofBits_zero_f32
  · refine Finset.sum_congr ?_ fun _ _ => rfl
    ext n
    simp only [Finset.mem_filter, Finset.mem_univ, true_and]
    rw [val_main_v10_apply,
      show idx_main_v10 (ix2 n (0 : Fin 1)) = ix1 n from funext fun a => Fin.ext (by match a with | ⟨0, _⟩ => rfl)]
    exact toInt_eq_graphOf h n g

/-- The column view's index (g, 0) read back is the flat index g. -/
theorem idx_column (g : Fin 2048) : idx_main_v13 (ix2 g (0 : Fin 1)) = ix1 g :=
  funext fun a => Fin.ext (by match a with | ⟨0, _⟩ => rfl)

/-- The reference's second result at (b, c) is the pooled sum under the composed key. -/
theorem second_result (x0 : S100000x128.Idx → EReal) (x1 : S128x64.Idx → EReal) (x2 : S64.Idx → EReal)
    (x3 : S64x128.Idx → EReal) (x4 : S128.Idx → EReal) (x5 : S100000.Idx → BitVec 32) (x6 : S2048.Idx → BitVec 32)
    (h : InRange x5) (b : Fin 64) (c : Fin 128) :
    val_main_v14 (F := Ideal) x0 x1 x2 x3 x4 x5 x6 (ix2 b c)
      = pooled (val_main_v8 (F := Ideal) x0 x1 x2 x3 x4) x5 x6 b c := by
  unfold val_main_v14 pooled
  rw [graphs_scatter]
  rw [val_main_v12_apply, val_main_cst_0_apply, Ideal.ofBits_def, Ideal.ofBits_zero_f32]
  simp only [graph_totals x0 x1 x2 x3 x4 x5 h, val_main_v13_apply, idx_column]
  exact Cert.LibSegmentSum.zero_add_sum_segments (graphOf x5)
    (fun g : Fin 2048 => (x6 (ix1 g)).toInt = (b.val : ℤ))
    (fun n => val_main_v8 (F := Ideal) x0 x1 x2 x3 x4 (ix2 n c))

end Cert.Proof.RefValue

end
-- ==== Proof.LibMatmulRows.lean ====
/-
  A matrix product into a zero accumulator and a one-row bias laid over every row, read entry by entry on the
  extended reals, for any extents.

  For a product of `L : [r, k]` with `R : [k, h]` whose dimension numbers contract the second axis of `L` against
  the first of `R` — said here by four facts on the operand indices: at result entry `j` and contraction position
  `κ` the left operand is read at (row of `j`, `κ`) and the right at (`κ`, column of `j`) — the entry `(p, q)` of the
  product accumulated onto the zero word's value is `∑ κ, L (p, κ) * R (κ, q)`: the zero word's value is the
  real zero, and the sum over the one-axis contraction index set is re-indexed by its one coordinate.
  A one-row matrix `b : [1, h]`, cast to its own shape and broadcast over `r` rows, reads `b (0, q)` at `(p, q)`.
  The sums are never rearranged, so nothing here needs finiteness.
-/
import Idealize.ShloMosaic.PureOps.Ideal.Laws
import Idealize.ShloMosaic.Lib.ValueIdx
import Idealize.ShloMosaic.Lib.ValueLayout
import Idealize.ShloMosaic.Lib.Pipeline.Value

noncomputable section

namespace Cert.MatmulRows

open Idealize.ShloMosaic Idealize.ShloMosaic.ValueIdx

/-- Entry `(p, q)` of `L · R` accumulated onto zero is the sum over the contraction coordinate of
    `L (p, κ) * R (κ, q)`. -/
theorem matmul_zero_apply {r k h : Nat} {φ₁ φ₂ : FTy}
    (D : DotDims (⟨2, ![r, k]⟩ : Shape) (⟨2, ![k, h]⟩ : Shape) (⟨2, ![r, h]⟩ : Shape)) (prec : Option ContractPrecision)
    (hrank : D.contr.rank = 1) (hsize : D.contr.size ⟨0, by omega⟩ = k)
    (hl0 : ∀ (j : (⟨2, ![r, h]⟩ : Shape).Idx) (κ : D.contr.Idx), (D.lhsIdx j κ 0).val = (j 0).val)
    (hl1 : ∀ (j : (⟨2, ![r, h]⟩ : Shape).Idx) (κ : D.contr.Idx), (D.lhsIdx j κ 1).val = (κ ⟨0, by omega⟩).val)
    (hr0 : ∀ (j : (⟨2, ![r, h]⟩ : Shape).Idx) (κ : D.contr.Idx), (D.rhsIdx j κ 0).val = (κ ⟨0, by omega⟩).val)
    (hr1 : ∀ (j : (⟨2, ![r, h]⟩ : Shape).Idx) (κ : D.contr.Idx), (D.rhsIdx j κ 1).val = (j 1).val)
    (L : FVec Ideal ⟨2, ![r, k]⟩ φ₁) (R : FVec Ideal ⟨2, ![k, h]⟩ φ₂) (p : Fin r) (q : Fin h) :
    FloatOps.matmul D prec L R (constant (F := Ideal) ⟨2, ![r, h]⟩ .f32 0x00000000#32) (ix2 p q)
      = ∑ κ : Fin k, L (ix2 p κ) * R (ix2 κ q) := by
  rw [Ideal.matmul_constant_zero_apply, ← Equiv.sum_comp (contrEquiv1 D k hrank hsize).symm]
  refine Finset.sum_congr rfl fun κ _ => ?_
  have hκ := contrEquiv1_symm_val D k hrank hsize κ
  have el : D.lhsIdx (ix2 p q) ((contrEquiv1 D k hrank hsize).symm κ) = ix2 p κ := funext fun a => Fin.ext (by
    match a with
    | ⟨0, _⟩ => exact hl0 _ _
    | ⟨1, _⟩ => exact (hl1 _ _).trans hκ)
  have er : D.rhsIdx (ix2 p q) ((contrEquiv1 D k hrank hsize).symm κ) = ix2 κ q := funext fun a => Fin.ext (by
    match a with
    | ⟨0, _⟩ => exact (hr0 _ _).trans hκ
    | ⟨1, _⟩ => exact hr1 _ _)
  rw [el, er]

/-- The same for dimension numbers given as lists: the second axis of `L` contracted against the first of `R`, the
    other two axes kept in order, no batch axis. The four facts on the operand indices are read off the lists. -/
theorem matmul_plain_apply {r k h : Nat} {φ₁ φ₂ : FTy}
    (D : DotDims (⟨2, ![r, k]⟩ : Shape) (⟨2, ![k, h]⟩ : Shape) (⟨2, ![r, h]⟩ : Shape)) (prec : Option ContractPrecision)
    (hlc : D.lhsContracting = [1]) (hrc : D.rhsContracting = [0]) (hln : D.lhsNonContracting = [0])
    (hrn : D.rhsNonContracting = [1]) (hlb : D.lhsBatch = []) (hrb : D.rhsBatch = [])
    (L : FVec Ideal ⟨2, ![r, k]⟩ φ₁) (R : FVec Ideal ⟨2, ![k, h]⟩ φ₂) (p : Fin r) (q : Fin h) :
    FloatOps.matmul D prec L R (constant (F := Ideal) ⟨2, ![r, h]⟩ .f32 0x00000000#32) (ix2 p q)
      = ∑ κ : Fin k, L (ix2 p κ) * R (ix2 κ q) := by
  obtain ⟨lc, rc, ln, rn, lb, rb, wf⟩ := D
  dsimp only at hlc hrc hln hrn hlb hrb
  subst hlc hrc hln hrn hlb hrb
  refine matmul_zero_apply _ prec rfl rfl (fun j κ => ?_) (fun j κ => DotDims.lhsIdx_val_of_single _ rfl j κ)
    (fun j κ => DotDims.rhsIdx_val_of_single _ rfl j κ) (fun j κ => ?_) L R p q
  · unfold DotDims.lhsIdx
    rw [dif_neg (by exact List.not_mem_nil), dif_pos (by exact List.mem_singleton.mpr rfl)]
    rfl
  · unfold DotDims.rhsIdx
    rw [dif_neg (by exact List.not_mem_nil), dif_pos (by exact List.mem_singleton.mpr rfl)]
    rfl

/-- A one-row matrix cast to its own shape and broadcast over `r` rows reads its entry `(0, q)` at `(p, q)`. -/
theorem bias_row_apply {r h : Nat} {α : Type} (b : (⟨2, ![1, h]⟩ : Shape).Idx → α)
    (hc : (⟨2, ![1, h]⟩ : Shape).ShapeCasts ⟨2, ![1, h]⟩) (hb : (⟨2, ![1, h]⟩ : Shape).Broadcasts ⟨2, ![r, h]⟩)
    (p : Fin r) (q : Fin h) :
    broadcastTo ⟨2, ![r, h]⟩ (shapeCast ⟨2, ![1, h]⟩ b hc) hb (ix2 p q) = b (ix2 (0 : Fin 1) q) := by
  rw [broadcastTo_1b_ab_apply, shapeCast_self]

end Cert.MatmulRows

end
-- ==== Proof.KernelValue.lean ====
/-
  The TensorCore kernel's arithmetic at one grid point, read entry by entry on the extended reals.

  At a point the body holds a block xb of 20000 rows of x, the two weight matrices, the two biases as
  one-row matrices and the block's 20000 composed segment ids. Its first payload is the block of
  st = max(xb·W1 + b1, 0)·W2 + b2: changes of float format are the identity, each product accumulates
  onto a zero, the biases are laid over every row. Its second payload is the one-hot matrix times that
  block: entry (b, k) of the one-hot matrix is 1 when the id of row k is the word b and 0 otherwise (an
  equality test, widened and converted exactly), so entry (b, c) of the product is the sum over the
  block's rows k of that indicator times st(k, c).
-/
import proofs.«208690_g19181323943962_cont_8to1_1746_28_alg».proof.Proof.Gen.KernelIdeal.Skeleton
import proofs.«208690_g19181323943962_cont_8to1_1746_28_alg».proof.Proof.LibMatmulRows
import Idealize.ShloMosaic.Lib.ValueIdx
import Idealize.ShloMosaic.Lib.ValueLayout
import Idealize.ShloMosaic.Lib.Pipeline.Value
import Idealize.ShloMosaic.PureOps.Ideal.Laws

noncomputable section

open scoped BigOperators
open Idealize.ShloMosaic Idealize.ShloMosaic.ValueIdx

namespace Cert.Proof.KernelValue

open Cert.KernelIdeal Cert.KernelIdeal.Gen

/-- The three matrix products of the body, each into a zero accumulator, as plain sums. -/
theorem mm1 {φ₁ φ₂ : FTy} (L : FVec Ideal S20000x128 φ₁) (R : FVec Ideal S128x64 φ₂) (p : Fin 20000) (q : Fin 64) :
    matmul dot_S20000x128_S128x64_S20000x64_1_0_0_1_n_n none L R (constant S20000x64 .f32 0x00000000#32) (ix2 p q)
      = ∑ κ : Fin 128, L (ix2 p κ) * R (ix2 κ q) :=
  Cert.MatmulRows.matmul_plain_apply _ _ rfl rfl rfl rfl rfl rfl L R p q

theorem mm2 {φ₁ φ₂ : FTy} (L : FVec Ideal S20000x64 φ₁) (R : FVec Ideal S64x128 φ₂) (p : Fin 20000) (q : Fin 128) :
    matmul dot_S20000x64_S64x128_S20000x128_1_0_0_1_n_n none L R (constant S20000x128 .f32 0x00000000#32) (ix2 p q)
      = ∑ κ : Fin 64, L (ix2 p κ) * R (ix2 κ q) :=
  Cert.MatmulRows.matmul_plain_apply _ _ rfl rfl rfl rfl rfl rfl L R p q

theorem mm3 {φ₁ φ₂ : FTy} (L : FVec Ideal S64x20000 φ₁) (R : FVec Ideal S20000x128 φ₂) (p : Fin 64) (q : Fin 128) :
    matmul dot_S64x20000_S20000x128_S64x128_1_0_0_1_n_n none L R (constant S64x128 .f32 0x00000000#32) (ix2 p q)
      = ∑ κ : Fin 20000, L (ix2 p κ) * R (ix2 κ q) :=
  Cert.MatmulRows.matmul_plain_apply _ _ rfl rfl rfl rfl rfl rfl L R p q

/-- The st block at (r, c). -/
theorem pay2_apply (v0 : Vec Ideal S20000x128 .f32) (v2 : Vec Ideal S128x64 .bf16) (v5 : Vec Ideal S1x64 .f32)
    (v12 : Vec Ideal S64x128 .bf16) (v15 : Vec Ideal S1x128 .f32) (r : Fin 20000) (c : Fin 128) :
    k1_pay2 (F := Ideal) v0 v2 v5 v12 v15 (ix2 r c)
      = (∑ k : Fin 64, max ((∑ j : Fin 128, v0 (ix2 r j) * v2 (ix2 j k)) + v5 (ix2 (0 : Fin 1) k)) 0 * v12 (ix2 k c))
          + v15 (ix2 (0 : Fin 1) c) := by
  unfold k1_pay2
  rw [addf_apply, mm2, Cert.MatmulRows.bias_row_apply]
  refine congrArg₂ (· + ·) (Finset.sum_congr rfl fun k _ => ?_) rfl
  rw [truncf_apply, maximumf_apply, addf_apply, mm1, Cert.MatmulRows.bias_row_apply, broadcast_apply, shapeCast_self,
    Ideal.ofBits_def, Ideal.ofBits_zero_f32]
  simp only [truncf_apply, shapeCast_self]

/-- A signed integer converts to the real it denotes. -/
theorem sitofp_word (x : BitVec 32) : (FloatOps.sitofp (F := Ideal) .f32 x : EReal) = ((x.toInt : ℝ) : EReal) := rfl

/-- An equality test widened to a word and converted: the indicator of the equality. -/
theorem onehot_word (x y : BitVec 32) :
    (FloatOps.sitofp (F := Ideal) .f32 ((IntOp.cmpi .eq x y).setWidth 32) : EReal) = if x = y then 1 else 0 := by
  unfold IntOp.cmpi
  rw [sitofp_word]
  by_cases h : x = y
  · subst h; simp
  · have hb : (x == y) = false := by simpa using h
    simp [hb, h]

/-- The one-hot product at (b, c): the indicator-weighted sum of the st block's column c. -/
theorem pay3_apply (v0 : Vec Ideal S20000x128 .f32) (v2 : Vec Ideal S128x64 .bf16) (v5 : Vec Ideal S1x64 .f32)
    (v12 : Vec Ideal S64x128 .bf16) (v15 : Vec Ideal S1x128 .f32) (v20 : Vec Ideal S1x1x20000 .i32) (b : Fin 64) (c : Fin 128) :
    k1_pay3 (F := Ideal) v0 v2 v5 v12 v15 v20 (ix2 b c)
      = ∑ k : Fin 20000, (if BitVec.ofNat 32 b.val = v20 (ix3 (0 : Fin 1) (0 : Fin 1) k) then (1 : EReal) else 0)
          * k1_pay2 (F := Ideal) v0 v2 v5 v12 v15 (ix2 k c) := by
  unfold k1_pay3
  rw [mm3]
  refine Finset.sum_congr rfl fun k _ => ?_
  rw [truncf_apply, truncf_apply, sitofp_apply, extui_apply]
  show FloatOps.sitofp (F := Ideal) .f32 (BitVec.setWidth 32 (IntOp.cmpi .eq (iota .tc S64x20000 32 [0] iota_S64x20000_d0_w32 (ix2 b k))
      (broadcastTo S64x20000 (shapeCast S1x20000 v20 shapeCasts_S1x1x20000_S1x20000) broadcasts_S1x20000_S64x20000 (ix2 b k)))) * _ = _
  rw [onehot_word, iota_single_apply, broadcastTo_1b_ab_apply, shapeCast_dropUnit_apply]
  refine congrArg (· * _) ?_
  refine if_congr ?_ rfl rfl
  refine Eq.congr rfl (congrArg v20 (funext fun a => Fin.ext ?_))
  match a with
  | ⟨0, _⟩ => rfl
  | ⟨1, _⟩ => rfl
  | ⟨2, _⟩ => rfl

/-- Adding a point's one-hot product onto what the output buffer held: entrywise, previous + new. -/
theorem pay1_apply (v29 : FVec Ideal S64x128 .f32) (v36 : Vec Ideal S64x128 .f32) (i : S64x128.Idx) :
    k1_pay1 (F := Ideal) v29 v36 i = v36 i + v29 i := by
  unfold k1_pay1
  rw [addf_apply, shapeCast_self]

end Cert.Proof.KernelValue

end
-- ==== Proof.LibSumReindex.lean ====
/-
  Re-indexing finite sums (and maxima) of tiles along an equivalence, and sums of coerced reals.

  A row read in tiles is indexed by a pair (tile `k`, position `j` in the tile); the same row in a
  reference is indexed by one flat index `p`. Along an equivalence `e : κ × ι ≃ ρ` the double sum
  `∑ k, ∑ j, f (e (k, j))` is the flat sum `∑ p, f p`, in any commutative additive monoid (the reals
  and the extended reals among them), and the maximum over the pairs is the maximum over the flat
  index. For tiles of equal length `n` the equivalence is `finProdFinEquiv`, `(k, j) ↦ j + n * k`.
  A finite sum of coerced reals is the coercion of the real sum.
-/
import Mathlib.Data.EReal.Operations
import Mathlib.Algebra.BigOperators.Group.Finset.Basic
import Mathlib.Algebra.BigOperators.Fin
import Mathlib.Data.Fintype.BigOperators
import Mathlib.Data.Finset.Lattice.Fold
import Mathlib.Logic.Equiv.Fin.Basic

noncomputable section

open scoped BigOperators

namespace Cert.Lib.SumReindex

/-! ## Sums of coerced reals -/

/-- A finite sum of coerced reals is the coercion of the real sum. -/
theorem coe_finset_sum {ι : Type*} (s : Finset ι) (f : ι → ℝ) :
    (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

/-- The sum over a whole finite type of coerced reals is the coercion of the real sum. -/
theorem coe_sum {ι : Type*} [Fintype ι] (f : ι → ℝ) :
    (∑ i, (f i : EReal)) = ((∑ i, f i : ℝ) : EReal) :=
  coe_finset_sum Finset.univ f

/-- A double sum of coerced reals is the coercion of the real double sum. -/
theorem coe_sum_sum {κ ι : Type*} [Fintype κ] [Fintype ι] (f : κ → ι → ℝ) :
    (∑ k, ∑ j, (f k j : EReal)) = ((∑ k, ∑ j, f k j : ℝ) : EReal) := by
  rw [← coe_sum]
  exact Finset.sum_congr rfl fun k _ => coe_sum (f k)

/-- A sum of products of coerced reals (a contraction) is the coercion of the real sum of products. -/
theorem coe_sum_mul {ι : Type*} [Fintype ι] (f g : ι → ℝ) :
    (∑ i, (f i : EReal) * (g i : EReal)) = ((∑ i, f i * g i : ℝ) : EReal) := by
  rw [← coe_sum]
  exact Finset.sum_congr rfl fun i _ => (EReal.coe_mul _ _).symm

/-! ## Tiles to a flat index -/

section Reindex
variable {M : Type*} [AddCommMonoid M] {κ ι ρ : Type*} [Fintype κ] [Fintype ι] [Fintype ρ]

/-- The sum over tiles `k` and positions `j` of `f` at the flat index `e (k, j)` is the sum of `f`
    over the flat index, for an equivalence `e` of the pairs with the flat index. -/
theorem sum_sum_comp_equiv (e : κ × ι ≃ ρ) (f : ρ → M) :
    ∑ k, ∑ j, f (e (k, j)) = ∑ p, f p := by
  rw [← Fintype.sum_prod_type (f := fun q => f (e q))]
  exact Equiv.sum_comp e f

/-- The same for a tiled family `a k j` that is `f` at the flat index `e (k, j)`. -/
theorem sum_sum_eq_sum_of_equiv (e : κ × ι ≃ ρ) (a : κ → ι → M) (f : ρ → M)
    (h : ∀ k j, a k j = f (e (k, j))) :
    ∑ k, ∑ j, a k j = ∑ p, f p := by
  rw [← sum_sum_comp_equiv e f]
  exact Finset.sum_congr rfl fun k _ => Finset.sum_congr rfl fun j _ => h k j

/-- The flat sum as the sum over tiles of the tiles' sums, read through the inverse equivalence. -/
theorem sum_eq_sum_sum_symm (e : κ × ι ≃ ρ) (a : κ → ι → M) :
    ∑ p, a (e.symm p).1 (e.symm p).2 = ∑ k, ∑ j, a k j := by
  rw [← sum_sum_comp_equiv e fun p => a (e.symm p).1 (e.symm p).2]
  simp

end Reindex

/-- `K` tiles of equal length `n`: the sum over tile `k` and position `j` of `f` at the flat position
    `j + n * k` (`finProdFinEquiv (k, j)`) is the sum of `f` over `Fin (K * n)`. -/
theorem sum_fin_sum_fin {M : Type*} [AddCommMonoid M] {K n : ℕ} (f : Fin (K * n) → M) :
    ∑ k : Fin K, ∑ j : Fin n, f (finProdFinEquiv (k, j)) = ∑ p, f p :=
  sum_sum_comp_equiv finProdFinEquiv f

/-- The flat position of `finProdFinEquiv (k, j)` is `j + n * k`. -/
theorem finProdFinEquiv_val {K n : ℕ} (k : Fin K) (j : Fin n) :
    ((finProdFinEquiv (k, j) : Fin (K * n)) : ℕ) = j + n * k := rfl

/-! ## Maxima along an equivalence -/

/-- The maximum of `f ∘ e` over a finite nonempty type is the maximum of `f`, for an equivalence `e`. -/
theorem sup'_univ_comp_equiv {α κ ρ : Type*} [SemilatticeSup α] [Fintype κ] [Fintype ρ] [Nonempty κ]
    [Nonempty ρ] (e : κ ≃ ρ) (f : ρ → α) :
    Finset.univ.sup' Finset.univ_nonempty (fun q => f (e q))
      = Finset.univ.sup' Finset.univ_nonempty f := by
  apply le_antisymm
  · exact Finset.sup'_le _ _ fun q _ => Finset.le_sup' f (Finset.mem_univ (e q))
  · refine Finset.sup'_le _ _ fun p _ => ?_
    have h := Finset.le_sup' (fun q => f (e q)) (Finset.mem_univ (e.symm p))
    simpa using h

end Cert.Lib.SumReindex
-- ==== Proof.Bridge.lean ====
/-
  The bridge between the kernel's per-block arithmetic and the reference's whole-array results.

  Rows: block t of 20000 rows starts at row 20000·t. (1) On block t the kernel's st block is the
  reference's st at the block's rows, when the block and the weights are read where the windows say.
  (2) The output accumulated over the five blocks — the first block's one-hot product, then each later
  one added on — is, entry by entry, the pooled sum of st under the composed key, when the ids the
  kernel compares against are batch ∘ gnn. (3) The precondition's conjunct on gnn says every node's
  index word names a graph.
-/
import proofs.«208690_g19181323943962_cont_8to1_1746_28_alg».proof.Proof.RefValue
import proofs.«208690_g19181323943962_cont_8to1_1746_28_alg».proof.Proof.KernelValue
import proofs.«208690_g19181323943962_cont_8to1_1746_28_alg».proof.Proof.LibSumReindex
import proofs.«208690_g19181323943962_cont_8to1_1746_28_alg».proof.Proof.Gen.Pre_input_domain
import Idealize.ShloMosaic.Lib.ReduceAll

noncomputable section

open scoped BigOperators
open Idealize.ShloMosaic Idealize.ShloMosaic.ValueIdx

namespace Cert.Proof.Bridge

open Cert.Proof.RefValue

/-- Row r of block t. -/
def rowOf (t : Fin 5) (r : Fin 20000) : Fin 100000 := ⟨20000 * t.val + r.val, by have := t.isLt; have := r.isLt; omega⟩

section Indices
open Cert.ReferenceIdeal Cert.ReferenceIdeal.Read

/-- The index functions of the reference's two products and two bias broadcasts, at (n, c) and the
    contraction indices, are the plain pairs. -/
theorem lidx0_eq (n : Fin 100000) (c : Fin 128) (k : Fin 64) (j : Fin 128) :
    lidx_main_v0 (lidx_main_v5 (ix2 n c) k) j = ix2 n j :=
  funext fun a => Fin.ext (by match a with | ⟨0, _⟩ => rfl | ⟨1, _⟩ => rfl)

theorem ridx0_eq (n : Fin 100000) (c : Fin 128) (k : Fin 64) (j : Fin 128) :
    ridx_main_v0 (lidx_main_v5 (ix2 n c) k) j = ix2 j k :=
  funext fun a => Fin.ext (by match a with | ⟨0, _⟩ => rfl | ⟨1, _⟩ => rfl)

theorem bias1_eq (n : Fin 100000) (c : Fin 128) (k : Fin 64) :
    idx_main_v1 (idx_main_v2 (lidx_main_v5 (ix2 n c) k)) = ix1 k :=
  funext fun a => Fin.ext (by match a with | ⟨0, _⟩ => rfl)

theorem ridx5_eq (n : Fin 100000) (c : Fin 128) (k : Fin 64) :
    ridx_main_v5 (ix2 n c) k = ix2 k c :=
  funext fun a => Fin.ext (by match a with | ⟨0, _⟩ => rfl | ⟨1, _⟩ => rfl)

theorem bias2_eq (n : Fin 100000) (c : Fin 128) :
    idx_main_v6 (idx_main_v7 (ix2 n c)) = ix1 c :=
  funext fun a => Fin.ext (by match a with | ⟨0, _⟩ => rfl)

end Indices

open Cert.ReferenceIdeal.Read in
/-- (1) The kernel's st block at block t is the reference's st on that block's rows. -/
theorem st_block_eq_ref
    (x0 : Cert.ReferenceIdeal.S100000x128.Idx → EReal) (x1 : Cert.ReferenceIdeal.S128x64.Idx → EReal)
    (x2 : Cert.ReferenceIdeal.S64.Idx → EReal) (x3 : Cert.ReferenceIdeal.S64x128.Idx → EReal)
    (x4 : Cert.ReferenceIdeal.S128.Idx → EReal)
    (xb : Vec Ideal Cert.KernelIdeal.S20000x128 .f32) (w1 : Vec Ideal Cert.KernelIdeal.S128x64 .bf16)
    (b1r : Vec Ideal Cert.KernelIdeal.S1x64 .f32) (w2 : Vec Ideal Cert.KernelIdeal.S64x128 .bf16)
    (b2r : Vec Ideal Cert.KernelIdeal.S1x128 .f32) (t : Fin 5)
    (hx : ∀ (r : Fin 20000) (j : Fin 128), xb (ix2 r j) = x0 (ix2 (rowOf t r) j))
    (hw1 : ∀ (j : Fin 128) (k : Fin 64), w1 (ix2 j k) = x1 (ix2 j k))
    (hb1 : ∀ k : Fin 64, b1r (ix2 (0 : Fin 1) k) = x2 (ix1 k))
    (hw2 : ∀ (k : Fin 64) (c : Fin 128), w2 (ix2 k c) = x3 (ix2 k c))
    (hb2 : ∀ c : Fin 128, b2r (ix2 (0 : Fin 1) c) = x4 (ix1 c))
    (r : Fin 20000) (c : Fin 128) :
    Cert.KernelIdeal.Gen.k1_pay2 (F := Ideal) xb w1 b1r w2 b2r (ix2 r c)
      = Cert.ReferenceIdeal.Read.val_main_v8 (F := Ideal) x0 x1 x2 x3 x4 (ix2 (rowOf t r) c) := by
  rw [Cert.Proof.KernelValue.pay2_apply]
  rw [val_main_v8_apply, val_main_v5_apply, val_main_v7_apply, val_main_v6_apply]
  simp only [val_main_v4_apply, val_main_v3_apply, val_main_v0_apply, val_main_v2_apply, val_main_v1_apply,
    val_main_call0_v0_apply, val_main_call0_cst_apply, Ideal.addf_def, Ideal.maximumf_def, Ideal.ofBits_def,
    Ideal.ofBits_zero_f32]
  simp only [lidx0_eq, ridx0_eq, bias1_eq, ridx5_eq, bias2_eq, hx, hw1, hb1, hw2, hb2]

/-- The output after the five points: the first point's product, each later one added onto what was there. -/
def accOut (Pt : Fin 5 → Cert.KernelIdeal.S64x128.Idx → EReal) : Cert.KernelIdeal.S64x128.Idx → EReal :=
  fun i => (((Pt 0 i + Pt 1 i) + Pt 2 i) + Pt 3 i) + Pt 4 i

/-- Row r of block t is the flat position of the pair (t, r) among five tiles of 20000. -/
theorem rowOf_eq_flat (t : Fin 5) (r : Fin 20000) :
    rowOf t r = (finProdFinEquiv (t, r) : Fin (5 * 20000)) :=
  Fin.ext (Nat.add_comm _ _)

/-- The five blocks' sums, added in order, are the sum over all 100000 rows. -/
theorem sum_blocks {M : Type*} [AddCommMonoid M] (f : Fin 100000 → M) :
    ((((∑ k : Fin 20000, f (rowOf 0 k)) + ∑ k : Fin 20000, f (rowOf 1 k)) + ∑ k : Fin 20000, f (rowOf 2 k))
        + ∑ k : Fin 20000, f (rowOf 3 k)) + ∑ k : Fin 20000, f (rowOf 4 k)
      = ∑ n : Fin 100000, f n := by
  rw [← Fin.sum_univ_five (fun t : Fin 5 => ∑ k : Fin 20000, f (rowOf t k))]
  rw [← Cert.Lib.SumReindex.sum_fin_sum_fin (K := 5) (n := 20000) f]
  exact Finset.sum_congr rfl fun t _ => Finset.sum_congr rfl fun k _ => congrArg f (rowOf_eq_flat t k)

/-- A sum of indicator-weighted terms is the sum of the terms over the entries that pass the test
    (0 · x = 0 and 1 · x = x on the extended reals, at infinities too). -/
theorem sum_indicator_mul {ι : Type*} [Fintype ι] (p : ι → Prop) [DecidablePred p] (g : ι → EReal) :
    ∑ n, (if p n then (1 : EReal) else 0) * g n = ∑ n ∈ Finset.univ.filter p, g n := by
  rw [Finset.sum_filter]
  refine Finset.sum_congr rfl fun n _ => ?_
  by_cases h : p n
  · rw [if_pos h, if_pos h, one_mul]
  · rw [if_neg h, if_neg h, zero_mul]

/-- A word below 64, read signed, is itself. -/
theorem toInt_ofNat_small (b : Fin 64) : (BitVec.ofNat 32 b.val).toInt = (b.val : ℤ) := by
  have hb := b.isLt
  rw [BitVec.toInt_eq_toNat_cond, BitVec.toNat_ofNat]
  have e : b.val % 2 ^ 32 = b.val := Nat.mod_eq_of_lt (by omega)
  rw [e, if_pos (by omega)]

/-- A word equals the word of b exactly when, read signed, it is b. -/
theorem word_eq_iff (b : Fin 64) (w : BitVec 32) : BitVec.ofNat 32 b.val = w ↔ w.toInt = (b.val : ℤ) := by
  constructor
  · intro h; rw [← h]; exact toInt_ofNat_small b
  · intro h; exact BitVec.eq_of_toInt_eq ((toInt_ofNat_small b).trans h.symm)

/-- (2) The accumulated output is the pooled sum under the composed key. -/
theorem acc_eq_pooled (st : Cert.ReferenceIdeal.S100000x128.Idx → EReal)
    (gnn : Cert.ReferenceIdeal.S100000.Idx → BitVec 32) (batch : Cert.ReferenceIdeal.S2048.Idx → BitVec 32)
    (cid : Fin 100000 → BitVec 32) (hcid : ∀ n, cid n = batch (ix1 (graphOf gnn n)))
    (Pt : Fin 5 → Cert.KernelIdeal.S64x128.Idx → EReal)
    (hP : ∀ (t : Fin 5) (b : Fin 64) (c : Fin 128), Pt t (ix2 b c)
      = ∑ k : Fin 20000, (if BitVec.ofNat 32 b.val = cid (rowOf t k) then (1 : EReal) else 0) * st (ix2 (rowOf t k) c))
    (b : Fin 64) (c : Fin 128) :
    accOut Pt (ix2 b c) = pooled st gnn batch b c := by
  unfold accOut pooled
  rw [hP 0 b c, hP 1 b c, hP 2 b c, hP 3 b c, hP 4 b c]
  rw [sum_blocks (fun n : Fin 100000 => (if BitVec.ofNat 32 b.val = cid n then (1 : EReal) else 0) * st (ix2 n c))]
  rw [sum_indicator_mul (fun n : Fin 100000 => BitVec.ofNat 32 b.val = cid n) (fun n => st (ix2 n c))]
  refine Finset.sum_congr ?_ fun _ _ => rfl
  ext n
  simp only [Finset.mem_filter, Finset.mem_univ, true_and]
  rw [hcid n]
  exact word_eq_iff b _

/-- A word between 0 and 2047, read signed, is below 2048 read unsigned. -/
theorem toNat_lt_of_toInt_range (x : BitVec 32) (h0 : (0 : ℤ) ≤ x.toInt) (h1 : x.toInt ≤ 2047) : x.toNat < 2048 := by
  have hx := x.isLt
  rw [BitVec.toInt_eq_toNat_cond] at h0 h1
  by_cases hlt : 2 * x.toNat < 2 ^ 32
  · rw [if_pos hlt] at h1; omega
  · rw [if_neg hlt] at h0; omega

/-- (3) From the precondition: every node's index word is below 2048. -/
theorem inRange_of_pre {F : FTy → Type} [FloatOps F]
    (a0 : FVec F Cert.Pre_input_domain.S100000x128 .f32) (a1 : FVec F Cert.Pre_input_domain.S128x64 .f32)
    (a2 : FVec F Cert.Pre_input_domain.S64 .f32) (a3 : FVec F Cert.Pre_input_domain.S64x128 .f32)
    (a4 : FVec F Cert.Pre_input_domain.S128 .f32) (a5 : IVec Cert.Pre_input_domain.S100000 32)
    (a6 : IVec Cert.Pre_input_domain.S2048 32)
    (h : Cert.Pre_input_domain.fn (F := F) a0 a1 a2 a3 a4 a5 a6 = fun _ => 1#1) :
    ∀ n : Fin 100000, (a5 (ix1 n)).toNat < 2048 := by
  intro n
  -- a rank-0 shape has one index
  haveI : Subsingleton Cert.Pre_input_domain.S_.Idx := ⟨fun a b => funext fun d => d.elim0⟩
  have e := congrFun h ValueIdx.ix0
  dsimp only [Cert.Pre_input_domain.fn, Cert.Pre_input_domain.fn_part1, Cert.Pre_input_domain.fn_part2] at e
  -- the predicate is a chain of conjunctions of seven reductions; the sixth is the one over the node words
  obtain ⟨e30, -⟩ := IntOp.andi_eq_one.1 (show IntOp.andi _ _ = 1#1 from e)
  obtain ⟨-, e29⟩ := IntOp.andi_eq_one.1 (show IntOp.andi _ _ = 1#1 from e30)
  -- a reduction by conjunction that is 1 had a 1 at every node
  have e28 := Host.reduce_andi_all _ _ _ _ _ e29 (ix1 n)
  obtain ⟨hge, hle⟩ := IntOp.andi_eq_one.1 (show IntOp.andi _ _ = 1#1 from e28)
  have hge' := IntOp.cmpi_sge.1 (show IntOp.cmpi .sge _ _ = 1#1 from hge)
  have hle' := IntOp.cmpi_sle.1 (show IntOp.cmpi .sle _ _ = 1#1 from hle)
  simp only [broadcastInDim, constantI] at hge' hle'
  rw [show (0#32 : BitVec 32).toInt = 0 from by decide] at hge'
  rw [show (2047#32 : BitVec 32).toInt = 2047 from by decide] at hle'
  exact toNat_lt_of_toInt_range _ hge' hle'

end Cert.Proof.Bridge

end
-- ==== Proof.TcFinal.lean ====
/-
  The TensorCore region's two results, on the extended reals, are the reference's.

  The region is entered with eight arrays: the composed ids viewed as five rows of 20000, x, the two
  weight matrices, the two biases as one-row matrices, and the two results' arrays. When the ids are
  batch ∘ gnn and the other inputs are the reference's arguments (read where the host's reshapes put
  them), the first result — written back block by block — is, row by row, the reference's st; the
  second — the first block's one-hot product, each later block's added on, written back once — is the
  reference's doubly segmented sum, which is the pooled sum of st under the composed key.
-/
import proofs.«208690_g19181323943962_cont_8to1_1746_28_alg».proof.Proof.TcValue
import proofs.«208690_g19181323943962_cont_8to1_1746_28_alg».proof.Proof.Bridge

noncomputable section

open scoped BigOperators

namespace Cert.Proof.TcFinal

open Cert.KernelIdeal Cert.KernelIdeal.Gen
open Idealize.ShloMosaic Idealize.ShloMosaic.ValueIdx
open Idealize.SL Idealize.SL.RA Idealize.SL.BI
open Cert.Proof.TcBody Cert.Proof.Bridge Cert.Proof.RefValue Cert.Proof.KernelValue

variable {Ix : Type} [DecidableEq Ix] {Name : Type} [DecidableEq Name] {U : Type} [URA U]

variable (A : (c : Dev nD) → ATy (F := Ideal) c) (O : CellTallies nD τ sig Ix)
  (Φ₀ : Dev nD → sProp (MT nD τ sig Ix (Elt Ideal) Name U ℕ))

variable (x0 : Cert.ReferenceIdeal.S100000x128.Idx → EReal) (x1 : Cert.ReferenceIdeal.S128x64.Idx → EReal)
  (x2 : Cert.ReferenceIdeal.S64.Idx → EReal) (x3 : Cert.ReferenceIdeal.S64x128.Idx → EReal)
  (x4 : Cert.ReferenceIdeal.S128.Idx → EReal)

/-- Point t of the grid as a block number. -/
def tOf (t : Fin cfg1.N) : Fin 5 := ⟨t.val, hN t⟩

/-- The st block at point t is the reference's st on the block's rows. -/
theorem stAt_eq (d : Dev nD)
    (hA1 : ∀ (n : Fin 100000) (j : Fin 128), (A d 1 : S100000x128.Idx → EReal) (ix2 n j) = x0 (ix2 n j))
    (hA2 : ∀ (j : Fin 128) (k : Fin 64), (A d 2 : S128x64.Idx → EReal) (ix2 j k) = x1 (ix2 j k))
    (hA3 : ∀ k : Fin 64, (A d 3 : S1x64.Idx → EReal) (ix2 (0 : Fin 1) k) = x2 (ix1 k))
    (hA4 : ∀ (k : Fin 64) (c : Fin 128), (A d 4 : S64x128.Idx → EReal) (ix2 k c) = x3 (ix2 k c))
    (hA5 : ∀ c : Fin 128, (A d 5 : S1x128.Idx → EReal) (ix2 (0 : Fin 1) c) = x4 (ix1 c))
    (t : Fin cfg1.N) (r : Fin 20000) (c : Fin 128) :
    k1_pay2 (F := Ideal) (blk d (A d) 1 t) (blk d (A d) 2 t) (blk d (A d) 3 t) (blk d (A d) 4 t) (blk d (A d) 5 t) (ix2 r c)
      = Cert.ReferenceIdeal.Read.val_main_v8 (F := Ideal) x0 x1 x2 x3 x4 (ix2 (rowOf (tOf t) r) c) := by
  refine st_block_eq_ref x0 x1 x2 x3 x4 _ _ _ _ _ (tOf t) ?_ ?_ ?_ ?_ ?_ r c
  · intro r' j; rw [blk1_apply]; exact hA1 _ j
  · intro j k; rw [blk2_eq]; exact hA2 j k
  · intro k; rw [blk3_eq]; exact hA3 k
  · intro k c'; rw [blk4_eq]; exact hA4 k c'
  · intro c'; rw [blk5_eq]; exact hA5 c'

/-- The first result: row by row the reference's st. -/
theorem final_st (d : Dev nD)
    (hA1 : ∀ (n : Fin 100000) (j : Fin 128), (A d 1 : S100000x128.Idx → EReal) (ix2 n j) = x0 (ix2 n j))
    (hA2 : ∀ (j : Fin 128) (k : Fin 64), (A d 2 : S128x64.Idx → EReal) (ix2 j k) = x1 (ix2 j k))
    (hA3 : ∀ k : Fin 64, (A d 3 : S1x64.Idx → EReal) (ix2 (0 : Fin 1) k) = x2 (ix1 k))
    (hA4 : ∀ (k : Fin 64) (c : Fin 128), (A d 4 : S64x128.Idx → EReal) (ix2 k c) = x3 (ix2 k c))
    (hA5 : ∀ c : Fin 128, (A d 5 : S1x128.Idx → EReal) (ix2 (0 : Fin 1) c) = x4 (ix1 c)) :
    ((dats A O Φ₀ 0 d).arrAt 6 cfg1.N : S100000x128.Idx → EReal)
      = Cert.ReferenceIdeal.Read.val_main_v8 (F := Ideal) x0 x1 x2 x3 x4 := by
  funext i
  obtain ⟨n, c, rfl⟩ : ∃ (n : Fin 100000) (c : Fin 128), i = ix2 n c := ⟨i 0, i 1, eq_ix2 i⟩
  -- row n is row r of block t
  have hn := n.isLt
  let t : Fin cfg1.N := ⟨n.val / 20000, by rw [show cfg1.N = 5 from N_1]; omega⟩
  let r : Fin 20000 := ⟨n.val % 20000, Nat.mod_lt _ (by norm_num)⟩
  have hrow : (⟨20000 * t.val + r.val, by have := hN t; have := r.isLt; omega⟩ : Fin 100000) = n :=
    Fin.ext (Nat.div_add_mod n.val 20000)
  have h6 := final6 A O Φ₀ d t r c
  rw [hrow] at h6
  rw [h6, stAt_eq A x0 x1 x2 x3 x4 d hA1 hA2 hA3 hA4 hA5 t r c]
  exact congrArg (fun z => Cert.ReferenceIdeal.Read.val_main_v8 (F := Ideal) x0 x1 x2 x3 x4 (ix2 z c))
    (Fin.ext (show 20000 * (n.val / 20000) + n.val % 20000 = n.val from Nat.div_add_mod n.val 20000))

variable (x5 : Cert.ReferenceIdeal.S100000.Idx → BitVec 32) (x6 : Cert.ReferenceIdeal.S2048.Idx → BitVec 32)

/-- The one-hot product at point t, entry (b, c): the indicator-weighted sum of the reference's st over
    the block's rows. -/
theorem prodAt_eq (d : Dev nD)
    (hA0 : ∀ (t : Fin 5) (k : Fin 20000), (A d 0 : S5x1x20000.Idx → BitVec 32) (ix3 t (0 : Fin 1) k)
      = x6 (ix1 (graphOf x5 (rowOf t k))))
    (hA1 : ∀ (n : Fin 100000) (j : Fin 128), (A d 1 : S100000x128.Idx → EReal) (ix2 n j) = x0 (ix2 n j))
    (hA2 : ∀ (j : Fin 128) (k : Fin 64), (A d 2 : S128x64.Idx → EReal) (ix2 j k) = x1 (ix2 j k))
    (hA3 : ∀ k : Fin 64, (A d 3 : S1x64.Idx → EReal) (ix2 (0 : Fin 1) k) = x2 (ix1 k))
    (hA4 : ∀ (k : Fin 64) (c : Fin 128), (A d 4 : S64x128.Idx → EReal) (ix2 k c) = x3 (ix2 k c))
    (hA5 : ∀ c : Fin 128, (A d 5 : S1x128.Idx → EReal) (ix2 (0 : Fin 1) c) = x4 (ix1 c))
    (t : Fin cfg1.N) (b : Fin 64) (c : Fin 128) :
    (prodAt d (A d) t : S64x128.Idx → EReal) (ix2 b c)
      = ∑ k : Fin 20000, (if BitVec.ofNat 32 b.val = x6 (ix1 (graphOf x5 (rowOf (tOf t) k))) then (1 : EReal) else 0)
          * Cert.ReferenceIdeal.Read.val_main_v8 (F := Ideal) x0 x1 x2 x3 x4 (ix2 (rowOf (tOf t) k) c) := by
  unfold prodAt
  rw [pay3_apply]
  refine Finset.sum_congr rfl fun k _ => ?_
  rw [stAt_eq A x0 x1 x2 x3 x4 d hA1 hA2 hA3 hA4 hA5 t k c, blk0_apply]
  exact congrArg (fun w => (if BitVec.ofNat 32 b.val = w then (1 : EReal) else 0) * _) (hA0 (tOf t) k)

/-- Block number t as a point of the grid. -/
def ptOf (t : Fin 5) : Fin cfg1.N := ⟨t.val, by rw [show cfg1.N = 5 from N_1]; exact t.isLt⟩

theorem tOf_ptOf (t : Fin 5) : tOf (ptOf t) = t := Fin.ext rfl

/-- The second result: the reference's doubly segmented sum. -/
theorem final_out (d : Dev nD)
    (hA0 : ∀ (t : Fin 5) (k : Fin 20000), (A d 0 : S5x1x20000.Idx → BitVec 32) (ix3 t (0 : Fin 1) k)
      = x6 (ix1 (graphOf x5 (rowOf t k))))
    (hA1 : ∀ (n : Fin 100000) (j : Fin 128), (A d 1 : S100000x128.Idx → EReal) (ix2 n j) = x0 (ix2 n j))
    (hA2 : ∀ (j : Fin 128) (k : Fin 64), (A d 2 : S128x64.Idx → EReal) (ix2 j k) = x1 (ix2 j k))
    (hA3 : ∀ k : Fin 64, (A d 3 : S1x64.Idx → EReal) (ix2 (0 : Fin 1) k) = x2 (ix1 k))
    (hA4 : ∀ (k : Fin 64) (c : Fin 128), (A d 4 : S64x128.Idx → EReal) (ix2 k c) = x3 (ix2 k c))
    (hA5 : ∀ c : Fin 128, (A d 5 : S1x128.Idx → EReal) (ix2 (0 : Fin 1) c) = x4 (ix1 c))
    (hx5 : InRange x5) :
    ((dats A O Φ₀ 0 d).arrAt 7 cfg1.N : S64x128.Idx → EReal)
      = Cert.ReferenceIdeal.Read.val_main_v14 (F := Ideal) x0 x1 x2 x3 x4 x5 x6 := by
  funext i
  obtain ⟨b, c, rfl⟩ : ∃ (b : Fin 64) (c : Fin 128), i = ix2 b c := ⟨i 0, i 1, eq_ix2 i⟩
  rw [final7, second_result x0 x1 x2 x3 x4 x5 x6 hx5 b c]
  -- the running sum after the last point is the five products added up in order
  have hacc : (outsAt d (A d) 4 tLast.isLt : S64x128.Idx → EReal) (ix2 b c)
      = accOut (fun t => (prodAt d (A d) (ptOf t) : S64x128.Idx → EReal)) (ix2 b c) := by
    show k1_pay1 (F := Ideal) (prodAt d (A d) (ptOf 4)) (k1_pay1 (F := Ideal) (prodAt d (A d) (ptOf 3))
      (k1_pay1 (F := Ideal) (prodAt d (A d) (ptOf 2)) (k1_pay1 (F := Ideal) (prodAt d (A d) (ptOf 1)) (prodAt d (A d) (ptOf 0))))) (ix2 b c) = _
    simp only [pay1_apply]
    rfl
  rw [hacc]
  refine acc_eq_pooled (Cert.ReferenceIdeal.Read.val_main_v8 (F := Ideal) x0 x1 x2 x3 x4) x5 x6
    (fun n => x6 (ix1 (graphOf x5 n))) (fun _ => rfl) _ (fun t b' c' => ?_) b c
  have h := prodAt_eq A x0 x1 x2 x3 x4 x5 x6 d hA0 hA1 hA2 hA3 hA4 hA5 (ptOf t) b' c'
  rw [tOf_ptOf] at h
  exact h

end Cert.Proof.TcFinal

end
-- ==== Proof.ScPre.lean ====
/-
  What the kernel's proof asks of the launch memory, from the certificate's precondition: the
  precondition's conjunct on gnn (0 ≤ gnn ≤ 2047, read signed) says every word of gnn is below 2048.
-/
import proofs.«208690_g19181323943962_cont_8to1_1746_28_alg».proof.Proof.ScRes
import proofs.«208690_g19181323943962_cont_8to1_1746_28_alg».proof.Proof.Bridge

noncomputable section

namespace Cert.Proof.KI

open Cert.KernelIdeal Cert.KernelIdeal.Gen
open Idealize.ShloMosaic Idealize.ShloMosaic.ValueIdx

variable {F : FTy → Type} [FloatOps F]

theorem preOK_of_fn (m : (ℓ : Loc nD τ sig) → Buf (Elt F) ℓ)
    (h : ∀ c : Dev nD,
      Cert.Pre_input_domain.fn (F := F)
        (m ((c.tc : Thread nD τ).loc main_arg0)) (m ((c.tc : Thread nD τ).loc main_arg1))
        (m ((c.tc : Thread nD τ).loc main_arg2)) (m ((c.tc : Thread nD τ).loc main_arg3))
        (m ((c.tc : Thread nD τ).loc main_arg4)) (m ((c.tc : Thread nD τ).loc main_arg5))
        (m ((c.tc : Thread nD τ).loc main_arg6)) = (fun _ => 1#1)) :
    PreOK m := by
  intro d n
  have hn := Cert.Proof.Bridge.inRange_of_pre (F := F) _ _ _ _ _ _ _ (h d) ⟨(n 0).val, (n 0).isLt⟩
  have e : ix1 (⟨(n 0).val, (n 0).isLt⟩ : Fin 100000) = n :=
    funext fun a => Fin.ext (by match a with | ⟨0, _⟩ => rfl)
  rw [e] at hn
  exact hn

end Cert.Proof.KI

end
-- ==== Proof.HostLayout.lean ====
/-
  The kernel program's host operations before the kernel, read at an index.

  The host reshapes the 100000 composed ids into five one-row blocks of 20000 and each bias vector into a
  one-row matrix, and changes the two weight matrices' float format. A reshape keeps every entry's
  row-major position: entry (t, 0, k) of the [5, 1, 20000] array is entry 20000·t + k of the flat one, the
  row of block t at position k; entry (0, k) of a one-row matrix is entry k of the vector. On the extended
  reals a change of float format is the identity.
-/
import proofs.«208690_g19181323943962_cont_8to1_1746_28_alg».proof.Proof.Bridge
import Idealize.ShloMosaic.Lib.ValueIdx
import Idealize.ShloMosaic.Lib.ValueLayout
import Idealize.ShloMosaic.Lib.Pipeline.Value

noncomputable section

open Idealize.ShloMosaic Idealize.ShloMosaic.ValueIdx

namespace Cert.Proof.HostLayout

open Cert.KernelIdeal

variable {α : Type}

/-- The flat array of 100000 entries viewed as five one-row blocks: entry (t, 0, k) is the flat entry at row k of block t. -/
theorem blocks_apply (v : S100000.Idx → α) (h : S100000.ShapeCasts S5x1x20000) (t : Fin 5) (k : Fin 20000) :
    shapeCast S5x1x20000 v h (ix3 t (0 : Fin 1) k) = v (ix1 (Cert.Proof.Bridge.rowOf t k)) :=
  shapeCast_apply v h _ _ (by
    rw [Shape.rowMajor_val_one, Shape.rowMajor_val_three]
    show 20000 * t.val + k.val = (t.val * 1 + 0) * 20000 + k.val
    omega)

/-- The first bias as a one-row matrix: entry (0, k) is entry k. -/
theorem row64_apply (v : S64.Idx → α) (h : S64.ShapeCasts S1x64) (k : Fin 64) :
    shapeCast S1x64 v h (ix2 (0 : Fin 1) k) = v (ix1 k) :=
  shapeCast_a_1a_apply v h 0 k

/-- The second bias as a one-row matrix: entry (0, c) is entry c. -/
theorem row128_apply (v : S128.Idx → α) (h : S128.ShapeCasts S1x128) (c : Fin 128) :
    shapeCast S1x128 v h (ix2 (0 : Fin 1) c) = v (ix1 c) :=
  shapeCast_a_1a_apply v h 0 c

/-- On the extended reals the change of float format to the shorter one is the identity, array by array. -/
theorem truncf_bf16_eq {s : Shape} (v : FVec Ideal s .f32) (h : FTy.bits .bf16 < FTy.bits .f32) :
    (truncf .bf16 v h : FVec Ideal s .bf16) = v :=
  funext fun i => truncf_apply v h i

/-- The same at an index. -/
theorem truncf_bf16_apply {s : Shape} (v : FVec Ideal s .f32) (h : FTy.bits .bf16 < FTy.bits .f32) (i : s.Idx) :
    (truncf .bf16 v h : FVec Ideal s .bf16) i = v i :=
  truncf_apply v h i

end Cert.Proof.HostLayout

end
-- ==== Proof.KernelRunIdeal.lean ====
/-
  The idealized kernel program's run with its results named by the reference's terms.

  The program's run leaves, in the two result arrays, what the TensorCore region computes from the
  arrays it is entered with: the composed ids batch ∘ gnn (written by the SparseCore call and viewed as
  five rows), x, the weights (a change of float format away from the arguments, the identity on the
  extended reals) and the biases (viewed as one-row matrices). Read entry by entry these are the
  reference's st and its doubly segmented sum, given that every word of gnn names a graph, which the
  precondition says.
-/
import proofs.«208690_g19181323943962_cont_8to1_1746_28_alg».proof.Proof.TcGlue
import proofs.«208690_g19181323943962_cont_8to1_1746_28_alg».proof.Proof.TcFinal
import proofs.«208690_g19181323943962_cont_8to1_1746_28_alg».proof.Proof.ScPre
import proofs.«208690_g19181323943962_cont_8to1_1746_28_alg».proof.Proof.Claims
import proofs.«208690_g19181323943962_cont_8to1_1746_28_alg».proof.Proof.HostLayout

noncomputable section

namespace Cert.Proof.KernelRunIdeal

open Cert.KernelIdeal Cert.KernelIdeal.Gen
open Idealize.ShloMosaic Idealize.ShloMosaic.ValueIdx Idealize.SL.Sem
open Cert.Proof.KI Cert.Proof.TcGlue Cert.Proof.TcRegion Cert.Proof.Bridge Cert.Proof.RefValue

variable (m : (ℓ : Loc nD τ sig) → Buf (Elt Ideal) ℓ)

/-- The ids the region is entered with are batch ∘ gnn, block by block. -/
theorem ids_entry (d : Dev nD) (t : Fin 5) (k : Fin 20000) :
    (Ain m d 0 : S5x1x20000.Idx → BitVec 32) (ix3 t (0 : Fin 1) k)
      = (m ((SparseCore.T d : Thread nD τ).loc main_arg6) : S2048.Idx → BitVec 32)
          (ix1 (graphOf (m ((SparseCore.T d : Thread nD τ).loc main_arg5)) (rowOf t k))) := by
  show shapeCast S5x1x20000 (fun n => cidWord m d n) shapeCasts_S100000_S5x1x20000 (ix3 t (0 : Fin 1) k) = _
  rw [Cert.Proof.HostLayout.blocks_apply]
  rfl

theorem run : Cert.Proof.Claims.KernelRun := fun m ρ hpre => by
  have hOK : PreOK m := preOK_of_fn m hpre
  refine (θ_run _ _ _).mono (fun r hr c => ?_) (Cert.Proof.TcGlue.run (F := Ideal) m ρ hOK)
  obtain ⟨h0, h1, hargs⟩ := hr c
  have hA1 : ∀ (n : Fin 100000) (j : Fin 128), (Ain m c 1 : S100000x128.Idx → EReal) (ix2 n j)
      = (m ((SparseCore.T c : Thread nD τ).loc main_arg0) : S100000x128.Idx → EReal) (ix2 n j) := fun _ _ => rfl
  have hA2 : ∀ (j : Fin 128) (k : Fin 64), (Ain m c 2 : S128x64.Idx → EReal) (ix2 j k)
      = (m ((SparseCore.T c : Thread nD τ).loc main_arg1) : S128x64.Idx → EReal) (ix2 j k) := fun _ _ => rfl
  have hA3 : ∀ k : Fin 64, (Ain m c 3 : S1x64.Idx → EReal) (ix2 (0 : Fin 1) k)
      = (m ((SparseCore.T c : Thread nD τ).loc main_arg2) : S64.Idx → EReal) (ix1 k) :=
    fun k => Cert.Proof.HostLayout.row64_apply _ _ k
  have hA4 : ∀ (k : Fin 64) (j : Fin 128), (Ain m c 4 : S64x128.Idx → EReal) (ix2 k j)
      = (m ((SparseCore.T c : Thread nD τ).loc main_arg3) : S64x128.Idx → EReal) (ix2 k j) := fun _ _ => rfl
  have hA5 : ∀ j : Fin 128, (Ain m c 5 : S1x128.Idx → EReal) (ix2 (0 : Fin 1) j)
      = (m ((SparseCore.T c : Thread nD τ).loc main_arg4) : S128.Idx → EReal) (ix1 j) :=
    fun j => Cert.Proof.HostLayout.row128_apply _ _ j
  have hx5 : InRange (m ((SparseCore.T c : Thread nD τ).loc main_arg5)) := fun n => hOK c (ix1 n)
  refine ⟨h0.trans ?_, h1.trans ?_, hargs⟩
  · exact Cert.Proof.TcFinal.final_st (Ain m) 0 ΦR _ _ _ _ _ c hA1 hA2 hA3 hA4 hA5
  · exact Cert.Proof.TcFinal.final_out (Ain m) 0 ΦR _ _ _ _ _ _ _ c (ids_entry m c) hA1 hA2 hA3 hA4 hA5 hx5

end Cert.Proof.KernelRunIdeal

end
-- ==== Proof.ScSetupW.lean ====
/-
  The launch set-up of the kernel program, shared by the modules that prove its run.

  The program: one SparseCore call (a vector-subcore kernel on 2 SparseCores x 16 subcores) that
  composes the two index arrays, cid n = batch (gnn n), then host reshapes and converts, then one
  TensorCore region. The resource algebra has four parts: the launch handshakes' rounds, the
  TensorCore region's staging cells' rounds, the write-mode cells and the transfers' counters.

  The composed array is written by 32 tasks whose 3136-entry ranges cover [0, 100000) with the last
  two ranges overlapping; each entry n is written, by every task whose range holds it, with the same
  word batch (gnn n). So the array is held in write mode with that word as every entry's target, and
  each task holds a share of the whole array in write mode.
-/
import proofs.«208690_g19181323943962_cont_8to1_1746_28_alg».proof.Kernel
import proofs.«208690_g19181323943962_cont_8to1_1746_28_alg».proof.Proof.Gen.Kernel
import proofs.«208690_g19181323943962_cont_8to1_1746_28_alg».proof.Proof.Gen.Kernel.Skeleton
import proofs.«208690_g19181323943962_cont_8to1_1746_28_alg».proof.Proof.Gen.Kernel.Launch
import proofs.«208690_g19181323943962_cont_8to1_1746_28_alg».proof.Proof.Gen.Kernel.Points
import proofs.«208690_g19181323943962_cont_8to1_1746_28_alg».proof.Proof.LibWriteModeFlight
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Pipeline.Regions
import Idealize.ShloMosaic.Lib.WriteMode
import Idealize.ShloMosaic.Lib.Tactic
import Idealize.ShloMosaic.Lib.ValueIdx

noncomputable section

namespace Cert.Proof.KW

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

abbrev UH : Type := URounds (GSem nD τ sig) ℕ
abbrev UP : Type := URounds (GSem nD τ sig) Unit
abbrev UW : Type := WmRA nD τ sig (Elt F)
abbrev UU : Type := UH × (UP × (UW (F := F) × Counters))

local notation "𝕄" => MT nD τ sig (HIx 1) (Elt F) ℕ (UU (F := F)) ℕ

/-- The handshakes' rounds: the first part. -/
abbrev EH : Emb UH (MT nD τ sig (HIx 1) (Elt F) ℕ (UU (F := F)) ℕ) := embL
/-- The region's staging cells' rounds: the second. -/
def EP : Emb UP (MT nD τ sig (HIx 1) (Elt F) ℕ (UU (F := F)) ℕ) :=
  (Emb.inl : Emb UP (UP × (UW (F := F) × Counters))).trans
    ((Emb.inr : Emb (UP × (UW (F := F) × Counters)) (UU (F := F))).trans
      (uEmb (nD := nD) (τ := τ) (sig := sig) (Ix := HIx 1) (Val := Elt F) (Name := ℕ) (U := UU (F := F)) (Lvl := ℕ)).toEmb)
instance EP_landsIn : (EP (F := F)).LandsIn (upEmb : UEmb _ 𝕄) := by unfold EP; infer_instance
/-- The write-mode cells: the third. -/
abbrev wmE : UEmb (UW (F := F)) (UU (F := F)) :=
  (UEmb.inl : UEmb (UW (F := F)) (UW (F := F) × Counters)).trans
    ((UEmb.inr : UEmb (UW (F := F) × Counters) (UP × (UW (F := F) × Counters))).trans
      (UEmb.inr : UEmb (UP × (UW (F := F) × Counters)) (UU (F := F))))
/-- The transfers' counters: the fourth, found by instance. -/
abbrev EC : UEmb Counters (MT nD τ sig (HIx 1) (Elt F) ℕ (UU (F := F)) ℕ) := countersEmb

/-! ## The launch memory and the arrays -/

variable (m : (ℓ : Loc nD τ sig) → Buf (Elt F) ℓ) (ρ : Dev nD → PrngReg)

/-- batch (2048 words), gnn (100000 words), the composed array cid (100000 words), on device d. -/
abbrev bLoc (d : Dev nD) : Loc nD τ sig := (SparseCore.T d).loc main_arg6
abbrev gLoc (d : Dev nD) : Loc nD τ sig := (SparseCore.T d).loc main_arg5
abbrev oLoc (d : Dev nD) : Loc nD τ sig := (SparseCore.T d).loc main_v0

/-- Task (c, i)'s number among the 32: 16 c + i. -/
def taskNo (c : Fin 2) (i : Fin 16) : ℕ := 16 * c.val + i.val

/-- The word entry n of the composed array will hold: batch at gnn n (the index reduced into range; the
    precondition makes it the index itself). -/
def cidWord (d : Dev nD) (n : Idx (oLoc d)) : Elt F .i32 :=
  (m (bLoc d) : S2048.Idx → BitVec 32)
    (ValueIdx.ix1 (⟨((m (gLoc d) : S100000.Idx → BitVec 32) n).toNat % 2048, Nat.mod_lt _ (by norm_num : 0 < 2048)⟩ : Fin 2048))

/-- Every entry's target in write mode. -/
def cidTgt (d : Dev nD) : Tgt (Elt F) (oLoc d) := fun n => some (cidWord m d n)

end Cert.Proof.KW

end
-- ==== Proof.TcRunsW.lean ====
/-
  The TensorCore region of the kernel program (the pipelined call on the grid of five row blocks):
  what its body's runs share.

  The body at a grid point loads its six input blocks whole, stores the block of st (the two-layer
  map of the rows) whole into window 6, and folds the block's one-hot product into window 7: at the
  first point the product is stored, at every later point it is added to what the window held.

  Here: a load of a whole buffer held at contents that read X reads X, and one store through the
  whole rectangle leaves its payload; an input window's block at a point, read off the array as the
  region finds it; the two branch conditions in closed form over the grid; the staging memrefs by
  name; and that each input's staging buffer holds its block at every point.
-/
import proofs.«208690_g19181323943962_cont_8to1_1746_28_alg».proof.Proof.Gen.Kernel.Launch
import proofs.«208690_g19181323943962_cont_8to1_1746_28_alg».proof.Proof.Gen.Kernel.Skeleton
import proofs.«208690_g19181323943962_cont_8to1_1746_28_alg».proof.Proof.Gen.Kernel.Points
import Idealize.ShloMosaic.Lib.Pipeline.FrameBody
import Idealize.ShloMosaic.Lib.WholeRead
import Idealize.ShloMosaic.Lib.Ring
import Idealize.ShloMosaic.Lib.Tactic

set_option maxRecDepth 16384

noncomputable section

namespace Cert.Proof.TcBodyW

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]
variable {Ix : Type} [DecidableEq Ix] {Name : Type} [DecidableEq Name] {U : Type} [URA U]

local notation "𝕄" => MT nD τ sig Ix (Elt F) Name U ℕ

/-! ## Whole-buffer loads and stores

A load through the rectangle that is the whole shape at zero offsets, of a whole memref held at the
contents that read `X`, reads `X`; one store through that rectangle leaves its payload. -/

section Whole

variable {sig' : RefSig} {Val : EltTy → Type} {κ : Kind} {sp : Space} {s : Shape} {e : EltTy}

theorem readAt_whole_unread {m : Memref sig' κ sp s e} (h : m.IsWhole) (X : s.Idx → Val e)
    {off : Fin s.rank → ℕ} (hz : off = fun _ => 0) (inb : ∀ a, off a + s.size a ≤ s.size a) :
    View.readAt Val m.view (Rect.unit off s.size inb).toLoadRect (h.unread X) = X :=
  (View.readAt_eq_ld m.view (h.unread X) (Rect.unit off s.size inb)).trans
    ((congrArg (fun Y => View.ld Y (Rect.unit off s.size inb)) (h.read_unread X)).trans (View.ld_unit_zero hz inb X))

theorem read_writes_whole (v : View sig' κ sp s e) (f : v.ty.Contents Val)
    {off : Fin s.rank → ℕ} (hz : off = fun _ => 0) (inb : ∀ a, off a + s.size a ≤ s.size a) (w : s.Idx → Val e) :
    v.read Val (v.writes Val f [(⟨Rect.unit off s.size inb, w⟩ : View.Piece Val s e)]) = w := by
  subst hz; funext y
  have e := View.read_writes_cons_emb v f (Rect.whole s) w [] y
  rw [Rect.emb_whole_apply] at e
  exact e

theorem zero2 : (![0, 0] : Fin 2 → ℕ) = fun _ => 0 := funext fun a => match a with | ⟨0, _⟩ => rfl | ⟨1, _⟩ => rfl
theorem zero3 : (![0, 0, 0] : Fin 3 → ℕ) = fun _ => 0 := funext fun a => match a with | ⟨0, _⟩ => rfl | ⟨1, _⟩ => rfl | ⟨2, _⟩ => rfl

end Whole

/-! ## The windows' blocks -/

/-- The windowed arrays' contents on core `c` when the region is entered. -/
abbrev ATy (c : Dev nD) : Type := (w : Fin cfg1.W) → Buf (Elt F) ((cfg1.win w).arr.view.loc (c.tc : Thread nD τ))

/-- Window `w`'s block at point `t`, read off its array's entry contents `A w` through the window's view. -/
def blk (c : Dev nD) (A : ATy (F := F) c) (w : Fin cfg1.W) (t : Fin cfg1.N) :
    ((cfg1.win w).xblock (cfg1.grid.coords t)).Idx → Elt F (cfg1.win w).elt :=
  ((cfg1.win w).blk t).view.read (Elt F) (A w)

/-- Input window 0's current staging buffer holds its block at every point, fetched there or not, for any
    proof data whose array is `A 0` and whose body leaves the block in place: the window is uncut and
    never idle, and where it is not fetched its block index has not moved. -/
theorem before_in0_of {c : Dev nD} (A : ATy (F := F) c) (dat : Dat τ (Elt F) Ix Name U ℕ cfg1 c) (hA : dat.A 0 = A 0)
    (hafter : ∀ t, dat.after 0 t = blk c A 0 t) (t : Fin cfg1.N) (d) : dat.before 0 t d = blk c A 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)

/-- Input window 1's current staging buffer holds its block at every point, fetched there or not, for any
    proof data whose array is `A 1` and whose body leaves the block in place: the window is uncut and
    never idle, and where it is not fetched its block index has not moved. -/
theorem before_in1_of {c : Dev nD} (A : ATy (F := F) c) (dat : Dat τ (Elt F) Ix Name U ℕ cfg1 c) (hA : dat.A 1 = A 1)
    (hafter : ∀ t, dat.after 1 t = blk c A 1 t) (t : Fin cfg1.N) (d) : dat.before 1 t d = blk c A 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)

/-- Input window 2's current staging buffer holds its block at every point, fetched there or not, for any
    proof data whose array is `A 2` and whose body leaves the block in place: the window is uncut and
    never idle, and where it is not fetched its block index has not moved. -/
theorem before_in2_of {c : Dev nD} (A : ATy (F := F) c) (dat : Dat τ (Elt F) Ix Name U ℕ cfg1 c) (hA : dat.A 2 = A 2)
    (hafter : ∀ t, dat.after 2 t = blk c A 2 t) (t : Fin cfg1.N) (d) : dat.before 2 t d = blk c A 2 t :=
  (dat.before_in_eq_fetched 2 rfl (fun _ => rfl) (fun _ _ _ => rfl) (fun t => by rw [hafter]; unfold Dat.blockOf blk; rw [hA]; try rfl) t d).trans
    (by unfold Dat.fetched Dat.blockOf blk; rw [hA]; try rfl)

/-- Input window 3's current staging buffer holds its block at every point, fetched there or not, for any
    proof data whose array is `A 3` and whose body leaves the block in place: the window is uncut and
    never idle, and where it is not fetched its block index has not moved. -/
theorem before_in3_of {c : Dev nD} (A : ATy (F := F) c) (dat : Dat τ (Elt F) Ix Name U ℕ cfg1 c) (hA : dat.A 3 = A 3)
    (hafter : ∀ t, dat.after 3 t = blk c A 3 t) (t : Fin cfg1.N) (d) : dat.before 3 t d = blk c A 3 t :=
  (dat.before_in_eq_fetched 3 rfl (fun _ => rfl) (fun _ _ _ => rfl) (fun t => by rw [hafter]; unfold Dat.blockOf blk; rw [hA]; try rfl) t d).trans
    (by unfold Dat.fetched Dat.blockOf blk; rw [hA]; try rfl)

/-- Input window 4's current staging buffer holds its block at every point, fetched there or not, for any
    proof data whose array is `A 4` and whose body leaves the block in place: the window is uncut and
    never idle, and where it is not fetched its block index has not moved. -/
theorem before_in4_of {c : Dev nD} (A : ATy (F := F) c) (dat : Dat τ (Elt F) Ix Name U ℕ cfg1 c) (hA : dat.A 4 = A 4)
    (hafter : ∀ t, dat.after 4 t = blk c A 4 t) (t : Fin cfg1.N) (d) : dat.before 4 t d = blk c A 4 t :=
  (dat.before_in_eq_fetched 4 rfl (fun _ => rfl) (fun _ _ _ => rfl) (fun t => by rw [hafter]; unfold Dat.blockOf blk; rw [hA]; try rfl) t d).trans
    (by unfold Dat.fetched Dat.blockOf blk; rw [hA]; try rfl)

/-- Input window 5's current staging buffer holds its block at every point, fetched there or not, for any
    proof data whose array is `A 5` and whose body leaves the block in place: the window is uncut and
    never idle, and where it is not fetched its block index has not moved. -/
theorem before_in5_of {c : Dev nD} (A : ATy (F := F) c) (dat : Dat τ (Elt F) Ix Name U ℕ cfg1 c) (hA : dat.A 5 = A 5)
    (hafter : ∀ t, dat.after 5 t = blk c A 5 t) (t : Fin cfg1.N) (d) : dat.before 5 t d = blk c A 5 t :=
  (dat.before_in_eq_fetched 5 rfl (fun _ => rfl) (fun _ _ _ => rfl) (fun t => by rw [hafter]; unfold Dat.blockOf blk; rw [hA]; try rfl) t d).trans
    (by unfold Dat.fetched Dat.blockOf blk; rw [hA]; try rfl)

/-! ## The body's two conditions, over the grid -/

/-- The first condition (the accumulator is reset) holds at the first point only. -/
theorem hcond1 : ∀ t : Fin cfg1.N, k1_cond1 (grid1.coords t) = 1#1 ↔ t.val = 0 :=
  (by decide +kernel : ∀ t : Fin grid1.N, k1_cond1 (grid1.coords t) = 1#1 ↔ t.val = 0)

/-- The second (the accumulator is added to) at every later point. -/
theorem hcond2 : ∀ t : Fin cfg1.N, k1_cond2 (grid1.coords t) = 1#1 ↔ t.val ≠ 0 :=
  (by decide +kernel : ∀ t : Fin grid1.N, k1_cond2 (grid1.coords t) = 1#1 ↔ t.val ≠ 0)

/-- So window 7 is idle at no point: one of the two stores into it happens. -/
theorem idle7 (t : Fin cfg1.N) : cfg1.idle 7 (cfg1.grid.coords t) = false := by
  show (!(k1_cond1 (grid1.coords t) == 1#1) && !(k1_cond2 (grid1.coords t) == 1#1)) = false
  by_cases h : t.val = 0
  · rw [(hcond1 t).mpr h]; rfl
  · rw [(hcond2 t).mpr h]; simp

/-! ## The staging memrefs at a point -/

/-- Each window's current staging memref at point `t`, spelled as the pipeline passes it to the body, and its wholeness. -/
abbrev ms0 (t : Fin cfg1.N) : Memref sig .tc .vmem S1x1x20000 .i32 := win1_0.stage (cfg1.slots t 0)
abbrev hs0 (t : Fin cfg1.N) : (ms0 t).IsWhole := hstage1_0 ((cfg1.slots t 0).cast nbuf1_0)
abbrev ms1 (t : Fin cfg1.N) : Memref sig .tc .vmem S20000x128 .f32 := win1_1.stage (cfg1.slots t 1)
abbrev hs1 (t : Fin cfg1.N) : (ms1 t).IsWhole := hstage1_1 ((cfg1.slots t 1).cast nbuf1_1)
abbrev ms2 (t : Fin cfg1.N) : Memref sig .tc .vmem S128x64 .bf16 := win1_2.stage (cfg1.slots t 2)
abbrev hs2 (t : Fin cfg1.N) : (ms2 t).IsWhole := hstage1_2 ((cfg1.slots t 2).cast nbuf1_2)
abbrev ms3 (t : Fin cfg1.N) : Memref sig .tc .vmem S1x64 .f32 := win1_3.stage (cfg1.slots t 3)
abbrev hs3 (t : Fin cfg1.N) : (ms3 t).IsWhole := hstage1_3 ((cfg1.slots t 3).cast nbuf1_3)
abbrev ms4 (t : Fin cfg1.N) : Memref sig .tc .vmem S64x128 .bf16 := win1_4.stage (cfg1.slots t 4)
abbrev hs4 (t : Fin cfg1.N) : (ms4 t).IsWhole := hstage1_4 ((cfg1.slots t 4).cast nbuf1_4)
abbrev ms5 (t : Fin cfg1.N) : Memref sig .tc .vmem S1x128 .f32 := win1_5.stage (cfg1.slots t 5)
abbrev hs5 (t : Fin cfg1.N) : (ms5 t).IsWhole := hstage1_5 ((cfg1.slots t 5).cast nbuf1_5)
abbrev ms6 (t : Fin cfg1.N) : Memref sig .tc .vmem S20000x128 .f32 := win1_6.stage (cfg1.slots t 6)
abbrev hs6 (t : Fin cfg1.N) : (ms6 t).IsWhole := hstage1_6 ((cfg1.slots t 6).cast nbuf1_6)
abbrev ms7 (t : Fin cfg1.N) : Memref sig .tc .vmem S64x128 .f32 := win1_7.stage (cfg1.slots t 7)
abbrev hs7 (t : Fin cfg1.N) : (ms7 t).IsWhole := hstage1_7 ((cfg1.slots t 7).cast nbuf1_7)

end Cert.Proof.TcBodyW

end
-- ==== Proof.TcRunAW.lean ====
/-
  The body's run at the first grid point: the condition of the reset holds, that of the addition
  fails. On whole staging memrefs — the six inputs at their contents x1 … x6, the two outputs at
  anything — the body runs to the inputs as they were, window 6 at the block of st computed from
  x2 … x6, and window 7 at the block's one-hot product.
-/
import proofs.«208690_g19181323943962_cont_8to1_1746_28_alg».proof.Proof.TcRunsW

set_option maxRecDepth 16384

noncomputable section

namespace Cert.Proof.TcBodyW

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]
variable {Ix : Type} [DecidableEq Ix] {Name : Type} [DecidableEq Name] {U : Type} [URA U]

local notation "𝕄" => MT nD τ sig Ix (Elt F) Name U ℕ

set_option maxHeartbeats 1000000 in
/-- Case A (the first point). -/
theorem kernelRunA (c : Dev nD) (i : grid1.Coords) (arg1 : Memref sig .tc .vmem S1x1x20000 .i32) (harg1 : arg1.IsWhole) (arg2 : Memref sig .tc .vmem S20000x128 .f32) (harg2 : arg2.IsWhole) (arg3 : Memref sig .tc .vmem S128x64 .bf16) (harg3 : arg3.IsWhole) (arg4 : Memref sig .tc .vmem S1x64 .f32) (harg4 : arg4.IsWhole) (arg5 : Memref sig .tc .vmem S64x128 .bf16) (harg5 : arg5.IsWhole) (arg6 : Memref sig .tc .vmem S1x128 .f32) (harg6 : arg6.IsWhole) (arg7 : Memref sig .tc .vmem S20000x128 .f32) (harg7 : arg7.IsWhole) (arg8 : Memref sig .tc .vmem S64x128 .f32) (harg8 : arg8.IsWhole)
    (hc1 : k1_cond1 i = 1#1) (hc2 : ¬ k1_cond2 i = 1#1) (x1 : Vec F S1x1x20000 .i32) (x2 : Vec F S20000x128 .f32) (x3 : Vec F S128x64 .bf16) (x4 : Vec F S1x64 .f32) (x5 : Vec F S64x128 .bf16) (x6 : Vec F S1x128 .f32)
    (E : Set Name) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6
        ∗ (∃ d, owns (c : Thread nD τ) arg7 fullShare d) ∗ (∃ d, owns (c : Thread nD τ) arg8 fullShare d)
        ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6
            ∗ owns (c : Thread nD τ) arg7 fullShare (k1_pay2 x2 x3 x4 x5 x6)
            ∗ owns (c : Thread nD τ) arg8 fullShare (k1_pay3 x2 x3 x4 x5 x6 x1)) -∗ K ⟨⟩))
      ⊢ wp frame (wpE (defs₀ (F := F)) Variants.none c none) E (cc1__mlp_segsum_tc i arg1 harg1 arg2 harg2 arg3 harg3 arg4 harg4 arg5 harg5 arg6 harg6 arg7 harg7 arg8 harg8) K := by
  simp only [cc1__mlp_segsum_tc_eq_skeleton]; unfold cc1__mlp_segsum_tc_skel
  simp only [k1_part1_eq_skeleton]; unfold k1_part1_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, Hk⟩
  obtain rfl := harg1.eq_unread hf1; obtain rfl := harg2.eq_unread hf2; obtain rfl := harg3.eq_unread hf3
  obtain rfl := harg4.eq_unread hf4; obtain rfl := harg5.eq_unread hf5; obtain rfl := harg6.eq_unread hf6
  sl_exec (disch := first | exact hc1 | exact hc2)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr
    swap; · iexact H7
    ipureintro
    rw [read_writes_whole _ _ zero2, readAt_whole_unread harg2 x2 zero2, readAt_whole_unread harg3 x3 zero2, readAt_whole_unread harg4 x4 zero2, readAt_whole_unread harg5 x5 zero2, readAt_whole_unread harg6 x6 zero2]
  iexists _; isplitr
  swap; · iexact H8
  ipureintro
  rw [read_writes_whole _ _ zero2, readAt_whole_unread harg2 x2 zero2, readAt_whole_unread harg3 x3 zero2, readAt_whole_unread harg4 x4 zero2, readAt_whole_unread harg5 x5 zero2, readAt_whole_unread harg6 x6 zero2, readAt_whole_unread harg1 x1 zero3]

end Cert.Proof.TcBodyW

end
-- ==== Proof.TcRunBW.lean ====
/-
  The body's run at a later grid point: the condition of the reset fails, that of the addition
  holds. On whole staging memrefs — the six inputs at their contents x1 … x6, window 6 at anything,
  window 7 at the running contents xo — the body runs to the inputs as they were, window 6 at the
  block of st computed from x2 … x6, and window 7 at xo with the block's one-hot product added.
-/
import proofs.«208690_g19181323943962_cont_8to1_1746_28_alg».proof.Proof.TcRunAW

set_option maxRecDepth 16384

noncomputable section

namespace Cert.Proof.TcBodyW

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]
variable {Ix : Type} [DecidableEq Ix] {Name : Type} [DecidableEq Name] {U : Type} [URA U]

local notation "𝕄" => MT nD τ sig Ix (Elt F) Name U ℕ

set_option maxHeartbeats 1000000 in
/-- Case B (every point after the first). -/
theorem kernelRunB (c : Dev nD) (i : grid1.Coords) (arg1 : Memref sig .tc .vmem S1x1x20000 .i32) (harg1 : arg1.IsWhole) (arg2 : Memref sig .tc .vmem S20000x128 .f32) (harg2 : arg2.IsWhole) (arg3 : Memref sig .tc .vmem S128x64 .bf16) (harg3 : arg3.IsWhole) (arg4 : Memref sig .tc .vmem S1x64 .f32) (harg4 : arg4.IsWhole) (arg5 : Memref sig .tc .vmem S64x128 .bf16) (harg5 : arg5.IsWhole) (arg6 : Memref sig .tc .vmem S1x128 .f32) (harg6 : arg6.IsWhole) (arg7 : Memref sig .tc .vmem S20000x128 .f32) (harg7 : arg7.IsWhole) (arg8 : Memref sig .tc .vmem S64x128 .f32) (harg8 : arg8.IsWhole)
    (hc1 : ¬ k1_cond1 i = 1#1) (hc2 : k1_cond2 i = 1#1) (x1 : Vec F S1x1x20000 .i32) (x2 : Vec F S20000x128 .f32) (x3 : Vec F S128x64 .bf16) (x4 : Vec F S1x64 .f32) (x5 : Vec F S64x128 .bf16) (x6 : Vec F S1x128 .f32) (xo : Vec F S64x128 .f32)
    (E : Set Name) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6
        ∗ (∃ d, owns (c : Thread nD τ) arg7 fullShare d) ∗ owns (c : Thread nD τ) arg8 fullShare xo
        ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6
            ∗ owns (c : Thread nD τ) arg7 fullShare (k1_pay2 x2 x3 x4 x5 x6)
            ∗ owns (c : Thread nD τ) arg8 fullShare (k1_pay1 (k1_pay3 x2 x3 x4 x5 x6 x1) xo)) -∗ K ⟨⟩))
      ⊢ wp frame (wpE (defs₀ (F := F)) Variants.none c none) E (cc1__mlp_segsum_tc i arg1 harg1 arg2 harg2 arg3 harg3 arg4 harg4 arg5 harg5 arg6 harg6 arg7 harg7 arg8 harg8) K := by
  simp only [cc1__mlp_segsum_tc_eq_skeleton]; unfold cc1__mlp_segsum_tc_skel
  simp only [k1_part1_eq_skeleton]; unfold k1_part1_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, Hk⟩
  obtain rfl := harg1.eq_unread hf1; obtain rfl := harg2.eq_unread hf2; obtain rfl := harg3.eq_unread hf3
  obtain rfl := harg4.eq_unread hf4; obtain rfl := harg5.eq_unread hf5; obtain rfl := harg6.eq_unread hf6
  obtain rfl := harg8.eq_unread hf8
  sl_exec (disch := first | exact hc1 | exact hc2)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr
    swap; · iexact H7
    ipureintro
    rw [read_writes_whole _ _ zero2, readAt_whole_unread harg2 x2 zero2, readAt_whole_unread harg3 x3 zero2, readAt_whole_unread harg4 x4 zero2, readAt_whole_unread harg5 x5 zero2, readAt_whole_unread harg6 x6 zero2]
  iexists _; isplitr
  swap; · iexact H8
  ipureintro
  rw [read_writes_whole _ _ zero2, readAt_whole_unread harg2 x2 zero2, readAt_whole_unread harg3 x3 zero2, readAt_whole_unread harg4 x4 zero2, readAt_whole_unread harg5 x5 zero2, readAt_whole_unread harg6 x6 zero2, readAt_whole_unread harg1 x1 zero3, readAt_whole_unread harg8 xo zero2]

end Cert.Proof.TcBodyW

end
-- ==== Proof.TcBodyW.lean ====
/-
  The TensorCore region of the kernel program: its proof data and its body obligation.

  At grid point t (the t-th block of 20000 rows) the six input windows hold their blocks of the
  arrays as the region finds them; the body leaves in window 6 the block of st — the two-layer map
  of the block's rows — and in window 7 the running pooled sum: at the first point the block's
  one-hot product, at each later point the product added to what the point before left. Window 7's
  block index never moves, so it is written back at the last point only and the buffer carries the
  running sum from point to point.

  The data are generic in the float instance and in the ghost parameters of the library's state; the
  invariant between points is any assertion (the body touches nothing but its eight windows) and
  what the core owes is a constant.
-/
import proofs.«208690_g19181323943962_cont_8to1_1746_28_alg».proof.Proof.TcRunBW

set_option maxRecDepth 16384

noncomputable section

namespace Cert.Proof.TcBodyW

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]
variable {Ix : Type} [DecidableEq Ix] {Name : Type} [DecidableEq Name] {U : Type} [URA U]

local notation "𝕄" => MT nD τ sig Ix (Elt F) Name U ℕ

variable (A : (c : Dev nD) → ATy (F := F) c) (O : CellTallies nD τ sig Ix) (Φ₀ : Dev nD → sProp (MT nD τ sig Ix (Elt F) Name U ℕ))

/-! ## What the outputs hold after each point -/

/-- The block of st at point `t`: the two-layer map of the block's rows. -/
def stAt (c : Dev nD) (A : ATy (F := F) c) (t : Fin cfg1.N) : Vec F S20000x128 .f32 :=
  k1_pay2 (blk c A 1 t) (blk c A 2 t) (blk c A 3 t) (blk c A 4 t) (blk c A 5 t)

/-- The block's one-hot product at point `t`: row g sums the rows of the block of st whose id is g. -/
def prodAt (c : Dev nD) (A : ATy (F := F) c) (t : Fin cfg1.N) : Vec F S64x128 .f32 :=
  k1_pay3 (blk c A 1 t) (blk c A 2 t) (blk c A 3 t) (blk c A 4 t) (blk c A 5 t) (blk c A 0 t)

/-- The running pooled sum after the body at position `n`: the first block's product, then each later
    block's product added to what the position before left. -/
def outsAt (c : Dev nD) (A : ATy (F := F) c) : (n : ℕ) → n < cfg1.N → Vec F S64x128 .f32
  | 0, hn => prodAt c A ⟨0, hn⟩
  | n + 1, hn => k1_pay1 (prodAt c A ⟨n + 1, hn⟩) (outsAt c A n (Nat.lt_of_succ_lt hn))

theorem outsAt_zero_eq (c : Dev nD) (A : ATy (F := F) c) (hn : 0 < cfg1.N) :
    outsAt c A 0 hn = k1_pay3 (blk c A 1 ⟨0, hn⟩) (blk c A 2 ⟨0, hn⟩) (blk c A 3 ⟨0, hn⟩) (blk c A 4 ⟨0, hn⟩) (blk c A 5 ⟨0, hn⟩) (blk c A 0 ⟨0, hn⟩) := rfl

theorem outsAt_succ_eq (c : Dev nD) (A : ATy (F := F) c) (n : ℕ) (hn : n + 1 < cfg1.N) :
    outsAt c A (n + 1) hn = k1_pay1 (k1_pay3 (blk c A 1 ⟨n + 1, hn⟩) (blk c A 2 ⟨n + 1, hn⟩) (blk c A 3 ⟨n + 1, hn⟩) (blk c A 4 ⟨n + 1, hn⟩) (blk c A 5 ⟨n + 1, hn⟩) (blk c A 0 ⟨n + 1, hn⟩))
      (outsAt c A n (Nat.lt_of_succ_lt hn)) := rfl

/-- `outsAt` at the first point: the block's product. -/
theorem outsAt_first (c : Dev nD) (A : ATy (F := F) c) (t : Fin cfg1.N) (h0 : t.val = 0) :
    outsAt c A t.val t.isLt = prodAt c A t := by
  obtain ⟨n, hn⟩ := t
  cases n with
  | zero => rfl
  | succ n => exact absurd h0 (Nat.succ_ne_zero n)

/-- `outsAt` at a later point: the block's product added to what the point before left. -/
theorem outsAt_later (c : Dev nD) (A : ATy (F := F) c) (t : Fin cfg1.N) (h0 : t.val ≠ 0) :
    outsAt c A t.val t.isLt = k1_pay1 (prodAt c A t) (outsAt c A (t.val - 1) (Nat.lt_of_le_of_lt (Nat.sub_le _ _) t.isLt)) := by
  obtain ⟨n, hn⟩ := t
  cases n with
  | zero => exact absurd rfl h0
  | succ n => rfl

/-! ## The pipeline's proof data -/

/-- The proof data of the region on core `c`: the arrays as the region finds them (`A c`); after the body
    at point `t` each input's buffer at its block, window 6 at the block of st, window 7 at the running
    pooled sum; the invariant `Φ₀ c` at every point; the core owing `O` throughout; full shares. -/
def dats (_ : Fin 1) (c : Dev nD) : Dat τ (Elt F) Ix Name U ℕ cfg1 c where
  A := A c
  after w t := match w with
    | ⟨0, _⟩ => blk c (A c) 0 t
    | ⟨1, _⟩ => blk c (A c) 1 t
    | ⟨2, _⟩ => blk c (A c) 2 t
    | ⟨3, _⟩ => blk c (A c) 3 t
    | ⟨4, _⟩ => blk c (A c) 4 t
    | ⟨5, _⟩ => blk c (A c) 5 t
    | ⟨6, _⟩ => stAt c (A c) t
    | ⟨7, _⟩ => outsAt c (A c) t.val t.isLt
  Φ _ := Φ₀ c
  q _ := fullShare
  owed _ := O

/-- The proof data's arrays are the entry contents. -/
theorem A_eq (c : Dev nD) (w : Fin cfg1.W) : (dats A O Φ₀ 0 c).A w = A c w := by
  dsimp only [dats]

/-- The invariant, the shares and what the core owes, as given. -/
theorem Φ_eq (c : Dev nD) (t : Fin (cfg1.N + 1)) : (dats A O Φ₀ 0 c).Φ t = Φ₀ c := rfl
theorem q_eq (c : Dev nD) (w : Fin cfg1.W) : (dats A O Φ₀ 0 c).q w = fullShare := rfl
theorem owed_eq (c : Dev nD) (t : Fin (cfg1.N + 1)) : (dats A O Φ₀ 0 c).owed t = O := rfl

/-- What the body leaves, window by window. -/
theorem after0 (c : Dev nD) (t : Fin cfg1.N) : (dats A O Φ₀ 0 c).after 0 t = blk c (A c) 0 t := by dsimp only [dats]
theorem after1 (c : Dev nD) (t : Fin cfg1.N) : (dats A O Φ₀ 0 c).after 1 t = blk c (A c) 1 t := by dsimp only [dats]
theorem after2 (c : Dev nD) (t : Fin cfg1.N) : (dats A O Φ₀ 0 c).after 2 t = blk c (A c) 2 t := by dsimp only [dats]
theorem after3 (c : Dev nD) (t : Fin cfg1.N) : (dats A O Φ₀ 0 c).after 3 t = blk c (A c) 3 t := by dsimp only [dats]
theorem after4 (c : Dev nD) (t : Fin cfg1.N) : (dats A O Φ₀ 0 c).after 4 t = blk c (A c) 4 t := by dsimp only [dats]
theorem after5 (c : Dev nD) (t : Fin cfg1.N) : (dats A O Φ₀ 0 c).after 5 t = blk c (A c) 5 t := by dsimp only [dats]
theorem after6' (c : Dev nD) (t : Fin cfg1.N) : (dats A O Φ₀ 0 c).after 6 t = stAt c (A c) t := by dsimp only [dats]
theorem after7' (c : Dev nD) (t : Fin cfg1.N) : (dats A O Φ₀ 0 c).after 7 t = outsAt c (A c) t.val t.isLt := by dsimp only [dats]

/-- Window 6 after the body at point `t`, through the payload. -/
theorem after6 (c : Dev nD) (t : Fin cfg1.N) :
    (dats A O Φ₀ 0 c).after 6 t = k1_pay2 (blk c (A c) 1 t) (blk c (A c) 2 t) (blk c (A c) 3 t) (blk c (A c) 4 t) (blk c (A c) 5 t) := by
  dsimp only [dats, stAt]

/-- Window 7 after the body at point `t`: the running pooled sum. -/
theorem after7 (c : Dev nD) (t : Fin cfg1.N) : (dats A O Φ₀ 0 c).after 7 t = outsAt c (A c) t.val t.isLt := after7' A O Φ₀ c t

/-- Each input's current staging buffer holds its block at every point, fetched there or not. -/
theorem before0 (c : Dev nD) (t : Fin cfg1.N) (d) : (dats A O Φ₀ 0 c).before 0 t d = blk c (A c) 0 t :=
  before_in0_of (A c) (dats A O Φ₀ 0 c) (A_eq A O Φ₀ c 0) (after0 A O Φ₀ c) t d
theorem before1 (c : Dev nD) (t : Fin cfg1.N) (d) : (dats A O Φ₀ 0 c).before 1 t d = blk c (A c) 1 t :=
  before_in1_of (A c) (dats A O Φ₀ 0 c) (A_eq A O Φ₀ c 1) (after1 A O Φ₀ c) t d
theorem before2 (c : Dev nD) (t : Fin cfg1.N) (d) : (dats A O Φ₀ 0 c).before 2 t d = blk c (A c) 2 t :=
  before_in2_of (A c) (dats A O Φ₀ 0 c) (A_eq A O Φ₀ c 2) (after2 A O Φ₀ c) t d
theorem before3 (c : Dev nD) (t : Fin cfg1.N) (d) : (dats A O Φ₀ 0 c).before 3 t d = blk c (A c) 3 t :=
  before_in3_of (A c) (dats A O Φ₀ 0 c) (A_eq A O Φ₀ c 3) (after3 A O Φ₀ c) t d
theorem before4 (c : Dev nD) (t : Fin cfg1.N) (d) : (dats A O Φ₀ 0 c).before 4 t d = blk c (A c) 4 t :=
  before_in4_of (A c) (dats A O Φ₀ 0 c) (A_eq A O Φ₀ c 4) (after4 A O Φ₀ c) t d
theorem before5 (c : Dev nD) (t : Fin cfg1.N) (d) : (dats A O Φ₀ 0 c).before 5 t d = blk c (A c) 5 t :=
  before_in5_of (A c) (dats A O Φ₀ 0 c) (A_eq A O Φ₀ c 5) (after5 A O Φ₀ c) t d

/-- At a point after the first, window 7's staging buffer holds what the body left at the point before:
    the buffer was not written back between (only the last point writes it back), the window is live and uncut. -/
theorem before7_later (c : Dev nD) (t : Fin cfg1.N) (h0 : t.val ≠ 0) (d) :
    (dats A O Φ₀ 0 c).before 7 t d = outsAt c (A c) (t.val - 1) (Nat.lt_of_le_of_lt (Nat.sub_le _ _) t.isLt) := by
  have hN : t.val < 5 := lt_of_lt_of_eq t.isLt (show cfg1.N = 5 from N_1)
  rw [Dat.before_of_pos _ 7 t h0 ((cfg1.win 7).fetch_out rfl t),
    if_neg (fun h => by have := (flush1_7 _).mp h; dsimp only at this; omega)]
  unfold Dat.left
  rw [idle7]
  show Dat.kept _ 7 _ d = _
  unfold Dat.kept
  rw [Dat.before_out_kept.fill_of_clip_none' 7 _ (fun _ => rfl) d ((dats A O Φ₀ 0 c).after 7 _), Window.fill_cut]
  dsimp only [dats]

/-! ## The body obligation, at a generic point -/

variable (ι : Ix)

/-- What the body is called with at point `t`, the windows one by one, -/
def bodyPre (c : Dev nD) (t : Fin cfg1.N) : sProp 𝕄 :=
  iprop((dats A O Φ₀ 0 c).Φ t.castSucc ∗ (dats A O Φ₀ 0 c).owesAt ι t.castSucc
    ∗ (∃ d, owns (c : Thread nD τ) (ms0 t) fullShare ((dats A O Φ₀ 0 c).before 0 t d))
    ∗ (∃ d, owns (c : Thread nD τ) (ms1 t) fullShare ((dats A O Φ₀ 0 c).before 1 t d))
    ∗ (∃ d, owns (c : Thread nD τ) (ms2 t) fullShare ((dats A O Φ₀ 0 c).before 2 t d))
    ∗ (∃ d, owns (c : Thread nD τ) (ms3 t) fullShare ((dats A O Φ₀ 0 c).before 3 t d))
    ∗ (∃ d, owns (c : Thread nD τ) (ms4 t) fullShare ((dats A O Φ₀ 0 c).before 4 t d))
    ∗ (∃ d, owns (c : Thread nD τ) (ms5 t) fullShare ((dats A O Φ₀ 0 c).before 5 t d))
    ∗ (∃ d, owns (c : Thread nD τ) (ms6 t) fullShare ((dats A O Φ₀ 0 c).before 6 t d))
    ∗ (∃ d, owns (c : Thread nD τ) (ms7 t) fullShare ((dats A O Φ₀ 0 c).before 7 t d)))

/-- and what it returns. -/
def bodyPost (c : Dev nD) (t : Fin cfg1.N) : sProp 𝕄 :=
  iprop((dats A O Φ₀ 0 c).Φ t.succ ∗ (dats A O Φ₀ 0 c).owesAt ι t.succ
    ∗ owns (c : Thread nD τ) (ms0 t) fullShare ((dats A O Φ₀ 0 c).after 0 t)
    ∗ owns (c : Thread nD τ) (ms1 t) fullShare ((dats A O Φ₀ 0 c).after 1 t)
    ∗ owns (c : Thread nD τ) (ms2 t) fullShare ((dats A O Φ₀ 0 c).after 2 t)
    ∗ owns (c : Thread nD τ) (ms3 t) fullShare ((dats A O Φ₀ 0 c).after 3 t)
    ∗ owns (c : Thread nD τ) (ms4 t) fullShare ((dats A O Φ₀ 0 c).after 4 t)
    ∗ owns (c : Thread nD τ) (ms5 t) fullShare ((dats A O Φ₀ 0 c).after 5 t)
    ∗ owns (c : Thread nD τ) (ms6 t) fullShare ((dats A O Φ₀ 0 c).after 6 t)
    ∗ owns (c : Thread nD τ) (ms7 t) fullShare ((dats A O Φ₀ 0 c).after 7 t))

set_option maxHeartbeats 1600000 in
/-- The body at any point: the inputs' memrefs hold their blocks; the closed forms say which case the point
    is in; after the first point window 7 holds what the point before left; so the case's run applies; the
    invariant and what the core owes pass through untouched. -/
theorem sound_body (c : Dev nD) (t : Fin cfg1.N) :
    bodyPre A O Φ₀ ι c t ⊢ wp frame (wpE (defs₀ (F := F)) Variants.none c none) Set.univ (bodyAt1 t) (fun _ => bodyPost A O Φ₀ ι c t) := by
  unfold bodyPre bodyPost bodyAt1
  simp only [before0, before1, before2, before3, before4, before5]
  rw [show (dats A O Φ₀ 0 c).Φ t.succ = (dats A O Φ₀ 0 c).Φ t.castSucc from rfl,
    show (dats A O Φ₀ 0 c).owesAt ι t.succ = (dats A O Φ₀ 0 c).owesAt ι t.castSucc from rfl,
    after0, after1, after2, after3, after4, after5, after6', after7']
  by_cases h0 : t.val = 0
  · rw [outsAt_first c (A c) t h0]
    unfold stAt prodAt
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (kernelRunA c (grid1.coords t) _ _ _ _ _ _ _ _ _ _ _ _ _ _ _ _ ((hcond1 t).mpr h0) (fun h => (hcond2 t).mp h h0)
      (blk c (A c) 0 t) (blk c (A c) 1 t) (blk c (A c) 2 t) (blk c (A c) 3 t) (blk c (A c) 4 t) (blk c (A c) 5 t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    iintro ⟨H0, H1, H2, H3, H4, H5, H6, H7⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · rw [outsAt_later c (A c) t h0]
    simp only [before7_later A O Φ₀ c t h0]
    unfold stAt prodAt
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (kernelRunB c (grid1.coords t) _ _ _ _ _ _ _ _ _ _ _ _ _ _ _ _ (fun h => h0 ((hcond1 t).mp h)) ((hcond2 t).mpr h0)
      (blk c (A c) 0 t) (blk c (A c) 1 t) (blk c (A c) 2 t) (blk c (A c) 3 t) (blk c (A c) 4 t) (blk c (A c) 5 t) _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexact H7
    iintro ⟨H0, H1, H2, H3, H4, H5, H6, H7⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7

/-- Window 7 left at what the body leaves is what the loop's obligation asks of it: the window is idle at no point
    and its blocks tile its array. -/
theorem leaves7 (c : Dev nD) (t : Fin cfg1.N) :
    owns (c : Thread nD τ) (ms7 t) fullShare ((dats A O Φ₀ 0 c).after 7 t) ⊢ ((dats A O Φ₀ 0 c).leaves 7 t : sProp 𝕄) := by
  unfold Dat.leaves
  rw [idle7]

/-- The library's body obligation, at every point, as the loop uses it. -/
theorem body_obligation (c : Dev nD) : BodyObligationLoose (dats A O Φ₀ 0 c) (defs₀ (F := F)) Variants.none ι Set.univ := fun t => by
  rw [bigSep_W1, bigSep_W1]
  refine (sound_body A O Φ₀ ι c t).trans (wp_mono _ _ _ fun _ => ?_)
  unfold bodyPost
  exact sep_mono .rfl (sep_mono .rfl (sep_mono .rfl (sep_mono .rfl (sep_mono .rfl (sep_mono .rfl (sep_mono .rfl
    (sep_mono .rfl (sep_mono .rfl (leaves7 A O Φ₀ c t)))))))))

end Cert.Proof.TcBodyW

end
-- ==== Proof.TcValueW.lean ====
/-
  The TensorCore region of the kernel program: what its arrays hold when it ends, and the input
  windows' blocks as functions of the arrays.

  Block t of the data, of the ids and of st is rows 20000 t … 20000 t + 19999; the weights' and
  biases' windows are their whole arrays at every point. st is written back block by block at every
  point, the blocks are disjoint, so row 20000 t + r of the final st is row r of what point t left;
  the pooled sum is written back once, at the last point, whole.
-/
import proofs.«208690_g19181323943962_cont_8to1_1746_28_alg».proof.Proof.TcBodyW
import Idealize.ShloMosaic.Lib.Pipeline.Value
import Idealize.ShloMosaic.Lib.ValueIdx

set_option maxRecDepth 16384

noncomputable section

namespace Cert.Proof.TcBodyW

open Cert.Kernel Cert.Kernel.Gen
open Idealize.ShloMosaic Idealize.ShloMosaic.TcCoe Idealize.ShloMosaic.ValueIdx
open Idealize.SL Idealize.SL.RA Idealize.SL.BI
open scoped Idealize.SL.BI
open Idealize.SL.Sem
open Idealize.ShloMosaic.Pipeline (Dat Cfg Window)

variable {F : FTy → Type} [FloatOps F]
variable {Ix : Type} [DecidableEq Ix] {Name : Type} [DecidableEq Name] {U : Type} [URA U]

variable (A : (c : Dev nD) → ATy (F := F) c) (O : CellTallies nD τ sig Ix) (Φ₀ : Dev nD → sProp (MT nD τ sig Ix (Elt F) Name U ℕ))

/-! ## The index maps over the grid -/

theorem idx0 : ∀ t : Fin cfg1.N, win1_0.index t (0 : Fin 3) = t.val ∧ win1_0.index t (1 : Fin 3) = 0 ∧ win1_0.index t (2 : Fin 3) = 0 :=
  (by decide +kernel : ∀ t : Fin grid1.N, win1_0.index t (0 : Fin 3) = t.val ∧ win1_0.index t (1 : Fin 3) = 0 ∧ win1_0.index t (2 : Fin 3) = 0)
theorem idx1 : ∀ t : Fin cfg1.N, win1_1.index t (0 : Fin 2) = t.val ∧ win1_1.index t (1 : Fin 2) = 0 :=
  (by decide +kernel : ∀ t : Fin grid1.N, win1_1.index t (0 : Fin 2) = t.val ∧ win1_1.index t (1 : Fin 2) = 0)
theorem idx2 : ∀ t : Fin cfg1.N, win1_2.index t (0 : Fin 2) = 0 ∧ win1_2.index t (1 : Fin 2) = 0 :=
  (by decide +kernel : ∀ t : Fin grid1.N, win1_2.index t (0 : Fin 2) = 0 ∧ win1_2.index t (1 : Fin 2) = 0)
theorem idx3 : ∀ t : Fin cfg1.N, win1_3.index t (0 : Fin 2) = 0 ∧ win1_3.index t (1 : Fin 2) = 0 :=
  (by decide +kernel : ∀ t : Fin grid1.N, win1_3.index t (0 : Fin 2) = 0 ∧ win1_3.index t (1 : Fin 2) = 0)
theorem idx4 : ∀ t : Fin cfg1.N, win1_4.index t (0 : Fin 2) = 0 ∧ win1_4.index t (1 : Fin 2) = 0 :=
  (by decide +kernel : ∀ t : Fin grid1.N, win1_4.index t (0 : Fin 2) = 0 ∧ win1_4.index t (1 : Fin 2) = 0)
theorem idx5 : ∀ t : Fin cfg1.N, win1_5.index t (0 : Fin 2) = 0 ∧ win1_5.index t (1 : Fin 2) = 0 :=
  (by decide +kernel : ∀ t : Fin grid1.N, win1_5.index t (0 : Fin 2) = 0 ∧ win1_5.index t (1 : Fin 2) = 0)
theorem idx6 : ∀ t : Fin cfg1.N, win1_6.index t (0 : Fin 2) = t.val ∧ win1_6.index t (1 : Fin 2) = 0 :=
  (by decide +kernel : ∀ t : Fin grid1.N, win1_6.index t (0 : Fin 2) = t.val ∧ win1_6.index t (1 : Fin 2) = 0)
theorem idx7 : ∀ t : Fin cfg1.N, win1_7.index t (0 : Fin 2) = 0 ∧ win1_7.index t (1 : Fin 2) = 0 :=
  (by decide +kernel : ∀ t : Fin grid1.N, win1_7.index t (0 : Fin 2) = 0 ∧ win1_7.index t (1 : Fin 2) = 0)
/-- Distinct points write distinct blocks of st. -/
theorem idx_inj6 : ∀ t t' : Fin cfg1.N, win1_6.index t = win1_6.index t' → t = t' :=
  (by decide +kernel : ∀ t t' : Fin grid1.N, win1_6.index t = win1_6.index t' → t = t')

theorem hN (t : Fin cfg1.N) : t.val < 5 := lt_of_lt_of_eq t.isLt (show cfg1.N = 5 from N_1)

/-! ## Where a block's element sits in its array -/

/-- Row r, column j of block t of st is row 20000 t + r of the array. -/
theorem emb6 (t : Fin cfg1.N) (r : Fin 20000) (j : Fin 128) :
    ((cfg1.win 6).blk t).view.emb (ix2 r j) = ix2 (⟨20000 * t.val + r.val, by have := hN t; have := r.isLt; omega⟩ : Fin 100000) j := by
  funext a; apply Fin.ext
  match a with
  | ⟨0, _⟩ => show win1_6.index t (0 : Fin 2) * 20000 + 1 * r.val = 20000 * t.val + r.val; rw [(idx6 t).1]; omega
  | ⟨1, _⟩ => show win1_6.index t (1 : Fin 2) * 128 + 1 * j.val = j.val; rw [(idx6 t).2]; omega

/-- The same of the data's block. -/
theorem emb1 (t : Fin cfg1.N) (r : Fin 20000) (j : Fin 128) :
    ((cfg1.win 1).blk t).view.emb (ix2 r j) = ix2 (⟨20000 * t.val + r.val, by have := hN t; have := r.isLt; omega⟩ : Fin 100000) j := by
  funext a; apply Fin.ext
  match a with
  | ⟨0, _⟩ => show win1_1.index t (0 : Fin 2) * 20000 + 1 * r.val = 20000 * t.val + r.val; rw [(idx1 t).1]; omega
  | ⟨1, _⟩ => show win1_1.index t (1 : Fin 2) * 128 + 1 * j.val = j.val; rw [(idx1 t).2]; omega

/-- Entry k of block t of the ids is entry (t, 0, k) of the reshaped id array. -/
theorem emb0 (t : Fin cfg1.N) (k : Fin 20000) :
    ((cfg1.win 0).blk t).view.emb (ix3 (0 : Fin 1) (0 : Fin 1) k) = ix3 (⟨t.val, hN t⟩ : Fin 5) (0 : Fin 1) k := by
  funext a; apply Fin.ext
  match a with
  | ⟨0, _⟩ => show win1_0.index t (0 : Fin 3) * 1 + 1 * 0 = t.val; rw [(idx0 t).1]; omega
  | ⟨1, _⟩ => show win1_0.index t (1 : Fin 3) * 1 + 1 * 0 = 0; rw [(idx0 t).2.1]
  | ⟨2, _⟩ => show win1_0.index t (2 : Fin 3) * 20000 + 1 * k.val = k.val; rw [(idx0 t).2.2]; omega

/-! ## The inputs' blocks as functions of the arrays -/

theorem blk1_apply (c : Dev nD) (X : ATy (F := F) c) (t : Fin cfg1.N) (r : Fin 20000) (j : Fin 128) :
    blk c X 1 t (ix2 r j) = X 1 (ix2 (⟨20000 * t.val + r.val, by have := hN t; have := r.isLt; omega⟩ : Fin 100000) j) := by
  show X 1 (((cfg1.win 1).blk t).view.emb (ix2 r j)) = _
  rw [emb1]

theorem blk0_apply (c : Dev nD) (X : ATy (F := F) c) (t : Fin cfg1.N) (k : Fin 20000) :
    blk c X 0 t (ix3 (0 : Fin 1) (0 : Fin 1) k) = X 0 (ix3 (⟨t.val, hN t⟩ : Fin 5) (0 : Fin 1) k) := by
  show X 0 (((cfg1.win 0).blk t).view.emb (ix3 (0 : Fin 1) (0 : Fin 1) k)) = _
  rw [emb0]

/-- The weights' and biases' windows are their whole arrays at every point. -/
theorem blk2_eq (c : Dev nD) (X : ATy (F := F) c) (t : Fin cfg1.N) : blk c X 2 t = X 2 := by
  funext y
  show X 2 (((cfg1.win 2).blk t).view.emb y) = X 2 y
  congr 1; funext a; apply Fin.ext
  match a with
  | ⟨0, _⟩ => show win1_2.index t (0 : Fin 2) * 128 + 1 * (y 0).val = (y 0).val; rw [(idx2 t).1]; omega
  | ⟨1, _⟩ => show win1_2.index t (1 : Fin 2) * 64 + 1 * (y 1).val = (y 1).val; rw [(idx2 t).2]; omega
theorem blk3_eq (c : Dev nD) (X : ATy (F := F) c) (t : Fin cfg1.N) : blk c X 3 t = X 3 := by
  funext y
  show X 3 (((cfg1.win 3).blk t).view.emb y) = X 3 y
  congr 1; funext a; apply Fin.ext
  match a with
  | ⟨0, _⟩ => show win1_3.index t (0 : Fin 2) * 1 + 1 * (y 0).val = (y 0).val; rw [(idx3 t).1]; omega
  | ⟨1, _⟩ => show win1_3.index t (1 : Fin 2) * 64 + 1 * (y 1).val = (y 1).val; rw [(idx3 t).2]; omega
theorem blk4_eq (c : Dev nD) (X : ATy (F := F) c) (t : Fin cfg1.N) : blk c X 4 t = X 4 := by
  funext y
  show X 4 (((cfg1.win 4).blk t).view.emb y) = X 4 y
  congr 1; funext a; apply Fin.ext
  match a with
  | ⟨0, _⟩ => show win1_4.index t (0 : Fin 2) * 64 + 1 * (y 0).val = (y 0).val; rw [(idx4 t).1]; omega
  | ⟨1, _⟩ => show win1_4.index t (1 : Fin 2) * 128 + 1 * (y 1).val = (y 1).val; rw [(idx4 t).2]; omega
theorem blk5_eq (c : Dev nD) (X : ATy (F := F) c) (t : Fin cfg1.N) : blk c X 5 t = X 5 := by
  funext y
  show X 5 (((cfg1.win 5).blk t).view.emb y) = X 5 y
  congr 1; funext a; apply Fin.ext
  match a with
  | ⟨0, _⟩ => show win1_5.index t (0 : Fin 2) * 1 + 1 * (y 0).val = (y 0).val; rw [(idx5 t).1]; omega
  | ⟨1, _⟩ => show win1_5.index t (1 : Fin 2) * 128 + 1 * (y 1).val = (y 1).val; rw [(idx5 t).2]; omega

/-! ## The input arrays are never written -/

theorem final_in (c : Dev nD) (w : Fin cfg1.W) (hw : (cfg1.win w).isOut = false) (n : ℕ) : (dats A O Φ₀ 0 c).arrAt w n = A c w :=
  ((dats A O Φ₀ 0 c).arrAt_in w hw n).trans (A_eq A O Φ₀ c w)

/-! ## st: block by block -/

/-- What point t writes back to st: the block of st. -/
theorem flushed6 (c : Dev nD) (t : Fin cfg1.N) :
    (dats A O Φ₀ 0 c).flushed 6 t = (cfg1.win 6).cut (grid1.coords t)
      (k1_pay2 (blk c (A c) 1 t) (blk c (A c) 2 t) (blk c (A c) 3 t) (blk c (A c) 4 t) (blk c (A c) 5 t)) := by
  show (cfg1.win 6).cut (grid1.coords t) ((dats A O Φ₀ 0 c).after 6 t) = _
  rw [after6]

/-- Two points' blocks of st share no index. -/
theorem disjoint6 : ∀ t t' : Fin cfg1.N, (cfg1.win 6).flush t = true → (cfg1.win 6).flush t' = true → t ≠ t' →
    Disjoint ((cfg1.win 6).blk t).view.set ((cfg1.win 6).blk t').view.set :=
  fun t t' _ _ hne => (cfg1.win 6).disjoint_blk fun h => hne (idx_inj6 t t' h)

/-- An element of block t of the final st is that element of what point t left. -/
theorem final6_emb (c : Dev nD) (t : Fin cfg1.N) (y : S20000x128.Idx) :
    (dats A O Φ₀ 0 c).arrAt 6 cfg1.N (((cfg1.win 6).blk t).view.emb y)
      = k1_pay2 (blk c (A c) 1 t) (blk c (A c) 2 t) (blk c (A c) 3 t) (blk c (A c) 4 t) (blk c (A c) 5 t) y := by
  rw [(dats A O Φ₀ 0 c).arrAt_emb_eq_flushed 6 disjoint6 t (flush1_6 t) y, flushed6]
  rfl

/-- Row 20000 t + r of the final st is row r of the block of st at point t. -/
theorem final6 (c : Dev nD) (t : Fin cfg1.N) (r : Fin 20000) (j : Fin 128) :
    (dats A O Φ₀ 0 c).arrAt 6 cfg1.N (ix2 (⟨20000 * t.val + r.val, by have := hN t; have := r.isLt; omega⟩ : Fin 100000) j)
      = k1_pay2 (blk c (A c) 1 t) (blk c (A c) 2 t) (blk c (A c) 3 t) (blk c (A c) 4 t) (blk c (A c) 5 t) (ix2 r j) := by
  rw [← emb6 t r j]
  exact final6_emb A O Φ₀ c t (ix2 r j)

/-! ## The pooled sum: written back once, whole -/

/-- The last point. -/
abbrev tLast : Fin cfg1.N := ⟨4, by rw [show cfg1.N = 5 from N_1]; decide⟩

theorem disjoint7 : ∀ t t' : Fin cfg1.N, (cfg1.win 7).flush t = true → (cfg1.win 7).flush t' = true → t ≠ t' →
    Disjoint ((cfg1.win 7).blk t).view.set ((cfg1.win 7).blk t').view.set :=
  fun t t' h h' hne => absurd (Fin.ext (by
    have h1 := (flush1_7 t).mp h; have h2 := (flush1_7 t').mp h'; have := hN t; have := hN t'
    omega)) hne

/-- The final pooled sum is the running sum after the last point. -/
theorem final7 (c : Dev nD) : (dats A O Φ₀ 0 c).arrAt 7 cfg1.N = outsAt c (A c) 4 tLast.isLt := by
  funext i
  have he : ((cfg1.win 7).blk tLast).view.emb i = i := by
    funext a; apply Fin.ext
    match a with
    | ⟨0, _⟩ => show win1_7.index tLast (0 : Fin 2) * 64 + 1 * (i 0).val = (i 0).val; rw [(idx7 tLast).1]; omega
    | ⟨1, _⟩ => show win1_7.index tLast (1 : Fin 2) * 128 + 1 * (i 1).val = (i 1).val; rw [(idx7 tLast).2]; omega
  have h := (dats A O Φ₀ 0 c).arrAt_emb_eq_flushed 7 disjoint7 tLast ((flush1_7 tLast).mpr rfl) i
  rw [he] at h
  rw [h]
  show (cfg1.win 7).cut (grid1.coords tLast) ((dats A O Φ₀ 0 c).after 7 tLast) i = _
  rw [after7]
  rfl

end Cert.Proof.TcBodyW

end
-- ==== Proof.TcRegionW.lean ====
/-
  The TensorCore region entered from the program's main thread.

  After the one SparseCore call the TensorCore owes nothing, so the region's proof data owe nothing
  and the staging cells' waits need no evidence. The region is entered holding its eight arrays whole
  at the contents A and leaves them at what the pipeline's write-backs made of them; the kernel has no
  semaphore of its own and no scoped buffer besides the staging buffers, so the invariant between
  points is the (empty) scoped rest. The region's step is proved in the pipelines' table and lifted to
  the table extended with the SparseCore dispatch labels.
-/
import proofs.«208690_g19181323943962_cont_8to1_1746_28_alg».proof.Proof.ScSetupW
import proofs.«208690_g19181323943962_cont_8to1_1746_28_alg».proof.Proof.TcValueW

set_option maxRecDepth 16384

noncomputable section

namespace Cert.Proof.TcRegionW

open Cert.Kernel Cert.Kernel.Gen Cert.Proof.KW Cert.Proof.TcBodyW
open Idealize.ShloMosaic Idealize.ShloMosaic.TcCoe
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig (HIx 1) (Elt F) ℕ (UU (F := F)) ℕ

/-- The one admissible table: no window is prefetched. -/
abbrev adm : (p : Fin 1) → (pcfgs (F := F) p).Adm := fun p => (cfgs p).toPCfg_adm

/-- The invariant between points: nothing (the core has no scoped buffer besides the staging buffers). -/
abbrev ΦR (c : Dev nD) : sProp (MT nD τ sig (HIx 1) (Elt F) ℕ (UU (F := F)) ℕ) := iprop(emp)

variable (A : (c : Dev nD) → ATy (F := F) c)

/-- The region's proof data: the arrays at `A`, nothing owed, the invariant `ΦR`. -/
abbrev rd : (p : Fin 1) → (c : Dev nD) → Dat τ (Elt F) (HIx 1) ℕ (UU (F := F)) ℕ (Pipeline.pin (pcfgs (F := F)) adm p) c :=
  dats (Ix := HIx 1) (Name := ℕ) (U := UU (F := F)) A 0 ΦR

/-! ## The TensorCore's debts at the region -/

/-- After the one SparseCore call the TensorCore owes nothing. -/
theorem Otc_one (d : Dev nD) : (K (F := F)).Otc d 1 = 0 := (K (F := F)).Otc_end d (le_refl 1)

/-- With one call every recorded pair sits below the bound asked after it. -/
theorem wbelow_all (d : Dev nD) (W : Waits sig (HIx 1)) : (K (F := F)).WBelow (SparseCore.T d : Thread nD τ) W (8 * 1) := fun p _ => by
  rcases hp : p.2 with _ | q
  · rw [SparseCore.Cfg.lev_none]; exact Nat.zero_le _
  · have := (K (F := F)).lev_some_le (T d, p.1) q
    have hq : q.val = 0 := by have := q.isLt; omega
    omega

/-! ## The arrays, one by one -/

/-- The eight windowed arrays on core `c`, each whole at the full share, at contents `X`. -/
def arrs8 (c : Dev nD) (X : ATy (F := F) c) : sProp 𝕄 :=
  iprop((((SparseCore.T c : Thread nD τ).loc main_v1) ↦{fullShare} X 0) ∗ (((SparseCore.T c : Thread nD τ).loc main_arg0) ↦{fullShare} X 1) ∗ (((SparseCore.T c : Thread nD τ).loc main_v2) ↦{fullShare} X 2)
    ∗ (((SparseCore.T c : Thread nD τ).loc main_v3) ↦{fullShare} X 3) ∗ (((SparseCore.T c : Thread nD τ).loc main_v4) ↦{fullShare} X 4) ∗ (((SparseCore.T c : Thread nD τ).loc main_v5) ↦{fullShare} X 5)
    ∗ (((SparseCore.T c : Thread nD τ).loc main_v6_0) ↦{fullShare} X 6) ∗ (((SparseCore.T c : Thread nD τ).loc main_v6_1) ↦{fullShare} X 7))

theorem arrays_eq8 (c : Dev nD) (X : ATy (F := F) c) : (rd A 0 c).arrays X = arrs8 c X := by
  rw [Pipeline.arrays_eq cfgs (rd A) 0 c launch1.arr_whole (fun w => (rd A 0 c).share_full (fun _ => rfl) w) X, bigSep_W1]
  rfl

/-! ## The region's record -/

section Aux

variable {Pa Po S Lv Pf Pr : sProp (MT nD τ sig (HIx 1) (Elt F) ℕ (UU (F := F)) ℕ)}

theorem hentry_aux (hS : Pf = (iprop(emp) : sProp 𝕄)) :
    iprop(iprop(Pa ∗ Po) ∗ S ∗ Lv) ⊢ |={(Set.univ : Set ℕ)}=> iprop(Pa ∗ Pf ∗ Po ∗ iprop(emp) ∗ iprop(emp)) := by
  subst hS
  iintro ⟨⟨Ha, Ho⟩, -, -⟩
  imodintro
  isplitl [Ha]; · iexact Ha
  isplitr; · iempintro
  isplitl [Ho]; · iexact Ho
  isplitr <;> iempintro

theorem hin_aux : Pa ⊢ (iprop(emp) : sProp (MT nD τ sig (HIx 1) (Elt F) ℕ (UU (F := F)) ℕ)) := by iintro -; iempintro

theorem hout_aux (hS : S = (iprop(emp) : sProp 𝕄)) (hP : Pr = (iprop(emp) : sProp 𝕄)) :
    (iprop(emp) : sProp (MT nD τ sig (HIx 1) (Elt F) ℕ (UU (F := F)) ℕ)) ⊢ iprop(iprop(emp) ∗ S ∗ Pr) := by
  subst hS; subst hP
  iintro -
  isplitr; · iempintro
  isplitr <;> iempintro

theorem hexit_aux : iprop(Pa ∗ Po ∗ iprop(emp) ∗ iprop(emp)) ⊢ |={(Set.univ : Set ℕ)}=> iprop(Pa ∗ Po) := by
  iintro ⟨Ha, Ho, -, -⟩
  imodintro
  isplitl [Ha]; · iexact Ha
  iexact Ho

end Aux

/-- No table is prefetched: nothing is held of one. -/
theorem prefHeld_none (c : Dev nD) (q : Fin (pcfgs (F := F) 0).pre.K → PosShare TreeShare) :
    (Pipeline.prefHeld (pcfgs (F := F) 0).pre c q (adm (F := F) 0).1 : sProp 𝕄) = iprop(emp) := by
  unfold Pipeline.prefHeld; rw [Finset.univ_eq_empty, BI.bigSep_empty]; rfl

/-- The core has no scoped buffer besides the staging buffers. -/
theorem scopedRest_pin (c : Dev nD) :
    (Pipeline.scopedRest (Pipeline.pin (pcfgs (F := F)) adm 0).spec c : sProp 𝕄) = iprop(emp) := scopedRest1_eq c

/-- The region: its layout as the launch decides it, no semaphore of its own, the body obligation, no wait
    evidence needed; entered from the arrays at `A` and the core's debts (none), left at the arrays as the
    write-backs made them. -/
def R : Pipeline.RegionSeg (pcfgs (F := F)) adm (rd A) none (defs₀ (F := F)) 𝒱₀ (K (F := F)).L (K (F := F)).lev 0 where
  win := launch1.win.to₀
  block_pos := launch1.block_pos
  stage_whole := launch1.stage_whole
  K := PEmpty
  osem := fun k => k.elim
  ho := Pipeline.OwnSemFacts.none _
  hbody c := body_obligation A 0 ΦR none c
  hwaits c := (show (levAts (K (F := F)).L (K (F := F)).lev : sProp 𝕄) ⊢ BI.emp from by iintro -; iempintro).trans
    (Pipeline.cellsWaits_of_owed_zero (Pipeline.pin (pcfgs (F := F)) adm) (rd A) none 0 c fun _ => rfl)
  pre c := iprop((rd A 0 c).arrays ((rd A 0 c).arrAt · 0) ∗ (rd A 0 c).owesAt none 0)
  post c := iprop((rd A 0 c).arrays ((rd A 0 c).arrAt · (Pipeline.pin (pcfgs (F := F)) adm 0).N)
    ∗ (rd A 0 c).owesAt none (Fin.last (Pipeline.pin (pcfgs (F := F)) adm 0).N))
  X _ := iprop(emp)
  Y _ := iprop(emp)
  Z _ := iprop(emp)
  hentry c := hentry_aux (prefHeld_none c _)
  hin c := hin_aux
  hout c := hout_aux (Pipeline.ownSems0_none nD τ sig (Elt F) (HIx 1) ℕ (UU (F := F)) ℕ c) (scopedRest_pin c)
  hexit c := hexit_aux

theorem R_pre (c : Dev nD) : (R A).pre c = iprop((rd A 0 c).arrays (A c) ∗ (rd A 0 c).owesAt none 0) := rfl
theorem R_post (c : Dev nD) :
    (R A).post c = iprop((rd A 0 c).arrays (fun w => (rd A 0 c).arrAt w cfg1.N) ∗ (rd A 0 c).owesAt none (Fin.last cfg1.N)) := rfl

/-- The region is entered from the eight arrays at `A` and the core owing nothing. -/
theorem pre_of (c : Dev nD) : iprop(arrs8 c (A c) ∗ (∃ W, owes (SparseCore.T c : Thread nD τ) (0 : CellTallies nD τ sig (HIx 1)) W)) ⊢ ((R A).pre c : sProp 𝕄) := by
  rw [R_pre, arrays_eq8]
  iintro ⟨Ha, ⟨%W, Ho⟩⟩
  isplitl [Ha]; · iexact Ha
  iexists W; isplitr
  · ipureintro; exact Set.subset_union_of_subset_left (Set.subset_univ _) _
  iexact Ho

/-- It leaves the eight arrays at their final contents and the core owing nothing. -/
theorem post_to (c : Dev nD) :
    ((R A).post c : sProp 𝕄) ⊢ iprop(arrs8 c (fun w => (rd A 0 c).arrAt w cfg1.N) ∗ (∃ W, owes (SparseCore.T c : Thread nD τ) (0 : CellTallies nD τ sig (HIx 1)) W)) := by
  rw [R_post, arrays_eq8]
  iintro ⟨Ha, ⟨%W, -, Ho⟩⟩
  isplitl [Ha]; · iexact Ha
  iexists W; iexact Ho

/-! ## The region's step in the extended table -/

set_option backward.isDefEq.respectTransparency.types false in
/-- The region of any record, met in the main thread under the table extended with the dispatch labels: the call is the
    lifted call followed by the continuation, and the lifted call runs as the region rule says. -/
theorem region_step_of
    (pdats : (p : Fin 1) → (c : Dev nD) → Dat τ (Elt F) (HIx 1) ℕ (UU (F := F)) ℕ (Pipeline.pin (pcfgs (F := F)) adm p) c)
    (ι : HIx 1)
    (R : Pipeline.RegionSeg (pcfgs (F := F)) adm pdats ι (defs₀ (F := F)) 𝒱₀ (K (F := F)).L (K (F := F)).lev 0) (d : Dev nD)
    {α : Type} (k : PUnit → Prog (TpuEff nD τ sig (Elt F) (SparseCore.Sig (ΛP (F := F)) 1) .tc) α) (Q : α → sProp 𝕄) :
    iprop((iprop(boundary (SparseCore.T d : Thread nD τ) ∗ R.post d) -∗ wp frame (wpE ((K (F := F)).defs (D (F := F))) 𝒱 (SparseCore.T d : Thread nD τ) none) Set.univ (k ⟨⟩) Q)
        ∗ boundary (SparseCore.T d : Thread nD τ) ∗ R.pre d ∗ levAts (K (F := F)).L (K (F := F)).lev
        ∗ Pipeline.cellsGhost (Pipeline.pin (pcfgs (F := F)) adm) (EP (F := F)) 0 d ∗ Pipeline.toksInit (Pipeline.pin (pcfgs (F := F)) adm) (EP (F := F)) 0 d)
      ⊢ wp frame (wpE ((K (F := F)).defs (D (F := F))) 𝒱 (SparseCore.T d : Thread nD τ) none) Set.univ
          (.op (.customCall (SparseCore.inner (Pipeline.entry 0)) ()) k) Q := by
  rw [show (Prog.op (.customCall (SparseCore.inner (Pipeline.entry (0 : Fin 1))) ()) k
        : Prog (TpuEff nD τ sig (Elt F) (SparseCore.Sig (ΛP (F := F)) 1) .tc) α)
      = (SparseCore.liftProg (Prog.op (.customCall (Pipeline.entry (0 : Fin 1)) ()) fun x => Prog.ret x) >>= k) from rfl, wp_bind]
  refine BI.Entails.trans ?_ ((K (F := F)).wp_liftProg (D (F := F)) 𝒱 (SparseCore.T d : Thread nD τ) Set.univ none _ _)
  refine BI.Entails.trans ?_ (Pipeline.RegionSeg.wp (pcfgs (F := F)) adm pdats ι cellOf_inj (EP (F := F)) (defs₀ (F := F)) 𝒱₀ _ _ R d none (fun _ h => by cases h) (fun x => Prog.ret x) _)
  show (_ : sProp 𝕄) ⊢ _
  iintro ⟨Hk, Hb, Hpre, Hlev, Hg, Ht⟩
  isplitl [Hk]
  · iintro H; rw [wp_ret]; imodintro; iapply Hk; iexact H
  isplitl [Hb]; · iexact Hb
  isplitl [Hpre]; · iexact Hpre
  isplitl [Hlev]; · iexact Hlev
  isplitl [Hg]; · iexact Hg
  iexact Ht

/-- The region of this program, from the eight arrays at `A` and the core owing nothing, to the arrays at their final
    contents and the core owing nothing. -/
theorem region_step (d : Dev nD)
    {α : Type} (k : PUnit → Prog (TpuEff nD τ sig (Elt F) (SparseCore.Sig (ΛP (F := F)) 1) .tc) α) (Q : α → sProp 𝕄) :
    iprop((iprop(boundary (SparseCore.T d : Thread nD τ) ∗ arrs8 d (fun w => (rd A 0 d).arrAt w cfg1.N) ∗ (∃ W, owes (SparseCore.T d : Thread nD τ) (0 : CellTallies nD τ sig (HIx 1)) W))
            -∗ wp frame (wpE ((K (F := F)).defs (D (F := F))) 𝒱 (SparseCore.T d : Thread nD τ) none) Set.univ (k ⟨⟩) Q)
        ∗ boundary (SparseCore.T d : Thread nD τ) ∗ arrs8 d (A d) ∗ (∃ W, owes (SparseCore.T d : Thread nD τ) (0 : CellTallies nD τ sig (HIx 1)) W) ∗ levAts (K (F := F)).L (K (F := F)).lev
        ∗ Pipeline.cellsGhost (Pipeline.pin (pcfgs (F := F)) adm) (EP (F := F)) 0 d ∗ Pipeline.toksInit (Pipeline.pin (pcfgs (F := F)) adm) (EP (F := F)) 0 d)
      ⊢ wp frame (wpE ((K (F := F)).defs (D (F := F))) 𝒱 (SparseCore.T d : Thread nD τ) none) Set.univ
          (.op (.customCall (SparseCore.inner (Pipeline.entry 0)) ()) k) Q := by
  refine BI.Entails.trans ?_ (region_step_of (rd A) none (R A) d k Q)
  show (_ : sProp 𝕄) ⊢ _
  iintro ⟨Hk, Hb, Ha, Ho, Hlev, Hg, Ht⟩
  isplitl [Hk]
  · iintro ⟨Hb, Hp⟩; iapply Hk
    isplitl [Hb]; · iexact Hb
    iapply (post_to A d); iexact Hp
  isplitl [Hb]; · iexact Hb
  isplitl [Ha Ho]
  · iapply (pre_of A d); isplitl [Ha]; · iexact Ha
    iexact Ho
  isplitl [Hlev]; · iexact Hlev
  isplitl [Hg]; · iexact Hg
  iexact Ht

/-! ## The arrays' contents, named one by one -/

/-- Contents of the eight windowed arrays on core `c`, from one per array. -/
def mkA (c : Dev nD)
    (a0 : Buf (Elt F) ((SparseCore.T c : Thread nD τ).loc main_v1)) (a1 : Buf (Elt F) ((SparseCore.T c : Thread nD τ).loc main_arg0))
    (a2 : Buf (Elt F) ((SparseCore.T c : Thread nD τ).loc main_v2)) (a3 : Buf (Elt F) ((SparseCore.T c : Thread nD τ).loc main_v3))
    (a4 : Buf (Elt F) ((SparseCore.T c : Thread nD τ).loc main_v4)) (a5 : Buf (Elt F) ((SparseCore.T c : Thread nD τ).loc main_v5))
    (a6 : Buf (Elt F) ((SparseCore.T c : Thread nD τ).loc main_v6_0)) (a7 : Buf (Elt F) ((SparseCore.T c : Thread nD τ).loc main_v6_1)) :
    ATy (F := F) c := fun w => match w with
  | ⟨0, _⟩ => a0 | ⟨1, _⟩ => a1 | ⟨2, _⟩ => a2 | ⟨3, _⟩ => a3 | ⟨4, _⟩ => a4 | ⟨5, _⟩ => a5 | ⟨6, _⟩ => a6 | ⟨7, _⟩ => a7

/-- The eight arrays at such contents, each named. -/
theorem arrs8_mk (c : Dev nD) (a0 a1 a2 a3 a4 a5 a6 a7) :
    arrs8 (F := F) c (mkA c a0 a1 a2 a3 a4 a5 a6 a7)
      = iprop((((SparseCore.T c : Thread nD τ).loc main_v1) ↦{fullShare} a0) ∗ (((SparseCore.T c : Thread nD τ).loc main_arg0) ↦{fullShare} a1)
        ∗ (((SparseCore.T c : Thread nD τ).loc main_v2) ↦{fullShare} a2) ∗ (((SparseCore.T c : Thread nD τ).loc main_v3) ↦{fullShare} a3)
        ∗ (((SparseCore.T c : Thread nD τ).loc main_v4) ↦{fullShare} a4) ∗ (((SparseCore.T c : Thread nD τ).loc main_v5) ↦{fullShare} a5)
        ∗ (((SparseCore.T c : Thread nD τ).loc main_v6_0) ↦{fullShare} a6) ∗ (((SparseCore.T c : Thread nD τ).loc main_v6_1) ↦{fullShare} a7)) := rfl

/-- What the two results hold when the region ends. -/
abbrev KST (c : Dev nD) : Buf (Elt F) ((SparseCore.T c : Thread nD τ).loc main_v6_0) := (rd A 0 c).arrAt 6 cfg1.N
abbrev KOUT (c : Dev nD) : Buf (Elt F) ((SparseCore.T c : Thread nD τ).loc main_v6_1) := (rd A 0 c).arrAt 7 cfg1.N

/-- The arrays when the region ends: the six inputs as they were, the two results as the write-backs made them. -/
theorem final_eq (c : Dev nD) :
    (fun w => (rd A 0 c).arrAt w cfg1.N) = mkA c (A c 0) (A c 1) (A c 2) (A c 3) (A c 4) (A c 5) (KST A c) (KOUT A c) := by
  funext w
  match w with
  | ⟨0, _⟩ => exact final_in A 0 ΦR c 0 rfl _
  | ⟨1, _⟩ => exact final_in A 0 ΦR c 1 rfl _
  | ⟨2, _⟩ => exact final_in A 0 ΦR c 2 rfl _
  | ⟨3, _⟩ => exact final_in A 0 ΦR c 3 rfl _
  | ⟨4, _⟩ => exact final_in A 0 ΦR c 4 rfl _
  | ⟨5, _⟩ => exact final_in A 0 ΦR c 5 rfl _
  | ⟨6, _⟩ => rfl
  | ⟨7, _⟩ => rfl

/-- The region leaves the six inputs at their entry contents, the two results at `KST` and `KOUT`, and the core owing nothing. -/
theorem post_final (c : Dev nD) :
    ((R A).post c : sProp 𝕄) ⊢ iprop(arrs8 c (mkA c (A c 0) (A c 1) (A c 2) (A c 3) (A c 4) (A c 5) (KST A c) (KOUT A c))
      ∗ (∃ W, owes (SparseCore.T c : Thread nD τ) (0 : CellTallies nD τ sig (HIx 1)) W)) := by
  rw [← final_eq]
  exact post_to A c

/-! ## The staging cells' launch ghost state -/

/-- The launch element of the staging cells' rounds. -/
abbrev eP : UP := initOf (Pipeline.cells (Pipeline.pin (pcfgs (F := F)) adm) cellOf_inj) (Pipeline.launchToks (Pipeline.pin (pcfgs (F := F)) adm) cellOf_inj)

/-- What the region's step takes of the staging cells on core `d`: their launch ghost state and the duty tokens. -/
abbrev GP (d : Dev nD) : sProp (MT nD τ sig (HIx 1) (Elt F) ℕ (UU (F := F)) ℕ) :=
  iprop(Pipeline.cellsGhost (Pipeline.pin (pcfgs (F := F)) adm) (EP (F := F)) 0 d ∗ Pipeline.toksInit (Pipeline.pin (pcfgs (F := F)) adm) (EP (F := F)) 0 d)

theorem bigSep_fin1 (f : Fin 1 → sProp 𝕄) : bigSep Finset.univ f = f 0 := by
  rw [show (Finset.univ : Finset (Fin 1)) = {0} from rfl, BI.bigSep_singleton]

/-- From the launch element, every core's ghost state and tokens. -/
theorem hfund : (BI.own ((EP (F := F)) (eP (F := F))) : sProp 𝕄) ⊢ |={(Set.univ : Set ℕ)}=> bigSep Finset.univ fun d : Dev nD => GP (F := F) d := by
  iintro Hu
  imod (Pipeline.fund_ghost (Pipeline.pin (pcfgs (F := F)) adm) (EP (F := F)) cellOf_inj) $$ Hu with ⟨Hg, Ht⟩
  imodintro
  simp only [bigSep_fin1]
  unfold GP
  isplitl [Hg]; · iexact Hg
  iexact Ht

end Cert.Proof.TcRegionW

end
-- ==== Proof.ScResW.lean ====
/-
  What each of the 32 tasks of the SparseCore call holds, and the call's payload record.

  Task (c, s) has number 16 c + s. It holds the token of that number of the full share of batch and of
  gnn (read only), and the same token of the composed array held in write mode towards the words
  batch (gnn n). Its slice of the composed array is the 3136 entries from the offset the body computes:
  3136 (2 s + c), except for the last task (2 s + c = 31), whose slice is re-based to end at 100000.
-/
import proofs.«208690_g19181323943962_cont_8to1_1746_28_alg».proof.Proof.ScSetupW
import proofs.«208690_g19181323943962_cont_8to1_1746_28_alg».proof.Proof.LibWriteModeShares

noncomputable section

namespace Cert.Proof.KW

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 1) (Elt F) ℕ (UU (F := F)) ℕ

local notation "gW" => (Memref.whole Cert.Kernel.main_arg5_scv : Memref Cert.Kernel.sig Kind.scVector Space.hbm Cert.Kernel.S100000 EltTy.i32)
local notation "oW" => (Memref.whole Cert.Kernel.main_v0_scv : Memref Cert.Kernel.sig Kind.scVector Space.hbm Cert.Kernel.S100000 EltTy.i32)

variable (m : (ℓ : Loc nD τ sig) → Buf (Elt F) ℓ)

abbrev cV (L : grid0.Coords) : Fin τ.nSC := (L 0).castLE hcore0
abbrev jV (L : grid0.Coords) : Fin τ.nSub := (L 1).castLE hsub0
abbrev VT (d : Dev nD) (L : grid0.Coords) : Thread nD τ := V d (cV L) (jV L)

/-- The grid coordinates of task (c, s), as the body table spells them. -/
def coordsV (c : Fin (grid0.bound 0)) (s : Fin (grid0.bound 1)) : grid0.Coords :=
  fun | 0 => c | 1 => s | ⟨_ + 2, h⟩ => absurd h (Nat.not_lt.2 (Nat.le_add_left _ _))

/-- The task's number among the 32, and its share token. -/
abbrev jn (L : grid0.Coords) : ℕ := 16 * (L 0).val + (L 1).val
abbrev tq (L : grid0.Coords) : PosShare TreeShare := Transfers.shareTokN fullShare (jn L)

/-- The task's slices of the composed array and of gnn, as the body slices them. -/
abbrev oSl (L : grid0.Coords) : Memref sig .scVector .hbm S3136 .i32 :=
  (oW).slice (Rect.unit (s := S100000) (k0_off1 L) S3136.size (k0_off1_inb L)) (fun _ => rfl)
abbrev gSl (L : grid0.Coords) : Memref sig .scVector .hbm S3136 .i32 :=
  (gW).slice (Rect.unit (s := S100000) (k0_off1 L) S3136.size (k0_off1_inb L)) (fun _ => rfl)
abbrev sliceSet (d : Dev nD) (L : grid0.Coords) : Finset (Idx (oLoc d)) := (oSl L).view.set

/-- What a task holds: its share of batch and of gnn, and its share of the composed array in write mode
    with marks W. -/
def tileRes (d : Dev nD) (L : grid0.Coords) (W : Finset (Idx (oLoc d))) : sProp 𝕄 :=
  iprop((bLoc d ↦{tq L} m (bLoc d)) ∗ (gLoc d ↦{tq L} m (gLoc d))
    ∗ willBeTo (wmE (F := F)) (oLoc d) Finset.univ (tq L) (m (oLoc d)) (cidTgt m d) W)

/-- What the proof asks of the launch memory: every word of gnn names a graph. -/
def PreOK : Prop := ∀ (d : Dev nD) (n : Idx (gLoc d)), ((m (gLoc d) : S100000.Idx → BitVec 32) n).toNat < 2048

end Cert.Proof.KW

end
-- ==== Proof.ScSplitW.lean ====
/-
  The SparseCore call's payloads, and how the full shares split into the 32 tasks' and join back.

  Before the call the TensorCore holds batch and gnn at the full share and the composed array in write
  mode at the full share, nothing marked. The full share is a remainder and 32 tokens; token 16 c + s
  goes to task (c, s), and the 16 tasks of SparseCore c together are what that SparseCore's start takes.
  Each task returns its token with its slice of the composed array marked written. The 32 slices cover
  all 100000 entries: entry n lies in the slice of task min (n / 3136) 31. So the tokens joined back with
  the remainder are the full share with every entry marked.
-/
import proofs.«208690_g19181323943962_cont_8to1_1746_28_alg».proof.Proof.ScResW

noncomputable section

namespace Cert.Proof.KW

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 1) (Elt F) ℕ (UU (F := F)) ℕ

local notation "gW" => (Memref.whole Cert.Kernel.main_arg5_scv : Memref Cert.Kernel.sig Kind.scVector Space.hbm Cert.Kernel.S100000 EltTy.i32)
local notation "oW" => (Memref.whole Cert.Kernel.main_v0_scv : Memref Cert.Kernel.sig Kind.scVector Space.hbm Cert.Kernel.S100000 EltTy.i32)

variable (m : (ℓ : Loc nD τ sig) → Buf (Elt F) ℓ)

/-! ## The payloads -/

/-- The call's SparseCores and subcores are the kernel's grid. -/
theorem nCore_bound : (K (F := F)).nCore 0 = grid0.bound 0 := rfl
theorem nSub_bound : (K (F := F)).nSub 0 = grid0.bound 1 := rfl

/-- What a task holds mentions ownership only. -/
instance tileRes_storable (d : Dev nD) (L : grid0.Coords) (W : Finset (Idx (oLoc d))) :
    BI.Storable (upEmb : UEmb _ 𝕄) (tileRes m d L W) := by
  unfold tileRes; infer_instance

/-- The one call: SparseCore c's start takes its 16 tasks' holdings, nothing marked; task (c, i) is handed its
    own; each hands it back with its slice marked, and the SparseCore's done returns the 16 of them. Every
    thread is given the write-mode invariant. -/
def P : (K (F := F)).Pay (nD := nD) (Val := Elt F) (Name := ℕ) (U := UU (F := F)) where
  st := fun q d c => match q with
    | 0 => bigSep Finset.univ fun i : Fin (grid0.bound 1) => tileRes m d (coordsV (Fin.cast nCore_bound c) i) ∅
  dn := fun q d c => match q with
    | 0 => bigSep Finset.univ fun i : Fin (grid0.bound 1) =>
        tileRes m d (coordsV (Fin.cast nCore_bound c) i) (sliceSet d (coordsV (Fin.cast nCore_bound c) i))
  go := fun q d c i => match q with
    | 0 => tileRes m d (coordsV (Fin.cast nCore_bound c) (Fin.cast nSub_bound i)) ∅
  td := fun q d c i => match q with
    | 0 => tileRes m d (coordsV (Fin.cast nCore_bound c) (Fin.cast nSub_bound i))
        (sliceSet d (coordsV (Fin.cast nCore_bound c) (Fin.cast nSub_bound i)))
  x := fun _ _ => iprop(∃ ιwm : ℕ, wmInv (Ix := HIx 1) (wmE (F := F)) ιwm)

instance P_storable : (P (F := F) m).IsStorable where
  st q d c := match q with
    | 0 => (inferInstance : BI.Storable (upEmb : UEmb _ 𝕄)
        (bigSep Finset.univ fun i : Fin (grid0.bound 1) => tileRes m d (coordsV (Fin.cast nCore_bound c) i) ∅))
  dn q d c := match q with
    | 0 => (inferInstance : BI.Storable (upEmb : UEmb _ 𝕄)
        (bigSep Finset.univ fun i : Fin (grid0.bound 1) =>
          tileRes m d (coordsV (Fin.cast nCore_bound c) i) (sliceSet d (coordsV (Fin.cast nCore_bound c) i))))
  go q d c i := match q with
    | 0 => (inferInstance : BI.Storable (upEmb : UEmb _ 𝕄)
        (tileRes m d (coordsV (Fin.cast nCore_bound c) (Fin.cast nSub_bound i)) ∅))
  td q d c i := match q with
    | 0 => (inferInstance : BI.Storable (upEmb : UEmb _ 𝕄)
        (tileRes m d (coordsV (Fin.cast nCore_bound c) (Fin.cast nSub_bound i))
          (sliceSet d (coordsV (Fin.cast nCore_bound c) (Fin.cast nSub_bound i)))))

/-! ## A SparseCore's holdings are its 16 tasks' -/

/-- The tasks indexed by the call's own subcore count are the grid's tasks. -/
theorem bigSep_tasks (Φ : Fin (grid0.bound 1) → sProp 𝕄) :
    (bigSep Finset.univ fun i : Fin ((K (F := F)).nSub 0) => Φ (Fin.cast nSub_bound i)) = bigSep Finset.univ Φ :=
  bigSep_congr fun _ _ => congrArg Φ (Fin.ext rfl)

/-- The same for the SparseCores. -/
theorem bigSep_cores (Φ : Fin (grid0.bound 0) → sProp 𝕄) :
    (bigSep Finset.univ fun c : Fin ((K (F := F)).nCore 0) => Φ (Fin.cast nCore_bound c)) = bigSep Finset.univ Φ :=
  bigSep_congr fun _ _ => congrArg Φ (Fin.ext rfl)

theorem vecSplit : (K (F := F)).VecSplit' (P m) 0 := by
  intro d c
  show (bigSep Finset.univ fun i : Fin (grid0.bound 1) => tileRes m d (coordsV (Fin.cast nCore_bound c) i) ∅) ⊢ |={Set.univ}=> iprop(
      (bigSep Finset.univ fun i : Fin ((K (F := F)).nSub 0) =>
        tileRes m d (coordsV (Fin.cast nCore_bound c) (Fin.cast nSub_bound i)) ∅)
      ∗ ((bigSep Finset.univ fun i : Fin ((K (F := F)).nSub 0) =>
          tileRes m d (coordsV (Fin.cast nCore_bound c) (Fin.cast nSub_bound i))
            (sliceSet d (coordsV (Fin.cast nCore_bound c) (Fin.cast nSub_bound i))))
          -∗ bigSep Finset.univ fun i : Fin (grid0.bound 1) =>
            tileRes m d (coordsV (Fin.cast nCore_bound c) i) (sliceSet d (coordsV (Fin.cast nCore_bound c) i))))
  rw [bigSep_tasks (F := F) (fun i => tileRes m d (coordsV (Fin.cast nCore_bound c) i) ∅),
    bigSep_tasks (F := F) (fun i => tileRes m d (coordsV (Fin.cast nCore_bound c) i) (sliceSet d (coordsV (Fin.cast nCore_bound c) i)))]
  iintro H; imodintro
  isplitl [H]; · iexact H
  iintro H; iexact H

/-! ## The 32 slices cover the composed array -/

/-- Entry n lies in task L's slice when it is at or after the slice's offset and fewer than 3136 entries past it. -/
theorem mem_sliceSet (d : Dev nD) (L : grid0.Coords) (n : Idx (oLoc d)) :
    n ∈ sliceSet d L ↔ k0_off1 L 0 ≤ (n 0).val ∧ (n 0).val < k0_off1 L 0 + 3136 := by
  show n ∈ ((View.whole main_v0_scv).slice (Rect.unit (s := S100000) (k0_off1 L) S3136.size (k0_off1_inb L))).set ↔ _
  rw [View.set_slice_whole, Rect.mem_set_unit]
  exact Fin.forall_fin_one

/-- The offset of task (c, s): 3136 (2 s + c), except the last task's, which ends at 100000. -/
theorem off_coordsV (c : Fin (grid0.bound 0)) (s : Fin (grid0.bound 1)) :
    k0_off1 (coordsV c s) 0 = if 2 * s.val + c.val = 31 then 96864 else 6272 * s.val + 3136 * c.val := by
  rw [k0_off1_eq]; rfl

/-- Every entry lies in some task's slice: entry n in that of task min (n / 3136) 31. -/
theorem slices_cover (d : Dev nD) :
    (Finset.univ : Finset (Fin (grid0.bound 0) × Fin (grid0.bound 1))).biUnion (fun p => sliceSet d (coordsV p.1 p.2))
      = Finset.univ := by
  ext n
  simp only [Finset.mem_biUnion, Finset.mem_univ, true_and, iff_true]
  have hn : (n 0).val < 100000 := (n 0).isLt
  refine ⟨(⟨min ((n 0).val / 3136) 31 % 2, by show _ < 2; omega⟩, ⟨min ((n 0).val / 3136) 31 / 2, by show _ < 16; omega⟩), ?_⟩
  rw [mem_sliceSet, off_coordsV]
  show (if 2 * (min ((n 0).val / 3136) 31 / 2) + min ((n 0).val / 3136) 31 % 2 = 31 then 96864
        else 6272 * (min ((n 0).val / 3136) 31 / 2) + 3136 * (min ((n 0).val / 3136) 31 % 2)) ≤ (n 0).val
      ∧ (n 0).val < (if 2 * (min ((n 0).val / 3136) 31 / 2) + min ((n 0).val / 3136) 31 % 2 = 31 then 96864
        else 6272 * (min ((n 0).val / 3136) 31 / 2) + 3136 * (min ((n 0).val / 3136) 31 % 2)) + 3136
  split <;> omega

/-! ## The full shares split into the remainder and the 32 tasks' tokens, and join back -/

/-- What the TensorCore keeps during the call: the remainder of the three full shares after 32 tokens, the composed
    array's with marks W. -/
def Rem (d : Dev nD) (W : Finset (Idx (oLoc d))) : sProp 𝕄 :=
  iprop((bLoc d ↦{Transfers.shareDrop fullShare 32} m (bLoc d)) ∗ (gLoc d ↦{Transfers.shareDrop fullShare 32} m (gLoc d))
    ∗ willBeTo (wmE (F := F)) (oLoc d) Finset.univ (Transfers.shareDrop fullShare 32) (m (oLoc d)) (cidTgt m d) W)

/-- Token j of the three, the composed array's with marks W: what the task numbered j holds. -/
def Tok (d : Dev nD) (j : ℕ) (W : Finset (Idx (oLoc d))) : sProp 𝕄 :=
  iprop((bLoc d ↦{Transfers.shareTokN fullShare j} m (bLoc d)) ∗ (gLoc d ↦{Transfers.shareTokN fullShare j} m (gLoc d))
    ∗ willBeTo (wmE (F := F)) (oLoc d) Finset.univ (Transfers.shareTokN fullShare j) (m (oLoc d)) (cidTgt m d) W)

theorem tileRes_eq_tok (d : Dev nD) (L : grid0.Coords) (W : Finset (Idx (oLoc d))) : tileRes m d L W = Tok m d (jn L) W := rfl

/-- The three full shares, the composed array's with the remainder's and every token's marks, are the remainder
    and the 32 tokens with their own marks. -/
theorem full_toks (d : Dev nD) (Ws : ℕ → Finset (Idx (oLoc d))) (Wd : Finset (Idx (oLoc d))) :
    iprop((bLoc d ↦{fullShare} m (bLoc d)) ∗ (gLoc d ↦{fullShare} m (gLoc d))
        ∗ willBeTo (wmE (F := F)) (oLoc d) Finset.univ fullShare (m (oLoc d)) (cidTgt m d) (Wd ∪ (Finset.range 32).biUnion Ws))
      ⊣⊢ iprop(Rem m d Wd ∗ bigSep (Finset.range 32) fun j => Tok m d j (Ws j)) := by
  have hb : (bLoc d ↦{fullShare} m (bLoc d) : sProp 𝕄)
      ⊣⊢ iprop((bLoc d ↦{Transfers.shareDrop fullShare 32} m (bLoc d))
          ∗ bigSep (Finset.range 32) (fun j => bLoc d ↦{Transfers.shareTokN fullShare j} m (bLoc d))) :=
    Transfers.pointsTo_toks_range fullShare 32
  have hg : (gLoc d ↦{fullShare} m (gLoc d) : sProp 𝕄)
      ⊣⊢ iprop((gLoc d ↦{Transfers.shareDrop fullShare 32} m (gLoc d))
          ∗ bigSep (Finset.range 32) (fun j => gLoc d ↦{Transfers.shareTokN fullShare j} m (gLoc d))) :=
    Transfers.pointsTo_toks_range fullShare 32
  have ho : (willBeTo (wmE (F := F)) (oLoc d) Finset.univ fullShare (m (oLoc d)) (cidTgt m d) (Wd ∪ (Finset.range 32).biUnion Ws) : sProp 𝕄)
      ⊣⊢ iprop(willBeTo (wmE (F := F)) (oLoc d) Finset.univ (Transfers.shareDrop fullShare 32) (m (oLoc d)) (cidTgt m d) Wd
          ∗ bigSep (Finset.range 32) (fun j =>
              willBeTo (wmE (F := F)) (oLoc d) Finset.univ (Transfers.shareTokN fullShare j) (m (oLoc d)) (cidTgt m d) (Ws j))) :=
    Cert.LibWriteModeShares.willBe_toks_range fullShare Ws 32 Wd
  unfold Rem Tok
  rw [bigSep_sep', bigSep_sep']
  constructor
  · iintro ⟨Hb, Hg, Ho⟩
    ihave Hb := hb.1 $$ Hb
    ihave Hg := hg.1 $$ Hg
    ihave Ho := ho.1 $$ Ho
    icases Hb with ⟨Hbd, Hbt⟩
    icases Hg with ⟨Hgd, Hgt⟩
    icases Ho with ⟨Hod, Hot⟩
    isplitl [Hbd Hgd Hod]
    · isplitl [Hbd]; · iexact Hbd
      isplitl [Hgd]; · iexact Hgd
      iexact Hod
    · isplitl [Hbt]; · iexact Hbt
      isplitl [Hgt]; · iexact Hgt
      iexact Hot
  · iintro ⟨⟨Hbd, Hgd, Hod⟩, Hbt, Hgt, Hot⟩
    isplitl [Hbd Hbt]
    · iapply hb.2; isplitl [Hbd]; · iexact Hbd
      iexact Hbt
    isplitl [Hgd Hgt]
    · iapply hg.2; isplitl [Hgd]; · iexact Hgd
      iexact Hgt
    · iapply ho.2; isplitl [Hod]; · iexact Hod
      iexact Hot

/-- The 32 tokens in order are the 2 x 16 tasks', task (c, i)'s being the token numbered 16 c + i. -/
theorem bigSep_range_tasks (Φ : ℕ → sProp 𝕄) :
    bigSep (Finset.range 32) Φ
      = bigSep Finset.univ fun c : Fin (grid0.bound 0) => bigSep Finset.univ fun i : Fin (grid0.bound 1) => Φ (16 * c.val + i.val) := by
  have h1 : bigSep (Finset.range 32) Φ = bigSep Finset.univ (fun j : Fin 32 => Φ j.val) := by
    rw [← Nat.Iio_eq_range, ← Fin.map_valEmbedding_univ, BI.bigSep_map]; rfl
  rw [h1, bigSep_univ_equiv (finProdFinEquiv : Fin 2 × Fin 16 ≃ Fin 32), bigSep_univ_prod]
  refine bigSep_congr fun c _ => bigSep_congr fun i _ => congrArg Φ ?_
  show i.val + 16 * c.val = 16 * c.val + i.val
  omega

/-- The task whose token is numbered j (any j, reduced into the grid). -/
def taskOf (j : ℕ) : grid0.Coords :=
  coordsV ⟨j / 16 % 2, Nat.mod_lt _ (by decide)⟩ ⟨j % 16, Nat.mod_lt _ (by decide)⟩

theorem taskOf_jn (c : Fin (grid0.bound 0)) (i : Fin (grid0.bound 1)) : taskOf (16 * c.val + i.val) = coordsV c i := by
  have hc : c.val < 2 := c.isLt
  have hi : i.val < 16 := i.isLt
  have e1 : (⟨(16 * c.val + i.val) / 16 % 2, Nat.mod_lt _ (by decide)⟩ : Fin (grid0.bound 0)) = c :=
    Fin.ext (by show (16 * c.val + i.val) / 16 % 2 = c.val; omega)
  have e2 : (⟨(16 * c.val + i.val) % 16, Nat.mod_lt _ (by decide)⟩ : Fin (grid0.bound 1)) = i :=
    Fin.ext (by show (16 * c.val + i.val) % 16 = i.val; omega)
  unfold taskOf
  rw [e1, e2]

/-- The tokens with marks Ws, dealt to the SparseCores. -/
theorem toks_cores (d : Dev nD) (Ws : grid0.Coords → Finset (Idx (oLoc d))) :
    (bigSep (Finset.range 32) fun j => Tok m d j (Ws (taskOf j)))
      = bigSep Finset.univ fun c : Fin ((K (F := F)).nCore 0) =>
          bigSep Finset.univ fun i : Fin (grid0.bound 1) => tileRes m d (coordsV (Fin.cast nCore_bound c) i) (Ws (coordsV (Fin.cast nCore_bound c) i)) := by
  rw [bigSep_range_tasks, bigSep_cores (F := F) (fun c => bigSep Finset.univ fun i : Fin (grid0.bound 1) => tileRes m d (coordsV c i) (Ws (coordsV c i)))]
  refine bigSep_congr fun c _ => bigSep_congr fun i _ => ?_
  rw [taskOf_jn]; rfl

/-- Before the call: the three full shares, nothing marked, are the remainder and what the two SparseCores' starts take. -/
theorem call_split (d : Dev nD) :
    iprop((bLoc d ↦{fullShare} m (bLoc d)) ∗ (gLoc d ↦{fullShare} m (gLoc d))
        ∗ willBeTo (wmE (F := F)) (oLoc d) Finset.univ fullShare (m (oLoc d)) (cidTgt m d) ∅)
      ⊢ iprop(Rem m d ∅ ∗ bigSep Finset.univ fun c : Fin ((K (F := F)).nCore 0) => (P m).st 0 d c) := by
  have hW : (∅ : Finset (Idx (oLoc d))) = ∅ ∪ (Finset.range 32).biUnion (fun j => (fun _ : grid0.Coords => (∅ : Finset (Idx (oLoc d)))) (taskOf j)) := by
    ext n; simp
  have h := (full_toks m d (fun j => (fun _ : grid0.Coords => (∅ : Finset (Idx (oLoc d)))) (taskOf j)) ∅).1
  rw [← hW, toks_cores m d (fun _ => ∅)] at h
  exact h

/-- After the call: the remainder and what the two SparseCores' dones return are the three full shares, every entry
    of the composed array marked. -/
theorem call_join (d : Dev nD) :
    iprop(Rem m d ∅ ∗ bigSep Finset.univ fun c : Fin ((K (F := F)).nCore 0) => (P m).dn 0 d c)
      ⊢ iprop((bLoc d ↦{fullShare} m (bLoc d)) ∗ (gLoc d ↦{fullShare} m (gLoc d))
        ∗ willBeTo (wmE (F := F)) (oLoc d) Finset.univ fullShare (m (oLoc d)) (cidTgt m d) Finset.univ) := by
  have hW : (Finset.univ : Finset (Idx (oLoc d))) = ∅ ∪ (Finset.range 32).biUnion (fun j => sliceSet d (taskOf j)) := by
    rw [Finset.empty_union]
    refine (Finset.eq_univ_iff_forall.2 fun n => ?_).symm
    have hn : n ∈ (Finset.univ : Finset (Fin (grid0.bound 0) × Fin (grid0.bound 1))).biUnion (fun p => sliceSet d (coordsV p.1 p.2)) := by
      rw [slices_cover]; exact Finset.mem_univ n
    obtain ⟨p, -, hp⟩ := Finset.mem_biUnion.1 hn
    have hc : p.1.val < 2 := p.1.isLt
    have hi : p.2.val < 16 := p.2.isLt
    refine Finset.mem_biUnion.2 ⟨16 * p.1.val + p.2.val, Finset.mem_range.2 (by omega), ?_⟩
    rw [taskOf_jn]; exact hp
  have h := (full_toks m d (fun j => sliceSet d (taskOf j)) ∅).2
  rw [← hW, toks_cores m d (fun L => sliceSet d L)] at h
  exact h

end Cert.Proof.KW

end
-- ==== Proof.ScMainW.lean ====
/-
  Two stretches of the program on the TensorCore: the SparseCore call, and the host operations after it.

  The call. The TensorCore holds batch, gnn and the composed array whole. It puts the composed array in
  write mode towards the words batch (gnn n), splits the three full shares into a remainder and the 32
  tasks' tokens, starts the two SparseCores with their tasks' holdings and waits for both; what comes
  back has every entry of the composed array marked written, so the array leaves write mode holding
  exactly those words.

  The host operations. Five operations, each reading one whole array and writing another: the composed
  ids reshaped into five one-row blocks, the two weight matrices converted to the shorter float format,
  the two biases reshaped into one-row matrices. Run in order from contents W they leave every array
  they do not write as it was.
-/
import proofs.«208690_g19181323943962_cont_8to1_1746_28_alg».proof.Proof.ScSplitW

noncomputable section

namespace Cert.Proof.KW

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held wp_seq seq after)

variable {F : FTy → Type}

local notation "𝕄" => MT nD τ sig (HIx 1) (Elt F) ℕ (UU (F := F)) ℕ

variable (m : (ℓ : Loc nD τ sig) → Buf (Elt F) ℓ)

/-! ## The call -/

/-- The join, with the targets spelt as the words themselves. -/
theorem call_join_words (d : Dev nD) :
    iprop(Rem m d ∅ ∗ bigSep Finset.univ fun c : Fin ((K (F := F)).nCore 0) => (P m).dn 0 d c)
      ⊢ iprop((bLoc d ↦{fullShare} m (bLoc d)) ∗ (gLoc d ↦{fullShare} m (gLoc d))
        ∗ willBeTo (wmE (F := F)) (oLoc d) Finset.univ fullShare (m (oLoc d)) (fun n => some (cidWord m d n)) Finset.univ) :=
  call_join m d

variable [FloatOps F]

/-- The SparseCore call on the TensorCore, continuation abstract: from the three arrays whole it continues with
    them whole again, the composed array holding the words batch (gnn n). -/
theorem call_stretch (κ : GSem nD τ sig → ℕ) (d : Dev nD) {α : Type}
    (k : PUnit → Prog (TpuEff nD τ sig (Elt F) (SparseCore.Sig (ΛP (F := F)) 1) .tc) α) (Q : α → sProp 𝕄) (ιwm : ℕ) :
    iprop((K (F := F)).ctx EH (P m) κ ∗ (K (F := F)).tcSt EH d 0 ∗ wmInv (Ix := HIx 1) (wmE (F := F)) ιwm
        ∗ (bLoc d ↦{fullShare} m (bLoc d)) ∗ (gLoc d ↦{fullShare} m (gLoc d)) ∗ (oLoc d ↦{fullShare} m (oLoc d))
        ∗ (((K (F := F)).tcSt EH d 1 ∗ (bLoc d ↦{fullShare} m (bLoc d)) ∗ (gLoc d ↦{fullShare} m (gLoc d))
              ∗ (oLoc d ↦{fullShare} (fun n => cidWord m d n)))
            -∗ wp frame (wpE ((K (F := F)).defs (D (F := F))) 𝒱 (SparseCore.T d) none) Set.univ (k ⟨⟩) Q))
      ⊢ wp frame (wpE ((K (F := F)).defs (D (F := F))) 𝒱 (SparseCore.T d) none) Set.univ ((K (F := F)).run d 0 >>= k) Q := by
  rw [wp_bind]
  iintro ⟨#Hctx, Hst, #Hwm, Hb, Hg, Ho, Hk⟩
  -- the composed array enters write mode towards its words
  imod (pointsTo_castIn (emb := wmE (F := F)) (cidTgt m d)) $$ [Ho] with Ho
  · isplitr; · iexact Hwm
    iexact Ho
  ihave Hs := (call_split m d) $$ [Hb Hg Ho]
  · isplitl [Hb]; · iexact Hb
    isplitl [Hg]; · iexact Hg
    iexact Ho
  icases Hs with ⟨Hrem, Hsts⟩
  iapply ((K (F := F)).wp_run (D (F := F)) 𝒱 (EH := EH) (P := P m) κ d 0) $$ [Hst Hsts Hrem Hk]
  isplitr; · iexact Hctx
  isplitl [Hst]; · iexact Hst
  isplitl [Hsts]; · iexact Hsts
  iintro ⟨Hst, Hdn⟩
  ihave Hj := (call_join_words m d) $$ [Hrem Hdn]
  · isplitl [Hrem]; · iexact Hrem
    iexact Hdn
  icases Hj with ⟨Hb, Hg, Ho⟩
  -- every entry is marked: the array leaves write mode at its words
  imod (willBeTo_castOut_some (emb := wmE (F := F))) $$ [Ho] with Ho
  · isplitr; · iexact Hwm
    iexact Ho
  rw [Finset.piecewise_univ]
  iapply Hk
  isplitl [Hst]; · iexact Hst
  isplitl [Hb]; · iexact Hb
  isplitl [Hg]; · iexact Hg
  iexact Ho

/-! ## The host operations -/

/-- The TensorCore's arrays, as device buffers. -/
abbrev a0' : DevRef τ sig := Proc.devRef .tc (main_arg0 : Ref sig .tc)
abbrev a1' : DevRef τ sig := Proc.devRef .tc (main_arg1 : Ref sig .tc)
abbrev a2' : DevRef τ sig := Proc.devRef .tc (main_arg2 : Ref sig .tc)
abbrev a3' : DevRef τ sig := Proc.devRef .tc (main_arg3 : Ref sig .tc)
abbrev a4' : DevRef τ sig := Proc.devRef .tc (main_arg4 : Ref sig .tc)
abbrev a5' : DevRef τ sig := Proc.devRef .tc (main_arg5 : Ref sig .tc)
abbrev a6' : DevRef τ sig := Proc.devRef .tc (main_arg6 : Ref sig .tc)
abbrev v0' : DevRef τ sig := Proc.devRef .tc (main_v0 : Ref sig .tc)
abbrev v1' : DevRef τ sig := Proc.devRef .tc (main_v1 : Ref sig .tc)
abbrev v2' : DevRef τ sig := Proc.devRef .tc (main_v2 : Ref sig .tc)
abbrev v3' : DevRef τ sig := Proc.devRef .tc (main_v3 : Ref sig .tc)
abbrev v4' : DevRef τ sig := Proc.devRef .tc (main_v4 : Ref sig .tc)
abbrev v5' : DevRef τ sig := Proc.devRef .tc (main_v5 : Ref sig .tc)
abbrev r0' : DevRef τ sig := Proc.devRef .tc (main_v6_0 : Ref sig .tc)
abbrev r1' : DevRef τ sig := Proc.devRef .tc (main_v6_1 : Ref sig .tc)

/-- The five operations, as the program spells them. -/
abbrev opIds : HloOp τ sig (Elt F) := StableHlo.reshape main_v0 main_v1 rfl shapeCasts_S100000_S5x1x20000
abbrev opW1 : HloOp τ sig (Elt F) :=
  StableHlo.unary main_arg1 main_v2 ((truncf .bf16 · bitsLt_bf16_f32) : (⟨S128x64, .f32⟩ : BufTy).Contents (Elt F) → (⟨S128x64, .bf16⟩ : BufTy).Contents (Elt F))
abbrev opB1 : HloOp τ sig (Elt F) := StableHlo.reshape main_arg2 main_v3 rfl shapeCasts_S64_S1x64
abbrev opW2 : HloOp τ sig (Elt F) :=
  StableHlo.unary main_arg3 main_v4 ((truncf .bf16 · bitsLt_bf16_f32) : (⟨S64x128, .f32⟩ : BufTy).Contents (Elt F) → (⟨S64x128, .bf16⟩ : BufTy).Contents (Elt F))
abbrev opB2 : HloOp τ sig (Elt F) := StableHlo.reshape main_arg4 main_v5 rfl shapeCasts_S128_S1x128
abbrev hostOps : List (HloOp τ sig (Elt F)) := [opIds, opW1, opB1, opW2, opB2]

/-- The ten arrays the five operations touch. -/
abbrev hostBufs : Finset (DevRef τ sig) := {v0', v1', a1', v2', a2', v3', a3', v4', a4', v5'}

theorem hostOps_bufs : ∀ op ∈ hostOps (F := F), op.bufs ⊆ hostBufs := by
  intro op hop
  simp only [List.mem_cons, List.not_mem_nil, or_false] at hop
  rcases hop with rfl | rfl | rfl | rfl | rfl
  · show ({v0', v1'} : Finset (DevRef τ sig)) ⊆ hostBufs; decide
  · show ({a1', v2'} : Finset (DevRef τ sig)) ⊆ hostBufs; decide
  · show ({a2', v3'} : Finset (DevRef τ sig)) ⊆ hostBufs; decide
  · show ({a3', v4'} : Finset (DevRef τ sig)) ⊆ hostBufs; decide
  · show ({a4', v5'} : Finset (DevRef τ sig)) ⊆ hostBufs; decide

theorem hostOps_fresh : ∀ op ∈ hostOps (F := F), op.fresh = ∅ := by
  intro op hop
  simp only [List.mem_cons, List.not_mem_nil, or_false] at hop
  rcases hop with rfl | rfl | rfl | rfl | rfl <;> rfl

/-- What the five operations leave, array by array: the five results, -/
theorem host_v1 (W : Valuation τ sig (Elt F)) :
    after (hostOps (F := F)) W v1' = shapeCast S5x1x20000 (W v0') shapeCasts_S100000_S5x1x20000 := by
  after_results; rfl
theorem host_v2 (W : Valuation τ sig (Elt F)) :
    after (hostOps (F := F)) W v2' = (truncf .bf16 (W a1' : FVec F S128x64 .f32) bitsLt_bf16_f32 : FVec F S128x64 .bf16) := by
  after_results
theorem host_v3 (W : Valuation τ sig (Elt F)) :
    after (hostOps (F := F)) W v3' = shapeCast S1x64 (W a2') shapeCasts_S64_S1x64 := by
  after_results; rfl
theorem host_v4 (W : Valuation τ sig (Elt F)) :
    after (hostOps (F := F)) W v4' = (truncf .bf16 (W a3' : FVec F S64x128 .f32) bitsLt_bf16_f32 : FVec F S64x128 .bf16) := by
  after_results
theorem host_v5 (W : Valuation τ sig (Elt F)) :
    after (hostOps (F := F)) W v5' = shapeCast S1x128 (W a4') shapeCasts_S128_S1x128 := by
  after_results; rfl

/-- and every other array as it was. -/
theorem host_other (W : Valuation τ sig (Elt F)) (b : DevRef τ sig) (hb : b ∉ ({v1', v2', v3', v4', v5'} : Finset (DevRef τ sig))) :
    after (hostOps (F := F)) W b = W b := by
  refine StableHlo.after_of_forall_not_mem _ _ fun op hop => ?_
  simp only [Finset.mem_insert, Finset.mem_singleton, not_or] at hb
  obtain ⟨h1, h2, h3, h4, h5⟩ := hb
  simp only [List.mem_cons, List.not_mem_nil, or_false] at hop
  rcases hop with rfl | rfl | rfl | rfl | rfl
  · exact fun h => h1 (Finset.mem_singleton.1 h)
  · exact fun h => h2 (Finset.mem_singleton.1 h)
  · exact fun h => h3 (Finset.mem_singleton.1 h)
  · exact fun h => h4 (Finset.mem_singleton.1 h)
  · exact fun h => h5 (Finset.mem_singleton.1 h)

set_option backward.isDefEq.respectTransparency.types false in
/-- The five host operations on the TensorCore, continuation abstract: holding the boundary and a set S of whole
    arrays that contains the ten, at contents W, they run to their end with S at what they leave. -/
theorem host_stretch (d : Dev nD) (S : Finset (DevRef τ sig)) (hS : hostBufs ⊆ S) (W : Valuation τ sig (Elt F)) {α : Type}
    (k : PUnit → Prog (TpuEff nD τ sig (Elt F) (SparseCore.Sig (ΛP (F := F)) 1) .tc) α) (Q : α → sProp 𝕄) :
    iprop(boundary (SparseCore.T d) ∗ (held (SparseCore.T d) S W : sProp 𝕄)
        ∗ ((boundary (SparseCore.T d) ∗ (held (SparseCore.T d) S (after (hostOps (F := F)) W) : sProp 𝕄))
            -∗ wp frame (wpE ((K (F := F)).defs (D (F := F))) 𝒱 (SparseCore.T d) none) Set.univ (k ⟨⟩) Q))
      ⊢ wp frame (wpE ((K (F := F)).defs (D (F := F))) 𝒱 (SparseCore.T d) none) Set.univ (seq (hostOps (F := F)) >>= k) Q := by
  iintro ⟨Hb, Hh, Hk⟩
  iapply (wp_seq 𝒱 none Set.univ d S k (hostOps (F := F)) (fun op hop => (hostOps_bufs op hop).trans hS) hostOps_fresh W) $$ [Hb Hh]
  · isplitl [Hb]; · iexact Hb
    iexact Hh
  iexact Hk

/-- The program is the call, the five host operations, then the region and the return. -/
theorem main_eq (d : Dev nD) :
    (main (F := F) d : Prog (TpuEff nD τ sig (Elt F) (SparseCore.Sig (ΛP (F := F)) 1) .tc) PUnit)
      = (K (F := F)).run d 0 >>= fun _ => seq (hostOps (F := F)) >>= fun _ =>
          (Prog.lift (.customCall (SparseCore.inner (Pipeline.entry 0)) ()) >>= fun _ => pure ⟨⟩) := rfl

/-! ## The TensorCore's unscoped arrays, one by one -/

/-- The fifteen arrays. -/
abbrev tcBufs : Finset (DevRef τ sig) := {a0', a1', a2', a3', a4', a5', a6', v0', v1', v2', v3', v4', v5', r0', r1'}

omit [FloatOps F] in
theorem hostBufs_sub : (hostBufs : Finset (DevRef τ sig)) ⊆ tcBufs := by decide

omit [FloatOps F] in
/-- The launch's unscoped arrays at contents V are the fifteen, each whole at V. -/
theorem unscopedBufs_eq (d : Dev nD) (V : (b : Ref sig .tc) → Buf (Elt F) ((d.tc : Thread nD τ).loc b)) :
    (unscopedBufs d V : sProp 𝕄)
      = iprop(((SparseCore.T d).loc main_arg0 ↦{fullShare} V main_arg0) ∗ ((SparseCore.T d).loc main_arg1 ↦{fullShare} V main_arg1)
          ∗ ((SparseCore.T d).loc main_arg2 ↦{fullShare} V main_arg2) ∗ ((SparseCore.T d).loc main_arg3 ↦{fullShare} V main_arg3)
          ∗ ((SparseCore.T d).loc main_arg4 ↦{fullShare} V main_arg4) ∗ ((SparseCore.T d).loc main_arg5 ↦{fullShare} V main_arg5)
          ∗ ((SparseCore.T d).loc main_arg6 ↦{fullShare} V main_arg6) ∗ ((SparseCore.T d).loc main_v0 ↦{fullShare} V main_v0)
          ∗ ((SparseCore.T d).loc main_v1 ↦{fullShare} V main_v1) ∗ ((SparseCore.T d).loc main_v2 ↦{fullShare} V main_v2)
          ∗ ((SparseCore.T d).loc main_v3 ↦{fullShare} V main_v3) ∗ ((SparseCore.T d).loc main_v4 ↦{fullShare} V main_v4)
          ∗ ((SparseCore.T d).loc main_v5 ↦{fullShare} V main_v5) ∗ ((SparseCore.T d).loc main_v6_0 ↦{fullShare} V main_v6_0)
          ∗ ((SparseCore.T d).loc main_v6_1 ↦{fullShare} V main_v6_1)) := by
  unfold unscopedBufs
  rw [bigSep_eq_bigSepL_of_eq [main_arg0, main_arg1, main_arg2, main_arg3, main_arg4, main_arg5, main_arg6, main_v0, main_v1, main_v2,
    main_v3, main_v4, main_v5, main_v6_0, main_v6_1] (by decide) (by decide)]
  rfl

omit [FloatOps F] in
/-- The fifteen held at a valuation W, one by one. -/
theorem held_tcBufs (d : Dev nD) (W : Valuation τ sig (Elt F)) :
    (held (SparseCore.T d) tcBufs W : sProp 𝕄)
      = iprop(((SparseCore.T d).loc main_arg0 ↦{fullShare} W a0') ∗ ((SparseCore.T d).loc main_arg1 ↦{fullShare} W a1')
          ∗ ((SparseCore.T d).loc main_arg2 ↦{fullShare} W a2') ∗ ((SparseCore.T d).loc main_arg3 ↦{fullShare} W a3')
          ∗ ((SparseCore.T d).loc main_arg4 ↦{fullShare} W a4') ∗ ((SparseCore.T d).loc main_arg5 ↦{fullShare} W a5')
          ∗ ((SparseCore.T d).loc main_arg6 ↦{fullShare} W a6') ∗ ((SparseCore.T d).loc main_v0 ↦{fullShare} W v0')
          ∗ ((SparseCore.T d).loc main_v1 ↦{fullShare} W v1') ∗ ((SparseCore.T d).loc main_v2 ↦{fullShare} W v2')
          ∗ ((SparseCore.T d).loc main_v3 ↦{fullShare} W v3') ∗ ((SparseCore.T d).loc main_v4 ↦{fullShare} W v4')
          ∗ ((SparseCore.T d).loc main_v5 ↦{fullShare} W v5') ∗ ((SparseCore.T d).loc main_v6_0 ↦{fullShare} W r0')
          ∗ ((SparseCore.T d).loc main_v6_1 ↦{fullShare} W r1')) := by
  unfold held
  rw [bigSep_eq_bigSepL_of_eq [a0', a1', a2', a3', a4', a5', a6', v0', v1', v2', v3', v4', v5', r0', r1'] (by decide) (by decide)]
  rfl

omit [FloatOps F] in
/-- The launch's unscoped arrays at a valuation are the fifteen held at it. -/
theorem unscoped_held (d : Dev nD) (W : Valuation τ sig (Elt F)) :
    (unscopedBufs d (fun b => W (Proc.devRef .tc b)) : sProp 𝕄) = held (SparseCore.T d) tcBufs W := by
  rw [unscopedBufs_eq, held_tcBufs]

end Cert.Proof.KW

end
-- ==== Proof.ScLaunchW.lean ====
/-
  The launch of the kernel program: its ghost element, what the launch deals from it, and how the final
  resources read the claim.

  The ghost element has four parts: the launch handshakes' rounds, the TensorCore region's cells'
  rounds, the write-mode cells with nothing in write mode, and the transfers' counters at their unit.
  The third part allocates the write-mode invariant once; being persistent it is handed to every device
  and to every thread. The second part funds the region's ghost state per device.

  At the end each TensorCore holds its seven arguments at their launch contents and its two results at
  the contents the run gives them; against the final memory these nine read as nine equations.
-/
import proofs.«208690_g19181323943962_cont_8to1_1746_28_alg».proof.Proof.ScMainW

noncomputable section

namespace Cert.Proof.KW

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ (UU (F := F)) ℕ

variable (m : (ℓ : Loc nD τ sig) → Buf (Elt F) ℓ)

/-! ## The launch element -/

/-- The handshakes' rounds, the region's cells' rounds eP, the write-mode cells with nothing in write mode, the
    counters at their unit. -/
def u₀ (eP : UP) : UU (F := F) :=
  (initOf (K (F := F)).hsCells (K (F := F)).hsToks, (eP, (wm₀ nD τ sig (Elt F), 1)))

local notation "ER" => (embR (nD := nD) (τ := τ) (sig := sig) (Ix := HIx 1) (Val := Elt F) (Name := ℕ) (Lvl := ℕ) (A := UH)
  (B := UP × (UW (F := F) × Counters)))

/-- The write-mode part, owned as the last component of the element, is owned along the write-mode embedding. -/
theorem ownW_eq :
    (BI.own (((Emb.inr : Emb (UW (F := F) × Counters) (UP × (UW (F := F) × Counters))).trans ER) (wm₀ nD τ sig (Elt F), (1 : Counters))) : sProp 𝕄)
      = ownU ((wmE (F := F)) (wm₀ nD τ sig (Elt F))) := rfl

/-- The element owned is its three active parts owned, each through its own embedding. -/
theorem ownU_u₀ (eP : UP) :
    (ownU (u₀ (F := F) eP) : sProp 𝕄)
      ⊢ iprop(BI.own (EH (initOf (K (F := F)).hsCells (K (F := F)).hsToks)) ∗ BI.own (EP (F := F) eP)
          ∗ ownU ((wmE (F := F)) (wm₀ nD τ sig (Elt F)))) := by
  unfold u₀
  iintro Hu
  ihave H := (ownU_pair _ _) $$ Hu
  icases H with ⟨HH, HR⟩
  ihave H2 := (own_pair_emb ER eP (wm₀ nD τ sig (Elt F), (1 : Counters))) $$ HR
  icases H2 with ⟨HP, HW⟩
  isplitl [HH]; · iexact HH
  isplitl [HP]; · iexact HP
  iapply (Entails.of_eq (ownW_eq (F := F))); iexact HW

/-! ## What the launch deals -/

/-- What device d's TensorCore is given beside its launch resources: the write-mode invariant, and the region's ghost
    state GP d. -/
def G (GP : Dev nD → sProp 𝕄) (d : Dev nD) : sProp 𝕄 :=
  iprop((∃ ιwm : ℕ, wmInv (Ix := HIx 1) (wmE (F := F)) ιwm) ∗ GP d)

/-- The invariant at a name, handed to every member of a finite family. -/
theorem wmInv_all {I : Type} (s : Finset I) (ιwm : ℕ) :
    (wmInv (Ix := HIx 1) (wmE (F := F)) ιwm : sProp 𝕄) ⊢ bigSep s fun _ : I => iprop(∃ ιwm : ℕ, wmInv (Ix := HIx 1) (wmE (F := F)) ιwm) := by
  classical
  induction s using Finset.induction_on with
  | empty =>
    rw [bigSep_empty]
    iintro -; iempintro
  | insert i s hi ih =>
    rw [SparseCore.bigSep_insert' hi]
    iintro #H
    isplitl []
    · iexists ιwm; iexact H
    · iapply ih; iexact H

/-- The invariant at a name, handed to every thread as its share of the call's ghost state. -/
theorem Px_all (ιwm : ℕ) :
    (wmInv (Ix := HIx 1) (wmE (F := F)) ιwm : sProp 𝕄)
      ⊢ bigSep Finset.univ fun thr : Thread nD τ => bigSep Finset.univ fun q : Fin 1 => (P m).x q thr := by
  have e : (bigSep Finset.univ fun thr : Thread nD τ => bigSep Finset.univ fun q : Fin 1 => (P m).x q thr)
      = bigSep Finset.univ fun _ : Thread nD τ => (iprop(∃ ιwm : ℕ, wmInv (Ix := HIx 1) (wmE (F := F)) ιwm) : sProp 𝕄) :=
    bigSep_congr fun thr _ => bigSep_univ_of_subsingleton (0 : Fin 1)
  rw [e]
  exact wmInv_all (F := F) (I := Thread nD τ) Finset.univ ιwm

/-- The launch element, with the credit and the free semaphores the launch also hands over, gives the handshakes'
    rounds, every device's G and every thread's share of the call's ghost state, when the region's cells' part funds
    the GP. -/
theorem hu₀ [Infinite ℕ] (ρ : Dev nD → PrngReg) (eP : UP) (GP : Dev nD → sProp 𝕄)
    (hfund : (BI.own (EP (F := F) eP) : sProp 𝕄) ⊢ |={Set.univ}=> bigSep Finset.univ GP) :
    iprop(ownU (u₀ (F := F) eP) ∗ (P m).oxCred ∗ (K (F := F)).freeSems0)
      ⊢ |={Set.univ}=> iprop(BI.own (EH (initOf (K (F := F)).hsCells (K (F := F)).hsToks)) ∗ bigSep Finset.univ (G (F := F) GP)
        ∗ bigSep Finset.univ fun thr : Thread nD τ => bigSep Finset.univ fun q : Fin 1 => (P m).x q thr) := by
  have halloc : (ownU ((wmE (F := F)) (wm₀ nD τ sig (Elt F))) : sProp 𝕄)
      ⊢ iprop(|={Set.univ}=> ∃ ιwm : ℕ, wmInv (Ix := HIx 1) (wmE (F := F)) ιwm) :=
    (wmInv_alloc (emb := wmE (F := F)) (⟨m, fun _ => 0, ρ⟩ : MemSt nD τ sig (Elt F))).trans
      (BI.fupd_mono (exists_mono fun _ => and_elim_r))
  iintro ⟨Hu, -, -⟩
  ihave H := (ownU_u₀ (F := F) eP) $$ Hu
  icases H with ⟨HH, HP, HW⟩
  imod halloc $$ HW with ⟨%ιwm, #Hwm⟩
  imod hfund $$ HP with HG
  imodintro
  isplitl [HH]; · iexact HH
  isplitl [HG]
  · unfold G
    rw [bigSep_sep']
    isplitr
    · iapply (wmInv_all (F := F) (I := Dev nD) Finset.univ ιwm); iexact Hwm
    · iexact HG
  · iapply (Px_all (F := F) m ιwm); iexact Hwm

/-! ## The final resources read the claim -/

section Final

variable (KST : (d : Dev nD) → Buf (Elt F) ((SparseCore.T d).loc main_v6_0))
  (KOUT : (d : Dev nD) → Buf (Elt F) ((SparseCore.T d).loc main_v6_1))

/-- What device d's TensorCore holds at the end: the seven arguments at their launch contents, the two results at KST d
    and KOUT d. -/
def FIN (d : Dev nD) : sProp 𝕄 :=
  iprop(((SparseCore.T d).loc main_arg0 ↦{fullShare} m ((SparseCore.T d).loc main_arg0))
    ∗ ((SparseCore.T d).loc main_arg1 ↦{fullShare} m ((SparseCore.T d).loc main_arg1))
    ∗ ((SparseCore.T d).loc main_arg2 ↦{fullShare} m ((SparseCore.T d).loc main_arg2))
    ∗ ((SparseCore.T d).loc main_arg3 ↦{fullShare} m ((SparseCore.T d).loc main_arg3))
    ∗ ((SparseCore.T d).loc main_arg4 ↦{fullShare} m ((SparseCore.T d).loc main_arg4))
    ∗ ((SparseCore.T d).loc main_arg5 ↦{fullShare} m ((SparseCore.T d).loc main_arg5))
    ∗ ((SparseCore.T d).loc main_arg6 ↦{fullShare} m ((SparseCore.T d).loc main_arg6))
    ∗ ((SparseCore.T d).loc main_v6_0 ↦{fullShare} KST d)
    ∗ ((SparseCore.T d).loc main_v6_1 ↦{fullShare} KOUT d))

/-- The nine equations of device d, in the claim's order: the two results, then the seven arguments. -/
def fq (d : Dev nD) (s' : Phys nD τ sig (Elt F)) : Prop :=
  s'.mem.mem ((SparseCore.T d).loc main_v6_0) = KST d
  ∧ s'.mem.mem ((SparseCore.T d).loc main_v6_1) = KOUT d
  ∧ s'.mem.mem ((SparseCore.T d).loc main_arg0) = m ((SparseCore.T d).loc main_arg0)
  ∧ s'.mem.mem ((SparseCore.T d).loc main_arg1) = m ((SparseCore.T d).loc main_arg1)
  ∧ s'.mem.mem ((SparseCore.T d).loc main_arg2) = m ((SparseCore.T d).loc main_arg2)
  ∧ s'.mem.mem ((SparseCore.T d).loc main_arg3) = m ((SparseCore.T d).loc main_arg3)
  ∧ s'.mem.mem ((SparseCore.T d).loc main_arg4) = m ((SparseCore.T d).loc main_arg4)
  ∧ s'.mem.mem ((SparseCore.T d).loc main_arg5) = m ((SparseCore.T d).loc main_arg5)
  ∧ s'.mem.mem ((SparseCore.T d).loc main_arg6) = m ((SparseCore.T d).loc main_arg6)

/-- A whole array held against the memory: the memory has its contents, and the memory's assertion is kept. -/
theorem agree_keep (s' : Phys nD τ sig (Elt F)) (ℓ : Loc nD τ sig) (f : Buf (Elt F) ℓ) :
    iprop(SI s' ∗ ℓ ↦{fullShare} f) ⊢ (iprop(⌜s'.mem.mem ℓ = f⌝ ∗ SI s') : sProp 𝕄) := by
  iintro ⟨HSI, Hp⟩
  ihave H := (persistent_entails_right (SI_pointsTo_agree (st := s') (ℓ := ℓ) (I := Finset.univ) (q := fullShare) (f := f))) $$ [HSI Hp]
  · isplitl [HSI] <;> iassumption
  icases H with ⟨%h, HSI, -⟩
  isplitr
  · ipureintro; exact funext fun i => h i (Finset.mem_univ i)
  · iexact HSI

theorem hfin (d : Dev nD) (s' : Phys nD τ sig (Elt F)) : iprop(FIN m KST KOUT d ∗ SI s') ⊢ (⌜fq m KST KOUT d s'⌝ : sProp 𝕄) := by
  unfold FIN
  iintro ⟨⟨H0, H1, H2, H3, H4, H5, H6, HS, HO⟩, HSI⟩
  ihave H := (agree_keep (F := F) s' _ _) $$ [HSI H0]
  · isplitl [HSI] <;> iassumption
  icases H with ⟨%h0, HSI⟩
  ihave H := (agree_keep (F := F) s' _ _) $$ [HSI H1]
  · isplitl [HSI] <;> iassumption
  icases H with ⟨%h1, HSI⟩
  ihave H := (agree_keep (F := F) s' _ _) $$ [HSI H2]
  · isplitl [HSI] <;> iassumption
  icases H with ⟨%h2, HSI⟩
  ihave H := (agree_keep (F := F) s' _ _) $$ [HSI H3]
  · isplitl [HSI] <;> iassumption
  icases H with ⟨%h3, HSI⟩
  ihave H := (agree_keep (F := F) s' _ _) $$ [HSI H4]
  · isplitl [HSI] <;> iassumption
  icases H with ⟨%h4, HSI⟩
  ihave H := (agree_keep (F := F) s' _ _) $$ [HSI H5]
  · isplitl [HSI] <;> iassumption
  icases H with ⟨%h5, HSI⟩
  ihave H := (agree_keep (F := F) s' _ _) $$ [HSI H6]
  · isplitl [HSI] <;> iassumption
  icases H with ⟨%h6, HSI⟩
  ihave H := (agree_keep (F := F) s' _ _) $$ [HSI HS]
  · isplitl [HSI] <;> iassumption
  icases H with ⟨%hs, HSI⟩
  ihave H := (agree_keep (F := F) s' _ _) $$ [HSI HO]
  · isplitl [HSI] <;> iassumption
  icases H with ⟨%ho, -⟩
  ipureintro
  exact ⟨hs, ho, h0, h1, h2, h3, h4, h5, h6⟩

/-- The claim's post: on every device the two results at KST and KOUT and the seven arguments unchanged. -/
def QC (r : PUnit × MemSt nD τ sig (Elt F)) : Prop :=
  ∀ c : Dev nD,
    r.2.mem ((c.tc : Thread nD τ).loc main_v6_0) = KST c
    ∧ r.2.mem ((c.tc : Thread nD τ).loc main_v6_1) = KOUT c
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)

theorem hQ (s' : Phys nD τ sig (Elt F)) (h : ∀ d, fq m KST KOUT d s') : QC m KST KOUT (⟨⟩, s'.mem) :=
  fun c => h c

end Final

end Cert.Proof.KW

end
-- ==== Proof.ScTileW.lean ====
/-
  One task of the SparseCore kernel, at a symbolic place.

  Task (c, s) of device d fetches the whole batch table and its 3136-entry slice of gnn into its own
  scratch (two copies on two semaphores, each waited before its destination is read), looks the
  slice's words up in the table sixteen at a time (196 trips: load sixteen index words, gather the
  table at them, store the sixteen results), and copies the 3136 results to its slice of the composed
  array. It holds a share of batch and of gnn (read only) and a share of the composed array in write
  mode whose targets are the words batch (gnn n); what it copies out is exactly those words, so the
  copy is admitted, and after the wait its share has its slice marked written.
-/
import proofs.«208690_g19181323943962_cont_8to1_1746_28_alg».proof.Proof.ScResW
import Idealize.ShloMosaic.Lib.Writes

noncomputable section

namespace Cert.Proof.KW

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ (UU (F := F)) ℕ

-- the kernel's memrefs, spelt as the body table passes them
local notation "bW" => (Memref.whole Cert.Kernel.main_arg6_scv : Memref Cert.Kernel.sig Kind.scVector Space.hbm Cert.Kernel.S2048 EltTy.i32)
local notation "gW" => (Memref.whole Cert.Kernel.main_arg5_scv : Memref Cert.Kernel.sig Kind.scVector Space.hbm Cert.Kernel.S100000 EltTy.i32)
local notation "oW" => (Memref.whole Cert.Kernel.main_v0_scv : Memref Cert.Kernel.sig Kind.scVector Space.hbm Cert.Kernel.S100000 EltTy.i32)
local notation "tV" => (Memref.whole Cert.Kernel.cc0_scratch0 : Memref Cert.Kernel.sig Kind.scVector Space.vmem Cert.Kernel.S2048 EltTy.i32)
local notation "iV" => (Memref.whole Cert.Kernel.cc0_scratch1 : Memref Cert.Kernel.sig Kind.scVector Space.vmem Cert.Kernel.S3136 EltTy.i32)
local notation "cV'" => (Memref.whole Cert.Kernel.cc0_scratch2 : Memref Cert.Kernel.sig Kind.scVector Space.vmem Cert.Kernel.S3136 EltTy.i32)

variable (m : (ℓ : Loc nD τ sig) → Buf (Elt F) ℓ) (ρ : Dev nD → PrngReg)

section Tile

variable (d : Dev nD) (L : grid0.Coords)

/-- The task's three cells: the table fetch's, the slice fetch's, the write-out's. -/
abbrev cellT (d : Dev nD) (L : grid0.Coords) : GSem nD τ sig := (VT d L, .dma cc0_scratch3.sem)
abbrev cellI (d : Dev nD) (L : grid0.Coords) : GSem nD τ sig := (VT d L, .dma cc0_scratch4.sem)
abbrev cellO (d : Dev nD) (L : grid0.Coords) : GSem nD τ sig := (VT d L, .dma cc0_scoped0.sem)

theorem ownSems0_V :
    (ownSems0 (VT d L) : sProp 𝕄)
      = iprop(semVal (cellT d L) 0 ∗ semVal (cellI d L) 0 ∗ semVal (cellO d L) 0
          ∗ bigSep ((((ownCells (VT d L)).erase (cellT d L)).erase (cellI d L)).erase (cellO d L)) fun g => semVal g 0) := by
  unfold SparseCore.Cfg.ownSems0
  rw [SparseCore.bigSep_erase' ((mem_ownCells (g := cellT d L)).mpr ⟨rfl, by
      show (SemLoc.dma cc0_scratch3.sem : SemLoc sig).isScoped .scVector = true; decide⟩),
    SparseCore.bigSep_erase' (Finset.mem_erase.mpr ⟨by simp [cellT, cellI]; decide, (mem_ownCells (g := cellI d L)).mpr ⟨rfl, by
      show (SemLoc.dma cc0_scratch4.sem : SemLoc sig).isScoped .scVector = true; decide⟩⟩),
    SparseCore.bigSep_erase' (Finset.mem_erase.mpr ⟨by simp [cellI, cellO]; decide, Finset.mem_erase.mpr ⟨by simp [cellT, cellO]; decide,
      (mem_ownCells (g := cellO d L)).mpr ⟨rfl, by show (SemLoc.dma cc0_scoped0.sem : SemLoc sig).isScoped .scVector = true; decide⟩⟩⟩)]

/-- The three scratch buffers are among the subcore's own: they are them, at some contents, and the rest. -/
theorem ownBufs_V :
    (ownBufs (VT d L) : sProp 𝕄)
      = iprop((∃ f, (VT d L).loc cc0_scratch0 ↦{fullShare} f) ∗ (∃ f, (VT d L).loc cc0_scratch1 ↦{fullShare} f)
          ∗ (∃ f, (VT d L).loc cc0_scratch2 ↦{fullShare} f)
          ∗ bigSep ((((ownRefs (τ := τ) (.scVector (cV L) (jV L))).erase ((Proc.scVector (cV L) (jV L)).devRef cc0_scratch0)).erase
              ((Proc.scVector (cV L) (jV L)).devRef cc0_scratch1)).erase ((Proc.scVector (cV L) (jV L)).devRef cc0_scratch2))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩),
    SparseCore.bigSep_erase' (Finset.mem_erase.mpr ⟨fun e => absurd (Proc.devRef_injective _ e) (show (cc0_scratch2 : Ref sig .scVector) ≠ cc0_scratch1 by decide),
      Finset.mem_erase.mpr ⟨fun e => absurd (Proc.devRef_injective _ e) (show (cc0_scratch2 : Ref sig .scVector) ≠ cc0_scratch0 by decide),
    SparseCore.Cfg.mem_ownRefs_of_owner (p := Proc.scVector (cV L) (jV L)) (b := (Proc.scVector (cV L) (jV L)).devRef cc0_scratch2) rfl⟩⟩)]

theorem pts_b (q : PosShare TreeShare) (f : Buf (Elt F) (bLoc d)) :
    ((bW).view.loc (VT d L) ↦{q} f : sProp 𝕄) = bLoc d ↦{q} f := by
  simp only [Memref.view_whole, View.set_whole]
theorem pts_g (q : PosShare TreeShare) (f : Buf (Elt F) (gLoc d)) :
    ((gW).view.loc (VT d L) ↦{q} f : sProp 𝕄) = gLoc d ↦{q} f := by
  simp only [Memref.view_whole, View.set_whole]
theorem pts_t (f : Buf (Elt F) ((VT d L).loc cc0_scratch0)) :
    ((tV).view.loc (VT d L) ↦{fullShare} f : sProp 𝕄) = (VT d L).loc cc0_scratch0 ↦{fullShare} f := rfl
theorem pts_i (f : Buf (Elt F) ((VT d L).loc cc0_scratch1)) :
    ((iV).view.loc (VT d L) ↦{fullShare} f : sProp 𝕄) = (VT d L).loc cc0_scratch1 ↦{fullShare} f := rfl
theorem pts_c_set (f : Buf (Elt F) ((VT d L).loc cc0_scratch2)) :
    ((cV').view.loc (VT d L) ↦[(cV').view.set]{fullShare} f : sProp 𝕄) = (VT d L).loc cc0_scratch2 ↦{fullShare} f := by
  simp only [Memref.view_whole, View.set_whole]
theorem pts_c (f : Buf (Elt F) ((VT d L).loc cc0_scratch2)) :
    ((cV').view.loc (VT d L) ↦{fullShare} f : sProp 𝕄) = (VT d L).loc cc0_scratch2 ↦{fullShare} f := rfl

/-- The loop's invariant at trip k: the table and the fetched index words in their scratches, and the result
    scratch holding, in its first 16 k words, the table at the index words. -/
def inv (TB : Buf (Elt F) ((VT d L).loc cc0_scratch0)) (IX : Buf (Elt F) ((VT d L).loc cc0_scratch1))
    (hIX : ∀ j : S3136.Idx, ((IX : S3136.Idx → BitVec 32) j).toNat < 2048) (k : Nat) (_ : PUnit) : sProp 𝕄 :=
  iprop(((tV).view.loc (VT d L) ↦{fullShare} TB) ∗ ((iV).view.loc (VT d L) ↦{fullShare} IX)
    ∗ ∃ f : Buf (Elt F) ((VT d L).loc cc0_scratch2),
        ⌜∀ j : S3136.Idx, (j 0).val < 16 * k →
          (f : S3136.Idx → BitVec 32) j = (TB : S2048.Idx → BitVec 32) (ValueIdx.ix1 (⟨((IX : S3136.Idx → BitVec 32) j).toNat, hIX j⟩ : Fin 2048))⌝
        ∗ ((cV').view.loc (VT d L) ↦{fullShare} f))

/-- One trip's arithmetic: storing, at words 16 k .. 16 k + 15 of the result scratch, the table gathered at
    the index words loaded from the same positions extends "the first 16 k words are the table at the index
    words" to the first 16 (k + 1). -/
theorem trip_pure (d : Dev nD) (L : grid0.Coords)
    (TB : Buf (Elt F) ((VT d L).loc cc0_scratch0)) (IX : Buf (Elt F) ((VT d L).loc cc0_scratch1))
    (hIX : ∀ j : S3136.Idx, ((IX : S3136.Idx → BitVec 32) j).toNat < 2048)
    (k : Fin k0_t1_loop.trips) (f : Buf (Elt F) ((VT d L).loc cc0_scratch2))
    (hf : ∀ j : S3136.Idx, (j 0).val < 16 * k.val →
      (f : S3136.Idx → BitVec 32) j = (TB : S2048.Idx → BitVec 32) (ValueIdx.ix1 (⟨((IX : S3136.Idx → BitVec 32) j).toNat, hIX j⟩ : Fin 2048)))
    (h : ∀ a x, ((![(iV).view.readAt (Elt F) (Rect.unit (s := S3136) (k0_off2 k) S16.size (k0_off2_inb k)).toLoadRect IX] : Fin 1 → IVec S16 32) a x).toNat < S2048.size a)
    (j : S3136.Idx) (hj : (j 0).val < 16 * (k.val + 1)) :
    ((cV').view.writes (Elt F) f
      [⟨Rect.unit (s := S3136) (k0_off3 k) S16.size (k0_off3_inb k),
        loadIdx (View.read (Elt F) ((tV).access (Rect.whole cc0_scratch0.ty.shape)) TB)
          ![(iV).view.readAt (Elt F) (Rect.unit (s := S3136) (k0_off2 k) S16.size (k0_off2_inb k)).toLoadRect IX] h⟩] : S3136.Idx → BitVec 32) j
      = (TB : S2048.Idx → BitVec 32) (ValueIdx.ix1 (⟨((IX : S3136.Idx → BitVec 32) j).toNat, hIX j⟩ : Fin 2048)) := by
  by_cases hm : j ∈ (Rect.unit (s := S3136) (k0_off3 k) S16.size (k0_off3_inb k)).set
  · rw [← Rect.map_emb_univ, Finset.mem_map] at hm
    obtain ⟨x, -, rfl⟩ := hm
    have e := View.read_writes_cons_emb (cV').view (Val := Elt F) f (Rect.unit (s := S3136) (k0_off3 k) S16.size (k0_off3_inb k))
      (loadIdx (View.read (Elt F) ((tV).access (Rect.whole cc0_scratch0.ty.shape)) TB)
          ![(iV).view.readAt (Elt F) (Rect.unit (s := S3136) (k0_off2 k) S16.size (k0_off2_inb k)).toLoadRect IX] h) [] x
    have hidx : (Rect.unit (s := S3136) (k0_off2 k) S16.size (k0_off2_inb k)).toLoadRect.idx x
        = (Rect.unit (s := S3136) (k0_off3 k) S16.size (k0_off3_inb k)).emb x :=
      funext fun a => Fin.ext (by simp only [LoadRect.idx_apply, Rect.emb_apply, Rect.off_unit, k0_off2_eq, k0_off3_eq])
    refine e.trans ?_
    show View.read (Elt F) ((tV).access (Rect.whole cc0_scratch0.ty.shape)) TB
      (idxAt ![(iV).view.readAt (Elt F) (Rect.unit (s := S3136) (k0_off2 k) S16.size (k0_off2_inb k)).toLoadRect IX] h x) = _
    refine ((View.read_apply _ _).trans (cast_eq _ _)).trans ?_
    refine congrArg TB (funext fun a => Fin.ext ?_)
    have ha : a.val = 0 := Nat.lt_one_iff.mp a.isLt
    rw [← hidx]
    obtain ⟨av, hav⟩ := a
    subst ha
    show ((Rect.whole cc0_scratch0.ty.shape).emb
      (idxAt ![(iV).view.readAt (Elt F) (Rect.unit (s := S3136) (k0_off2 k) S16.size (k0_off2_inb k)).toLoadRect IX] h x) ⟨0, hav⟩).val = _
    rw [Rect.emb_apply]
    show 0 + 1 * (BitVec.toNat ((IX : S3136.Idx → BitVec 32) ((Rect.unit (s := S3136) (k0_off2 k) S16.size (k0_off2_inb k)).toLoadRect.idx x)))
      = BitVec.toNat ((IX : S3136.Idx → BitVec 32) ((Rect.unit (s := S3136) (k0_off2 k) S16.size (k0_off2_inb k)).toLoadRect.idx x))
    omega
  · have hlt : (j 0).val < 16 * k.val := by
      have hm' := fun hh => hm (Rect.mem_set_unit.mpr hh)
      rw [k0_off3_eq] at hm'
      by_contra hge
      refine hm' fun a => ?_
      obtain rfl : a = 0 := Subsingleton.elim _ _
      constructor
      · show 16 * k.val ≤ (j 0).val; omega
      · show (j 0).val < 16 * k.val + 16; omega
    have e2 := View.read_writes_apply_of_forall_not_mem (cV').view (Val := Elt F) f j
      [⟨Rect.unit (s := S3136) (k0_off3 k) S16.size (k0_off3_inb k),
        loadIdx (View.read (Elt F) ((tV).access (Rect.whole cc0_scratch0.ty.shape)) TB)
          ![(iV).view.readAt (Elt F) (Rect.unit (s := S3136) (k0_off2 k) S16.size (k0_off2_inb k)).toLoadRect IX] h⟩]
      (fun p hp => by rw [List.mem_singleton] at hp; subst hp; exact hm)
    exact e2.trans (hf j hlt)

/-- What the table fetch lands: batch. -/
theorem tfetch_val (ft : Buf (Elt F) ((VT d L).loc cc0_scratch0)) (pay : S2048.Idx → Elt F .i32)
    (hp : pay = ReadAs.same.apply (View.read (Elt F) (bW).view (m (bLoc d)))) (i : S2048.Idx) :
    (View.write (Elt F) (tV).view ft pay Finset.univ : S2048.Idx → BitVec 32) i = (m (bLoc d) : S2048.Idx → BitVec 32) i := by
  have e : View.write (Elt F) (tV).view ft pay Finset.univ = pay := View.write_whole_univ _ _ _
  rw [e, hp]; rfl

/-- What the slice fetch lands: the task's slice of gnn. -/
theorem gfetch_val (fi : Buf (Elt F) ((VT d L).loc cc0_scratch1)) (pay : S3136.Idx → Elt F .i32)
    (hp : pay = ReadAs.same.apply (View.read (Elt F) (gSl L).view (m (gLoc d)))) (j : S3136.Idx) :
    (View.write (Elt F) (iV).view fi pay Finset.univ : S3136.Idx → BitVec 32) j
      = (m (gLoc d) : S100000.Idx → BitVec 32) ((gSl L).view.emb j) := by
  have e : View.write (Elt F) (iV).view fi pay Finset.univ = pay := View.write_whole_univ _ _ _
  rw [e, hp]
  exact (View.read_apply _ _).trans (cast_eq _ _)

/-- A write-mode share of the whole composed array is the share of a set of entries and of the rest. -/
theorem wb_split (q : PosShare TreeShare) (W : Finset (Idx (oLoc d))) (I : Finset (Idx (oLoc d))) :
    (willBeTo (Ix := HIx 1) (Name := ℕ) (Lvl := ℕ) (wmE (F := F)) (oLoc d) Finset.univ q (m (oLoc d)) (cidTgt m d) W : sProp 𝕄)
      ⊣⊢ iprop(willBeTo (wmE (F := F)) (oLoc d) I q (m (oLoc d)) (cidTgt m d) W
          ∗ willBeTo (wmE (F := F)) (oLoc d) (Finset.univ \ I) q (m (oLoc d)) (cidTgt m d) W) :=
  BI.Region.held_split_subset (Finset.subset_univ I)

/-- A holder's marks matter only on the entries it holds. -/
theorem wb_marks (q : PosShare TreeShare) (I W W' : Finset (Idx (oLoc d))) (h : ∀ i ∈ I, i ∈ W ↔ i ∈ W') :
    (willBeTo (Ix := HIx 1) (Name := ℕ) (Lvl := ℕ) (wmE (F := F)) (oLoc d) I q (m (oLoc d)) (cidTgt m d) W : sProp 𝕄)
      = willBeTo (wmE (F := F)) (oLoc d) I q (m (oLoc d)) (cidTgt m d) W' :=
  BI.Region.willBe_congr (fun _ _ => rfl) (fun _ _ => rfl) h

variable [FloatOps F]

set_option maxHeartbeats 4000000 in
theorem tile_body (hF : (K (F := F)).Facts) (hpre : PreOK m) (O : CellTallies nD τ sig (HIx 1)) (W : Waits sig (HIx 1)) (hO : ∀ g, O g none = 0) :
    iprop(levAts (K (F := F)).L (K (F := F)).lev ∗ (∃ ιwm : ℕ, wmInv (Ix := HIx 1) (wmE (F := F)) ιwm) ∗ tileRes m d L ∅
        ∗ scopedBufs (VT d L) ∗ scopedSems0 (VT d L) ∗ owes (VT d L) O W)
      ⊢ wp frame (wpE (defs₀ (F := F)) 𝒱₀ (VT d L) none) Set.univ
          (cc0_compose L bW (Memref.isWhole_whole _) gW (Memref.isWhole_whole _) oW (Memref.isWhole_whole _)
            tV (Memref.isWhole_whole _) iV (Memref.isWhole_whole _) cV' (Memref.isWhole_whole _) cc0_scratch3 cc0_scratch4 cc0_scoped0)
          fun _ => iprop(tileRes m d L (sliceSet d L) ∗ scopedBufs (VT d L) ∗ scopedSems0 (VT d L)
            ∗ ∃ W', ⌜∀ p ∈ W', p ∈ W ∨ p.2 = none⌝ ∗ owes (VT d L) O W') := by
  simp only [cc0_compose_eq_skeleton]; unfold cc0_compose_skel
  rw [(K (F := F)).scopedBufs_V hF d (cV L) (jV L), SparseCore.Cfg.scopedSems0_V (Val := Elt F) d (cV L) (jV L), ownSems0_V, ownBufs_V]
  unfold tileRes
  iintro ⟨#Hlv, ⟨%ιwm, #Hwm⟩, ⟨Hb, Hg, Ho⟩, ⟨⟨%ft, Ht⟩, ⟨%fi, Hi⟩, ⟨%fc, Hc⟩, Hbufs⟩, ⟨HsT, HsI, HsO, Hsems⟩, HO⟩
  ihave Hmw := ((K (F := F)).mayWaits_none (thr := VT d L) hO) $$ Hlv
  ihave Hb' := (Entails.of_eq (pts_b (F := F) d L _ _).symm) $$ Hb
  ihave Hg' := (Entails.of_eq (pts_g (F := F) d L _ _).symm) $$ Hg
  ihave Ht' := (Entails.of_eq (pts_t (F := F) d L _).symm) $$ Ht
  ihave Hi' := (Entails.of_eq (pts_i (F := F) d L _).symm) $$ Hi
  ihave Hc' := (Entails.of_eq (pts_c (F := F) d L _).symm) $$ Hc
  sl_exec
  have hIX : ∀ j : S3136.Idx, ((View.write (Elt F) (iV).view fi (tile_body.sl.dma0_1 m d L) Finset.univ : S3136.Idx → BitVec 32) j).toNat < 2048 := by
    intro j
    rw [gfetch_val m d L fi (tile_body.sl.dma0_1 m d L) rfl j]
    exact hpre d _
  sl_for (inv d L (View.write (Elt F) (tV).view ft (tile_body.sl.dma0 m d) Finset.univ) _ hIX) $$ [Ht' Hi' Hc']
  case region =>
    intro k _
    unfold inv
    iintro ⟨Ht, Hi, %f, %hf, Hc⟩
    sl_exec
    have hchk : k0_chk1 (View.readAt (Elt F) (iV).view (Rect.unit (s := S3136) (k0_off2 k) S16.size (k0_off2_inb k)).toLoadRect
        (View.write (Elt F) (iV).view fi (tile_body.sl.dma0_1 m d L) Finset.univ)) := by
      intro a x
      obtain rfl : a = 0 := Subsingleton.elim _ _
      show (View.readAt (Elt F) (iV).view (Rect.unit (s := S3136) (k0_off2 k) S16.size (k0_off2_inb k)).toLoadRect
        (View.write (Elt F) (iV).view fi (tile_body.sl.dma0_1 m d L) Finset.univ) x).toNat < 2048
      simp only [View.readAt_apply, Memref.view_whole, View.read_whole]
      exact hIX _
    rw [wp_assume_of _ _ _ _ hchk]
    iapply (SparseCore.wp_vectorLoadIdx 𝒱₀ (VT d L) none Set.univ (base := (tV)) (S := Finset.univ) (q := fullShare) (Finset.subset_univ _)) $$ Ht; iintro Ht
    sl_exec
    sl_step
    isplitl [Ht]; · iexact Ht
    isplitl [Hi]; · iexact Hi
    iexists _; isplitr
    swap; · iexact Hc
    ipureintro
    intro j hj
    exact trip_pure (F := F) d L _ _ hIX k f hf _ j hj
  · unfold inv
    isplitl [Ht']; · iexact Ht'
    isplitl [Hi']; · iexact Hi'
    iexists fc; isplitr
    · ipureintro; intro j hj; exact absurd hj (by omega)
    · iexact Hc'
  iintro %_ HI
  unfold inv
  icases HI with ⟨Ht, Hi, %f, %hf, Hc⟩
  have htr : Scf.trips k0_t1_loop.lb k0_t1_loop.ub k0_t1_loop.st = 196 := by decide
  rw [htr] at hf
  unfold tile_body.sl.prog.cont_1
  simp only [Prog.lift, Prog.bind_op, Prog.bind_ret, Prog.pure_eq_ret]
  -- what the result scratch holds is, word for word, the composed array's targets on the task's slice
  have hadm : (oSl L).view.Admitted (Elt F) (cidTgt m d) ((cV').view.read (Elt F) f) Finset.univ := by
    show (oSl L).view.Admitted (Elt F) (fun n => some (cidWord m d n)) _ _
    refine View.admitted_some_iff.mpr fun x _ => ?_
    refine Eq.trans (show (cV').view.read (Elt F) f x = f x from rfl) ?_
    rw [hf x (show (x 0).val < 16 * 196 from (x 0).isLt)]
    refine Eq.trans ?_ ((View.read_apply _ _).trans (cast_eq _ _)).symm
    unfold cidWord
    rw [tfetch_val m d L ft (tile_body.sl.dma0 m d) rfl]
    refine congrArg _ (congrArg ValueIdx.ix1 (Fin.ext ?_))
    show ((View.write (Elt F) (iV).view fi (tile_body.sl.dma0_1 m d L) Finset.univ : S3136.Idx → BitVec 32) x).toNat
      = ((m (gLoc d) : S100000.Idx → BitVec 32) ((oSl L).view.emb x)).toNat % 2048
    rw [gfetch_val m d L fi (tile_body.sl.dma0_1 m d L) rfl x, Nat.mod_eq_of_lt (hpre d _)]
    rfl
  have hN0 : 0 < (oSl L).view.amount (SemLoc.dma cc0_scoped0.sem) := View.amount_pos _ _ (show 0 < S3136.numel by decide)
  -- the task's share of the composed array, split at its slice
  ihave Ho2 := (wb_split (F := F) m d (tq L) ∅ (sliceSet d L)).1 $$ Ho
  icases Ho2 with ⟨HoS, HoR⟩
  iapply (Cert.LibWriteModeFlight.wp_dmaLocal_willBeTo (emb := wmE (F := F)) (ιwm := ιwm) (EC (F := F)) 𝒱₀ (VT d L) none
      (src := cV') (dst := oSl L) (sm := SemLoc.dma cc0_scoped0.sem) (q := fullShare) (fs := f) (qd := tq L) (fd := m (oLoc d))
      (g := cidTgt m d) (W := ∅) none _ rfl hN0 hadm) $$ [Hc HoS HsO]
  · isplitl [Hc]
    · iapply (Entails.of_eq (pts_c_set (F := F) d L f).symm)
      iapply (Entails.of_eq (pts_c (F := F) d L f))
      iexact Hc
    isplitl [HoS]
    · isplitr; · iexact Hwm
      iexact HoS
    iexact HsO
  iintro Hfl
  iapply (Transfers.wp_waitLocalO (EC (F := F)) 𝒱₀ (VT d L) none none rfl) $$ [Hfl HO]
  · isplitl [Hfl]; · iexact Hfl
    isplitl [HO]; · iexact HO
    iapply (Transfers.MayWaits.elim (SemLoc.dma cc0_scoped0.sem)); iexact Hmw
  iintro ⟨⟨HoS, Hc⟩, HsO, HO⟩
  rw [wp_ret]; imodintro
  -- the task's share of the composed array: its slice now marked, the rest as it was; one assertion again
  ihave HoS' := (Entails.of_eq (wb_marks (F := F) m d (tq L) (sliceSet d L) (∅ ∪ sliceSet d L) (sliceSet d L)
      (fun i _ => by rw [Finset.empty_union]))) $$ HoS
  ihave HoR' := (Entails.of_eq (wb_marks (F := F) m d (tq L) (Finset.univ \ sliceSet d L) ∅ (sliceSet d L)
      (fun i hi => ⟨fun h => absurd h (Finset.notMem_empty _), fun h => absurd h (Finset.mem_sdiff.mp hi).2⟩))) $$ HoR
  isplitl [Hb' Hg' HoS' HoR']
  · isplitl [Hb']; · iapply (Entails.of_eq (pts_b (F := F) d L _ _)); iexact Hb'
    isplitl [Hg']; · iapply (Entails.of_eq (pts_g (F := F) d L _ _)); iexact Hg'
    iapply (wb_split (F := F) m d (tq L) (sliceSet d L) (sliceSet d L)).2
    isplitl [HoS'] <;> iassumption
  isplitl [Ht Hi Hc Hbufs]
  · isplitl [Ht]; · iexists _; iapply (Entails.of_eq (pts_t (F := F) d L _)); iexact Ht
    isplitl [Hi]; · iexists _; iapply (Entails.of_eq (pts_i (F := F) d L _)); iexact Hi
    isplitl [Hc]; · iexists _; iapply (Entails.of_eq (pts_c_set (F := F) d L _)); iexact Hc
    iexact Hbufs
  isplitl [HsT HsI HsO Hsems]
  · isplitl [HsT]; · iexact HsT
    isplitl [HsI]; · iexact HsI
    isplitl [HsO]; · iexact HsO
    iexact Hsems
  iexists _; isplitr
  swap; · iexact HO
  ipureintro; intro p hp
  rcases Finset.mem_insert.mp hp with rfl | hp
  · exact .inr rfl
  rcases Finset.mem_insert.mp hp with rfl | hp
  · exact .inr rfl
  rcases Finset.mem_insert.mp hp with rfl | hp
  · exact .inr rfl
  · exact .inl hp

end Tile

end Cert.Proof.KW

end
-- ==== Proof.ScTileOblW.lean ====
/-
  The obligation of a task of the SparseCore call, from the proof of the kernel's body at a grid point.

  The launch dispatches task (c, i) of device d as the kernel's body at the grid point of those coordinates, run
  through the region's table. What the task is handed — the write-mode invariant, its tokens of batch, gnn
  and the composed array — is what the body's proof takes; what the body's proof leaves — the same tokens,
  the task's slice marked written — is what the task hands back.
-/
import proofs.«208690_g19181323943962_cont_8to1_1746_28_alg».proof.Proof.ScTileW
import proofs.«208690_g19181323943962_cont_8to1_1746_28_alg».proof.Proof.ScSplitW

noncomputable section

namespace Cert.Proof.KW

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ (UU (F := F)) ℕ

local notation "bW" => (Memref.whole Cert.Kernel.main_arg6_scv : Memref Cert.Kernel.sig Kind.scVector Space.hbm Cert.Kernel.S2048 EltTy.i32)
local notation "gW" => (Memref.whole Cert.Kernel.main_arg5_scv : Memref Cert.Kernel.sig Kind.scVector Space.hbm Cert.Kernel.S100000 EltTy.i32)
local notation "oW" => (Memref.whole Cert.Kernel.main_v0_scv : Memref Cert.Kernel.sig Kind.scVector Space.hbm Cert.Kernel.S100000 EltTy.i32)
local notation "tV" => (Memref.whole Cert.Kernel.cc0_scratch0 : Memref Cert.Kernel.sig Kind.scVector Space.vmem Cert.Kernel.S2048 EltTy.i32)
local notation "iV" => (Memref.whole Cert.Kernel.cc0_scratch1 : Memref Cert.Kernel.sig Kind.scVector Space.vmem Cert.Kernel.S3136 EltTy.i32)
local notation "cV'" => (Memref.whole Cert.Kernel.cc0_scratch2 : Memref Cert.Kernel.sig Kind.scVector Space.vmem Cert.Kernel.S3136 EltTy.i32)

variable (m : (ℓ : Loc nD τ sig) → Buf (Elt F) ℓ)

/-- A task's post with the waits it may have added read as the launch reads them. -/
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

variable [FloatOps F]

/-- The region's table at a vector subcore and the call's label is the kernel's body at the subcore's grid point. -/
theorem defs₀_vector (c : Fin τ.nSC) (s : Fin τ.nSub) :
    defs₀ (F := F) (.scVector c s) 0 ()
      = SparseCore.onTile hcore0 hsub0 (fun c s => cc0_compose (coordsV c s)
          bW (Memref.isWhole_whole _) gW (Memref.isWhole_whole _) oW (Memref.isWhole_whole _)
          tV (Memref.isWhole_whole _) iV (Memref.isWhole_whole _) cV' (Memref.isWhole_whole _) cc0_scratch3 cc0_scratch4 cc0_scoped0) ⟨⟩ c s := rfl

theorem tileObl (hF : (K (F := F)).Facts) (hpre : PreOK m) : (K (F := F)).TileObl (D (F := F)) 𝒱 (P m) v₀ 0 := by
  intro d c i O W hO _ _
  -- the task takes on no debt of its own: the payload record's extra debt is zero
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body m d (coordsV ⟨_, hc.1⟩ ⟨_, hc.2⟩) hF hpre O W hO).trans (wp_mono frame _ _ fun _ => obl_post)

end Cert.Proof.KW

end
-- ==== Proof.ScRunW.lean ====
/-
  The kernel program's run, from the proofs of its parts.

  On each TensorCore: the SparseCore call leaves the composed array at the words batch (gnn n); the five
  host operations reshape it into blocks, convert the two weight matrices and reshape the two biases,
  touching nothing else; the TensorCore region, entered with its eight window arrays whole at those
  contents, returns the six it only reads as they were and the two results at the contents the region's
  proof gives them. The seven arguments are then as at launch: the region returns the first, and the
  others never left the TensorCore's hands. The region's proof is taken here as hypotheses.

  The launch theorem then gives the run: the task obligation and the split for the one call, the launch
  element, this account of the main program, and the reading of the final resources.
-/
import proofs.«208690_g19181323943962_cont_8to1_1746_28_alg».proof.Proof.ScLaunchW
import proofs.«208690_g19181323943962_cont_8to1_1746_28_alg».proof.Proof.ScTileOblW

noncomputable section

namespace Cert.Proof.KW

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held seq after)

variable {F : FTy → Type}

local notation "𝕄" => MT nD τ sig (HIx 1) (Elt F) ℕ (UU (F := F)) ℕ

variable (m : (ℓ : Loc nD τ sig) → Buf (Elt F) ℓ) (ρ : Dev nD → PrngReg)

variable [FloatOps F]

/-! ## The arrays before and after the host operations -/

/-- The device's arrays after the call: the composed array at its words, every other at its launch contents. -/
def Wcall (d : Dev nD) : Valuation τ sig (Elt F) :=
  Function.update (fun b => m (d, b)) v0' (fun n => cidWord m d n)

theorem Wcall_v0 (d : Dev nD) : Wcall m d v0' = fun n => cidWord m d n := Function.update_self _ _ _
theorem Wcall_ne (d : Dev nD) (b : DevRef τ sig) (h : b ≠ v0') : Wcall m d b = m (d, b) := Function.update_of_ne h _ _

/-- The region's six read-only windows' contents at its entry. -/
abbrev eIds (d : Dev nD) : Buf (Elt F) ((SparseCore.T d : Thread nD τ).loc main_v1) :=
  shapeCast S5x1x20000 (fun n => cidWord m d n) shapeCasts_S100000_S5x1x20000
abbrev eW1 (d : Dev nD) : Buf (Elt F) ((SparseCore.T d : Thread nD τ).loc main_v2) :=
  (truncf .bf16 (m ((SparseCore.T d : Thread nD τ).loc main_arg1) : FVec F S128x64 .f32) bitsLt_bf16_f32 : FVec F S128x64 .bf16)
abbrev eB1 (d : Dev nD) : Buf (Elt F) ((SparseCore.T d : Thread nD τ).loc main_v3) :=
  shapeCast S1x64 (m ((SparseCore.T d : Thread nD τ).loc main_arg2)) shapeCasts_S64_S1x64
abbrev eW2 (d : Dev nD) : Buf (Elt F) ((SparseCore.T d : Thread nD τ).loc main_v4) :=
  (truncf .bf16 (m ((SparseCore.T d : Thread nD τ).loc main_arg3) : FVec F S64x128 .f32) bitsLt_bf16_f32 : FVec F S64x128 .bf16)
abbrev eB2 (d : Dev nD) : Buf (Elt F) ((SparseCore.T d : Thread nD τ).loc main_v5) :=
  shapeCast S1x128 (m ((SparseCore.T d : Thread nD τ).loc main_arg4)) shapeCasts_S128_S1x128

/-- The six arrays the region only reads, whole at their entry contents: the blocks of ids, x, the two converted
    weight matrices and the two bias rows, in the order of the region's windows. -/
def regionIn (d : Dev nD) : sProp 𝕄 :=
  iprop(((SparseCore.T d).loc main_v1 ↦{fullShare} eIds m d)
    ∗ ((SparseCore.T d).loc main_arg0 ↦{fullShare} m ((SparseCore.T d).loc main_arg0))
    ∗ ((SparseCore.T d).loc main_v2 ↦{fullShare} eW1 m d)
    ∗ ((SparseCore.T d).loc main_v3 ↦{fullShare} eB1 m d)
    ∗ ((SparseCore.T d).loc main_v4 ↦{fullShare} eW2 m d)
    ∗ ((SparseCore.T d).loc main_v5 ↦{fullShare} eB2 m d))

/-- The fifteen arrays held after the call, one by one. -/
theorem held_call (d : Dev nD) :
    (held (SparseCore.T d) tcBufs (Wcall m d) : sProp 𝕄)
      = iprop(((SparseCore.T d).loc main_arg0 ↦{fullShare} m ((SparseCore.T d).loc main_arg0))
          ∗ ((SparseCore.T d).loc main_arg1 ↦{fullShare} m ((SparseCore.T d).loc main_arg1))
          ∗ ((SparseCore.T d).loc main_arg2 ↦{fullShare} m ((SparseCore.T d).loc main_arg2))
          ∗ ((SparseCore.T d).loc main_arg3 ↦{fullShare} m ((SparseCore.T d).loc main_arg3))
          ∗ ((SparseCore.T d).loc main_arg4 ↦{fullShare} m ((SparseCore.T d).loc main_arg4))
          ∗ ((SparseCore.T d).loc main_arg5 ↦{fullShare} m ((SparseCore.T d).loc main_arg5))
          ∗ ((SparseCore.T d).loc main_arg6 ↦{fullShare} m ((SparseCore.T d).loc main_arg6))
          ∗ ((SparseCore.T d).loc main_v0 ↦{fullShare} (fun n => cidWord m d n))
          ∗ ((SparseCore.T d).loc main_v1 ↦{fullShare} m ((SparseCore.T d).loc main_v1))
          ∗ ((SparseCore.T d).loc main_v2 ↦{fullShare} m ((SparseCore.T d).loc main_v2))
          ∗ ((SparseCore.T d).loc main_v3 ↦{fullShare} m ((SparseCore.T d).loc main_v3))
          ∗ ((SparseCore.T d).loc main_v4 ↦{fullShare} m ((SparseCore.T d).loc main_v4))
          ∗ ((SparseCore.T d).loc main_v5 ↦{fullShare} m ((SparseCore.T d).loc main_v5))
          ∗ ((SparseCore.T d).loc main_v6_0 ↦{fullShare} m ((SparseCore.T d).loc main_v6_0))
          ∗ ((SparseCore.T d).loc main_v6_1 ↦{fullShare} m ((SparseCore.T d).loc main_v6_1))) := by
  rw [held_tcBufs, Wcall_v0, Wcall_ne m d a0' (by decide), Wcall_ne m d a1' (by decide), Wcall_ne m d a2' (by decide),
    Wcall_ne m d a3' (by decide), Wcall_ne m d a4' (by decide), Wcall_ne m d a5' (by decide), Wcall_ne m d a6' (by decide),
    Wcall_ne m d v1' (by decide), Wcall_ne m d v2' (by decide), Wcall_ne m d v3' (by decide), Wcall_ne m d v4' (by decide),
    Wcall_ne m d v5' (by decide), Wcall_ne m d r0' (by decide), Wcall_ne m d r1' (by decide)]

/-- The fifteen after the host operations: the five written at the region's entry contents, the rest as they were. -/
theorem held_host (d : Dev nD) :
    (held (SparseCore.T d) tcBufs (after (hostOps (F := F)) (Wcall m d)) : sProp 𝕄)
      = iprop(((SparseCore.T d).loc main_arg0 ↦{fullShare} m ((SparseCore.T d).loc main_arg0))
          ∗ ((SparseCore.T d).loc main_arg1 ↦{fullShare} m ((SparseCore.T d).loc main_arg1))
          ∗ ((SparseCore.T d).loc main_arg2 ↦{fullShare} m ((SparseCore.T d).loc main_arg2))
          ∗ ((SparseCore.T d).loc main_arg3 ↦{fullShare} m ((SparseCore.T d).loc main_arg3))
          ∗ ((SparseCore.T d).loc main_arg4 ↦{fullShare} m ((SparseCore.T d).loc main_arg4))
          ∗ ((SparseCore.T d).loc main_arg5 ↦{fullShare} m ((SparseCore.T d).loc main_arg5))
          ∗ ((SparseCore.T d).loc main_arg6 ↦{fullShare} m ((SparseCore.T d).loc main_arg6))
          ∗ ((SparseCore.T d).loc main_v0 ↦{fullShare} (fun n => cidWord m d n))
          ∗ ((SparseCore.T d).loc main_v1 ↦{fullShare} eIds m d)
          ∗ ((SparseCore.T d).loc main_v2 ↦{fullShare} eW1 m d)
          ∗ ((SparseCore.T d).loc main_v3 ↦{fullShare} eB1 m d)
          ∗ ((SparseCore.T d).loc main_v4 ↦{fullShare} eW2 m d)
          ∗ ((SparseCore.T d).loc main_v5 ↦{fullShare} eB2 m d)
          ∗ ((SparseCore.T d).loc main_v6_0 ↦{fullShare} m ((SparseCore.T d).loc main_v6_0))
          ∗ ((SparseCore.T d).loc main_v6_1 ↦{fullShare} m ((SparseCore.T d).loc main_v6_1))) := by
  rw [held_tcBufs, host_v1, host_v2, host_v3, host_v4, host_v5,
    host_other _ a0' (by decide), host_other _ a1' (by decide), host_other _ a2' (by decide), host_other _ a3' (by decide),
    host_other _ a4' (by decide), host_other _ a5' (by decide), host_other _ a6' (by decide), host_other _ v0' (by decide),
    host_other _ r0' (by decide), host_other _ r1' (by decide),
    Wcall_v0, Wcall_ne m d a0' (by decide), Wcall_ne m d a1' (by decide), Wcall_ne m d a2' (by decide),
    Wcall_ne m d a3' (by decide), Wcall_ne m d a4' (by decide), Wcall_ne m d a5' (by decide), Wcall_ne m d a6' (by decide),
    Wcall_ne m d r0' (by decide), Wcall_ne m d r1' (by decide)]

/-- The program with the region's call spelt as the one operation it is. -/
theorem main_eq' (d : Dev nD) :
    (main (F := F) d : Prog (TpuEff nD τ sig (Elt F) (SparseCore.Sig (ΛP (F := F)) 1) .tc) PUnit)
      = (K (F := F)).run d 0 >>= fun _ => seq (hostOps (F := F)) >>= fun _ =>
          .op (.customCall (SparseCore.inner (Pipeline.entry 0)) ()) fun _ => pure ⟨⟩ := rfl

/-! ## The main program on the TensorCore -/

section Main

variable (KST : (d : Dev nD) → Buf (Elt F) ((SparseCore.T d : Thread nD τ).loc main_v6_0))
  (KOUT : (d : Dev nD) → Buf (Elt F) ((SparseCore.T d : Thread nD τ).loc main_v6_1))

/-- The main program on device d's TensorCore, the region's proof taken as hypotheses: the region runs from the
    boundary, Rpre, the levels and its ghost state GP to the boundary and Rpost; Rpre is had from the eight window
    arrays whole at their entry contents and an empty debt; Rpost gives back the six read-only windows as they were,
    the two results at KST and KOUT, and an empty debt; after the call the TensorCore owes nothing, and whatever it
    waited on sits below the level its final state asks. -/
theorem hmain (GP : Dev nD → sProp 𝕄) (Rpre : Dev nD → sProp 𝕄) (Rpost : Dev nD → sProp 𝕄)
    (hregion : ∀ (d : Dev nD) {α : Type} (k : PUnit → Prog (TpuEff nD τ sig (Elt F) (SparseCore.Sig (ΛP (F := F)) 1) .tc) α) (Q : α → sProp 𝕄),
      iprop((iprop(boundary (SparseCore.T d) ∗ Rpost d) -∗ wp frame (wpE ((K (F := F)).defs (D (F := F))) 𝒱 (SparseCore.T d) none) Set.univ (k ⟨⟩) Q)
          ∗ boundary (SparseCore.T d) ∗ Rpre d ∗ levAts (K (F := F)).L (K (F := F)).lev ∗ GP d)
        ⊢ wp frame (wpE ((K (F := F)).defs (D (F := F))) 𝒱 (SparseCore.T d) none) Set.univ
            (.op (.customCall (SparseCore.inner (Pipeline.entry 0)) ()) k) Q)
    (hRpre : ∀ (d : Dev nD) (W : Waits sig (HIx 1)),
      iprop(regionIn m d ∗ ((SparseCore.T d).loc main_v6_0 ↦{fullShare} m ((SparseCore.T d).loc main_v6_0))
          ∗ ((SparseCore.T d).loc main_v6_1 ↦{fullShare} m ((SparseCore.T d).loc main_v6_1)) ∗ owes (SparseCore.T d) 0 W) ⊢ Rpre d)
    (hRpost : ∀ d : Dev nD, Rpost d ⊢ iprop(regionIn m d ∗ ((SparseCore.T d).loc main_v6_0 ↦{fullShare} KST d)
          ∗ ((SparseCore.T d).loc main_v6_1 ↦{fullShare} KOUT d) ∗ ∃ W : Waits sig (HIx 1), owes (SparseCore.T d) 0 W))
    (hOtc : ∀ d : Dev nD, (K (F := F)).Otc (nD := nD) d 1 = 0)
    (hWB : ∀ (d : Dev nD) (W : Waits sig (HIx 1)), (K (F := F)).WBelow (SparseCore.T d) W (8 * 1))
    (κ : GSem nD τ sig → ℕ) (d : Dev nD) :
    iprop((K (F := F)).ctx EH (P m) κ ∗ (K (F := F)).tcSt EH d 0 ∗ (K (F := F)).tcRes m ρ d ∗ G (F := F) GP d)
      ⊢ wp frame (wpE ((K (F := F)).defs (D (F := F))) 𝒱 (SparseCore.T d) none) Set.univ (main d)
          fun _ => iprop((K (F := F)).tcSt EH d 1 ∗ FIN m KST KOUT d) := by
  rw [main_eq']
  unfold SparseCore.Cfg.tcRes G
  rw [unscopedBufs_eq]
  iintro ⟨#Hctx, Hst, ⟨Hbd, ⟨Ha0, Ha1, Ha2, Ha3, Ha4, Ha5, Ha6, Hv0, Hv1, Hv2, Hv3, Hv4, Hv5, Hr0, Hr1⟩, -, -⟩, ⟨%ιwm, #Hwm⟩, HGP⟩
  -- the call: batch, gnn and the composed array go in whole and come back whole, the composed array at its words
  iapply (call_stretch m κ d _ _ ιwm) $$ [Hst Hbd Ha0 Ha1 Ha2 Ha3 Ha4 Ha5 Ha6 Hv0 Hv1 Hv2 Hv3 Hv4 Hv5 Hr0 Hr1 HGP]
  isplitr; · iexact Hctx
  isplitl [Hst]; · iexact Hst
  isplitr; · iexact Hwm
  isplitl [Ha6]; · iexact Ha6
  isplitl [Ha5]; · iexact Ha5
  isplitl [Hv0]; · iexact Hv0
  iintro ⟨Hst, Ha6, Ha5, Hv0⟩
  -- the five host operations, over the fifteen arrays
  iapply (host_stretch d tcBufs hostBufs_sub (Wcall m d) _ _) $$ [Hst Hbd Ha0 Ha1 Ha2 Ha3 Ha4 Ha5 Ha6 Hv0 Hv1 Hv2 Hv3 Hv4 Hv5 Hr0 Hr1 HGP]
  isplitl [Hbd]; · iexact Hbd
  isplitl [Ha0 Ha1 Ha2 Ha3 Ha4 Ha5 Ha6 Hv0 Hv1 Hv2 Hv3 Hv4 Hv5 Hr0 Hr1]
  · rw [held_call]
    isplitl [Ha0]; · iexact Ha0
    isplitl [Ha1]; · iexact Ha1
    isplitl [Ha2]; · iexact Ha2
    isplitl [Ha3]; · iexact Ha3
    isplitl [Ha4]; · iexact Ha4
    isplitl [Ha5]; · iexact Ha5
    isplitl [Ha6]; · iexact Ha6
    isplitl [Hv0]; · iexact Hv0
    isplitl [Hv1]; · iexact Hv1
    isplitl [Hv2]; · iexact Hv2
    isplitl [Hv3]; · iexact Hv3
    isplitl [Hv4]; · iexact Hv4
    isplitl [Hv5]; · iexact Hv5
    isplitl [Hr0]; · iexact Hr0
    iexact Hr1
  iintro ⟨Hbd, Hheld⟩
  ihave Hh := (Entails.of_eq (held_host m d)) $$ Hheld
  icases Hh with ⟨Ha0, Ha1, Ha2, Ha3, Ha4, Ha5, Ha6, -, Hv1, Hv2, Hv3, Hv4, Hv5, Hr0, Hr1⟩
  -- the TensorCore's state after the call: it owes nothing
  unfold SparseCore.Cfg.tcSt
  rw [hOtc d]
  icases Hst with ⟨⟨%W, -, HO⟩, Hrest⟩
  ihave Hlev := (SparseCore.Cfg.ctx_levAts κ) $$ Hctx
  -- the region
  iapply (hregion d (fun _ => pure ⟨⟩) _) $$ [Hbd Ha0 Ha1 Ha2 Ha3 Ha4 Ha5 Ha6 Hv1 Hv2 Hv3 Hv4 Hv5 Hr0 Hr1 HO Hrest HGP Hlev]
  isplitl [Ha1 Ha2 Ha3 Ha4 Ha5 Ha6 Hrest]
  · iintro ⟨Hbd, Hpost⟩
    ihave Hp := (hRpost d) $$ Hpost
    unfold regionIn
    icases Hp with ⟨⟨-, Ha0, -, -, -, -⟩, Hs, Ho, %W', HO⟩
    rw [wp_pure]
    imodintro
    isplitl [HO Hrest]
    · isplitl [HO]
      · iexists W'
        isplitr
        · ipureintro; exact hWB d W'
        · iexact HO
      · iexact Hrest
    · unfold FIN
      isplitl [Ha0]; · iexact Ha0
      isplitl [Ha1]; · iexact Ha1
      isplitl [Ha2]; · iexact Ha2
      isplitl [Ha3]; · iexact Ha3
      isplitl [Ha4]; · iexact Ha4
      isplitl [Ha5]; · iexact Ha5
      isplitl [Ha6]; · iexact Ha6
      isplitl [Hs]; · iexact Hs
      iexact Ho
  isplitl [Hbd]; · iexact Hbd
  isplitl [Ha0 Hv1 Hv2 Hv3 Hv4 Hv5 Hr0 Hr1 HO]
  · iapply (hRpre d W)
    isplitl [Ha0 Hv1 Hv2 Hv3 Hv4 Hv5]
    · unfold regionIn
      isplitl [Hv1]; · iexact Hv1
      isplitl [Ha0]; · iexact Ha0
      isplitl [Hv2]; · iexact Hv2
      isplitl [Hv3]; · iexact Hv3
      isplitl [Hv4]; · iexact Hv4
      iexact Hv5
    isplitl [Hr0]; · iexact Hr0
    isplitl [Hr1]; · iexact Hr1
    iexact HO
  isplitl [Hlev]; · iexact Hlev
  iexact HGP

/-- The kernel program's run, from the region's proof: from any memory whose gnn words name graphs it runs to an end
    where, on every device, the two results are at KST and KOUT and the seven arguments are as they were. -/
theorem run_main [∀ e, Nonempty (Elt F e)] (GP : Dev nD → sProp 𝕄) (Rpre : Dev nD → sProp 𝕄) (Rpost : Dev nD → sProp 𝕄)
    (hpre : PreOK m) (eP : UP)
    (hfund : (BI.own (EP (F := F) eP) : sProp 𝕄) ⊢ |={Set.univ}=> bigSep Finset.univ GP)
    (hregion : ∀ (d : Dev nD) {α : Type} (k : PUnit → Prog (TpuEff nD τ sig (Elt F) (SparseCore.Sig (ΛP (F := F)) 1) .tc) α) (Q : α → sProp 𝕄),
      iprop((iprop(boundary (SparseCore.T d) ∗ Rpost d) -∗ wp frame (wpE ((K (F := F)).defs (D (F := F))) 𝒱 (SparseCore.T d) none) Set.univ (k ⟨⟩) Q)
          ∗ boundary (SparseCore.T d) ∗ Rpre d ∗ levAts (K (F := F)).L (K (F := F)).lev ∗ GP d)
        ⊢ wp frame (wpE ((K (F := F)).defs (D (F := F))) 𝒱 (SparseCore.T d) none) Set.univ
            (.op (.customCall (SparseCore.inner (Pipeline.entry 0)) ()) k) Q)
    (hRpre : ∀ (d : Dev nD) (W : Waits sig (HIx 1)),
      iprop(regionIn m d ∗ ((SparseCore.T d).loc main_v6_0 ↦{fullShare} m ((SparseCore.T d).loc main_v6_0))
          ∗ ((SparseCore.T d).loc main_v6_1 ↦{fullShare} m ((SparseCore.T d).loc main_v6_1)) ∗ owes (SparseCore.T d) 0 W) ⊢ Rpre d)
    (hRpost : ∀ d : Dev nD, Rpost d ⊢ iprop(regionIn m d ∗ ((SparseCore.T d).loc main_v6_0 ↦{fullShare} KST d)
          ∗ ((SparseCore.T d).loc main_v6_1 ↦{fullShare} KOUT d) ∗ ∃ W : Waits sig (HIx 1), owes (SparseCore.T d) 0 W))
    (hOtc : ∀ d : Dev nD, (K (F := F)).Otc (nD := nD) d 1 = 0)
    (hWB : ∀ (d : Dev nD) (W : Waits sig (HIx 1)), (K (F := F)).WBelow (SparseCore.T d) W (8 * 1)) :
    θ_run (Cert.Kernel.defs (F := F)) (Cert.Kernel.threads (F := F)) ⟨m, fun _ => 0, ρ⟩ (QC m KST KOUT) :=
  SparseCore.Cfg.θ_run_sc (K := K (F := F)) (D := D (F := F)) (𝒱 := 𝒱) (EH := EH) (P := P m) facts v₀
    (fun q hq => match q with | 0 => nomatch hq)
    (fun q _ => match q with | 0 => tileObl m facts hpre)
    (fun q _ => match q with | 0 => SparseCore.Cfg.VecSplit.of_plain (vecSplit m))
    m ρ main (G (F := F) GP) (FIN m KST KOUT) (u₀ (F := F) eP) (hu₀ m ρ eP GP hfund)
    (hmain m ρ KST KOUT GP Rpre Rpost hregion hRpre hRpost hOtc hWB) (fq m KST KOUT) (hfin m KST KOUT) (QC m KST KOUT)
    (fun s' h => hQ m KST KOUT s' h)

end Main

end Cert.Proof.KW

end
-- ==== Proof.TcGlueW.lean ====
/-
  The TensorCore region at the kernel program's own entry contents: the ids' blocks are the composed
  id array reshaped, the data as launched, the weights converted to bf16 and the biases reshaped, the
  two results as launched. What the main thread's proof asks of the region, in its shapes.
-/
import proofs.«208690_g19181323943962_cont_8to1_1746_28_alg».proof.Proof.TcRegionW
import proofs.«208690_g19181323943962_cont_8to1_1746_28_alg».proof.Proof.ScRunW

set_option maxRecDepth 16384

noncomputable section

namespace Cert.Proof.TcGlueW

open Cert.Kernel Cert.Kernel.Gen Cert.Proof.KW Cert.Proof.TcBodyW Cert.Proof.TcRegionW
open Idealize.ShloMosaic Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

variable {F : FTy → Type} [FloatOps F]

local notation "𝕄" => MT nD τ sig (HIx 1) (Elt F) ℕ (UU (F := F)) ℕ

variable (m : (ℓ : Loc nD τ sig) → Buf (Elt F) ℓ) (ρ : Dev nD → PrngReg)

/-- The eight windowed arrays' contents when the region is entered. -/
def Ain (d : Dev nD) : ATy (F := F) d :=
  mkA d (eIds m d) (m ((SparseCore.T d : Thread nD τ).loc main_arg0)) (eW1 m d) (eB1 m d) (eW2 m d) (eB2 m d)
    (m ((SparseCore.T d : Thread nD τ).loc main_v6_0)) (m ((SparseCore.T d : Thread nD τ).loc main_v6_1))

theorem Ain_0 (d : Dev nD) : Ain m d 0 = eIds m d := rfl
theorem Ain_1 (d : Dev nD) : Ain m d 1 = m ((SparseCore.T d : Thread nD τ).loc main_arg0) := rfl
theorem Ain_2 (d : Dev nD) : Ain m d 2 = eW1 m d := rfl
theorem Ain_3 (d : Dev nD) : Ain m d 3 = eB1 m d := rfl
theorem Ain_4 (d : Dev nD) : Ain m d 4 = eW2 m d := rfl
theorem Ain_5 (d : Dev nD) : Ain m d 5 = eB2 m d := rfl
theorem Ain_6 (d : Dev nD) : Ain m d 6 = m ((SparseCore.T d : Thread nD τ).loc main_v6_0) := rfl
theorem Ain_7 (d : Dev nD) : Ain m d 7 = m ((SparseCore.T d : Thread nD τ).loc main_v6_1) := rfl

/-- The region's entry and exit states, its ghost state, and what its two results hold at the end. -/
abbrev Rpre (d : Dev nD) : sProp (MT nD τ sig (HIx 1) (Elt F) ℕ (UU (F := F)) ℕ) := (R (Ain m)).pre d
abbrev Rpost (d : Dev nD) : sProp (MT nD τ sig (HIx 1) (Elt F) ℕ (UU (F := F)) ℕ) := (R (Ain m)).post d
abbrev KSTm (d : Dev nD) : Buf (Elt F) ((SparseCore.T d : Thread nD τ).loc main_v6_0) := KST (Ain m) d
abbrev KOUTm (d : Dev nD) : Buf (Elt F) ((SparseCore.T d : Thread nD τ).loc main_v6_1) := KOUT (Ain m) d

theorem hregion (d : Dev nD) {α : Type} (k : PUnit → Prog (TpuEff nD τ sig (Elt F) (SparseCore.Sig (ΛP (F := F)) 1) .tc) α) (Q : α → sProp 𝕄) :
    iprop((iprop(boundary (SparseCore.T d) ∗ Rpost m d) -∗ wp frame (wpE ((K (F := F)).defs (D (F := F))) 𝒱 (SparseCore.T d) none) Set.univ (k ⟨⟩) Q)
        ∗ boundary (SparseCore.T d) ∗ Rpre m d ∗ levAts (K (F := F)).L (K (F := F)).lev ∗ GP (F := F) d)
      ⊢ wp frame (wpE ((K (F := F)).defs (D (F := F))) 𝒱 (SparseCore.T d) none) Set.univ
          (.op (.customCall (SparseCore.inner (Pipeline.entry 0)) ()) k) Q :=
  region_step_of (rd (Ain m)) none (R (Ain m)) d k Q

theorem hRpre (d : Dev nD) (W : Waits sig (HIx 1)) :
    iprop(regionIn m d ∗ ((SparseCore.T d).loc main_v6_0 ↦{fullShare} m ((SparseCore.T d).loc main_v6_0))
        ∗ ((SparseCore.T d).loc main_v6_1 ↦{fullShare} m ((SparseCore.T d).loc main_v6_1)) ∗ owes (SparseCore.T d) 0 W) ⊢ Rpre m d := by
  refine BI.Entails.trans ?_ (pre_of (Ain m) d)
  unfold Ain; rw [arrs8_mk]
  unfold regionIn
  show (_ : sProp 𝕄) ⊢ _
  iintro ⟨⟨H0, H1, H2, H3, H4, H5⟩, H6, H7, Ho⟩
  isplitr [Ho]
  · isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  iexists W; iexact Ho

theorem hRpost (d : Dev nD) :
    Rpost m d ⊢ iprop(regionIn m d ∗ ((SparseCore.T d).loc main_v6_0 ↦{fullShare} KSTm m d)
        ∗ ((SparseCore.T d).loc main_v6_1 ↦{fullShare} KOUTm m d) ∗ ∃ W : Waits sig (HIx 1), owes (SparseCore.T d) 0 W) := by
  refine BI.Entails.trans (post_final (Ain m) d) ?_
  rw [arrs8_mk, Ain_0, Ain_1, Ain_2, Ain_3, Ain_4, Ain_5]
  unfold regionIn
  show (_ : sProp 𝕄) ⊢ _
  iintro ⟨⟨H0, H1, H2, H3, H4, H5, H6, H7⟩, Ho⟩
  isplitl [H0 H1 H2 H3 H4 H5]
  · isplitl [H0]; · iexact H0
    isplitl [H1]; · iexact H1
    isplitl [H2]; · iexact H2
    isplitl [H3]; · iexact H3
    isplitl [H4]; · iexact H4
    iexact H5
  isplitl [H6]; · iexact H6
  isplitl [H7]; · iexact H7
  iexact Ho

theorem hOtc (d : Dev nD) : (K (F := F)).Otc (nD := nD) d 1 = 0 := Otc_one d
theorem hWB (d : Dev nD) (W : Waits sig (HIx 1)) : (K (F := F)).WBelow (SparseCore.T d) W (8 * 1) := wbelow_all d W

theorem hfund' : (BI.own (EP (F := F) (eP (F := F))) : sProp 𝕄) ⊢ |={Set.univ}=> bigSep Finset.univ (GP (F := F)) := hfund

/-- The kernel program's run, the region's proof supplied. -/
theorem run [∀ e, Nonempty (Elt F e)] (hpre : PreOK m) :
    θ_run (Cert.Kernel.defs (F := F)) (Cert.Kernel.threads (F := F)) ⟨m, fun _ => 0, ρ⟩ (QC m (KSTm m) (KOUTm m)) :=
  run_main m ρ (KSTm m) (KOUTm m) (GP (F := F)) (Rpre m) (Rpost m) hpre (eP (F := F)) hfund' (hregion m) (hRpre m) (hRpost m) hOtc hWB

end Cert.Proof.TcGlueW

end
-- ==== Proof.ScPreW.lean ====
/-
  What the kernel's proof asks of the launch memory, from the certificate's precondition: the
  precondition's conjunct on gnn (0 ≤ gnn ≤ 2047, read signed) says every word of gnn is below 2048.
-/
import proofs.«208690_g19181323943962_cont_8to1_1746_28_alg».proof.Proof.ScResW
import proofs.«208690_g19181323943962_cont_8to1_1746_28_alg».proof.Proof.Bridge

noncomputable section

namespace Cert.Proof.KW

open Cert.Kernel Cert.Kernel.Gen
open Idealize.ShloMosaic Idealize.ShloMosaic.ValueIdx

variable {F : FTy → Type} [FloatOps F]

theorem preOK_of_fn (m : (ℓ : Loc nD τ sig) → Buf (Elt F) ℓ)
    (h : ∀ c : Dev nD,
      Cert.Pre_input_domain.fn (F := F)
        (m ((c.tc : Thread nD τ).loc main_arg0)) (m ((c.tc : Thread nD τ).loc main_arg1))
        (m ((c.tc : Thread nD τ).loc main_arg2)) (m ((c.tc : Thread nD τ).loc main_arg3))
        (m ((c.tc : Thread nD τ).loc main_arg4)) (m ((c.tc : Thread nD τ).loc main_arg5))
        (m ((c.tc : Thread nD τ).loc main_arg6)) = (fun _ => 1#1)) :
    PreOK m := by
  intro d n
  have hn := Cert.Proof.Bridge.inRange_of_pre (F := F) _ _ _ _ _ _ _ (h d) ⟨(n 0).val, (n 0).isLt⟩
  have e : ix1 (⟨(n 0).val, (n 0).isLt⟩ : Fin 100000) = n :=
    funext fun a => Fin.ext (by match a with | ⟨0, _⟩ => rfl)
  rw [e] at hn
  exact hn

end Cert.Proof.KW

end
-- ==== Proof.FrameKernel.lean ====
/-
  The word-level program's frame.

  The word-level program, from any memory of which the precondition holds, runs to an end where its two result
  arrays hold the contents its run gives them and its seven argument arrays are as they were: the proof is the
  idealized program's, at the word-level instance. The frame is that run with the two result equations dropped.
-/
import proofs.«208690_g19181323943962_cont_8to1_1746_28_alg».proof.Defs
import proofs.«208690_g19181323943962_cont_8to1_1746_28_alg».proof.Proof.TcGlueW
import proofs.«208690_g19181323943962_cont_8to1_1746_28_alg».proof.Proof.ScPreW

noncomputable section

open Idealize.ShloMosaic Idealize.SL.Sem

namespace Cert.Proof.FrameKernel

/-- The precondition gives what the run asks of the memory; the run's post keeps the seven argument equations. -/
theorem frameK : Cert.frame_Kernel (hKernel := Cert.Kernel.Gen.facts) (hPre_input_domain := Cert.Pre_input_domain.Gen.facts) :=
  fun m ρ hpre => (θ_run (Cert.Kernel.defs (F := Bits)) _ _).mono (fun r hr c => (hr c).2.2)
    (Cert.Proof.TcGlueW.run (F := Bits) m ρ (Cert.Proof.KW.preOK_of_fn m hpre))

end Cert.Proof.FrameKernel

end
-- ==== Proof.lean ====
/-
  The proof of Cert.Claim: the three frames, the (empty) idealization ledger, and the equality of the
  idealized kernel's and the idealized reference's results on the extended reals.

  The kernel program composes the two index arrays on the SparseCore, cid n = batch (gnn n), 32 tasks
  each looking up a 3136-entry slice (the last two slices overlap, and both tasks write the same words
  there, so the composed array is held in write mode while they run), and then, on the TensorCore,
  computes st = max(x·W1 + b1, 0)·W2 + b2 block by block and adds up, block by block, the one-hot matrix
  of the ids times st: entry (b, c) of the result is the sum of st(n, c) over the nodes n with cid n = b.
  The reference computes the same st and sums it by segments twice, first by gnn into graphs, then by
  batch into slots; summing by segments twice is summing once under the composed key, in any
  commutative monoid, so the two results agree on the extended reals with no finiteness used. The
  precondition enters only through its range for gnn, which makes every looked-up index name an entry of
  the table.

  The kernel program's run is proved once, for any float instance, with both results named; the
  word-level frame is that run with the results dropped, the idealized frame likewise, and the value
  claim reads the named results, at the exact instance, as the reference's terms.
-/
import proofs.«208690_g19181323943962_cont_8to1_1746_28_alg».proof.Defs
import proofs.«208690_g19181323943962_cont_8to1_1746_28_alg».proof.Proof.Claims
import proofs.«208690_g19181323943962_cont_8to1_1746_28_alg».proof.Proof.KernelRunIdeal
import proofs.«208690_g19181323943962_cont_8to1_1746_28_alg».proof.Proof.FrameKernel

noncomputable section

namespace Cert.Proof

theorem claim : Cert.Claim :=
  Cert.Proof.Claims.claim_of Cert.Proof.FrameKernel.frameK Cert.Proof.KernelRunIdeal.run

end Cert.Proof

end
